-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v15)) (v1 : (c : Dev Cert.KernelIdeal.nD) → Buf (Elt Ideal) ((c.tc : Thread Cert.KernelIdeal.nD Cert.KernelIdeal.τ).loc Cert.KernelIdeal.main_v0_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_v0_0) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v54) = v0 c
          ∧ r.2.mem ((c.tc : Thread Cert.ReferenceIdeal.nD Cert.ReferenceIdeal.τ).loc Cert.ReferenceIdeal.main_v17) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x64x100000 : Shape := ⟨3, ![8, 64, 100000]⟩
abbrev S8x3x100000 : Shape := ⟨3, ![8, 3, 100000]⟩
abbrev S_ : Shape := ⟨0, ![]⟩

class Facts : Prop where
  bcast_S_S8x64x100000 : S_.BroadcastsInDim S8x64x100000 (![] : Fin 0 → Fin S8x64x100000.rank)
  reducesTo_S8x64x100000_S_d0_1_2 : S8x64x100000.ReducesTo [0, 1, 2] S_
  h_S_ : 0 < S_.numel
  bcast_S_S8x3x100000 : S_.BroadcastsInDim S8x3x100000 (![] : Fin 0 → Fin S8x3x100000.rank)
  reducesTo_S8x3x100000_S_d0_1_2 : S8x3x100000.ReducesTo [0, 1, 2] S_

variable [Facts]

def fn {F : FTy → Type} [FloatOps F] (main_arg0 : FVec F S8x64x100000 .f32) (main_arg1 : FVec F S8x3x100000 .f32) : IVec S_ 1 :=
  let main_v0 : FVec F S8x64x100000 .f32 := Host.absf main_arg0
  let main_cst : FVec F S_ .f32 := constant S_ .f32 0x7F800000#32
  let main_v1 : FVec F S8x64x100000 .f32 := broadcastInDim S8x64x100000 ![] bcast_S_S8x64x100000 main_cst
  let main_v2 : IVec S8x64x100000 1 := cmpf .olt main_v0 main_v1
  let main_c : IVec S_ 1 := constantI S_ 1 1#1
  let main_v3 : IVec S_ 1 := (fun x v => Host.reduce IntOp.andi x v reducesTo_S8x64x100000_S_d0_1_2 h_S_) main_v2 main_c
  let main_v4 : FVec F S8x3x100000 .f32 := Host.absf main_arg1
  let main_cst_0 : FVec F S_ .f32 := constant S_ .f32 0x7F800000#32
  let main_v5 : FVec F S8x3x100000 .f32 := broadcastInDim S8x3x100000 ![] bcast_S_S8x3x100000 main_cst_0
  let main_v6 : IVec S8x3x100000 1 := cmpf .olt main_v4 main_v5
  let main_c_1 : IVec S_ 1 := constantI S_ 1 1#1
  let main_v7 : IVec S_ 1 := (fun x v => Host.reduce IntOp.andi x v reducesTo_S8x3x100000_S_d0_1_2 h_S_) main_v6 main_c_1
  let main_v8 : IVec S_ 1 := andi main_v3 main_v7
  main_v8
-- ==== Kernel.lean ====
abbrev S8x64x100000 : Shape := ⟨3, ![8, 64, 100000]⟩
abbrev S8x3x100000 : Shape := ⟨3, ![8, 3, 100000]⟩
abbrev S8x1x100000 : Shape := ⟨3, ![8, 1, 100000]⟩
abbrev S1x3x100000 : Shape := ⟨3, ![1, 3, 100000]⟩
abbrev S1x1x100000 : Shape := ⟨3, ![1, 1, 100000]⟩
abbrev S3x100000 : Shape := ⟨2, ![3, 100000]⟩
abbrev S3 : Shape := ⟨1, ![3]⟩
abbrev S3x1 : Shape := ⟨2, ![3, 1]⟩
abbrev S100000 : Shape := ⟨1, ![100000]⟩
abbrev S1x100000 : Shape := ⟨2, ![1, 100000]⟩
abbrev S1 : Shape := ⟨1, ![1]⟩
abbrev S1x1 : Shape := ⟨2, ![1, 1]⟩
abbrev S8x100000 : Shape := ⟨2, ![8, 100000]⟩
abbrev S_ : Shape := ⟨0, ![]⟩
abbrev S8x100000x1 : Shape := ⟨3, ![8, 100000, 1]⟩
abbrev S1x1x1 : Shape := ⟨3, ![1, 1, 1]⟩
abbrev S8x352 : Shape := ⟨2, ![8, 352]⟩
abbrev S8x100352 : Shape := ⟨2, ![8, 100352]⟩
abbrev S8x1x100352 : Shape := ⟨3, ![8, 1, 100352]⟩
abbrev S8x64x100352 : Shape := ⟨3, ![8, 64, 100352]⟩
abbrev S8x64x100352x1 : Shape := ⟨4, ![8, 64, 100352, 1]⟩
abbrev S1x1x1x1 : Shape := ⟨4, ![1, 1, 1, 1]⟩
abbrev S8x98x1024 : Shape := ⟨3, ![8, 98, 1024]⟩
abbrev S8x98 : Shape := ⟨2, ![8, 98]⟩
abbrev S8x64x32768 : Shape := ⟨3, ![8, 64, 32768]⟩
abbrev S1x64x1024 : Shape := ⟨3, ![1, 64, 1024]⟩
abbrev S1x1x1024 : Shape := ⟨3, ![1, 1, 1024]⟩
abbrev S1x64x4096 : Shape := ⟨3, ![1, 64, 4096]⟩
abbrev S64x4096 : Shape := ⟨2, ![64, 4096]⟩
abbrev S1x4096 : Shape := ⟨2, ![1, 4096]⟩
abbrev S4096x1 : Shape := ⟨2, ![4096, 1]⟩
abbrev S1x1024 : Shape := ⟨2, ![1, 1024]⟩
abbrev S4096x1024 : Shape := ⟨2, ![4096, 1024]⟩
abbrev S64x1024 : Shape := ⟨2, ![64, 1024]⟩
abbrev S8x64x32x32x32 : Shape := ⟨5, ![8, 64, 32, 32, 32]⟩

abbrev nBuf : Space → Nat
  | .hbm => 66
  | .vmem => 14
  | .smem => 2
  | _ => 0

abbrev bufTy : (tb : Table) → Fin (tcTables nBuf tb) → BufTy
  | .hbm, ⟨0, _⟩ => ⟨S8x64x100000, .f32⟩
  | .hbm, ⟨1, _⟩ => ⟨S8x3x100000, .f32⟩
  | .hbm, ⟨2, _⟩ => ⟨S8x3x100000, .f32⟩
  | .hbm, ⟨3, _⟩ => ⟨S8x1x100000, .i32⟩
  | .hbm, ⟨4, _⟩ => ⟨S8x100000, .i32⟩
  | .hbm, ⟨5, _⟩ => ⟨S8x100000, .i32⟩
  | .hbm, ⟨6, _⟩ => ⟨S8x100000, .i32⟩
  | .hbm, ⟨7, _⟩ => ⟨S8x100000, .i32⟩
  | .hbm, ⟨8, _⟩ => ⟨S_, .i32⟩
  | .hbm, ⟨9, _⟩ => ⟨S8x100000, .i32⟩
  | .hbm, ⟨10, _⟩ => ⟨S8x100000, .i1⟩
  | .hbm, ⟨11, _⟩ => ⟨S_, .i32⟩
  | .hbm, ⟨12, _⟩ => ⟨S8x100000, .i32⟩
  | .hbm, ⟨13, _⟩ => ⟨S8x100000, .i32⟩
  | .hbm, ⟨14, _⟩ => ⟨S8x100000, .i32⟩
  | .hbm, ⟨15, _⟩ => ⟨S8x100000x1, .i32⟩
  | .hbm, ⟨16, _⟩ => ⟨S1, .i32⟩
  | .hbm, ⟨17, _⟩ => ⟨S_, .i32⟩
  | .hbm, ⟨18, _⟩ => ⟨S8x100000x1, .i32⟩
  | .hbm, ⟨19, _⟩ => ⟨S8x100000x1, .i1⟩
  | .hbm, ⟨20, _⟩ => ⟨S1x1x1, .i32⟩
  | .hbm, ⟨21, _⟩ => ⟨S8x100000x1, .i32⟩
  | .hbm, ⟨22, _⟩ => ⟨S8x100000x1, .i1⟩
  | .hbm, ⟨23, _⟩ => ⟨S8x100000x1, .i1⟩
  | .hbm, ⟨24, _⟩ => ⟨S_, .i1⟩
  | .hbm, ⟨25, _⟩ => ⟨S8x100000, .i1⟩
  | .hbm, ⟨26, _⟩ => ⟨S8x100000, .i32⟩
  | .hbm, ⟨27, _⟩ => ⟨S_, .i32⟩
  | .hbm, ⟨28, _⟩ => ⟨S8x100000, .i32⟩
  | .hbm, ⟨29, _⟩ => ⟨S8x100000, .i32⟩
  | .hbm, ⟨30, _⟩ => ⟨S_, .i32⟩
  | .hbm, ⟨31, _⟩ => ⟨S8x352, .i32⟩
  | .hbm, ⟨32, _⟩ => ⟨S8x100352, .i32⟩
  | .hbm, ⟨33, _⟩ => ⟨S_, .i32⟩
  | .hbm, ⟨34, _⟩ => ⟨S_, .i32⟩
  | .hbm, ⟨35, _⟩ => ⟨S8x100352, .i32⟩
  | .hbm, ⟨36, _⟩ => ⟨S8x1x100352, .i32⟩
  | .hbm, ⟨37, _⟩ => ⟨S8x64x100352, .i32⟩
  | .hbm, ⟨38, _⟩ => ⟨S_, .i32⟩
  | .hbm, ⟨39, _⟩ => ⟨S8x64x100352, .i32⟩
  | .hbm, ⟨40, _⟩ => ⟨S8x64x100352, .i1⟩
  | .hbm, ⟨41, _⟩ => ⟨S_, .i32⟩
  | .hbm, ⟨42, _⟩ => ⟨S8x64x100352, .i32⟩
  | .hbm, ⟨43, _⟩ => ⟨S8x64x100352, .i32⟩
  | .hbm, ⟨44, _⟩ => ⟨S8x64x100352, .i32⟩
  | .hbm, ⟨45, _⟩ => ⟨S8x64x100352x1, .i32⟩
  | .hbm, ⟨46, _⟩ => ⟨S1, .i32⟩
  | .hbm, ⟨47, _⟩ => ⟨S_, .i32⟩
  | .hbm, ⟨48, _⟩ => ⟨S8x64x100352x1, .i32⟩
  | .hbm, ⟨49, _⟩ => ⟨S8x64x100352x1, .i1⟩
  | .hbm, ⟨50, _⟩ => ⟨S1x1x1x1, .i32⟩
  | .hbm, ⟨51, _⟩ => ⟨S8x64x100352x1, .i32⟩
  | .hbm, ⟨52, _⟩ => ⟨S8x64x100352x1, .i1⟩
  | .hbm, ⟨53, _⟩ => ⟨S8x64x100352x1, .i1⟩
  | .hbm, ⟨54, _⟩ => ⟨S_, .i1⟩
  | .hbm, ⟨55, _⟩ => ⟨S8x64x100352, .i1⟩
  | .hbm, ⟨56, _⟩ => ⟨S8x64x100352, .f32⟩
  | .hbm, ⟨57, _⟩ => ⟨S_, .f32⟩
  | .hbm, ⟨58, _⟩ => ⟨S8x64x100352, .f32⟩
  | .hbm, ⟨59, _⟩ => ⟨S8x64x100352, .f32⟩
  | .hbm, ⟨60, _⟩ => ⟨S8x1x100352, .i32⟩
  | .hbm, ⟨61, _⟩ => ⟨S8x98x1024, .i32⟩
  | .hbm, ⟨62, _⟩ => ⟨S_, .i32⟩
  | .hbm, ⟨63, _⟩ => ⟨S_, .i32⟩
  | .hbm, ⟨64, _⟩ => ⟨S8x64x32768, .f32⟩
  | .hbm, ⟨65, _⟩ => ⟨S8x64x32x32x32, .f32⟩
  | .local _ .vmem, ⟨0, _⟩ => ⟨S1x3x100000, .f32⟩
  | .local _ .vmem, ⟨1, _⟩ => ⟨S1x3x100000, .f32⟩
  | .local _ .vmem, ⟨2, _⟩ => ⟨S1x3x100000, .f32⟩
  | .local _ .vmem, ⟨3, _⟩ => ⟨S1x3x100000, .f32⟩
  | .local _ .vmem, ⟨4, _⟩ => ⟨S1x1x100000, .i32⟩
  | .local _ .vmem, ⟨5, _⟩ => ⟨S1x1x100000, .i32⟩
  | .local _ .vmem, ⟨6, _⟩ => ⟨S1x64x1024, .f32⟩
  | .local _ .vmem, ⟨7, _⟩ => ⟨S1x64x1024, .f32⟩
  | .local _ .vmem, ⟨8, _⟩ => ⟨S1x1x1024, .i32⟩
  | .local _ .vmem, ⟨9, _⟩ => ⟨S1x1x1024, .i32⟩
  | .local _ .vmem, ⟨10, _⟩ => ⟨S1x64x4096, .f32⟩
  | .local _ .vmem, ⟨11, _⟩ => ⟨S1x64x4096, .f32⟩
  | .local _ .vmem, ⟨12, _⟩ => ⟨S64x4096, .f32⟩
  | .local _ .vmem, ⟨13, _⟩ => ⟨S1x4096, .f32⟩
  | .local _ .smem, ⟨0, _⟩ => ⟨S8x98, .i32⟩
  | .local _ .smem, ⟨1, _⟩ => ⟨S8x98, .i32⟩
  | _, _ => ⟨S8x64x100000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v1 : Ref sig .tc := ⟨.hbm, 4, rfl⟩
abbrev main_call0_v0 : Ref sig .tc := ⟨.hbm, 5, rfl⟩
abbrev main_call0_v1_0 : Ref sig .tc := ⟨.hbm, 6, rfl⟩
abbrev main_v2 : Ref sig .tc := ⟨.hbm, 7, rfl⟩
abbrev main_call1_c : Ref sig .tc := ⟨.hbm, 8, rfl⟩
abbrev main_call1_v0 : Ref sig .tc := ⟨.hbm, 9, rfl⟩
abbrev main_call1_v1 : Ref sig .tc := ⟨.hbm, 10, rfl⟩
abbrev main_call1_c_0 : Ref sig .tc := ⟨.hbm, 11, rfl⟩
abbrev main_call1_v2 : Ref sig .tc := ⟨.hbm, 12, rfl⟩
abbrev main_call1_v3 : Ref sig .tc := ⟨.hbm, 13, rfl⟩
abbrev main_call1_v4 : Ref sig .tc := ⟨.hbm, 14, rfl⟩
abbrev main_call1_v5 : Ref sig .tc := ⟨.hbm, 15, rfl⟩
abbrev main_call1_c_1 : Ref sig .tc := ⟨.hbm, 16, rfl⟩
abbrev main_call1_c_2 : Ref sig .tc := ⟨.hbm, 17, rfl⟩
abbrev main_call1_v6 : Ref sig .tc := ⟨.hbm, 18, rfl⟩
abbrev main_call1_v7 : Ref sig .tc := ⟨.hbm, 19, rfl⟩
abbrev main_call1_v8 : Ref sig .tc := ⟨.hbm, 20, rfl⟩
abbrev main_call1_v9 : Ref sig .tc := ⟨.hbm, 21, rfl⟩
abbrev main_call1_v10 : Ref sig .tc := ⟨.hbm, 22, rfl⟩
abbrev main_call1_v11 : Ref sig .tc := ⟨.hbm, 23, rfl⟩
abbrev main_call1_c_3 : Ref sig .tc := ⟨.hbm, 24, rfl⟩
abbrev main_call1_v12 : Ref sig .tc := ⟨.hbm, 25, rfl⟩
abbrev main_call1_v13 : Ref sig .tc := ⟨.hbm, 26, rfl⟩
abbrev main_call1_c_4 : Ref sig .tc := ⟨.hbm, 27, rfl⟩
abbrev main_call1_v14 : Ref sig .tc := ⟨.hbm, 28, rfl⟩
abbrev main_v3 : Ref sig .tc := ⟨.hbm, 29, rfl⟩
abbrev main_c : Ref sig .tc := ⟨.hbm, 30, rfl⟩
abbrev main_v4 : Ref sig .tc := ⟨.hbm, 31, rfl⟩
abbrev main_v5 : Ref sig .tc := ⟨.hbm, 32, rfl⟩
abbrev main_c_0 : Ref sig .tc := ⟨.hbm, 33, rfl⟩
abbrev main_call2_v0 : Ref sig .tc := ⟨.hbm, 34, rfl⟩
abbrev main_v6 : Ref sig .tc := ⟨.hbm, 35, rfl⟩
abbrev main_v7 : Ref sig .tc := ⟨.hbm, 36, rfl⟩
abbrev main_v8 : Ref sig .tc := ⟨.hbm, 37, rfl⟩
abbrev main_call3_c : Ref sig .tc := ⟨.hbm, 38, rfl⟩
abbrev main_call3_v0 : Ref sig .tc := ⟨.hbm, 39, rfl⟩
abbrev main_call3_v1 : Ref sig .tc := ⟨.hbm, 40, rfl⟩
abbrev main_call3_c_0 : Ref sig .tc := ⟨.hbm, 41, rfl⟩
abbrev main_call3_v2 : Ref sig .tc := ⟨.hbm, 42, rfl⟩
abbrev main_call3_v3 : Ref sig .tc := ⟨.hbm, 43, rfl⟩
abbrev main_call3_v4 : Ref sig .tc := ⟨.hbm, 44, rfl⟩
abbrev main_call3_v5 : Ref sig .tc := ⟨.hbm, 45, rfl⟩
abbrev main_call3_c_1 : Ref sig .tc := ⟨.hbm, 46, rfl⟩
abbrev main_call3_c_2 : Ref sig .tc := ⟨.hbm, 47, rfl⟩
abbrev main_call3_v6 : Ref sig .tc := ⟨.hbm, 48, rfl⟩
abbrev main_call3_v7 : Ref sig .tc := ⟨.hbm, 49, rfl⟩
abbrev main_call3_v8 : Ref sig .tc := ⟨.hbm, 50, rfl⟩
abbrev main_call3_v9 : Ref sig .tc := ⟨.hbm, 51, rfl⟩
abbrev main_call3_v10 : Ref sig .tc := ⟨.hbm, 52, rfl⟩
abbrev main_call3_v11 : Ref sig .tc := ⟨.hbm, 53, rfl⟩
abbrev main_call3_c_3 : Ref sig .tc := ⟨.hbm, 54, rfl⟩
abbrev main_call3_v12 : Ref sig .tc := ⟨.hbm, 55, rfl⟩
abbrev main_call3_v13 : Ref sig .tc := ⟨.hbm, 56, rfl⟩
abbrev main_call3_cst : Ref sig .tc := ⟨.hbm, 57, rfl⟩
abbrev main_call3_v14 : Ref sig .tc := ⟨.hbm, 58, rfl⟩
abbrev main_v9 : Ref sig .tc := ⟨.hbm, 59, rfl⟩
abbrev main_v10 : Ref sig .tc := ⟨.hbm, 60, rfl⟩
abbrev main_v11 : Ref sig .tc := ⟨.hbm, 61, rfl⟩
abbrev main_c_1 : Ref sig .tc := ⟨.hbm, 62, rfl⟩
abbrev main_c_2 : Ref sig .tc := ⟨.hbm, 63, rfl⟩
abbrev main_v14 : Ref sig .tc := ⟨.hbm, 64, rfl⟩
abbrev main_v15 : Ref sig .tc := ⟨.hbm, 65, rfl⟩
abbrev main_v12 : Ref sig .tc := ⟨.smem, 0, rfl⟩
abbrev main_v13 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_scratch0 : Ref sig .tc := ⟨.vmem, 12, rfl⟩
abbrev cc1_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x3x100000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x3x100000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x100000 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨3, ![8, 8, 98], ![false, false, false]⟩

abbrev pre1 : Pipeline.Prefetch sig := ⟨2, ![main_v12.idx, main_v13.idx], fun | 0 => main_v12.names | 1 => main_v13.names | ⟨_ + 2, h⟩ => absurd h (Nat.not_lt.2 (Nat.le_add_left _ _)), fun | 0 => rfl | 1 => rfl | ⟨_ + 2, h⟩ => absurd h (Nat.not_lt.2 (Nat.le_add_left _ _))⟩

def k1_off1 (i : grid1.Coords) : Fin 2 → Nat :=
  let arg0 : BitVec 32 := BitVec.ofNat 32 (i 0).val
  let v4 : Index := Scalar.indexCast arg0
  let arg2 : BitVec 32 := BitVec.ofNat 32 (i 2).val
  let v5 : Index := Scalar.indexCast arg2
  ![v4.toNat, v5.toNat]
def k1_cond3 (i : grid1.Coords) : BitVec 1 :=
  let arg2 : BitVec 32 := BitVec.ofNat 32 (i 2).val
  let c97_i32 : BitVec 32 := 97#32
  let v16 : BitVec 1 := Scalar.cmpi .eq arg2 c97_i32
  let v17 : BitVec 32 := Scalar.extui v16
  let c0_i32_3 : BitVec 32 := 0#32
  let v18 : BitVec 1 := Scalar.cmpi .ne v17 c0_i32_3
  v18

def cc1_transform_0 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc1_transform_2 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

abbrev stage1_0 : Fin 2 → Memref sig .tc .vmem S1x64x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S1x1x1024 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false, true]

abbrev stage1_2 : Fin 2 → Memref sig .tc .vmem S1x64x4096 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

class Facts₀ : Prop where
  inb_S1x3x100000_S1x3x100000_0_0_0 : ∀ a, (![0, 0, 0] : Fin 3 → Nat) a + S1x3x100000.size a ≤ S1x3x100000.size a
  h_S1x3x100000 : 0 < S1x3x100000.numel
  shapeCasts_S1x3x100000_S3x100000 : S1x3x100000.ShapeCasts S3x100000
  reduces_S3x100000_S3 : S3x100000.Reduces [1] S3
  shapeCasts_S3_S3x1 : S3.ShapeCasts S3x1
  broadcasts_S3x1_S3x100000 : S3x1.Broadcasts S3x100000
  reduces_S3x100000_S100000 : S3x100000.Reduces [0] S100000
  shapeCasts_S100000_S1x100000 : S100000.ShapeCasts S1x100000
  reduces_S1x100000_S1 : S1x100000.Reduces [1] S1
  shapeCasts_S1_S1x1 : S1.ShapeCasts S1x1
  broadcasts_S1x1_S3x100000 : S1x1.Broadcasts S3x100000
  shapeCasts_S3x100000_S1x3x100000 : S3x100000.ShapeCasts S1x3x100000
  slices_S3x100000_o0_0_S1x100000 : S3x100000.Slices ![0, 0] S1x100000
  slices_S3x100000_o1_0_S1x100000 : S3x100000.Slices ![1, 0] S1x100000
  slices_S3x100000_o2_0_S1x100000 : S3x100000.Slices ![2, 0] S1x100000
  inb_S1x1x100000_S1x1x100000_0_0_0 : ∀ a, (![0, 0, 0] : Fin 3 → Nat) a + S1x1x100000.size a ≤ S1x1x100000.size a
  h_S1x1x100000 : 0 < S1x1x100000.numel
  shapeCasts_S1x1x100000_S1x100000 : S1x1x100000.ShapeCasts S1x100000
  shapeCasts_S1x100000_S1x1x100000 : S1x100000.ShapeCasts S1x1x100000
  shapeCasts_S8x1x100000_S8x100000 : S8x1x100000.ShapeCasts S8x100000
  bcast_S_S8x100000 : S_.BroadcastsInDim S8x100000 (![] : Fin 0 → Fin S8x100000.rank)
  shapeCasts_S8x100000_S8x100000x1 : S8x100000.ShapeCasts S8x100000x1
  bcast_S_S8x100000x1 : S_.BroadcastsInDim S8x100000x1 (![] : Fin 0 → Fin S8x100000x1.rank)
  bcast_S1_S1x1x1_2 : S1.BroadcastsInDim S1x1x1 (![2] : Fin 1 → Fin S1x1x1.rank)
  bcast_S1x1x1_S8x100000x1_0_1_2 : S1x1x1.BroadcastsInDim S8x100000x1 (![0, 1, 2] : Fin 3 → Fin S8x100000x1.rank)
  reducesTo_S8x100000x1_S8x100000_d2 : S8x100000x1.ReducesTo [2] S8x100000
  h_S_ : 0 < S_.numel
  bcast_S_S8x352 : S_.BroadcastsInDim S8x352 (![] : Fin 0 → Fin S8x352.rank)
  concatenates_S8x100000_S8x352_S8x100352_d1 : Shape.Concatenates [S8x100000, S8x352] S8x100352 1
  pads_S8x100000_S8x100352_000_03520 : S8x100000.Pads (![0, 0] : Fin 2 → Nat) ![0, 352] ![0, 0] S8x100352
  bcast_S8x100352_S8x1x100352_0_2 : S8x100352.BroadcastsInDim S8x1x100352 (![0, 2] : Fin 2 → Fin S8x1x100352.rank)
  bcast_S8x1x100352_S8x64x100352_0_1_2 : S8x1x100352.BroadcastsInDim S8x64x100352 (![0, 1, 2] : Fin 3 → Fin S8x64x100352.rank)
  bcast_S_S8x64x100352 : S_.BroadcastsInDim S8x64x100352 (![] : Fin 0 → Fin S8x64x100352.rank)
  shapeCasts_S8x64x100352_S8x64x100352x1 : S8x64x100352.ShapeCasts S8x64x100352x1
  bcast_S_S8x64x100352x1 : S_.BroadcastsInDim S8x64x100352x1 (![] : Fin 0 → Fin S8x64x100352x1.rank)
  bcast_S1_S1x1x1x1_3 : S1.BroadcastsInDim S1x1x1x1 (![3] : Fin 1 → Fin S1x1x1x1.rank)
  bcast_S1x1x1x1_S8x64x100352x1_0_1_2_3 : S1x1x1x1.BroadcastsInDim S8x64x100352x1 (![0, 1, 2, 3] : Fin 4 → Fin S8x64x100352x1.rank)
  reducesTo_S8x64x100352x1_S8x64x100352_d3 : S8x64x100352x1.ReducesTo [3] S8x64x100352
  shapeCasts_S8x100352_S8x98x1024 : S8x100352.ShapeCasts S8x98x1024
  reducesTo_S8x98x1024_S8x98_d2 : S8x98x1024.ReducesTo [2] S8x98
  inb_S64x4096_S64x4096_0_0 : ∀ a, (![0, 0] : Fin 2 → Nat) a + S64x4096.size a ≤ S64x4096.size a
  h_S64x4096 : 0 < S64x4096.numel
  shapeCasts_S64x4096_S64x4096 : S64x4096.ShapeCasts S64x4096
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  numel1_S1x1 : S1x1.numel = 1
  iota_S4096x1_d0_w32 : S4096x1.Iotas .tc 32 [0]
  inb_S1x1x1024_S1x1x1024_0_0_0 : ∀ a, (![0, 0, 0] : Fin 3 → Nat) a + S1x1x1024.size a ≤ S1x1x1024.size a
  h_S1x1x1024 : 0 < S1x1x1024.numel
  shapeCasts_S1x1x1024_S1x1024 : S1x1x1024.ShapeCasts S1x1024
  broadcasts_S4096x1_S4096x1024 : S4096x1.Broadcasts S4096x1024
  broadcasts_S1x1024_S4096x1024 : S1x1024.Broadcasts S4096x1024
  natLt_1_32 : 1 < 32
  bitsLt_bf16_f32 : FTy.bits .bf16 < FTy.bits .f32
  inb_S1x64x1024_S1x64x1024_0_0_0 : ∀ a, (![0, 0, 0] : Fin 3 → Nat) a + S1x64x1024.size a ≤ S1x64x1024.size a
  h_S1x64x1024 : 0 < S1x64x1024.numel
  shapeCasts_S1x64x1024_S64x1024 : S1x64x1024.ShapeCasts S64x1024
  broadcasts_S1x4096_S64x4096 : S1x4096.Broadcasts S64x4096
  inb_S1x64x4096_S1x64x4096_0_0_0 : ∀ a, (![0, 0, 0] : Fin 3 → Nat) a + S1x64x4096.size a ≤ S1x64x4096.size a
  h_S1x64x4096 : 0 < S1x64x4096.numel
  shapeCasts_S1x64x4096_S64x4096 : S1x64x4096.ShapeCasts S64x4096
  shapeCasts_S64x4096_S1x64x4096 : S64x4096.ShapeCasts S1x64x4096
  shapeCasts_S8x64x32768_S8x64x32x32x32 : S8x64x32768.ShapeCasts S8x64x32x32x32
  gather_S8x100000_S8x100000x1_S8x100000_n_1_0_0_1_2_11_wf : GatherDims.WF S8x100000 S8x100000x1 S8x100000 [] [1] [0] [1] [0] 2 ![1, 1]
  gather_S8x64x100000_S8x64x100352x1_S8x64x100352_n_2_01_01_2_3_111_wf : GatherDims.WF S8x64x100000 S8x64x100352x1 S8x64x100352 [] [2] [0, 1] [2] [0, 1] 3 ![1, 1, 1]
  dot_S64x1024_S4096x1024_S64x4096_1_1_0_0_n_n_wf : DotDims.WF S64x1024 S4096x1024 S64x4096 [1] [1] [0] [0] [] []
  dot_S1x1024_S4096x1024_S1x4096_1_1_0_0_n_n_wf : DotDims.WF S1x1024 S4096x1024 S1x4096 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x3x100000.size a ≤ S8x3x100000.size a
  hwx0_0 : ∀ i : grid0.Coords, EltTy.bits .f32 = 32 ∨ (Rect.block (s := S8x3x100000) S1x3x100000.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x3x100000.size a ≤ S8x3x100000.size a
  hwx0_1 : ∀ i : grid0.Coords, EltTy.bits .f32 = 32 ∨ (Rect.block (s := S8x3x100000) S1x3x100000.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x100000.size a ≤ S8x1x100000.size a
  hwx0_2 : ∀ i : grid0.Coords, EltTy.bits .i32 = 32 ∨ (Rect.block (s := S8x1x100000) S1x1x100000.size (cc0_transform_2 i) (hinb0_2 i)).WholeWords (EltTy.packing .i32)
  hrank1 : 0 < grid1.rank
  k1_off1_inb : ∀ i : grid1.Coords, ∀ a, (k1_off1 i) a + S1x1.size a ≤ S8x98.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x64x1024.size a ≤ S8x64x100352.size a
  hwx1_0 : ∀ i : grid1.Coords, EltTy.bits .f32 = 32 ∨ (Rect.block (s := S8x64x100352) S1x64x1024.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x1x1024.size a ≤ S8x1x100352.size a
  hwx1_1 : ∀ i : grid1.Coords, EltTy.bits .i32 = 32 ∨ (Rect.block (s := S8x1x100352) S1x1x1024.size (cc1_transform_1 i) (hinb1_1 i)).WholeWords (EltTy.packing .i32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x64x4096.size a ≤ S8x64x32768.size a
  hwx1_2 : ∀ i : grid1.Coords, EltTy.bits .f32 = 32 ∨ (Rect.block (s := S8x64x32768) S1x64x4096.size (cc1_transform_2 i) (hinb1_2 i)).WholeWords (EltTy.packing .f32)

variable [Facts₀]

def comparator_i32_i32_d1 : BitVec 32 × BitVec 32 → BitVec 32 × BitVec 32 → BitVec 1 :=
  fun l r =>
    let v2 := IntOp.cmpi .slt l.1 r.1
    v2
def gather_S8x100000_S8x100000x1_S8x100000_n_1_0_0_1_2_11 : GatherDims S8x100000 S8x100000x1 S8x100000 where
  offsetDims := []
  collapsedSliceDims := [1]
  operandBatchingDims := [0]
  startIndicesBatchingDims := [0]
  startIndexMap := [1]
  indexVectorDim := 2
  sliceSizes := ![1, 1]
  wf := gather_S8x100000_S8x100000x1_S8x100000_n_1_0_0_1_2_11_wf
def gather_S8x64x100000_S8x64x100352x1_S8x64x100352_n_2_01_01_2_3_111 : GatherDims S8x64x100000 S8x64x100352x1 S8x64x100352 where
  offsetDims := []
  collapsedSliceDims := [2]
  operandBatchingDims := [0, 1]
  startIndicesBatchingDims := [0, 1]
  startIndexMap := [2]
  indexVectorDim := 3
  sliceSizes := ![1, 1, 1]
  wf := gather_S8x64x100000_S8x64x100352x1_S8x64x100352_n_2_01_01_2_3_111_wf
def dot_S64x1024_S4096x1024_S64x4096_1_1_0_0_n_n : DotDims S64x1024 S4096x1024 S64x4096 where
  lhsContracting := [1]
  rhsContracting := [1]
  lhsNonContracting := [0]
  rhsNonContracting := [0]
  lhsBatch := []
  rhsBatch := []
  wf := dot_S64x1024_S4096x1024_S64x4096_1_1_0_0_n_n_wf
def dot_S1x1024_S4096x1024_S1x4096_1_1_0_0_n_n : DotDims S1x1024 S4096x1024 S1x4096 where
  lhsContracting := [1]
  rhsContracting := [1]
  lhsNonContracting := [0]
  rhsNonContracting := [0]
  lhsBatch := []
  rhsBatch := []
  wf := dot_S1x1024_S4096x1024_S1x4096_1_1_0_0_n_n_wf

abbrev win0_0 : Pipeline.Window sig grid0 :=
  Pipeline.Window.ofSpec (Memref.whole main_arg1) S1x3x100000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0_0) S1x3x100000.size cc0_transform_1 reads0_1 true false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_1) S1x1x100000.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev spec1_0 : Pipeline.WinSpec sig grid1.rank :=
  Pipeline.WinSpec.ofSpec (Memref.whole main_v9) S1x64x1024.size reads1_0 false false 2 stage1_0 sem1_0 nbuf1_0 hstage1_0

abbrev spec1_1 : Pipeline.WinSpec sig grid1.rank :=
  Pipeline.WinSpec.ofSpec (Memref.whole main_v10) S1x1x1024.size reads1_1 false false 2 stage1_1 sem1_1 nbuf1_1 hstage1_1

abbrev spec1_2 : Pipeline.WinSpec sig grid1.rank :=
  Pipeline.WinSpec.ofSpec (Memref.whole main_v14) S1x64x4096.size reads1_2 true false 2 stage1_2 sem1_2 nbuf1_2 hstage1_2

abbrev spec1 : Fin 3 → Pipeline.WinSpec sig grid1.rank := fun | 0 => spec1_0 | 1 => spec1_1 | 2 => spec1_2 | ⟨_ + 3, h⟩ => absurd h (Nat.not_lt.2 (Nat.le_add_left _ _))
theorem hcount1 : ∀ w, grid1.bufCount (spec1 w).reads (spec1 w).sync = (spec1 w).nbuf := fun | 0 => nbuf1_0 | 1 => nbuf1_1 | 2 => nbuf1_2 | ⟨_ + 3, h⟩ => absurd h (Nat.not_lt.2 (Nat.le_add_left _ _))
abbrev ix1 (pf : pre1.Contents (Elt F)) : (w : Fin 3) → grid1.Coords → Fin (spec1 w).shape.rank → Nat := fun | 0 => cc1_transform_0 | 1 => cc1_transform_1 | 2 => cc1_transform_2 | ⟨_ + 3, h⟩ => absurd h (Nat.not_lt.2 (Nat.le_add_left _ _))
theorem hreads1 : ∀ (pf : pre1.Contents (Elt F)) w (i i' : grid1.Coords), (∀ a, (spec1 w).reads a = true → i a = i' a) → ix1 pf w i = ix1 pf w i' := fun pf => fun | 0 => hreads1_0 | 1 => hreads1_1 | 2 => hreads1_2 | ⟨_ + 3, h⟩ => absurd h (Nat.not_lt.2 (Nat.le_add_left _ _))
def ok1 (_ : pre1.Contents (Elt F)) : Prop :=
  True
instance (pf : pre1.Contents (Elt F)) : Decidable (ok1 pf) := decidable_of_iff' _ (Iff.of_eq (ok1.eq_1 pf))
theorem hinb1 : ∀ (pf : pre1.Contents (Elt F)), ok1 pf → ∀ w (i : grid1.Coords) a, (ix1 pf w i a + 1) * (spec1 w).size a ≤ (spec1 w).shape.size a :=
  fun _ _ => fun | 0 => hinb1_0 | 1 => hinb1_1 | 2 => hinb1_2 | ⟨_ + 3, h⟩ => absurd h (Nat.not_lt.2 (Nat.le_add_left _ _))
theorem hwx1 : ∀ (pf : pre1.Contents (Elt F)) (hok : ok1 pf) w (i : grid1.Coords), (spec1 w).elt.bits = 32 ∨ (Rect.block (spec1 w).size (ix1 pf w i) (hinb1 pf hok w i)).WholeWords (spec1 w).elt.packing :=
  fun _ _ => fun | 0 => hwx1_0 | 1 => hwx1_1 | 2 => hwx1_2 | ⟨_ + 3, h⟩ => absurd h (Nat.not_lt.2 (Nat.le_add_left _ _))
abbrev idle1 : Fin 3 → grid1.Coords → Bool := fun | 0 => fun _ => false | 1 => fun _ => false | 2 => fun i => !(k1_cond3 i == 1#1) | ⟨_ + 3, h⟩ => absurd h (Nat.not_lt.2 (Nat.le_add_left _ _))

class Facts : Prop extends Facts₀ where
  harr1 : ∀ w, (spec1 w).arr.IsWhole

variable [Facts]
-- ==== ReferenceIdeal.lean ====
abbrev S8x64x100000 : Shape := ⟨3, ![8, 64, 100000]⟩
abbrev S8x3x100000 : Shape := ⟨3, ![8, 3, 100000]⟩
abbrev S_ : Shape := ⟨0, ![]⟩
abbrev S8x3 : Shape := ⟨2, ![8, 3]⟩
abbrev S8x3x1 : Shape := ⟨3, ![8, 3, 1]⟩
abbrev S8x100000 : Shape := ⟨2, ![8, 100000]⟩
abbrev S8x1x100000 : Shape := ⟨3, ![8, 1, 100000]⟩
abbrev S8x1 : Shape := ⟨2, ![8, 1]⟩
abbrev S8x1x1 : Shape := ⟨3, ![8, 1, 1]⟩
abbrev S8 : Shape := ⟨1, ![8]⟩
abbrev S800000 : Shape := ⟨1, ![800000]⟩
abbrev S8x100000x64 : Shape := ⟨3, ![8, 100000, 64]⟩
abbrev S800000x64 : Shape := ⟨2, ![800000, 64]⟩
abbrev S262144x64 : Shape := ⟨2, ![262144, 64]⟩
abbrev S800000x1 : Shape := ⟨2, ![800000, 1]⟩
abbrev S262144 : Shape := ⟨1, ![262144]⟩
abbrev S262144x1 : Shape := ⟨2, ![262144, 1]⟩
abbrev S8x32x32x32x64 : Shape := ⟨5, ![8, 32, 32, 32, 64]⟩
abbrev S8x64x32x32x32 : Shape := ⟨5, ![8, 64, 32, 32, 32]⟩

abbrev nBuf : Space → Nat
  | .hbm => 81
  | .vmem => 0
  | .smem => 0
  | _ => 0

abbrev bufTy : (tb : Table) → Fin (tcTables nBuf tb) → BufTy
  | .hbm, ⟨0, _⟩ => ⟨S8x64x100000, .f32⟩
  | .hbm, ⟨1, _⟩ => ⟨S8x3x100000, .f32⟩
  | .hbm, ⟨2, _⟩ => ⟨S_, .f32⟩
  | .hbm, ⟨3, _⟩ => ⟨S8x3, .f32⟩
  | .hbm, ⟨4, _⟩ => ⟨S8x3x1, .f32⟩
  | .hbm, ⟨5, _⟩ => ⟨S_, .f32⟩
  | .hbm, ⟨6, _⟩ => ⟨S8x3x1, .f32⟩
  | .hbm, ⟨7, _⟩ => ⟨S8x3x1, .f32⟩
  | .hbm, ⟨8, _⟩ => ⟨S8x3x100000, .f32⟩
  | .hbm, ⟨9, _⟩ => ⟨S8x3x100000, .f32⟩
  | .hbm, ⟨10, _⟩ => ⟨S8x3x100000, .f32⟩
  | .hbm, ⟨11, _⟩ => ⟨S_, .f32⟩
  | .hbm, ⟨12, _⟩ => ⟨S8x100000, .f32⟩
  | .hbm, ⟨13, _⟩ => ⟨S8x1x100000, .f32⟩
  | .hbm, ⟨14, _⟩ => ⟨S8x1x100000, .f32⟩
  | .hbm, ⟨15, _⟩ => ⟨S_, .f32⟩
  | .hbm, ⟨16, _⟩ => ⟨S8x1, .f32⟩
  | .hbm, ⟨17, _⟩ => ⟨S8x1x1, .f32⟩
  | .hbm, ⟨18, _⟩ => ⟨S_, .f32⟩
  | .hbm, ⟨19, _⟩ => ⟨S8x1x1, .f32⟩
  | .hbm, ⟨20, _⟩ => ⟨S8x1x1, .f32⟩
  | .hbm, ⟨21, _⟩ => ⟨S8x3x100000, .f32⟩
  | .hbm, ⟨22, _⟩ => ⟨S8x3x100000, .f32⟩
  | .hbm, ⟨23, _⟩ => ⟨S_, .f32⟩
  | .hbm, ⟨24, _⟩ => ⟨S8x3x100000, .f32⟩
  | .hbm, ⟨25, _⟩ => ⟨S8x3x100000, .f32⟩
  | .hbm, ⟨26, _⟩ => ⟨S_, .f32⟩
  | .hbm, ⟨27, _⟩ => ⟨S8x3x100000, .f32⟩
  | .hbm, ⟨28, _⟩ => ⟨S8x3x100000, .f32⟩
  | .hbm, ⟨29, _⟩ => ⟨S_, .i32⟩
  | .hbm, ⟨30, _⟩ => ⟨S_, .i32⟩
  | .hbm, ⟨31, _⟩ => ⟨S_, .f32⟩
  | .hbm, ⟨32, _⟩ => ⟨S8x3x100000, .f32⟩
  | .hbm, ⟨33, _⟩ => ⟨S8x3x100000, .f32⟩
  | .hbm, ⟨34, _⟩ => ⟨S_, .f32⟩
  | .hbm, ⟨35, _⟩ => ⟨S8x3x100000, .f32⟩
  | .hbm, ⟨36, _⟩ => ⟨S8x3x100000, .f32⟩
  | .hbm, ⟨37, _⟩ => ⟨S8x3x100000, .f32⟩
  | .hbm, ⟨38, _⟩ => ⟨S8x3x100000, .i32⟩
  | .hbm, ⟨39, _⟩ => ⟨S8x1x100000, .i32⟩
  | .hbm, ⟨40, _⟩ => ⟨S8x100000, .i32⟩
  | .hbm, ⟨41, _⟩ => ⟨S_, .i32⟩
  | .hbm, ⟨42, _⟩ => ⟨S8x100000, .i32⟩
  | .hbm, ⟨43, _⟩ => ⟨S8x100000, .i32⟩
  | .hbm, ⟨44, _⟩ => ⟨S8x1x100000, .i32⟩
  | .hbm, ⟨45, _⟩ => ⟨S8x100000, .i32⟩
  | .hbm, ⟨46, _⟩ => ⟨S8x100000, .i32⟩
  | .hbm, ⟨47, _⟩ => ⟨S_, .i32⟩
  | .hbm, ⟨48, _⟩ => ⟨S8x100000, .i32⟩
  | .hbm, ⟨49, _⟩ => ⟨S8x100000, .i32⟩
  | .hbm, ⟨50, _⟩ => ⟨S8x1x100000, .i32⟩
  | .hbm, ⟨51, _⟩ => ⟨S8x100000, .i32⟩
  | .hbm, ⟨52, _⟩ => ⟨S8x100000, .i32⟩
  | .hbm, ⟨53, _⟩ => ⟨S8, .i32⟩
  | .hbm, ⟨54, _⟩ => ⟨S8x1, .i32⟩
  | .hbm, ⟨55, _⟩ => ⟨S_, .i32⟩
  | .hbm, ⟨56, _⟩ => ⟨S8x1, .i32⟩
  | .hbm, ⟨57, _⟩ => ⟨S8x1, .i32⟩
  | .hbm, ⟨58, _⟩ => ⟨S8x100000, .i32⟩
  | .hbm, ⟨59, _⟩ => ⟨S8x100000, .i32⟩
  | .hbm, ⟨60, _⟩ => ⟨S800000, .i32⟩
  | .hbm, ⟨61, _⟩ => ⟨S8x100000x64, .f32⟩
  | .hbm, ⟨62, _⟩ => ⟨S800000x64, .f32⟩
  | .hbm, ⟨63, _⟩ => ⟨S_, .f32⟩
  | .hbm, ⟨64, _⟩ => ⟨S262144x64, .f32⟩
  | .hbm, ⟨65, _⟩ => ⟨S800000x1, .i32⟩
  | .hbm, ⟨66, _⟩ => ⟨S262144x64, .f32⟩
  | .hbm, ⟨67, _⟩ => ⟨S_, .f32⟩
  | .hbm, ⟨68, _⟩ => ⟨S800000, .f32⟩
  | .hbm, ⟨69, _⟩ => ⟨S_, .f32⟩
  | .hbm, ⟨70, _⟩ => ⟨S262144, .f32⟩
  | .hbm, ⟨71, _⟩ => ⟨S800000x1, .i32⟩
  | .hbm, ⟨72, _⟩ => ⟨S262144, .f32⟩
  | .hbm, ⟨73, _⟩ => ⟨S_, .f32⟩
  | .hbm, ⟨74, _⟩ => ⟨S262144, .f32⟩
  | .hbm, ⟨75, _⟩ => ⟨S262144, .f32⟩
  | .hbm, ⟨76, _⟩ => ⟨S262144x1, .f32⟩
  | .hbm, ⟨77, _⟩ => ⟨S262144x64, .f32⟩
  | .hbm, ⟨78, _⟩ => ⟨S262144x64, .f32⟩
  | .hbm, ⟨79, _⟩ => ⟨S8x32x32x32x64, .f32⟩
  | .hbm, ⟨80, _⟩ => ⟨S8x64x32x32x32, .f32⟩
  | _, _ => ⟨S8x64x100000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_call0_v0 : Ref sig .tc := ⟨.hbm, 10, rfl⟩
abbrev main_call0_cst : Ref sig .tc := ⟨.hbm, 11, rfl⟩
abbrev main_call0_v1 : Ref sig .tc := ⟨.hbm, 12, rfl⟩
abbrev main_call0_v2 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_3 : Ref sig .tc := ⟨.hbm, 23, rfl⟩
abbrev main_v13 : Ref sig .tc := ⟨.hbm, 24, rfl⟩
abbrev main_v14 : Ref sig .tc := ⟨.hbm, 25, rfl⟩
abbrev main_cst_4 : Ref sig .tc := ⟨.hbm, 26, rfl⟩
abbrev main_v15 : Ref sig .tc := ⟨.hbm, 27, rfl⟩
abbrev main_v16 : Ref sig .tc := ⟨.hbm, 28, rfl⟩
abbrev main_c : Ref sig .tc := ⟨.hbm, 29, rfl⟩
abbrev main_c_5 : Ref sig .tc := ⟨.hbm, 30, rfl⟩
abbrev main_call1_v0 : Ref sig .tc := ⟨.hbm, 31, rfl⟩
abbrev main_call1_v1 : Ref sig .tc := ⟨.hbm, 32, rfl⟩
abbrev main_call1_v2 : Ref sig .tc := ⟨.hbm, 33, rfl⟩
abbrev main_call1_v3 : Ref sig .tc := ⟨.hbm, 34, rfl⟩
abbrev main_call1_v4 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_c_6 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_c_7 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_c_8 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_cst_9 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_cst_10 : Ref sig .tc := ⟨.hbm, 67, rfl⟩
abbrev main_v44 : Ref sig .tc := ⟨.hbm, 68, rfl⟩
abbrev main_cst_11 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_cst_12 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩

abbrev nD : Nat := 1
abbrev τ : Topo := Topo.v7x

variable {F : FTy → Type} [FloatOps F]

class Facts₀ : Prop where
  reducesTo_S8x3x100000_S8x3_d2 : S8x3x100000.ReducesTo [2] S8x3
  h_S_ : 0 < S_.numel
  bcast_S8x3_S8x3x1_0_1 : S8x3.BroadcastsInDim S8x3x1 (![0, 1] : Fin 2 → Fin S8x3x1.rank)
  bcast_S_S8x3x1 : S_.BroadcastsInDim S8x3x1 (![] : Fin 0 → Fin S8x3x1.rank)
  bcast_S8x3x1_S8x3x100000_0_1_2 : S8x3x1.BroadcastsInDim S8x3x100000 (![0, 1, 2] : Fin 3 → Fin S8x3x100000.rank)
  reducesTo_S8x3x100000_S8x100000_d1 : S8x3x100000.ReducesTo [1] S8x100000
  bcast_S8x100000_S8x1x100000_0_2 : S8x100000.BroadcastsInDim S8x1x100000 (![0, 2] : Fin 2 → Fin S8x1x100000.rank)
  reducesTo_S8x1x100000_S8x1_d2 : S8x1x100000.ReducesTo [2] S8x1
  bcast_S8x1_S8x1x1_0_1 : S8x1.BroadcastsInDim S8x1x1 (![0, 1] : Fin 2 → Fin S8x1x1.rank)
  bcast_S_S8x1x1 : S_.BroadcastsInDim S8x1x1 (![] : Fin 0 → Fin S8x1x1.rank)
  bcast_S8x1x1_S8x3x100000_0_1_2 : S8x1x1.BroadcastsInDim S8x3x100000 (![0, 1, 2] : Fin 3 → Fin S8x3x100000.rank)
  bcast_S_S8x3x100000 : S_.BroadcastsInDim S8x3x100000 (![] : Fin 0 → Fin S8x3x100000.rank)
  slices_S8x3x100000_S8x1x100000_0_0_0 : S8x3x100000.Slices ![0, 0, 0] S8x1x100000
  shapeCasts_S8x1x100000_S8x100000 : S8x1x100000.ShapeCasts S8x100000
  bcast_S_S8x100000 : S_.BroadcastsInDim S8x100000 (![] : Fin 0 → Fin S8x100000.rank)
  slices_S8x3x100000_S8x1x100000_0_1_0 : S8x3x100000.Slices ![0, 1, 0] S8x1x100000
  slices_S8x3x100000_S8x1x100000_0_2_0 : S8x3x100000.Slices ![0, 2, 0] S8x1x100000
  bcast_S8_S8x1_0 : S8.BroadcastsInDim S8x1 (![0] : Fin 1 → Fin S8x1.rank)
  bcast_S_S8x1 : S_.BroadcastsInDim S8x1 (![] : Fin 0 → Fin S8x1.rank)
  bcast_S8x1_S8x100000_0_1 : S8x1.BroadcastsInDim S8x100000 (![0, 1] : Fin 2 → Fin S8x100000.rank)
  shapeCasts_S8x100000_S800000 : S8x100000.ShapeCasts S800000
  transposes_S8x64x100000_S8x100000x64_0_2_1 : S8x64x100000.Transposes [0, 2, 1] S8x100000x64
  shapeCasts_S8x100000x64_S800000x64 : S8x100000x64.ShapeCasts S800000x64
  bcast_S_S262144x64 : S_.BroadcastsInDim S262144x64 (![] : Fin 0 → Fin S262144x64.rank)
  bcast_S800000_S800000x1_0 : S800000.BroadcastsInDim S800000x1 (![0] : Fin 1 → Fin S800000x1.rank)
  bcast_S_S800000 : S_.BroadcastsInDim S800000 (![] : Fin 0 → Fin S800000.rank)
  bcast_S_S262144 : S_.BroadcastsInDim S262144 (![] : Fin 0 → Fin S262144.rank)
  bcast_S262144_S262144x1_0 : S262144.BroadcastsInDim S262144x1 (![0] : Fin 1 → Fin S262144x1.rank)
  bcast_S262144x1_S262144x64_0_1 : S262144x1.BroadcastsInDim S262144x64 (![0, 1] : Fin 2 → Fin S262144x64.rank)
  shapeCasts_S262144x64_S8x32x32x32x64 : S262144x64.ShapeCasts S8x32x32x32x64
  transposes_S8x32x32x32x64_S8x64x32x32x32_0_4_1_2_3 : S8x32x32x32x64.Transposes [0, 4, 1, 2, 3] S8x64x32x32x32
  scatter_S262144x64_S800000x1_S800000x64_1_0_0_1_wf : ScatterDims.WF S262144x64 S800000x1 S800000x64 [1] [0] [0] 1
  scatter_S262144_S800000x1_S800000_n_0_0_1_wf : ScatterDims.WF S262144 S800000x1 S800000 [] [0] [0] 1

variable [Facts₀]

def scatter_S262144x64_S800000x1_S800000x64_1_0_0_1 : ScatterDims S262144x64 S800000x1 S800000x64 where
  updateWindowDims := [1]
  insertedWindowDims := [0]
  scatterDimsToOperandDims := [0]
  indexVectorDim := 1
  wf := scatter_S262144x64_S800000x1_S800000x64_1_0_0_1_wf
def scatter_S262144_S800000x1_S800000_n_0_0_1 : ScatterDims S262144 S800000x1 S800000 where
  updateWindowDims := []
  insertedWindowDims := [0]
  scatterDimsToOperandDims := [0]
  indexVectorDim := 1
  wf := scatter_S262144_S800000x1_S800000_n_0_0_1_wf

class Facts : Prop extends Facts₀ where

variable [Facts]
-- ==== Proof.BBody0.lean ====
/- The body of pallas_call 0 (the coordinate kernel, grid of 8 points), at any float instance.

   At every grid point the body reads the whole block of window 0 (one batch row of the points' coordinates, a
   1×3×100000 block of the first output's source array) and stores two whole blocks computed from it alone:
   into window 1 the coordinates centred on their mean over the 100000 points, divided by twice the largest
   distance from the mean, shifted by one half, scaled by 32 and clamped to [0, 31] (the payload k0_pay3); into
   window 2 the cell number ((x·32 + y)·32 + z) of the rounded clamped coordinates (the payload k0_pay1 ∘ k0_pay4).
   Neither store depends on what the output buffers held, nor on the grid point otherwise than through the
   input block: each output block is one function of the input block.

   This module states that function per output window (out0_1, out0_2), proves the body's triple over whole
   staging buffers (sound_kernel0), gives the pipeline's proof data at a PARAMETER V — the TensorCore's buffer
   contents when the region is entered — (dat0), and proves the library's body obligation for it
   (body_obligation0). -/
import proofs.«136896_j63960652972185_2_alg».proof.Proof.Gen.Kernel.Launch
import proofs.«136896_j63960652972185_2_alg».proof.Proof.Gen.Kernel.Skeleton
import proofs.«136896_j63960652972185_2_alg».proof.Proof.Gen.Kernel.Points
import Idealize.ShloMosaic.Lib.Pipeline.FrameBody
import Idealize.ShloMosaic.Lib.Ring
import Idealize.ShloMosaic.Lib.Tactic

-- membership of an index in a rectangle of extents 1×3×100000: the elaborator's structural look recurses once
-- per coordinate of the long axis
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
-- the TensorCore's buffer contents when the region is entered: the parameter everything below is stated at
variable (V : (c : Dev nD) → (b : Ref sig .tc) → Buf (Elt F) ((c : Thread nD τ).loc b))

/-! ## The windows' blocks -/

/-- Window w's block at point t, read off its array as the region finds it (V). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input window's current staging buffer holds its block at every point, for ANY proof data whose array is
    V's (hA) and whose body leaves the block in place (hafter): the window is fetched at every point it moves,
    is uncut and never idle, so what the buffer holds before the body is the block fetched there. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each is a whole buffer -/

/-- The whole 1×3×100000 buffer (the input's load and the first output's store). -/
abbrev r0_3 : Rect S1x3x100000 := Rect.unit (s := S1x3x100000) ![0, 0, 0] S1x3x100000.size inb_S1x3x100000_S1x3x100000_0_0_0
/-- The whole 1×1×100000 buffer (the second output's store). -/
abbrev r0_1 : Rect S1x1x100000 := Rect.unit (s := S1x1x100000) ![0, 0, 0] S1x1x100000.size inb_S1x1x100000_S1x1x100000_0_0_0

/-! ## What the body leaves in each output window's buffer -/

/-- Window 1's staging buffer after the body, from the input block x0: its one store, of the normalized,
    scaled and clamped coordinates k0_pay3 of the block read whole. -/
def out0_1 (x0 : Vec F S1x3x100000 .f32) : Vec F S1x3x100000 .f32 :=
  View.canon [⟨r0_3, k0_pay3 (View.ld x0 r0_3)⟩]

/-- Window 2's staging buffer after the body, from the input block x0: its one store, of the cell numbers
    k0_pay1 (k0_pay4 ·) of the block read whole. -/
def out0_2 (x0 : Vec F S1x3x100000 .f32) : Vec F S1x1x100000 .i32 :=
  View.canon [⟨r0_1, k0_pay1 (k0_pay4 (View.ld x0 r0_3))⟩]

/-- The one store into window 1's buffer is of the whole buffer, so it covers it. -/
theorem cover0_1 (p0 : Vec F S1x3x100000 .f32) (y : S1x3x100000.Idx) :
    ∃ pc ∈ ([⟨r0_3, p0⟩] : List (View.Piece (Elt F) S1x3x100000 .f32)), y ∈ pc.1.set :=
  View.cover_of_tiled [⟨r0_3, p0⟩] S1x3x100000.size (by rfl) y

/-- The one store into window 2's buffer is of the whole buffer, so it covers it. -/
theorem cover0_2 (p0 : Vec F S1x1x100000 .i32) (y : S1x1x100000.Idx) :
    ∃ pc ∈ ([⟨r0_1, p0⟩] : List (View.Piece (Elt F) S1x1x100000 .i32)), y ∈ pc.1.set :=
  View.cover_of_tiled [⟨r0_1, p0⟩] S1x1x100000.size (by rfl) y

/-! ## The body's triple -/

/-- The kernel body on whole staging memrefs, the input's at read contents x0 and the outputs' at anything, runs to
    the continuation holding the input's as it was and each output's at out0_W of the input's: the body is two
    whole-buffer loads whose values are dropped, the input's whole-buffer load, and one whole-buffer store per
    output, of a payload of the loaded input. -/
theorem sound_kernel0 (c : Dev nD) (E : Set ℕ) (i : grid0.Coords)
    (arg1 : Memref sig .tc .vmem S1x3x100000 .f32) (harg1 : arg1.IsWhole)
    (arg2 : Memref sig .tc .vmem S1x3x100000 .f32) (harg2 : arg2.IsWhole)
    (arg3 : Memref sig .tc .vmem S1x1x100000 .i32) (harg3 : arg3.IsWhole)
    (x0 : Vec F S1x3x100000 .f32) (K : PUnit → sProp 𝕄) :
    iprop(owns (c : Thread nD τ) arg1 fullShare x0 ∗ (∃ d, owns (c : Thread nD τ) arg2 fullShare d)
        ∗ (∃ d, owns (c : Thread nD τ) arg3 fullShare d)
        ∗ (iprop(owns (c : Thread nD τ) arg1 fullShare x0 ∗ owns (c : Thread nD τ) arg2 fullShare (out0_1 x0)
            ∗ owns (c : Thread nD τ) arg3 fullShare (out0_2 x0)) -∗ K ⟨⟩))
      ⊢ wp frame (wpE (defs₀ (F := F)) Variants.none c none) E (cc0__coords_kernel i arg1 harg1 arg2 harg2 arg3 harg3) K := by
  simp only [cc0__coords_kernel_eq_skeleton]; unfold cc0__coords_kernel_skel
  unfold owns
  iintro ⟨⟨%f0, %hf0, H0⟩, ⟨%d1, %f1, -, H1⟩, ⟨%d2, %f2, -, H2⟩, Hk⟩
  subst hf0
  sl_exec
  sl_step
  iapply Hk
  isplitl [H0]
  · iexists f0; isplitr; · ipureintro; rfl
    iexact H0
  isplitl [H1]
  · iexists _; isplitr
    swap; · iexact H1
    ipureintro
    exact View.read_writes_eq_canon _ _ _ (cover0_1 _)
  iexists _; isplitr
  swap; · iexact H2
  ipureintro
  exact View.read_writes_eq_canon _ _ _ (cover0_2 _)

/-! ## The pipeline's proof data -/

/-- The proof data of pallas_call 0 on core c: the arrays as the region finds them (V); after the body at
    point t the input's buffer at its block and each output's at out0_W of the input block; the invariant the
    scoped rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => out0_1 (iblk0 V c 0 t)
    | ⟨2, _⟩ => out0_2 (iblk0 V c 0 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = out0_1 (iblk0 V c 0 t) := by dsimp only [dat0]
theorem after0_2 (c : Dev nD) (t : Fin cfg0.N) : (dat0 V c).after 2 t = out0_2 (iblk0 V c 0 t) := by dsimp only [dat0]

/-- The input's current staging buffer holds its block at every point. -/
theorem before0_0 (c : Dev nD) (t : Fin cfg0.N) (d) : (dat0 V c).before 0 t d = iblk0 V c 0 t :=
  before0_0_of V (dat0 V c) (A_eq0 V c 0) (after0_0 V c) t d

/-! ## The body obligation, at a generic point -/

/-- What the body is called with at point t: the invariant, the core's debts, and each window's current staging
    buffer at what the pipeline left in it, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns: the same with each buffer at what the body leaves. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the input's memref holds its block (before0_0), so sound_kernel0 applies at that block;
    the invariant and the core's debts pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) _)
  isplitl [H0]; · iexact H0
  isplitl [H1]; · iexists _; iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

end Regions

end Cert.Kernel.Hand

end
-- ==== Proof.BBody1a.lean ====
/- Pallas call 1 (the scatter kernel, grid 8 × 8 × 98 in row-major order), at any float instance: the body's
   three branch conditions, the schedule facts of its output window, and the whole-buffer access lemmas.

   A grid point is (b, ct, nt): batch row b, output column tile ct (4096 voxels), input tile nt (1024 points).
   The body runs three conditionals in sequence. The first holds exactly when nt = 0 and zeroes the two
   accumulators. The second is computed from two words of the prefetched tables — the least and the greatest
   voxel id of input tile (b, nt) — and holds when that range meets the column tile [ct·4096, ct·4096 + 4096);
   it adds the tile's contribution to both accumulators. The third holds exactly when nt = 97 and stores the
   quotient of the accumulators into the output block. The output window's block index is (b, 0, ct): it does not
   move while nt runs, so the pipeline writes the block back only after a point with nt = 97. -/
import proofs.«136896_j63960652972185_2_alg».proof.Proof.Gen.Kernel.Launch
import proofs.«136896_j63960652972185_2_alg».proof.Proof.Gen.Kernel.Skeleton
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The three conditions -/

/-- The first conditional's condition, as the body computes it from the grid point: nt = 0. -/
abbrev first1 (i : grid1.Coords) : Prop :=
  Scalar.cmpi .ne (Scalar.extui (Scalar.cmpi .eq (BitVec.ofNat 32 (i 2).val) 0#32)) 0#32 = 1#1
/-- The third conditional's condition: nt = 97. -/
abbrev last1 (i : grid1.Coords) : Prop := k1_cond3 i = 1#1
/-- The second conditional's condition, as the body computes it from the grid point and the two table words it
    loads (w6 the least, w9 the greatest voxel id of the input tile): w9 ≥ ct·4096 and w6 < ct·4096 + 4096, as
    signed words. -/
abbrev act1 (i : grid1.Coords) (w6 w9 : BitVec 32) : Prop :=
  Scalar.cmpi .ne (Scalar.extui (Scalar.andi (Scalar.cmpi .sge w9 (Scalar.muli (BitVec.ofNat 32 (i 1).val) 4096#32))
    (Scalar.cmpi .slt w6 (Scalar.addi (Scalar.muli (BitVec.ofNat 32 (i 1).val) 4096#32) 4096#32)))) 0#32 = 1#1

/-- The first condition holds exactly at nt = 0 (decided over the 98 values of nt). -/
theorem first1_iff (i : grid1.Coords) : first1 i ↔ (i 2).val = 0 :=
  (by decide +kernel : ∀ x : Fin 98,
    (Scalar.cmpi .ne (Scalar.extui (Scalar.cmpi .eq (BitVec.ofNat 32 x.val) 0#32)) 0#32 = 1#1) ↔ x.val = 0) (i 2)

/-- The third condition holds exactly at nt = 97. -/
theorem last1_iff (i : grid1.Coords) : last1 i ↔ (i 2).val = 97 :=
  (by decide +kernel : ∀ x : Fin 98,
    (Scalar.cmpi .ne (Scalar.extui (Scalar.cmpi .eq (BitVec.ofNat 32 x.val) 97#32)) 0#32 = 1#1) ↔ x.val = 97) (i 2)

/-- No point is both the first and the last of its row of input tiles. -/
theorem not_last_of_first (i : grid1.Coords) (h : first1 i) : ¬last1 i := fun h' => by
  have h0 := (first1_iff i).mp h; have h1 := (last1_iff i).mp h'; omega

/-! ## The grid's points: point t is (t / 784 % 8, t / 98 % 8, t % 98) -/

theorem stride1_0 : grid1.stride 0 = 784 := by decide
theorem stride1_1 : grid1.stride 1 = 98 := by decide
theorem stride1_2 : grid1.stride 2 = 1 := by decide

theorem coords1_0 (t : Fin grid1.N) : (grid1.coords t 0).val = t.val / 784 % 8 := by
  show t.val / grid1.stride 0 % 8 = _; rw [stride1_0]
theorem coords1_1 (t : Fin grid1.N) : (grid1.coords t 1).val = t.val / 98 % 8 := by
  show t.val / grid1.stride 1 % 8 = _; rw [stride1_1]
theorem coords1_2 (t : Fin grid1.N) : (grid1.coords t 2).val = t.val % 98 := by
  show t.val / grid1.stride 2 % 98 = _; rw [stride1_2, Nat.div_one]

/-- The first point of the grid has nt = 0. -/
theorem first1_zero (h : 0 < grid1.N) : first1 (grid1.coords ⟨0, h⟩) :=
  (first1_iff _).mpr ((coords1_2 ⟨0, h⟩).trans (Nat.zero_mod _))

/-! ## The output window's schedule -/

section Sched
variable (a : (pcfg1 (F := F)).Adm)

/-- The pipeline at any admissible tables has the compiled grid's 6272 points. -/
theorem N1 : (cfg1 a).N = 6272 := N_1

/-- The input windows are never idle. -/
theorem liveAt1_0 (i : grid1.Coords) : (cfg1 a).idle 0 i = false := rfl
theorem liveAt1_1 (i : grid1.Coords) : (cfg1 a).idle 1 i = false := rfl
/-- The output window is idle exactly where the third condition fails: the body stores into it only under it. -/
theorem idleAt1_2 (i : grid1.Coords) (h : ¬last1 i) : (cfg1 a).idle 2 i = true := by
  show (!(k1_cond3 i == 1#1)) = true
  rw [Bool.not_eq_true', beq_eq_false_iff_ne]; exact h
theorem liveAt1_2 (i : grid1.Coords) (h : last1 i) : (cfg1 a).idle 2 i = false := by
  show (!(k1_cond3 i == 1#1)) = false
  rw [Bool.not_eq_false', beq_iff_eq]; exact h

/-- Where nt ≠ 97 the pipeline does not write the output block back: the next point exists and has the same
    (b, ct), so the same block index (b, 0, ct). -/
theorem noFlush1_2 (t : Fin (cfg1 a).N) (h : ¬last1 (grid1.coords t)) : ((cfg1 a).win 2).flush t = false := by
  have hN : t.val < 6272 := lt_of_lt_of_eq t.isLt (N1 a)
  have h97 : t.val % 98 ≠ 97 := fun e => h ((last1_iff _).mpr ((coords1_2 t).trans e))
  have hnext : t.val + 1 < grid1.N := by rw [N_1]; omega
  have hix : cc1_transform_2 (grid1.coords ⟨t.val + 1, hnext⟩) = cc1_transform_2 (grid1.coords t) :=
    hreads1_2 _ _ fun ax hax => by
      have h0 : ax = 0 ∨ ax = 1 := by
        revert hax; fin_cases ax <;> simp
      rcases h0 with rfl | rfl
      · apply Fin.ext; rw [coords1_0, coords1_0]; show (t.val + 1) / 784 % 8 = t.val / 784 % 8; omega
      · apply Fin.ext; rw [coords1_1, coords1_1]; show (t.val + 1) / 98 % 8 = t.val / 98 % 8; omega
  unfold Pipeline.Window.flush
  rw [Bool.and_eq_false_imp]; intro _
  rw [Bool.or_eq_false_iff]
  refine ⟨decide_eq_false (by show ¬(t.val + 1 = grid1.N); rw [N_1]; omega), decide_eq_false ?_⟩
  rintro ⟨h', hne⟩
  exact hne hix

end Sched

/-! ## Whole-buffer accesses

Every vector load and store of the body is of the whole buffer, through the rectangle at offset zero of the
buffer's own size. -/

abbrev r8 : Rect S64x4096 := Rect.unit (s := S64x4096) ![0, 0] S64x4096.size inb_S64x4096_S64x4096_0_0
abbrev r9 : Rect S1x4096 := Rect.unit (s := S1x4096) ![0, 0] S1x4096.size inb_S1x4096_S1x4096_0_0
abbrev r5 : Rect S1x64x1024 := Rect.unit (s := S1x64x1024) ![0, 0, 0] S1x64x1024.size inb_S1x64x1024_S1x64x1024_0_0_0
abbrev r6 : Rect S1x1x1024 := Rect.unit (s := S1x1x1024) ![0, 0, 0] S1x1x1024.size inb_S1x1x1024_S1x1x1024_0_0_0
abbrev r7 : Rect S1x64x4096 := Rect.unit (s := S1x64x4096) ![0, 0, 0] S1x64x4096.size inb_S1x64x4096_S1x64x4096_0_0_0
/-- The one-word rectangle of a table at (b, nt). -/
abbrev rw1 (i : grid1.Coords) : Rect S8x98 := Rect.unit (s := S8x98) (k1_off1 i) S1x1.size (k1_off1_inb i)

/-- The word a scalar load of the body reads at (b, nt) from a table held at read contents T. -/
abbrev wordOf (i : grid1.Coords) (arg : Memref sig .tc .smem S8x98 .i32) (harg : arg.IsWhole) (T : Vec F S8x98 .i32) : Elt F .i32 :=
  arg.view.readAt (Elt F) (rw1 i).toLoadRect (harg.unread T) (Shape.Idx.first (numel1_S1x1.symm ▸ Nat.one_pos))

/-- The zero offsets. -/
theorem z2 : (![0, 0] : Fin 2 → Nat) = fun _ => 0 := by funext a; fin_cases a <;> rfl
theorem z3 : (![0, 0, 0] : Fin 3 → Nat) = fun _ => 0 := by funext a; fin_cases a <;> rfl

/-- A list of stores whose last (the head) is of the whole buffer covers it. -/
theorem cover_head {s : Shape} {e : EltTy} {off : Fin s.rank → Nat} (hz : off = fun _ => 0) (inb : ∀ a, off a + s.size a ≤ s.size a)
    (w : s.Idx → Elt F e) (L : List (View.Piece (Elt F) s e)) (y : s.Idx) :
    ∃ p ∈ ((⟨Rect.unit off s.size inb, w⟩ : View.Piece (Elt F) s e) :: L), y ∈ p.1.set := by
  subst hz
  exact ⟨_, List.mem_cons_self, by show y ∈ (Rect.whole s).set; rw [Rect.set_whole]; exact Finset.mem_univ y⟩

/-- Reading back a buffer whose last store was of the whole buffer gives that store's payload. -/
theorem read_put {κ : Kind} {sp : Space} {s : Shape} {e : EltTy} (v : View sig κ sp s e) (f : v.ty.Contents (Elt F))
    {off : Fin s.rank → Nat} (hz : off = fun _ => 0) (inb : ∀ a, off a + s.size a ≤ s.size a)
    (w : s.Idx → Elt F e) (L : List (View.Piece (Elt F) s e)) :
    v.read (Elt F) (v.writes (Elt F) f ((⟨Rect.unit off s.size inb, w⟩ : View.Piece (Elt F) s e) :: L)) = w :=
  (View.read_writes_eq_canon v f _ (cover_head hz inb w L)).trans (View.canon_cons_unit_zero hz inb w L)

/-- A whole-buffer load of a whole memref held at read contents X reads X. -/
theorem get_whole {κ : Kind} {sp : Space} {s : Shape} {e : EltTy} (m : Memref sig κ sp s e) (hm : m.IsWhole)
    {off : Fin s.rank → Nat} (hz : off = fun _ => 0) (inb : ∀ a, off a + s.size a ≤ s.size a) (X : s.Idx → Elt F e) :
    m.view.readAt (Elt F) (Rect.unit off s.size inb).toLoadRect (hm.unread X) = X := by
  rw [View.readAt_eq_ld, hm.read_unread, View.ld_unit_zero hz]

/-- A whole-buffer load after stores the last of which was of the whole buffer reads that store's payload. -/
theorem cov_put {κ : Kind} {sp : Space} {s : Shape} {e : EltTy} (v : View sig κ sp s e)
    {off : Fin s.rank → Nat} (hz : off = fun _ => 0) (inb : ∀ a, off a + s.size a ≤ s.size a)
    (w : s.Idx → Elt F e) (L : List (View.Piece (Elt F) s e)) :
    v.readCov ((⟨Rect.unit off s.size inb, w⟩ : View.Piece (Elt F) s e) :: L) (Rect.unit off s.size inb).toLoadRect = w := by
  rw [View.readCov_eq_canon_ld _ _ _ (cover_head hz inb w L), View.canon_cons_unit_zero hz, View.ld_unit_zero hz]

end Cert.Kernel.Hand

end
-- ==== Proof.BBody1b.lean ====
/- Pallas call 1 (the scatter kernel): the body's triple on each of its six control paths, at any float instance.

   On whole memrefs — the two tables held at any share at read contents T0, T1, the two input blocks at featb and
   idxb, the output block at o, the accumulators at S and C — the body runs to the continuation holding the tables
   and inputs as they were and
     the accumulators zeroed first if nt = 0, then each increased by the tile's contribution if the loaded words
     pass the range test (the payloads k1_pay4, k1_pay5), else kept;
     the output block at the quotient k1_pay6 of the accumulators' final contents if nt = 97, else at o.
   One lemma per path (nt = 0 or not; range test passed or not; nt = 97 or not; the path nt = 0 = 97 has no point).
   Every access is of a whole buffer, so what a store leaves is its payload and what a load reads is the contents. -/
import proofs.«136896_j63960652972185_2_alg».proof.Proof.BBody1a

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
theorem kern_nnn (c : Dev nD) (E : Set ℕ) (i : grid1.Coords)
    (arg3 : Memref sig .tc .smem S8x98 .i32) (harg3 : arg3.IsWhole) (arg4 : Memref sig .tc .smem S8x98 .i32) (harg4 : arg4.IsWhole)
    (arg5 : Memref sig .tc .vmem S1x64x1024 .f32) (harg5 : arg5.IsWhole) (arg6 : Memref sig .tc .vmem S1x1x1024 .i32) (harg6 : arg6.IsWhole)
    (arg7 : Memref sig .tc .vmem S1x64x4096 .f32) (harg7 : arg7.IsWhole) (arg8 : Memref sig .tc .vmem S64x4096 .f32) (harg8 : arg8.IsWhole)
    (arg9 : Memref sig .tc .vmem S1x4096 .f32) (harg9 : arg9.IsWhole)
    (q3 q4 : PosShare TreeShare) (T0 T1 : Vec F S8x98 .i32)
    (featb : Vec F S1x64x1024 .f32) (idxb : Vec F S1x1x1024 .i32) (o : Vec F S1x64x4096 .f32)
    (S : Vec F S64x4096 .f32) (C : Vec F S1x4096 .f32) (K : PUnit → sProp 𝕄)
    (hf : ¬first1 i) (ha : ¬act1 i (wordOf i arg3 harg3 T0) (wordOf i arg4 harg4 T1)) (hl : ¬last1 i) :
    iprop(owns (c : Thread nD τ) arg3 q3 T0 ∗ owns (c : Thread nD τ) arg4 q4 T1
        ∗ owns (c : Thread nD τ) arg5 fullShare featb ∗ owns (c : Thread nD τ) arg6 fullShare idxb
        ∗ owns (c : Thread nD τ) arg7 fullShare o
        ∗ owns (c : Thread nD τ) arg8 fullShare S ∗ owns (c : Thread nD τ) arg9 fullShare C
        ∗ (iprop(owns (c : Thread nD τ) arg3 q3 T0 ∗ owns (c : Thread nD τ) arg4 q4 T1
            ∗ owns (c : Thread nD τ) arg5 fullShare featb ∗ owns (c : Thread nD τ) arg6 fullShare idxb
            ∗ owns (c : Thread nD τ) arg7 fullShare (o)
            ∗ owns (c : Thread nD τ) arg8 fullShare (S)
            ∗ owns (c : Thread nD τ) arg9 fullShare (C)) -∗ K ⟨⟩))
      ⊢ wp frame (wpE (defs₀ (F := F)) Variants.none c none) E (cc1__scatter_kernel i arg3 harg3 arg4 harg4 arg5 harg5 arg6 harg6 arg7 harg7 arg8 harg8 arg9 harg9) K := by
  simp only [cc1__scatter_kernel_eq_skeleton]; unfold cc1__scatter_kernel_skel
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
  obtain rfl := harg3.eq_unread hf3; obtain rfl := harg4.eq_unread hf4
  obtain rfl := harg5.eq_unread hf5; obtain rfl := harg6.eq_unread hf6
  obtain rfl := harg7.eq_unread hf7
  obtain rfl := harg8.eq_unread hf8; obtain rfl := harg9.eq_unread hf9
  sl_exec (disch := first | sl_exact hf | sl_exact ha | sl_exact hl)
  sl_step
  iapply Hk
  isplitl [H3]; · iexists _; isplitr; · ipureintro; exact hf3
                  iexact H3
  isplitl [H4]; · iexists _; isplitr; · ipureintro; exact hf4
                  iexact H4
  isplitl [H5]; · iexists _; isplitr; · ipureintro; exact hf5
                  iexact H5
  isplitl [H6]; · iexists _; isplitr; · ipureintro; exact hf6
                  iexact H6
  isplitl [H7]
  · iexists _; isplitr
    swap; · iexact H7
    ipureintro
    exact hf7
  isplitl [H8]
  · iexists _; isplitr
    swap; · iexact H8
    ipureintro
    (try sl_unfold_run_names); simp only [read_put (s := S64x4096) _ _ z2, read_put (s := S1x4096) _ _ z2, read_put (s := S1x64x4096) _ _ z3, get_whole (s := S64x4096) _ _ z2, get_whole (s := S1x4096) _ _ z2, get_whole (s := S1x64x1024) _ _ z3, get_whole (s := S1x1x1024) _ _ z3, get_whole (s := S1x64x4096) _ _ z3, cov_put (s := S64x4096) _ z2, cov_put (s := S1x4096) _ z2, hf7, hf8, hf9]
  · iexists _; isplitr
    swap; · iexact H9
    ipureintro
    (try sl_unfold_run_names); simp only [read_put (s := S64x4096) _ _ z2, read_put (s := S1x4096) _ _ z2, read_put (s := S1x64x4096) _ _ z3, get_whole (s := S64x4096) _ _ z2, get_whole (s := S1x4096) _ _ z2, get_whole (s := S1x64x1024) _ _ z3, get_whole (s := S1x1x1024) _ _ z3, get_whole (s := S1x64x4096) _ _ z3, cov_put (s := S64x4096) _ z2, cov_put (s := S1x4096) _ z2, hf7, hf8, hf9]

set_option maxHeartbeats 1000000 in
theorem kern_nAn (c : Dev nD) (E : Set ℕ) (i : grid1.Coords)
    (arg3 : Memref sig .tc .smem S8x98 .i32) (harg3 : arg3.IsWhole) (arg4 : Memref sig .tc .smem S8x98 .i32) (harg4 : arg4.IsWhole)
    (arg5 : Memref sig .tc .vmem S1x64x1024 .f32) (harg5 : arg5.IsWhole) (arg6 : Memref sig .tc .vmem S1x1x1024 .i32) (harg6 : arg6.IsWhole)
    (arg7 : Memref sig .tc .vmem S1x64x4096 .f32) (harg7 : arg7.IsWhole) (arg8 : Memref sig .tc .vmem S64x4096 .f32) (harg8 : arg8.IsWhole)
    (arg9 : Memref sig .tc .vmem S1x4096 .f32) (harg9 : arg9.IsWhole)
    (q3 q4 : PosShare TreeShare) (T0 T1 : Vec F S8x98 .i32)
    (featb : Vec F S1x64x1024 .f32) (idxb : Vec F S1x1x1024 .i32) (o : Vec F S1x64x4096 .f32)
    (S : Vec F S64x4096 .f32) (C : Vec F S1x4096 .f32) (K : PUnit → sProp 𝕄)
    (hf : ¬first1 i) (ha : act1 i (wordOf i arg3 harg3 T0) (wordOf i arg4 harg4 T1)) (hl : ¬last1 i) :
    iprop(owns (c : Thread nD τ) arg3 q3 T0 ∗ owns (c : Thread nD τ) arg4 q4 T1
        ∗ owns (c : Thread nD τ) arg5 fullShare featb ∗ owns (c : Thread nD τ) arg6 fullShare idxb
        ∗ owns (c : Thread nD τ) arg7 fullShare o
        ∗ owns (c : Thread nD τ) arg8 fullShare S ∗ owns (c : Thread nD τ) arg9 fullShare C
        ∗ (iprop(owns (c : Thread nD τ) arg3 q3 T0 ∗ owns (c : Thread nD τ) arg4 q4 T1
            ∗ owns (c : Thread nD τ) arg5 fullShare featb ∗ owns (c : Thread nD τ) arg6 fullShare idxb
            ∗ owns (c : Thread nD τ) arg7 fullShare (o)
            ∗ owns (c : Thread nD τ) arg8 fullShare (k1_pay4 i idxb featb S)
            ∗ owns (c : Thread nD τ) arg9 fullShare (k1_pay5 i idxb C)) -∗ K ⟨⟩))
      ⊢ wp frame (wpE (defs₀ (F := F)) Variants.none c none) E (cc1__scatter_kernel i arg3 harg3 arg4 harg4 arg5 harg5 arg6 harg6 arg7 harg7 arg8 harg8 arg9 harg9) K := by
  simp only [cc1__scatter_kernel_eq_skeleton]; unfold cc1__scatter_kernel_skel
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
  obtain rfl := harg3.eq_unread hf3; obtain rfl := harg4.eq_unread hf4
  obtain rfl := harg5.eq_unread hf5; obtain rfl := harg6.eq_unread hf6
  obtain rfl := harg7.eq_unread hf7
  obtain rfl := harg8.eq_unread hf8; obtain rfl := harg9.eq_unread hf9
  sl_exec (disch := first | sl_exact hf | sl_exact ha | sl_exact hl)
  sl_step
  iapply Hk
  isplitl [H3]; · iexists _; isplitr; · ipureintro; exact hf3
                  iexact H3
  isplitl [H4]; · iexists _; isplitr; · ipureintro; exact hf4
                  iexact H4
  isplitl [H5]; · iexists _; isplitr; · ipureintro; exact hf5
                  iexact H5
  isplitl [H6]; · iexists _; isplitr; · ipureintro; exact hf6
                  iexact H6
  isplitl [H7]
  · iexists _; isplitr
    swap; · iexact H7
    ipureintro
    exact hf7
  isplitl [H8]
  · iexists _; isplitr
    swap; · iexact H8
    ipureintro
    (try sl_unfold_run_names); simp only [read_put (s := S64x4096) _ _ z2, read_put (s := S1x4096) _ _ z2, read_put (s := S1x64x4096) _ _ z3, get_whole (s := S64x4096) _ _ z2, get_whole (s := S1x4096) _ _ z2, get_whole (s := S1x64x1024) _ _ z3, get_whole (s := S1x1x1024) _ _ z3, get_whole (s := S1x64x4096) _ _ z3, cov_put (s := S64x4096) _ z2, cov_put (s := S1x4096) _ z2, hf7, hf8, hf9]
  · iexists _; isplitr
    swap; · iexact H9
    ipureintro
    (try sl_unfold_run_names); simp only [read_put (s := S64x4096) _ _ z2, read_put (s := S1x4096) _ _ z2, read_put (s := S1x64x4096) _ _ z3, get_whole (s := S64x4096) _ _ z2, get_whole (s := S1x4096) _ _ z2, get_whole (s := S1x64x1024) _ _ z3, get_whole (s := S1x1x1024) _ _ z3, get_whole (s := S1x64x4096) _ _ z3, cov_put (s := S64x4096) _ z2, cov_put (s := S1x4096) _ z2, hf7, hf8, hf9]

set_option maxHeartbeats 1000000 in
theorem kern_Fnn (c : Dev nD) (E : Set ℕ) (i : grid1.Coords)
    (arg3 : Memref sig .tc .smem S8x98 .i32) (harg3 : arg3.IsWhole) (arg4 : Memref sig .tc .smem S8x98 .i32) (harg4 : arg4.IsWhole)
    (arg5 : Memref sig .tc .vmem S1x64x1024 .f32) (harg5 : arg5.IsWhole) (arg6 : Memref sig .tc .vmem S1x1x1024 .i32) (harg6 : arg6.IsWhole)
    (arg7 : Memref sig .tc .vmem S1x64x4096 .f32) (harg7 : arg7.IsWhole) (arg8 : Memref sig .tc .vmem S64x4096 .f32) (harg8 : arg8.IsWhole)
    (arg9 : Memref sig .tc .vmem S1x4096 .f32) (harg9 : arg9.IsWhole)
    (q3 q4 : PosShare TreeShare) (T0 T1 : Vec F S8x98 .i32)
    (featb : Vec F S1x64x1024 .f32) (idxb : Vec F S1x1x1024 .i32) (o : Vec F S1x64x4096 .f32)
    (S : Vec F S64x4096 .f32) (C : Vec F S1x4096 .f32) (K : PUnit → sProp 𝕄)
    (hf : first1 i) (ha : ¬act1 i (wordOf i arg3 harg3 T0) (wordOf i arg4 harg4 T1)) (hl : ¬last1 i) :
    iprop(owns (c : Thread nD τ) arg3 q3 T0 ∗ owns (c : Thread nD τ) arg4 q4 T1
        ∗ owns (c : Thread nD τ) arg5 fullShare featb ∗ owns (c : Thread nD τ) arg6 fullShare idxb
        ∗ owns (c : Thread nD τ) arg7 fullShare o
        ∗ owns (c : Thread nD τ) arg8 fullShare S ∗ owns (c : Thread nD τ) arg9 fullShare C
        ∗ (iprop(owns (c : Thread nD τ) arg3 q3 T0 ∗ owns (c : Thread nD τ) arg4 q4 T1
            ∗ owns (c : Thread nD τ) arg5 fullShare featb ∗ owns (c : Thread nD τ) arg6 fullShare idxb
            ∗ owns (c : Thread nD τ) arg7 fullShare (o)
            ∗ owns (c : Thread nD τ) arg8 fullShare (k1_pay1)
            ∗ owns (c : Thread nD τ) arg9 fullShare (k1_pay2)) -∗ K ⟨⟩))
      ⊢ wp frame (wpE (defs₀ (F := F)) Variants.none c none) E (cc1__scatter_kernel i arg3 harg3 arg4 harg4 arg5 harg5 arg6 harg6 arg7 harg7 arg8 harg8 arg9 harg9) K := by
  simp only [cc1__scatter_kernel_eq_skeleton]; unfold cc1__scatter_kernel_skel
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
  obtain rfl := harg3.eq_unread hf3; obtain rfl := harg4.eq_unread hf4
  obtain rfl := harg5.eq_unread hf5; obtain rfl := harg6.eq_unread hf6
  obtain rfl := harg7.eq_unread hf7
  obtain rfl := harg8.eq_unread hf8; obtain rfl := harg9.eq_unread hf9
  sl_exec (disch := first | sl_exact hf | sl_exact ha | sl_exact hl)
  sl_step
  iapply Hk
  isplitl [H3]; · iexists _; isplitr; · ipureintro; exact hf3
                  iexact H3
  isplitl [H4]; · iexists _; isplitr; · ipureintro; exact hf4
                  iexact H4
  isplitl [H5]; · iexists _; isplitr; · ipureintro; exact hf5
                  iexact H5
  isplitl [H6]; · iexists _; isplitr; · ipureintro; exact hf6
                  iexact H6
  isplitl [H7]
  · iexists _; isplitr
    swap; · iexact H7
    ipureintro
    exact hf7
  isplitl [H8]
  · iexists _; isplitr
    swap; · iexact H8
    ipureintro
    (try sl_unfold_run_names); simp only [read_put (s := S64x4096) _ _ z2, read_put (s := S1x4096) _ _ z2, read_put (s := S1x64x4096) _ _ z3, get_whole (s := S64x4096) _ _ z2, get_whole (s := S1x4096) _ _ z2, get_whole (s := S1x64x1024) _ _ z3, get_whole (s := S1x1x1024) _ _ z3, get_whole (s := S1x64x4096) _ _ z3, cov_put (s := S64x4096) _ z2, cov_put (s := S1x4096) _ z2, hf7, hf8, hf9]
  · iexists _; isplitr
    swap; · iexact H9
    ipureintro
    (try sl_unfold_run_names); simp only [read_put (s := S64x4096) _ _ z2, read_put (s := S1x4096) _ _ z2, read_put (s := S1x64x4096) _ _ z3, get_whole (s := S64x4096) _ _ z2, get_whole (s := S1x4096) _ _ z2, get_whole (s := S1x64x1024) _ _ z3, get_whole (s := S1x1x1024) _ _ z3, get_whole (s := S1x64x4096) _ _ z3, cov_put (s := S64x4096) _ z2, cov_put (s := S1x4096) _ z2, hf7, hf8, hf9]

set_option maxHeartbeats 1000000 in
theorem kern_FAn (c : Dev nD) (E : Set ℕ) (i : grid1.Coords)
    (arg3 : Memref sig .tc .smem S8x98 .i32) (harg3 : arg3.IsWhole) (arg4 : Memref sig .tc .smem S8x98 .i32) (harg4 : arg4.IsWhole)
    (arg5 : Memref sig .tc .vmem S1x64x1024 .f32) (harg5 : arg5.IsWhole) (arg6 : Memref sig .tc .vmem S1x1x1024 .i32) (harg6 : arg6.IsWhole)
    (arg7 : Memref sig .tc .vmem S1x64x4096 .f32) (harg7 : arg7.IsWhole) (arg8 : Memref sig .tc .vmem S64x4096 .f32) (harg8 : arg8.IsWhole)
    (arg9 : Memref sig .tc .vmem S1x4096 .f32) (harg9 : arg9.IsWhole)
    (q3 q4 : PosShare TreeShare) (T0 T1 : Vec F S8x98 .i32)
    (featb : Vec F S1x64x1024 .f32) (idxb : Vec F S1x1x1024 .i32) (o : Vec F S1x64x4096 .f32)
    (S : Vec F S64x4096 .f32) (C : Vec F S1x4096 .f32) (K : PUnit → sProp 𝕄)
    (hf : first1 i) (ha : act1 i (wordOf i arg3 harg3 T0) (wordOf i arg4 harg4 T1)) (hl : ¬last1 i) :
    iprop(owns (c : Thread nD τ) arg3 q3 T0 ∗ owns (c : Thread nD τ) arg4 q4 T1
        ∗ owns (c : Thread nD τ) arg5 fullShare featb ∗ owns (c : Thread nD τ) arg6 fullShare idxb
        ∗ owns (c : Thread nD τ) arg7 fullShare o
        ∗ owns (c : Thread nD τ) arg8 fullShare S ∗ owns (c : Thread nD τ) arg9 fullShare C
        ∗ (iprop(owns (c : Thread nD τ) arg3 q3 T0 ∗ owns (c : Thread nD τ) arg4 q4 T1
            ∗ owns (c : Thread nD τ) arg5 fullShare featb ∗ owns (c : Thread nD τ) arg6 fullShare idxb
            ∗ owns (c : Thread nD τ) arg7 fullShare (o)
            ∗ owns (c : Thread nD τ) arg8 fullShare (k1_pay4 i idxb featb k1_pay1)
            ∗ owns (c : Thread nD τ) arg9 fullShare (k1_pay5 i idxb k1_pay2)) -∗ K ⟨⟩))
      ⊢ wp frame (wpE (defs₀ (F := F)) Variants.none c none) E (cc1__scatter_kernel i arg3 harg3 arg4 harg4 arg5 harg5 arg6 harg6 arg7 harg7 arg8 harg8 arg9 harg9) K := by
  simp only [cc1__scatter_kernel_eq_skeleton]; unfold cc1__scatter_kernel_skel
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
  obtain rfl := harg3.eq_unread hf3; obtain rfl := harg4.eq_unread hf4
  obtain rfl := harg5.eq_unread hf5; obtain rfl := harg6.eq_unread hf6
  obtain rfl := harg7.eq_unread hf7
  obtain rfl := harg8.eq_unread hf8; obtain rfl := harg9.eq_unread hf9
  sl_exec (disch := first | sl_exact hf | sl_exact ha | sl_exact hl)
  sl_step
  iapply Hk
  isplitl [H3]; · iexists _; isplitr; · ipureintro; exact hf3
                  iexact H3
  isplitl [H4]; · iexists _; isplitr; · ipureintro; exact hf4
                  iexact H4
  isplitl [H5]; · iexists _; isplitr; · ipureintro; exact hf5
                  iexact H5
  isplitl [H6]; · iexists _; isplitr; · ipureintro; exact hf6
                  iexact H6
  isplitl [H7]
  · iexists _; isplitr
    swap; · iexact H7
    ipureintro
    exact hf7
  isplitl [H8]
  · iexists _; isplitr
    swap; · iexact H8
    ipureintro
    (try sl_unfold_run_names); simp only [read_put (s := S64x4096) _ _ z2, read_put (s := S1x4096) _ _ z2, read_put (s := S1x64x4096) _ _ z3, get_whole (s := S64x4096) _ _ z2, get_whole (s := S1x4096) _ _ z2, get_whole (s := S1x64x1024) _ _ z3, get_whole (s := S1x1x1024) _ _ z3, get_whole (s := S1x64x4096) _ _ z3, cov_put (s := S64x4096) _ z2, cov_put (s := S1x4096) _ z2, hf7, hf8, hf9]
  · iexists _; isplitr
    swap; · iexact H9
    ipureintro
    (try sl_unfold_run_names); simp only [read_put (s := S64x4096) _ _ z2, read_put (s := S1x4096) _ _ z2, read_put (s := S1x64x4096) _ _ z3, get_whole (s := S64x4096) _ _ z2, get_whole (s := S1x4096) _ _ z2, get_whole (s := S1x64x1024) _ _ z3, get_whole (s := S1x1x1024) _ _ z3, get_whole (s := S1x64x4096) _ _ z3, cov_put (s := S64x4096) _ z2, cov_put (s := S1x4096) _ z2, hf7, hf8, hf9]

set_option maxHeartbeats 1000000 in
theorem kern_nnL (c : Dev nD) (E : Set ℕ) (i : grid1.Coords)
    (arg3 : Memref sig .tc .smem S8x98 .i32) (harg3 : arg3.IsWhole) (arg4 : Memref sig .tc .smem S8x98 .i32) (harg4 : arg4.IsWhole)
    (arg5 : Memref sig .tc .vmem S1x64x1024 .f32) (harg5 : arg5.IsWhole) (arg6 : Memref sig .tc .vmem S1x1x1024 .i32) (harg6 : arg6.IsWhole)
    (arg7 : Memref sig .tc .vmem S1x64x4096 .f32) (harg7 : arg7.IsWhole) (arg8 : Memref sig .tc .vmem S64x4096 .f32) (harg8 : arg8.IsWhole)
    (arg9 : Memref sig .tc .vmem S1x4096 .f32) (harg9 : arg9.IsWhole)
    (q3 q4 : PosShare TreeShare) (T0 T1 : Vec F S8x98 .i32)
    (featb : Vec F S1x64x1024 .f32) (idxb : Vec F S1x1x1024 .i32) (o : Vec F S1x64x4096 .f32)
    (S : Vec F S64x4096 .f32) (C : Vec F S1x4096 .f32) (K : PUnit → sProp 𝕄)
    (hf : ¬first1 i) (ha : ¬act1 i (wordOf i arg3 harg3 T0) (wordOf i arg4 harg4 T1)) (hl : last1 i) :
    iprop(owns (c : Thread nD τ) arg3 q3 T0 ∗ owns (c : Thread nD τ) arg4 q4 T1
        ∗ owns (c : Thread nD τ) arg5 fullShare featb ∗ owns (c : Thread nD τ) arg6 fullShare idxb
        ∗ owns (c : Thread nD τ) arg7 fullShare o
        ∗ owns (c : Thread nD τ) arg8 fullShare S ∗ owns (c : Thread nD τ) arg9 fullShare C
        ∗ (iprop(owns (c : Thread nD τ) arg3 q3 T0 ∗ owns (c : Thread nD τ) arg4 q4 T1
            ∗ owns (c : Thread nD τ) arg5 fullShare featb ∗ owns (c : Thread nD τ) arg6 fullShare idxb
            ∗ owns (c : Thread nD τ) arg7 fullShare (k1_pay6 S C)
            ∗ owns (c : Thread nD τ) arg8 fullShare (S)
            ∗ owns (c : Thread nD τ) arg9 fullShare (C)) -∗ K ⟨⟩))
      ⊢ wp frame (wpE (defs₀ (F := F)) Variants.none c none) E (cc1__scatter_kernel i arg3 harg3 arg4 harg4 arg5 harg5 arg6 harg6 arg7 harg7 arg8 harg8 arg9 harg9) K := by
  simp only [cc1__scatter_kernel_eq_skeleton]; unfold cc1__scatter_kernel_skel
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
  obtain rfl := harg3.eq_unread hf3; obtain rfl := harg4.eq_unread hf4
  obtain rfl := harg5.eq_unread hf5; obtain rfl := harg6.eq_unread hf6
  obtain rfl := harg7.eq_unread hf7
  obtain rfl := harg8.eq_unread hf8; obtain rfl := harg9.eq_unread hf9
  sl_exec (disch := first | sl_exact hf | sl_exact ha | sl_exact hl)
  sl_step
  iapply Hk
  isplitl [H3]; · iexists _; isplitr; · ipureintro; exact hf3
                  iexact H3
  isplitl [H4]; · iexists _; isplitr; · ipureintro; exact hf4
                  iexact H4
  isplitl [H5]; · iexists _; isplitr; · ipureintro; exact hf5
                  iexact H5
  isplitl [H6]; · iexists _; isplitr; · ipureintro; exact hf6
                  iexact H6
  isplitl [H7]
  · iexists _; isplitr
    swap; · iexact H7
    ipureintro
    (try sl_unfold_run_names); simp only [read_put (s := S64x4096) _ _ z2, read_put (s := S1x4096) _ _ z2, read_put (s := S1x64x4096) _ _ z3, get_whole (s := S64x4096) _ _ z2, get_whole (s := S1x4096) _ _ z2, get_whole (s := S1x64x1024) _ _ z3, get_whole (s := S1x1x1024) _ _ z3, get_whole (s := S1x64x4096) _ _ z3, cov_put (s := S64x4096) _ z2, cov_put (s := S1x4096) _ z2, hf7, hf8, hf9]
  isplitl [H8]
  · iexists _; isplitr
    swap; · iexact H8
    ipureintro
    (try sl_unfold_run_names); simp only [read_put (s := S64x4096) _ _ z2, read_put (s := S1x4096) _ _ z2, read_put (s := S1x64x4096) _ _ z3, get_whole (s := S64x4096) _ _ z2, get_whole (s := S1x4096) _ _ z2, get_whole (s := S1x64x1024) _ _ z3, get_whole (s := S1x1x1024) _ _ z3, get_whole (s := S1x64x4096) _ _ z3, cov_put (s := S64x4096) _ z2, cov_put (s := S1x4096) _ z2, hf7, hf8, hf9]
  · iexists _; isplitr
    swap; · iexact H9
    ipureintro
    (try sl_unfold_run_names); simp only [read_put (s := S64x4096) _ _ z2, read_put (s := S1x4096) _ _ z2, read_put (s := S1x64x4096) _ _ z3, get_whole (s := S64x4096) _ _ z2, get_whole (s := S1x4096) _ _ z2, get_whole (s := S1x64x1024) _ _ z3, get_whole (s := S1x1x1024) _ _ z3, get_whole (s := S1x64x4096) _ _ z3, cov_put (s := S64x4096) _ z2, cov_put (s := S1x4096) _ z2, hf7, hf8, hf9]

set_option maxHeartbeats 1000000 in
theorem kern_nAL (c : Dev nD) (E : Set ℕ) (i : grid1.Coords)
    (arg3 : Memref sig .tc .smem S8x98 .i32) (harg3 : arg3.IsWhole) (arg4 : Memref sig .tc .smem S8x98 .i32) (harg4 : arg4.IsWhole)
    (arg5 : Memref sig .tc .vmem S1x64x1024 .f32) (harg5 : arg5.IsWhole) (arg6 : Memref sig .tc .vmem S1x1x1024 .i32) (harg6 : arg6.IsWhole)
    (arg7 : Memref sig .tc .vmem S1x64x4096 .f32) (harg7 : arg7.IsWhole) (arg8 : Memref sig .tc .vmem S64x4096 .f32) (harg8 : arg8.IsWhole)
    (arg9 : Memref sig .tc .vmem S1x4096 .f32) (harg9 : arg9.IsWhole)
    (q3 q4 : PosShare TreeShare) (T0 T1 : Vec F S8x98 .i32)
    (featb : Vec F S1x64x1024 .f32) (idxb : Vec F S1x1x1024 .i32) (o : Vec F S1x64x4096 .f32)
    (S : Vec F S64x4096 .f32) (C : Vec F S1x4096 .f32) (K : PUnit → sProp 𝕄)
    (hf : ¬first1 i) (ha : act1 i (wordOf i arg3 harg3 T0) (wordOf i arg4 harg4 T1)) (hl : last1 i) :
    iprop(owns (c : Thread nD τ) arg3 q3 T0 ∗ owns (c : Thread nD τ) arg4 q4 T1
        ∗ owns (c : Thread nD τ) arg5 fullShare featb ∗ owns (c : Thread nD τ) arg6 fullShare idxb
        ∗ owns (c : Thread nD τ) arg7 fullShare o
        ∗ owns (c : Thread nD τ) arg8 fullShare S ∗ owns (c : Thread nD τ) arg9 fullShare C
        ∗ (iprop(owns (c : Thread nD τ) arg3 q3 T0 ∗ owns (c : Thread nD τ) arg4 q4 T1
            ∗ owns (c : Thread nD τ) arg5 fullShare featb ∗ owns (c : Thread nD τ) arg6 fullShare idxb
            ∗ owns (c : Thread nD τ) arg7 fullShare (k1_pay6 (k1_pay4 i idxb featb S) (k1_pay5 i idxb C))
            ∗ owns (c : Thread nD τ) arg8 fullShare (k1_pay4 i idxb featb S)
            ∗ owns (c : Thread nD τ) arg9 fullShare (k1_pay5 i idxb C)) -∗ K ⟨⟩))
      ⊢ wp frame (wpE (defs₀ (F := F)) Variants.none c none) E (cc1__scatter_kernel i arg3 harg3 arg4 harg4 arg5 harg5 arg6 harg6 arg7 harg7 arg8 harg8 arg9 harg9) K := by
  simp only [cc1__scatter_kernel_eq_skeleton]; unfold cc1__scatter_kernel_skel
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
  obtain rfl := harg3.eq_unread hf3; obtain rfl := harg4.eq_unread hf4
  obtain rfl := harg5.eq_unread hf5; obtain rfl := harg6.eq_unread hf6
  obtain rfl := harg7.eq_unread hf7
  obtain rfl := harg8.eq_unread hf8; obtain rfl := harg9.eq_unread hf9
  sl_exec (disch := first | sl_exact hf | sl_exact ha | sl_exact hl)
  sl_step
  iapply Hk
  isplitl [H3]; · iexists _; isplitr; · ipureintro; exact hf3
                  iexact H3
  isplitl [H4]; · iexists _; isplitr; · ipureintro; exact hf4
                  iexact H4
  isplitl [H5]; · iexists _; isplitr; · ipureintro; exact hf5
                  iexact H5
  isplitl [H6]; · iexists _; isplitr; · ipureintro; exact hf6
                  iexact H6
  isplitl [H7]
  · iexists _; isplitr
    swap; · iexact H7
    ipureintro
    (try sl_unfold_run_names); simp only [read_put (s := S64x4096) _ _ z2, read_put (s := S1x4096) _ _ z2, read_put (s := S1x64x4096) _ _ z3, get_whole (s := S64x4096) _ _ z2, get_whole (s := S1x4096) _ _ z2, get_whole (s := S1x64x1024) _ _ z3, get_whole (s := S1x1x1024) _ _ z3, get_whole (s := S1x64x4096) _ _ z3, cov_put (s := S64x4096) _ z2, cov_put (s := S1x4096) _ z2, hf7, hf8, hf9]
  isplitl [H8]
  · iexists _; isplitr
    swap; · iexact H8
    ipureintro
    (try sl_unfold_run_names); simp only [read_put (s := S64x4096) _ _ z2, read_put (s := S1x4096) _ _ z2, read_put (s := S1x64x4096) _ _ z3, get_whole (s := S64x4096) _ _ z2, get_whole (s := S1x4096) _ _ z2, get_whole (s := S1x64x1024) _ _ z3, get_whole (s := S1x1x1024) _ _ z3, get_whole (s := S1x64x4096) _ _ z3, cov_put (s := S64x4096) _ z2, cov_put (s := S1x4096) _ z2, hf7, hf8, hf9]
  · iexists _; isplitr
    swap; · iexact H9
    ipureintro
    (try sl_unfold_run_names); simp only [read_put (s := S64x4096) _ _ z2, read_put (s := S1x4096) _ _ z2, read_put (s := S1x64x4096) _ _ z3, get_whole (s := S64x4096) _ _ z2, get_whole (s := S1x4096) _ _ z2, get_whole (s := S1x64x1024) _ _ z3, get_whole (s := S1x1x1024) _ _ z3, get_whole (s := S1x64x4096) _ _ z3, cov_put (s := S64x4096) _ z2, cov_put (s := S1x4096) _ z2, hf7, hf8, hf9]

end Cert.Kernel.Hand

end
-- ==== Proof.BStep1.lean ====
/- Pallas call 1 (the scatter kernel): what one grid point does to the two accumulators, and the accumulators'
   trajectory over the grid, at any float instance.

   The kernel carries two scratch accumulators from point to point: a 64×4096 sum S of feature columns scattered
   to the voxels of the current column tile, and a 1×4096 count C of the points scattered to each voxel. At point
   (b, ct, nt) it first zeroes both if nt = 0; then, if the voxel-id range [w6, w9] of input tile (b, nt) — two
   words of the prefetched tables — meets the column tile, adds to S the product of the tile's features with the
   one-hot matrix of its voxel ids (k1_pay4) and to C the column sums of that matrix (k1_pay5). step1 is this
   one-point map; scrAfter is its iteration along the grid in running order, each point at its own table words
   and input blocks. -/
import proofs.«136896_j63960652972185_2_alg».proof.Proof.BBody1a

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## One point -/

/-- What ONE point leaves in the two accumulators, from the point, the two table words the body loads there, the
    point's input blocks (features, voxel ids) and what the accumulators held: zeroed first at nt = 0; then each
    increased by the tile's contribution if the range test on the two words passes, else kept. -/
def step1 (i : grid1.Coords) (w6 w9 : BitVec 32) (featb : Vec F S1x64x1024 .f32) (idxb : Vec F S1x1x1024 .i32)
    (S : Vec F S64x4096 .f32) (C : Vec F S1x4096 .f32) : Vec F S64x4096 .f32 × Vec F S1x4096 .f32 :=
  if act1 i w6 w9 then
    (k1_pay4 i idxb featb (if first1 i then k1_pay1 else S), k1_pay5 i idxb (if first1 i then k1_pay2 else C))
  else
    (if first1 i then k1_pay1 else S, if first1 i then k1_pay2 else C)

section Cases
variable (i : grid1.Coords) (w6 w9 : BitVec 32) (featb : Vec F S1x64x1024 .f32) (idxb : Vec F S1x1x1024 .i32)
  (S : Vec F S64x4096 .f32) (C : Vec F S1x4096 .f32)

/-- The four cases of step1. -/
theorem step1_nn (hf : ¬first1 i) (ha : ¬act1 i w6 w9) : step1 i w6 w9 featb idxb S C = (S, C) := by
  unfold step1; rw [if_neg ha, if_neg hf, if_neg hf]
theorem step1_nA (hf : ¬first1 i) (ha : act1 i w6 w9) :
    step1 i w6 w9 featb idxb S C = (k1_pay4 i idxb featb S, k1_pay5 i idxb C) := by
  unfold step1; rw [if_pos ha, if_neg hf, if_neg hf]
theorem step1_Fn (hf : first1 i) (ha : ¬act1 i w6 w9) : step1 i w6 w9 featb idxb S C = (k1_pay1, k1_pay2) := by
  unfold step1; rw [if_neg ha, if_pos hf, if_pos hf]
theorem step1_FA (hf : first1 i) (ha : act1 i w6 w9) :
    step1 i w6 w9 featb idxb S C = (k1_pay4 i idxb featb k1_pay1, k1_pay5 i idxb k1_pay2) := by
  unfold step1; rw [if_pos ha, if_pos hf, if_pos hf]

/-- At nt = 0 the step does not depend on what the accumulators held. -/
theorem step1_first (hf : first1 i) (S' : Vec F S64x4096 .f32) (C' : Vec F S1x4096 .f32) :
    step1 i w6 w9 featb idxb S C = step1 i w6 w9 featb idxb S' C' := by
  unfold step1; simp only [if_pos hf]

end Cases

/-! ## The table words, the blocks, the trajectory -/

section Regions
-- the TensorCore's buffer contents when the region is entered, and the admissible contents of the two tables
variable (V : (c : Dev nD) → (b : Ref sig .tc) → Buf (Elt F) ((c : Thread nD τ).loc b)) (a : (pcfg1 (F := F)).Adm)

/-- The word of table 0 (least voxel id per input tile) the body loads at point i: its element at (b, nt), the one
    index of the one-word rectangle the load reads through. -/
def tw0 (i : grid1.Coords) : Elt F .i32 := a.1.at 0 (rw1 i) numel1_S1x1
/-- The word of table 1 (greatest voxel id per input tile) the body loads at point i. -/
def tw1 (i : grid1.Coords) : Elt F .i32 := a.1.at 1 (rw1 i) numel1_S1x1

/-- Window w's block at point t, read off its array as the region finds it (V). -/
def iblk1 (c : Dev nD) (w : Fin (cfg1 a).W) (t : Fin (cfg1 a).N) :
    (((cfg1 a).win w).xblock ((cfg1 a).grid.coords t)).Idx → Elt F ((cfg1 a).win w).elt :=
  (((cfg1 a).win w).blk t).view.read (Elt F) (V c (Pipeline.arrRef spec1 w))

/-- THE TRAJECTORY: what the two accumulators hold after the body at position n of the running order — the step
    of point n, at its table words and input blocks, over what point n - 1 left (at the first point over zeros:
    there nt = 0 and the step ignores it). -/
def scrAfter (c : Dev nD) : (n : ℕ) → n < (cfg1 a).N → Vec F S64x4096 .f32 × Vec F S1x4096 .f32
  | 0, h => step1 (grid1.coords ⟨0, h⟩) (tw0 a (grid1.coords ⟨0, h⟩)) (tw1 a (grid1.coords ⟨0, h⟩))
      (iblk1 V a c 0 ⟨0, h⟩) (iblk1 V a c 1 ⟨0, h⟩) k1_pay1 k1_pay2
  | n + 1, h => step1 (grid1.coords ⟨n + 1, h⟩) (tw0 a (grid1.coords ⟨n + 1, h⟩)) (tw1 a (grid1.coords ⟨n + 1, h⟩))
      (iblk1 V a c 0 ⟨n + 1, h⟩) (iblk1 V a c 1 ⟨n + 1, h⟩)
      (scrAfter c n (Nat.lt_of_succ_lt h)).1 (scrAfter c n (Nat.lt_of_succ_lt h)).2

theorem scrAfter_zero (c : Dev nD) (h : 0 < (cfg1 a).N) :
    scrAfter V a c 0 h = step1 (grid1.coords ⟨0, h⟩) (tw0 a (grid1.coords ⟨0, h⟩)) (tw1 a (grid1.coords ⟨0, h⟩))
      (iblk1 V a c 0 ⟨0, h⟩) (iblk1 V a c 1 ⟨0, h⟩) k1_pay1 k1_pay2 := rfl

theorem scrAfter_succ (c : Dev nD) (n : ℕ) (h : n + 1 < (cfg1 a).N) :
    scrAfter V a c (n + 1) h = step1 (grid1.coords ⟨n + 1, h⟩) (tw0 a (grid1.coords ⟨n + 1, h⟩)) (tw1 a (grid1.coords ⟨n + 1, h⟩))
      (iblk1 V a c 0 ⟨n + 1, h⟩) (iblk1 V a c 1 ⟨n + 1, h⟩)
      (scrAfter V a c n (Nat.lt_of_succ_lt h)).1 (scrAfter V a c n (Nat.lt_of_succ_lt h)).2 := rfl

end Regions

end Cert.Kernel.Hand

end
-- ==== Proof.BBody1c.lean ====
/- Pallas call 1 (the scatter kernel): the body's triple at any grid point, at any float instance.

   The six path lemmas joined by cases on the three conditions: on whole memrefs — the tables held at read contents
   T0, T1, the input blocks at featb, idxb, the output block at o, the accumulators at S, C — the body leaves the
   accumulators at step1 of the point, the two loaded words, the input blocks and (S, C), and the output block at
   the quotient k1_pay6 of those if nt = 97, else as it was. -/
import proofs.«136896_j63960652972185_2_alg».proof.Proof.BBody1b
import proofs.«136896_j63960652972185_2_alg».proof.Proof.BStep1

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem sound_kernel1 (c : Dev nD) (E : Set ℕ) (i : grid1.Coords)
    (arg3 : Memref sig .tc .smem S8x98 .i32) (harg3 : arg3.IsWhole) (arg4 : Memref sig .tc .smem S8x98 .i32) (harg4 : arg4.IsWhole)
    (arg5 : Memref sig .tc .vmem S1x64x1024 .f32) (harg5 : arg5.IsWhole) (arg6 : Memref sig .tc .vmem S1x1x1024 .i32) (harg6 : arg6.IsWhole)
    (arg7 : Memref sig .tc .vmem S1x64x4096 .f32) (harg7 : arg7.IsWhole) (arg8 : Memref sig .tc .vmem S64x4096 .f32) (harg8 : arg8.IsWhole)
    (arg9 : Memref sig .tc .vmem S1x4096 .f32) (harg9 : arg9.IsWhole)
    (q3 q4 : PosShare TreeShare) (T0 T1 : Vec F S8x98 .i32)
    (featb : Vec F S1x64x1024 .f32) (idxb : Vec F S1x1x1024 .i32) (o : Vec F S1x64x4096 .f32)
    (S : Vec F S64x4096 .f32) (C : Vec F S1x4096 .f32) (K : PUnit → sProp 𝕄) :
    iprop(owns (c : Thread nD τ) arg3 q3 T0 ∗ owns (c : Thread nD τ) arg4 q4 T1
        ∗ owns (c : Thread nD τ) arg5 fullShare featb ∗ owns (c : Thread nD τ) arg6 fullShare idxb
        ∗ owns (c : Thread nD τ) arg7 fullShare o
        ∗ owns (c : Thread nD τ) arg8 fullShare S ∗ owns (c : Thread nD τ) arg9 fullShare C
        ∗ (iprop(owns (c : Thread nD τ) arg3 q3 T0 ∗ owns (c : Thread nD τ) arg4 q4 T1
            ∗ owns (c : Thread nD τ) arg5 fullShare featb ∗ owns (c : Thread nD τ) arg6 fullShare idxb
            ∗ owns (c : Thread nD τ) arg7 fullShare (if last1 i then k1_pay6 (step1 i (wordOf i arg3 harg3 T0) (wordOf i arg4 harg4 T1) featb idxb S C).1 (step1 i (wordOf i arg3 harg3 T0) (wordOf i arg4 harg4 T1) featb idxb S C).2 else o)
            ∗ owns (c : Thread nD τ) arg8 fullShare (step1 i (wordOf i arg3 harg3 T0) (wordOf i arg4 harg4 T1) featb idxb S C).1
            ∗ owns (c : Thread nD τ) arg9 fullShare (step1 i (wordOf i arg3 harg3 T0) (wordOf i arg4 harg4 T1) featb idxb S C).2) -∗ K ⟨⟩))
      ⊢ wp frame (wpE (defs₀ (F := F)) Variants.none c none) E (cc1__scatter_kernel i arg3 harg3 arg4 harg4 arg5 harg5 arg6 harg6 arg7 harg7 arg8 harg8 arg9 harg9) K := by
  by_cases hf : first1 i
  · have hl : ¬last1 i := not_last_of_first i hf
    by_cases ha : act1 i (wordOf i arg3 harg3 T0) (wordOf i arg4 harg4 T1)
    · rw [step1_FA i _ _ featb idxb S C hf ha, if_neg hl]
      exact kern_FAn c E i arg3 harg3 arg4 harg4 arg5 harg5 arg6 harg6 arg7 harg7 arg8 harg8 arg9 harg9 q3 q4 T0 T1 featb idxb o S C K hf ha hl
    · rw [step1_Fn i _ _ featb idxb S C hf ha, if_neg hl]
      exact kern_Fnn c E i arg3 harg3 arg4 harg4 arg5 harg5 arg6 harg6 arg7 harg7 arg8 harg8 arg9 harg9 q3 q4 T0 T1 featb idxb o S C K hf ha hl
  · by_cases ha : act1 i (wordOf i arg3 harg3 T0) (wordOf i arg4 harg4 T1)
    · by_cases hl : last1 i
      · rw [step1_nA i _ _ featb idxb S C hf ha, if_pos hl]
        exact kern_nAL c E i arg3 harg3 arg4 harg4 arg5 harg5 arg6 harg6 arg7 harg7 arg8 harg8 arg9 harg9 q3 q4 T0 T1 featb idxb o S C K hf ha hl
      · rw [step1_nA i _ _ featb idxb S C hf ha, if_neg hl]
        exact kern_nAn c E i arg3 harg3 arg4 harg4 arg5 harg5 arg6 harg6 arg7 harg7 arg8 harg8 arg9 harg9 q3 q4 T0 T1 featb idxb o S C K hf ha hl
    · by_cases hl : last1 i
      · rw [step1_nn i _ _ featb idxb S C hf ha, if_pos hl]
        exact kern_nnL c E i arg3 harg3 arg4 harg4 arg5 harg5 arg6 harg6 arg7 harg7 arg8 harg8 arg9 harg9 q3 q4 T0 T1 featb idxb o S C K hf ha hl
      · rw [step1_nn i _ _ featb idxb S C hf ha, if_neg hl]
        exact kern_nnn c E i arg3 harg3 arg4 harg4 arg5 harg5 arg6 harg6 arg7 harg7 arg8 harg8 arg9 harg9 q3 q4 T0 T1 featb idxb o S C K hf ha hl

end Cert.Kernel.Hand

end
-- ==== Proof.BBody1d.lean ====
/- Pallas call 1 (the scatter kernel): the pipeline's proof data and the body obligation, at any float instance.

   Stated at two parameters: V, the TensorCore's buffer contents when the region is entered, and a, admissible
   contents of the two prefetched tables. The proof data says: each input window's buffer holds its block of the
   array V gives; the output window's buffer after a point holds the quotient (k1_pay6) of the two accumulators
   as the trajectory scrAfter has them after that point (consulted only at the points nt = 97, where the body
   stores it; elsewhere the window is idle and its buffer is handed back as found); the invariant carried from
   point to point holds the two tables at contents a, the six staging buffers of pallas call 0 at anything, and
   the two accumulators — at anything before the first point, at scrAfter's pair after each point. -/
import proofs.«136896_j63960652972185_2_alg».proof.Proof.BBody1c

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
-- the TensorCore's buffer contents when the region is entered, and the admissible contents of the two tables
variable (V : (c : Dev nD) → (b : Ref sig .tc) → Buf (Elt F) ((c : Thread nD τ).loc b)) (a : (pcfg1 (F := F)).Adm)

/-! ## The memrefs the body is called with -/

/-- The two tables, whole scalar-memory buffers. -/
abbrev tb0 : Memref sig .tc .smem S8x98 .i32 := Memref.whole main_v12
abbrev tb1 : Memref sig .tc .smem S8x98 .i32 := Memref.whole main_v13
/-- Each window's current staging memref at point t, and its wholeness. -/
abbrev st1_0 (t : Fin (cfg1 a).N) : Memref sig .tc .vmem S1x64x1024 .f32 := spec1_0.stage ((cfg1 a).slots t 0)
abbrev hs1_0 (t : Fin (cfg1 a).N) : (st1_0 a t).IsWhole := hstage1_0 (((cfg1 a).slots t 0).cast nbuf1_0)
abbrev st1_1 (t : Fin (cfg1 a).N) : Memref sig .tc .vmem S1x1x1024 .i32 := spec1_1.stage ((cfg1 a).slots t 1)
abbrev hs1_1 (t : Fin (cfg1 a).N) : (st1_1 a t).IsWhole := hstage1_1 (((cfg1 a).slots t 1).cast nbuf1_1)
abbrev st1_2 (t : Fin (cfg1 a).N) : Memref sig .tc .vmem S1x64x4096 .f32 := spec1_2.stage ((cfg1 a).slots t 2)
abbrev hs1_2 (t : Fin (cfg1 a).N) : (st1_2 a t).IsWhole := hstage1_2 (((cfg1 a).slots t 2).cast nbuf1_2)
/-- The two accumulators, whole scoped buffers of the kernel's own. -/
abbrev scM0 : Memref sig .tc .vmem S64x4096 .f32 := Memref.whole cc1_scratch0
abbrev scM1 : Memref sig .tc .vmem S1x4096 .f32 := Memref.whole cc1_scratch1

/-- The kernel body at point t, on what the pipeline calls it with. -/
abbrev bodyAt1 (t : Fin (cfg1 a).N) : Prog (TpuEff nD τ sig (Elt F) Λ₀ .tc) PUnit :=
  cc1__scatter_kernel (grid1.coords t) tb0 (Memref.isWhole_whole _) tb1 (Memref.isWhole_whole _)
    (st1_0 a t) (hs1_0 a t) (st1_1 a t) (hs1_1 a t) (st1_2 a t) (hs1_2 a t)
    scM0 (Memref.isWhole_whole _) scM1 (Memref.isWhole_whole _)

/-! ## The table words -/

/-- A scalar load through the one-word rectangle at (b, nt) of a whole table held at read contents T reads T's
    element at the rectangle's one index. -/
theorem wordOf_eq (i : grid1.Coords) (arg : Memref sig .tc .smem S8x98 .i32) (harg : arg.IsWhole) (T : Vec F S8x98 .i32) :
    wordOf i arg harg T = T ((rw1 i).emb (Shape.Idx.first (numel1_S1x1.symm ▸ Nat.one_pos))) := by
  unfold wordOf; rw [View.readAt_apply, harg.read_unread]; rfl

/-- The words the body loads from the tables held at contents a are tw0, tw1. -/
theorem word0_eq (i : grid1.Coords) : wordOf i tb0 (Memref.isWhole_whole _) (a.1 0) = tw0 a i := wordOf_eq i _ _ _
theorem word1_eq (i : grid1.Coords) : wordOf i tb1 (Memref.isWhole_whole _) (a.1 1) = tw1 a i := wordOf_eq i _ _ _

/-! ## The trajectory at a point -/

/-- At the first point the trajectory is the step over ANY pair (there nt = 0). -/
theorem scrAfter_at_zero (c : Dev nD) (t : Fin (cfg1 a).N) (hz : t.val = 0) (S : Vec F S64x4096 .f32) (C : Vec F S1x4096 .f32) :
    scrAfter V a c t.val t.isLt = step1 (grid1.coords t) (tw0 a (grid1.coords t)) (tw1 a (grid1.coords t))
      (iblk1 V a c 0 t) (iblk1 V a c 1 t) S C := by
  obtain ⟨n, hn⟩ := t
  cases n with
  | zero => exact step1_first _ _ _ _ _ _ _ (first1_zero hn) S C
  | succ n => exact absurd hz (Nat.succ_ne_zero n)

/-- At any later point it is the step over what the point before left. -/
theorem scrAfter_at_pos (c : Dev nD) (t : Fin (cfg1 a).N) (hz : t.val ≠ 0) :
    scrAfter V a c t.val t.isLt = step1 (grid1.coords t) (tw0 a (grid1.coords t)) (tw1 a (grid1.coords t))
      (iblk1 V a c 0 t) (iblk1 V a c 1 t)
      (scrAfter V a c (t.val - 1) (Nat.lt_of_le_of_lt (Nat.sub_le _ _) t.isLt)).1
      (scrAfter V a c (t.val - 1) (Nat.lt_of_le_of_lt (Nat.sub_le _ _) t.isLt)).2 := by
  obtain ⟨n, hn⟩ := t
  cases n with
  | zero => exact absurd rfl hz
  | succ n => rfl

/-! ## The invariant -/

/-- The core's scoped buffers that are no staging buffer of pallas call 1 — the six staging buffers of pallas
    call 0, each whole at some contents — with the two accumulators as P and Q. -/
def restWith (c : Dev nD) (P Q : sProp 𝕄) : sProp 𝕄 :=
  iprop((∃ f : Buf (Elt F) ((c : Thread nD τ).loc cc0_stg0_0), ((c : Thread nD τ).loc cc0_stg0_0) ↦{fullShare} f)
      ∗ (∃ f : Buf (Elt F) ((c : Thread nD τ).loc cc0_stg0_1), ((c : Thread nD τ).loc cc0_stg0_1) ↦{fullShare} f)
      ∗ (∃ f : Buf (Elt F) ((c : Thread nD τ).loc cc0_stg1_0), ((c : Thread nD τ).loc cc0_stg1_0) ↦{fullShare} f)
      ∗ (∃ f : Buf (Elt F) ((c : Thread nD τ).loc cc0_stg1_1), ((c : Thread nD τ).loc cc0_stg1_1) ↦{fullShare} f)
      ∗ (∃ f : Buf (Elt F) ((c : Thread nD τ).loc cc0_stg2_0), ((c : Thread nD τ).loc cc0_stg2_0) ↦{fullShare} f)
      ∗ (∃ f : Buf (Elt F) ((c : Thread nD τ).loc cc0_stg2_1), ((c : Thread nD τ).loc cc0_stg2_1) ↦{fullShare} f)
      ∗ P ∗ Q)

/-- The scoped rest the launch hands the region: the accumulators at anything. -/
theorem scopedRest1_with (c : Dev nD) :
    (Pipeline.scopedRest spec1 c : sProp 𝕄)
      = restWith c (iprop(∃ d, owns (c : Thread nD τ) scM0 fullShare d)) (iprop(∃ d, owns (c : Thread nD τ) scM1 fullShare d)) := by
  rw [scopedRest1_eq]; unfold restWith; simp only [scM0, scM1, owns_whole]; try rfl

/-- The two tables held, one by one, as whole memrefs at their contents. -/
theorem prefHeld1_eq (c : Dev nD) (q : PosShare TreeShare) (pf : pre1.Contents (Elt F)) :
    (Pipeline.prefHeld pre1 c (fun _ => q) pf : sProp 𝕄)
      = iprop(owns (c : Thread nD τ) tb0 q (pf 0) ∗ owns (c : Thread nD τ) tb1 q (pf 1)) := by
  unfold Pipeline.prefHeld
  rw [bigSep_univ_eq_bigSepL [(0 : Fin 2), (1 : Fin 2)] (by decide) (by decide)]
  exact congrArg₂ (fun x y : sProp 𝕄 => iprop(x ∗ y)) (owns_whole (c : Thread nD τ) main_v12 q (pf 0)).symm
    (owns_whole (c : Thread nD τ) main_v13 q (pf 1)).symm

/-- The invariant before position n: the tables held at contents a; before the first point the scoped rest as the
    launch hands it, afterwards with the two accumulators at what point n - 1 left in them. -/
def Phi1 (c : Dev nD) : (n : ℕ) → n ≤ (cfg1 a).N → sProp 𝕄
  | 0, _ => iprop(Pipeline.prefHeld pre1 c (fun _ => fullShare) a.1 ∗ Pipeline.scopedRest spec1 c)
  | n + 1, hn => iprop(Pipeline.prefHeld pre1 c (fun _ => fullShare) a.1
      ∗ restWith c (owns (c : Thread nD τ) scM0 fullShare (scrAfter V a c n hn).1) (owns (c : Thread nD τ) scM1 fullShare (scrAfter V a c n hn).2))

theorem Phi1_zero (c : Dev nD) (n : ℕ) (h : n ≤ (cfg1 a).N) (hz : n = 0) :
    Phi1 V a c n h = iprop(Pipeline.prefHeld pre1 c (fun _ => fullShare) a.1 ∗ Pipeline.scopedRest spec1 c) := by
  subst hz; rfl

theorem Phi1_succ (c : Dev nD) (n : ℕ) (hn : n < (cfg1 a).N) :
    Phi1 V a c (n + 1) hn = iprop(Pipeline.prefHeld pre1 c (fun _ => fullShare) a.1
      ∗ restWith c (owns (c : Thread nD τ) scM0 fullShare (scrAfter V a c n hn).1) (owns (c : Thread nD τ) scM1 fullShare (scrAfter V a c n hn).2)) := rfl

theorem Phi1_pos (c : Dev nD) (n : ℕ) (h : n ≤ (cfg1 a).N) (hz : n ≠ 0) :
    Phi1 V a c n h = iprop(Pipeline.prefHeld pre1 c (fun _ => fullShare) a.1
      ∗ restWith c (owns (c : Thread nD τ) scM0 fullShare (scrAfter V a c (n - 1) (by omega)).1)
          (owns (c : Thread nD τ) scM1 fullShare (scrAfter V a c (n - 1) (by omega)).2)) := by
  cases n with
  | zero => exact absurd rfl hz
  | succ n => rfl

/-! ## The pipeline's proof data -/

/-- The proof data of pallas call 1 on core c at tables a: the arrays as the region finds them (V); after the body at
    point t each input's buffer at its block, the output's at the quotient of the trajectory's pair there; the
    invariant Phi1; nothing owed; full shares. -/
def dat1 (c : Dev nD) : Dat τ (Elt F) Unit ℕ (UR sig nD τ) ℕ (cfg1 a) c where
  A w := V c (Pipeline.arrRef spec1 w)
  after w t := match w with
    | ⟨0, _⟩ => iblk1 V a c 0 t
    | ⟨1, _⟩ => iblk1 V a c 1 t
    | ⟨2, _⟩ => k1_pay6 (scrAfter V a c t.val t.isLt).1 (scrAfter V a c t.val t.isLt).2
  Φ t := Phi1 V a c t.val (Nat.le_of_lt_succ t.isLt)
  q _ := fullShare
  owed _ := 0

theorem A_eq1 (c : Dev nD) (w : Fin (cfg1 a).W) : (dat1 V a c).A w = V c (Pipeline.arrRef spec1 w) := by
  dsimp only [dat1]

theorem after1_0 (c : Dev nD) (t : Fin (cfg1 a).N) : (dat1 V a c).after (0 : Fin 3) t = iblk1 V a c 0 t := by dsimp only [dat1]; try rfl
theorem after1_1 (c : Dev nD) (t : Fin (cfg1 a).N) : (dat1 V a c).after (1 : Fin 3) t = iblk1 V a c 1 t := by dsimp only [dat1]; try rfl
theorem after1_2 (c : Dev nD) (t : Fin (cfg1 a).N) :
    (dat1 V a c).after (2 : Fin 3) t = k1_pay6 (scrAfter V a c t.val t.isLt).1 (scrAfter V a c t.val t.isLt).2 := by dsimp only [dat1]; try rfl

theorem Phi1_castSucc (c : Dev nD) (t : Fin (cfg1 a).N) :
    (dat1 V a c).Φ t.castSucc = Phi1 V a c t.val (Nat.le_of_lt t.isLt) := by
  dsimp only [dat1]; simp only [Fin.coe_castSucc]

/-- Each input window's current staging buffer holds its block at every point, fetched there or not: unfetched,
    the block index has not moved since the point before. -/
theorem before1_0 (c : Dev nD) (t : Fin (cfg1 a).N) (d) : (dat1 V a c).before (0 : Fin 3) t d = iblk1 V a c 0 t :=
  ((dat1 V a c).before_in_eq_fetched (0 : Fin 3) rfl (fun _ => rfl) (fun _ _ _ => rfl)
      (fun t => by rw [after1_0]; unfold Dat.blockOf iblk1; rw [A_eq1]; try rfl) t d).trans
    (by unfold Dat.fetched Dat.blockOf iblk1; rw [A_eq1]; try rfl)
theorem before1_1 (c : Dev nD) (t : Fin (cfg1 a).N) (d) : (dat1 V a c).before (1 : Fin 3) t d = iblk1 V a c 1 t :=
  ((dat1 V a c).before_in_eq_fetched (1 : Fin 3) rfl (fun _ => rfl) (fun _ _ _ => rfl)
      (fun t => by rw [after1_1]; unfold Dat.blockOf iblk1; rw [A_eq1]; try rfl) t d).trans
    (by unfold Dat.fetched Dat.blockOf iblk1; rw [A_eq1]; try rfl)

end Regions

section Regions
variable (V : (c : Dev nD) → (b : Ref sig .tc) → Buf (Elt F) ((c : Thread nD τ).loc b)) (a : (pcfg1 (F := F)).Adm)

/-! ## The body obligation, at a generic point -/

/-- The invariant before point t, opened: the tables held, the six other scoped buffers at anything, and the two
    accumulators at SOME pair (S, C) over which the step of point t gives the trajectory's pair at t — at the first
    point any pair they happen to hold (there nt = 0), later the pair the point before left. -/
theorem Phi1_open (c : Dev nD) (t : Fin (cfg1 a).N) :
    Phi1 V a c t.val (Nat.le_of_lt t.isLt) ⊢ (iprop(∃ S C,
        ⌜scrAfter V a c t.val t.isLt = step1 (grid1.coords t) (tw0 a (grid1.coords t)) (tw1 a (grid1.coords t))
            (iblk1 V a c 0 t) (iblk1 V a c 1 t) S C⌝
        ∗ Pipeline.prefHeld pre1 c (fun _ => fullShare) a.1
        ∗ restWith c (owns (c : Thread nD τ) scM0 fullShare S) (owns (c : Thread nD τ) scM1 fullShare C)) : sProp 𝕄) := by
  by_cases hz : t.val = 0
  · rw [Phi1_zero V a c _ _ hz, scopedRest1_with]
    unfold restWith
    iintro ⟨Hp, A1, A2, A3, A4, A5, A6, ⟨%S, HS⟩, ⟨%C, HC⟩⟩
    iexists S, C
    isplitr; · ipureintro; exact scrAfter_at_zero V a c t hz S C
    isplitl [Hp]; · iexact Hp
    isplitl [A1]; · iexact A1
    isplitl [A2]; · iexact A2
    isplitl [A3]; · iexact A3
    isplitl [A4]; · iexact A4
    isplitl [A5]; · iexact A5
    isplitl [A6]; · iexact A6
    isplitl [HS]; · iexact HS
    iexact HC
  · rw [Phi1_pos V a c _ _ hz]
    iintro ⟨Hp, HR⟩
    iexists _, _
    isplitr; · ipureintro; exact scrAfter_at_pos V a c t hz
    isplitl [Hp]; · iexact Hp
    iexact HR

/-- What the body is called with at point t: the invariant, the core's debts, and each window's current staging
    buffer at what the pipeline left in it, -/
def bodyPre1 (c : Dev nD) (t : Fin (cfg1 a).N) : sProp 𝕄 :=
  iprop((dat1 V a c).Φ t.castSucc ∗ (dat1 V a c).owesAt () t.castSucc
    ∗ (∃ d, owns (c : Thread nD τ) (st1_0 a t) fullShare ((dat1 V a c).before (0 : Fin 3) t d))
    ∗ (∃ d, owns (c : Thread nD τ) (st1_1 a t) fullShare ((dat1 V a c).before (1 : Fin 3) t d))
    ∗ (∃ d, owns (c : Thread nD τ) (st1_2 a t) fullShare ((dat1 V a c).before (2 : Fin 3) t d)))

/-- and what it returns: the invariant at the next point, the debts, and each buffer at what the body leaves —
    the output's, where the window is idle, as it was found. -/
def bodyPost1 (c : Dev nD) (t : Fin (cfg1 a).N) : sProp 𝕄 :=
  iprop((dat1 V a c).Φ t.succ ∗ (dat1 V a c).owesAt () t.succ
    ∗ (dat1 V a c).leavesExact (0 : Fin 3) t
    ∗ (dat1 V a c).leavesExact (1 : Fin 3) t
    ∗ (dat1 V a c).leavesExact (2 : Fin 3) t)

set_option maxHeartbeats 1600000 in
/-- The body at any point: the inputs' memrefs hold their blocks, the invariant hands the body the tables at contents
    a and the accumulators at a pair over which the point's step is the trajectory's pair there, so the body's
    triple applies at the words tw0, tw1 of the tables; it leaves the accumulators at the trajectory's pair, which
    the invariant takes back, and the output buffer at the quotient of that pair where nt = 97, untouched
    elsewhere, where the window is idle and not written back. -/
theorem sound_body1 (c : Dev nD) (t : Fin (cfg1 a).N) :
    bodyPre1 V a c t ⊢ wp frame (wpE (defs₀ (F := F)) Variants.none c none) Set.univ (bodyAt1 a t) (fun _ => bodyPost1 V a c t) := by
  unfold bodyPre1 bodyPost1 bodyAt1
  simp only [before1_0, before1_1]
  rw [show (dat1 V a c).owesAt () t.succ = (dat1 V a c).owesAt () t.castSucc from rfl]
  rw [show (dat1 V a c).Φ t.succ = Phi1 V a c (t.val + 1) t.isLt from rfl, Phi1_succ, Phi1_castSucc]
  rw [show (dat1 V a c).leavesExact (0 : Fin 3) t = owns (c : Thread nD τ) (st1_0 a t) fullShare ((dat1 V a c).after (0 : Fin 3) t) from by
    unfold Dat.leavesExact; rw [liveAt1_0 a], after1_0]
  rw [show (dat1 V a c).leavesExact (1 : Fin 3) t = owns (c : Thread nD τ) (st1_1 a t) fullShare ((dat1 V a c).after (1 : Fin 3) t) from by
    unfold Dat.leavesExact; rw [liveAt1_1 a], after1_1]
  refine (Idealize.SL.BI.Laws.sep_mono_left (Phi1_open V a c t)).trans ?_
  rw [prefHeld1_eq]
  unfold restWith
  by_cases hl : last1 (grid1.coords t)
  · rw [show (dat1 V a c).leavesExact (2 : Fin 3) t = owns (c : Thread nD τ) (st1_2 a t) fullShare ((dat1 V a c).after (2 : Fin 3) t) from by
      have hi : (cfg1 a).idle (2 : Fin 3) ((cfg1 a).grid.coords t) = false := liveAt1_2 a _ hl
      unfold Dat.leavesExact
      first
        | (rw [hi])
        | (split
           · next h => exact absurd (h.symm.trans hi) (by decide)
           · rfl), after1_2]
    iintro ⟨⟨%S, %C, %hS, ⟨H3, H4⟩, A1, A2, A3, A4, A5, A6, HS, HC⟩, Ho, ⟨%d0, H0⟩, ⟨%d1, H1⟩, ⟨%d2, H2⟩⟩
    iapply (sound_kernel1 c Set.univ (grid1.coords t) tb0 (Memref.isWhole_whole _) tb1 (Memref.isWhole_whole _)
      (st1_0 a t) (hs1_0 a t) (st1_1 a t) (hs1_1 a t) (st1_2 a t) (hs1_2 a t) scM0 (Memref.isWhole_whole _) scM1 (Memref.isWhole_whole _)
      fullShare fullShare (a.1 0) (a.1 1) (iblk1 V a c 0 t) (iblk1 V a c 1 t) _ S C _)
    rw [word0_eq a, word1_eq a, ← hS, if_pos hl]
    isplitl [H3]; · iexact H3
    isplitl [H4]; · iexact H4
    isplitl [H0]; · iexact H0
    isplitl [H1]; · iexact H1
    isplitl [H2]; · iexact H2
    isplitl [HS]; · iexact HS
    isplitl [HC]; · iexact HC
    iintro ⟨H3, H4, H0, H1, H2, HS, HC⟩
    isplitl [H3 H4 A1 A2 A3 A4 A5 A6 HS HC]
    · isplitl [H3 H4]
      · isplitl [H3]; · iexact H3
        iexact H4
      isplitl [A1]; · iexact A1
      isplitl [A2]; · iexact A2
      isplitl [A3]; · iexact A3
      isplitl [A4]; · iexact A4
      isplitl [A5]; · iexact A5
      isplitl [A6]; · iexact A6
      isplitl [HS]; · iexact HS
      iexact HC
    isplitl [Ho]; · iexact Ho
    isplitl [H0]; · iexact H0
    isplitl [H1]; · iexact H1
    iexact H2
  · rw [Dat.leavesExact_idle (dat1 V a c) (2 : Fin 3) t (idleAt1_2 a _ hl) (noFlush1_2 a t hl)]
    iintro ⟨⟨%S, %C, %hS, ⟨H3, H4⟩, A1, A2, A3, A4, A5, A6, HS, HC⟩, Ho, ⟨%d0, H0⟩, ⟨%d1, H1⟩, ⟨%d2, H2⟩⟩
    iapply (sound_kernel1 c Set.univ (grid1.coords t) tb0 (Memref.isWhole_whole _) tb1 (Memref.isWhole_whole _)
      (st1_0 a t) (hs1_0 a t) (st1_1 a t) (hs1_1 a t) (st1_2 a t) (hs1_2 a t) scM0 (Memref.isWhole_whole _) scM1 (Memref.isWhole_whole _)
      fullShare fullShare (a.1 0) (a.1 1) (iblk1 V a c 0 t) (iblk1 V a c 1 t) _ S C _)
    rw [word0_eq a, word1_eq a, ← hS, if_neg hl]
    isplitl [H3]; · iexact H3
    isplitl [H4]; · iexact H4
    isplitl [H0]; · iexact H0
    isplitl [H1]; · iexact H1
    isplitl [H2]; · iexact H2
    isplitl [HS]; · iexact HS
    isplitl [HC]; · iexact HC
    iintro ⟨H3, H4, H0, H1, H2, HS, HC⟩
    isplitl [H3 H4 A1 A2 A3 A4 A5 A6 HS HC]
    · isplitl [H3 H4]
      · isplitl [H3]; · iexact H3
        iexact H4
      isplitl [A1]; · iexact A1
      isplitl [A2]; · iexact A2
      isplitl [A3]; · iexact A3
      isplitl [A4]; · iexact A4
      isplitl [A5]; · iexact A5
      isplitl [A6]; · iexact A6
      isplitl [HS]; · iexact HS
      iexact HC
    isplitl [Ho]; · iexact Ho
    isplitl [H0]; · iexact H0
    isplitl [H1]; · iexact H1
    iexists _; iexact H2

/-- The library's body obligation, at every point. -/
theorem body_obligation1 (c : Dev nD) : BodyObligation (dat1 (F := F) V a c) (defs₀ (F := F)) Variants.none () Set.univ := fun t => by
  rw [bigSep_W1, bigSep_W1]
  exact sound_body1 V a c t

/-! ## Entering and leaving the region -/

/-- What the launch hands the region — the tables held and the scoped rest — is the invariant before the first point. -/
theorem hin1 (c : Dev nD) :
    (iprop(emp ∗ Pipeline.prefHeld pre1 c (fun _ => fullShare) a.1 ∗ Pipeline.scopedRest (cfg1 a).spec c) : sProp 𝕄) ⊢ (dat1 V a c).Φ 0 := by
  rw [show (dat1 V a c).Φ 0 = Phi1 V a c 0 (Nat.zero_le _) from rfl, Phi1_zero V a c 0 _ rfl]
  iintro ⟨-, Hp, Hr⟩
  isplitl [Hp]; · iexact Hp
  iexact Hr

/-- After any point the invariant gives the same back: the accumulators' named contents are forgotten. -/
theorem Phi1_out (c : Dev nD) (t : Fin ((cfg1 a).N + 1)) (ht : t.val ≠ 0) :
    (dat1 V a c).Φ t ⊢ (iprop(Pipeline.prefHeld pre1 c (fun _ => fullShare) a.1 ∗ Pipeline.scopedRest (cfg1 a).spec c) : sProp 𝕄) := by
  rw [show (dat1 V a c).Φ t = Phi1 V a c t.val (Nat.le_of_lt_succ t.isLt) from rfl, Phi1_pos V a c _ _ ht]
  rw [show (Pipeline.scopedRest (cfg1 a).spec c : sProp 𝕄) = Pipeline.scopedRest spec1 c from rfl, scopedRest1_with]
  unfold restWith
  iintro ⟨Hp, A1, A2, A3, A4, A5, A6, HS, HC⟩
  isplitl [Hp]; · iexact Hp
  isplitl [A1]; · iexact A1
  isplitl [A2]; · iexact A2
  isplitl [A3]; · iexact A3
  isplitl [A4]; · iexact A4
  isplitl [A5]; · iexact A5
  isplitl [A6]; · iexact A6
  isplitl [HS]; · iexists _; iexact HS
  iexists _; iexact HC

/-- The same after the last point. -/
theorem hout1 (c : Dev nD) :
    (dat1 V a c).Φ (Fin.last (cfg1 a).N) ⊢ (iprop(Pipeline.prefHeld pre1 c (fun _ => fullShare) a.1 ∗ Pipeline.scopedRest (cfg1 a).spec c) : sProp 𝕄) :=
  Phi1_out V a c _ (by rw [Fin.val_last, N1 a]; omega)

end Regions

end Cert.Kernel.Hand

end
-- ==== Proof.BRun.lean ====
/-
  The run of the whole program: the first kernel region, eight stretches of host operations, the second kernel region
  and the closing reshape, as one list of segments.  Between two segments the TensorCore's unscoped buffers are held at
  named contents `WJ`: the launch memory, then — segment by segment — a region's arrays at what its write-backs leave
  and every other buffer as it was, or a host stretch's operations applied.  The second region's two scalar tables are
  the per-tile minimum and maximum the host computed just before it: their contents there pin its pipeline.  Every weakly
  fair execution terminates, nothing faulting, and every final memory holds each unscoped buffer at the last contents `W11`.
-/
import proofs.«136896_j63960652972185_2_alg».proof.Proof.BBody0
import proofs.«136896_j63960652972185_2_alg».proof.Proof.BBody1d
import proofs.«136896_j63960652972185_2_alg».proof.Proof.Gen.Kernel.Regions
import Idealize.ShloMosaic.Lib.Pipeline.RegionsLoop
import Idealize.ShloMosaic.Lib.Pipeline.FrameSuffix

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each segment boundary -/

/-- At launch. -/
abbrev W0 : Dev nD → Valuation τ sig (Elt F) := fun c b => m (c, b)
/-- The same read at the TensorCore's references: what the first region is entered from. -/
abbrev VA : (c : Dev nD) → (b : Ref sig .tc) → Buf (Elt F) ((c : Thread nD τ).loc b) := fun c b => W0 m c b
/-- After the first region: its arrays at what its write-backs leave, every other buffer as it was. -/
def W1 (c : Dev nD) : Valuation τ sig (Elt F) :=
  Pipeline.withArrays spec0 c (W0 m c) fun w => (dat0 (VA m) c).arrAt w cfg0.N
theorem W1_arr (c : Dev nD) (w : Fin cfg0.W) :
    W1 m c (Proc.devRef .tc (Pipeline.arrRef spec0 w)) = (dat0 (VA m) c).arrAt w cfg0.N := by
  unfold W1; exact Pipeline.withArrays_arr spec0 (launch0 (F := F)).win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
abbrev VA' : (c : Dev nD) → (b : Ref sig .tc) → Buf (Elt F) ((c : Thread nD τ).loc b) := fun c b => W1 m c b
theorem hF0 (c : Dev nD) (w : Fin cfg0.W) : (dat0 (VA m) c).arrAt w cfg0.N = VA' m c (Pipeline.arrRef spec0 w) :=
  (W1_arr m c w).symm
theorem hrest0 (c : Dev nD) : ∀ b, b ∉ Finset.univ.image (Pipeline.arrRef spec0) → VA' m c b = VA m c b :=
  fun b hb => W1_of_ne m c b fun w e => hb (Finset.mem_image.mpr ⟨w, Finset.mem_univ _, e⟩)

/-- After each of the eight host stretches between the regions. -/
abbrev W2 : Dev nD → Valuation τ sig (Elt F) := fun c => StableHlo.after hostOps1 (W1 m c)
abbrev W3 : Dev nD → Valuation τ sig (Elt F) := fun c => StableHlo.after hostOps1_1 (W2 m c)
abbrev W4 : Dev nD → Valuation τ sig (Elt F) := fun c => StableHlo.after hostOps1_2 (W3 m c)
abbrev W5 : Dev nD → Valuation τ sig (Elt F) := fun c => StableHlo.after hostOps1_3 (W4 m c)
abbrev W6 : Dev nD → Valuation τ sig (Elt F) := fun c => StableHlo.after hostOps1_4 (W5 m c)
abbrev W7 : Dev nD → Valuation τ sig (Elt F) := fun c => StableHlo.after hostOps1_5 (W6 m c)
abbrev W8 : Dev nD → Valuation τ sig (Elt F) := fun c => StableHlo.after hostOps1_6 (W7 m c)
abbrev W9 : Dev nD → Valuation τ sig (Elt F) := fun c => StableHlo.after hostOps1_7 (W8 m c)
/-- The same read at the TensorCore's references: what the second region is entered from. -/
abbrev VB : (c : Dev nD) → (b : Ref sig .tc) → Buf (Elt F) ((c : Thread nD τ).loc b) := fun c b => W9 m c b

/-- The one device. -/
abbrev c₀ : Dev nD := ⟨0, Nat.one_pos⟩
theorem dev_eq (c : Dev nD) : c = c₀ := Subsingleton.elim _ _

/-- The second region's tables hold, when it is entered, the two arrays the host has just computed. -/
def tbl : pre1.Contents (Elt F) := fun k => VB m c₀ (pre1.ref k)
/-- They are admissible: the region's side condition on tables is empty, no index map reading one. -/
def adm1 : (pcfg1 (F := F)).Adm := ⟨tbl m, trivial⟩
/-- Every pipeline's tables. -/
def adm : (p : Fin 2) → (pcfgs (F := F) p).Adm
  | ⟨0, _⟩ => cfg0.toPCfg_adm
  | ⟨1, _⟩ => adm1 m

/-- After the second region. -/
def W10 (c : Dev nD) : Valuation τ sig (Elt F) :=
  Pipeline.withArrays spec1 c (W9 m c) fun w => (dat1 (VB m) (adm1 m) c).arrAt w (cfg1 (adm1 m)).N
theorem W10_arr (c : Dev nD) (w : Fin (cfg1 (adm1 m)).W) :
    W10 m c (Proc.devRef .tc (Pipeline.arrRef spec1 w)) = (dat1 (VB m) (adm1 m) c).arrAt w (cfg1 (adm1 m)).N := by
  unfold W10; exact Pipeline.withArrays_arr spec1 (launch1 (F := F)).win.arr_inj c _ _ w
theorem W10_of_ne (c : Dev nD) (b : Ref sig .tc) (hb : ∀ w, Pipeline.arrRef spec1 w ≠ b) :
    W10 m c (Proc.devRef .tc b) = W9 m c (Proc.devRef .tc b) := by
  unfold W10; exact Pipeline.withArrays_of_ne spec1 c _ _ b hb
abbrev VB' : (c : Dev nD) → (b : Ref sig .tc) → Buf (Elt F) ((c : Thread nD τ).loc b) := fun c b => W10 m c b
theorem hF1 (c : Dev nD) (w : Fin (cfg1 (adm1 m)).W) :
    (dat1 (VB m) (adm1 m) c).arrAt w (cfg1 (adm1 m)).N = VB' m c (Pipeline.arrRef spec1 w) :=
  (W10_arr m c w).symm
theorem hrest1 (c : Dev nD) : ∀ b, b ∉ Finset.univ.image (Pipeline.arrRef spec1) → VB' m c b = VB m c b :=
  fun b hb => W10_of_ne m c b fun w e => hb (Finset.mem_image.mpr ⟨w, Finset.mem_univ _, e⟩)
/-- After the closing reshape. -/
abbrev W11 : Dev nD → Valuation τ sig (Elt F) := fun c => StableHlo.after hostOps2 (W10 m c)

/-! ## The proof data family and the thread state -/

/-- Every pipeline's proof data, each at its region's entry contents. -/
def pdats : (p : Fin 2) → (c : Dev nD) → Dat τ (Elt F) Unit ℕ (UR sig nD τ) ℕ (Pipeline.pin (pcfgs (F := F)) (adm m) p) c
  | ⟨0, _⟩ => fun c => dat0 (VA m) c
  | ⟨1, _⟩ => fun c => dat1 (VB m) (adm1 m) c
abbrev 𝒱₀ : Variants := Variants.none
abbrev L : GSem nD τ sig → Finset Unit := fun _ => ∅
abbrev lv : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)
/-- A host stretch as a segment. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W11 m c) ∗ ∃ r, prngReg c r)

/-! ## The regions as segments -/

set_option backward.isDefEq.respectTransparency.types false in
/-- The first region: entered from every unscoped buffer at `W0`, left at `W1`. -/
def reg0 : Pipeline.RegionSeg (pcfgs (F := F)) (adm m) (pdats m) () defs₀ 𝒱₀ L lv 0 where
  win := (launch0 (F := F)).win.to₀
  block_pos := (launch0 (F := F)).block_pos
  stage_whole := (launch0 (F := F)).stage_whole
  K := PEmpty
  osem k := k.elim
  ho := Pipeline.OwnSemFacts.none _
  hbody c := (body_obligation0 (VA m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (VA m c)
  hentry c := by
    rw [Pipeline.ownSems0_none]
    have hsplit := Pipeline.arrays_of_unscopedBufs (p := 0) (pcfgs (F := F)) (adm m) (pdats m) (launch0 (F := F)).win (launch0 (F := F)).arr_whole c
      ((pdats m 0 c).share_full fun _ => rfl) (VA m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) (adm m) (Ix := Unit) (Name := ℕ) (U := UR sig nD τ) (Lvl := ℕ)
      (launch0 (F := F)).win (launch0 (F := F)).arr_whole c (pdats m) ((pdats m 0 c).share_full fun _ => rfl)
      (VA m c) (VA' m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second region: entered from every unscoped buffer at `W9`, left at `W10`.  Its two tables go to the kernel's
    invariant whole and come back unchanged; the generator register passes by. -/
def reg1 : Pipeline.RegionSeg (pcfgs (F := F)) (adm m) (pdats m) () defs₀ 𝒱₀ L lv 1 where
  win := (launch1 (F := F)).win.to₀
  block_pos := (launch1 (F := F)).block_pos
  stage_whole := (launch1 (F := F)).stage_whole
  K := PEmpty
  osem k := k.elim
  ho := Pipeline.OwnSemFacts.none _
  hbody c := (body_obligation1 (VB m) (adm1 m) c).loose
  hwaits := Pipeline.hwaits_of_owed_zero _ _ _ _ L lv 1 fun _ _ => rfl
  pre c := iprop(StableHlo.held (c : Thread nD τ) (Pipeline.ucRefs τ sig) (W9 m c) ∗ R c)
  post c := iprop(StableHlo.held (c : Thread nD τ) (Pipeline.ucRefs τ sig) (W10 m c) ∗ R c)
  X c := iprop(emp)
  Y c := Pipeline.prefHeld (Ix := Unit) (Name := ℕ) (U := UR sig nD τ) (Lvl := ℕ) pre1 c (fun _ => fullShare) (adm1 m).1
  Z c := iprop(Pipeline.unscopedRestP (Ix := Unit) (Name := ℕ) (U := UR sig nD τ) (Lvl := ℕ) pre1 (Pipeline.pin (pcfgs (F := F)) (adm m) 1).spec c (VB m c) ∗ ∃ r, prngReg c r)
  hentry c := by
    rw [Pipeline.ownSems0_none]
    have hsplit := Pipeline.arrays_of_unscopedBufs (p := 1) (pcfgs (F := F)) (adm m) (pdats m) (launch1 (F := F)).win (launch1 (F := F)).arr_whole c
      ((pdats m 1 c).share_full fun _ => rfl) (VB m c) fun _ => rfl
    rw [Pipeline.unscopedBufs_held, Pipeline.unscopedRest_split (win := (Pipeline.pin (pcfgs (F := F)) (adm m) 1).spec) (pre := pre1) preFacts1 c (VB m c)] at hsplit
    have hc : c = c₀ := dev_eq c
    subst hc
    iintro ⟨⟨Hub, Hp, HO⟩, -, -⟩
    ihave H := hsplit $$ Hub
    icases H with ⟨Ha, Hpf, Hrest⟩
    imodintro
    isplitl [Ha]; · iexact Ha
    isplitl [Hpf]; · iexact Hpf
    isplitl [HO]
    · unfold Pipeline.Dat.owesAt Pipeline.owesWithin
      icases HO with ⟨%W, HO⟩; iexists W; isplitr; · ipureintro; exact fun _ _ => Or.inl trivial
      iexact HO
    isplitr; · iempintro
    isplitl [Hrest]; · iexact Hrest
    iexact Hp
  hin c := hin1 (VB m) (adm1 m) c
  hout c := by
    rw [Pipeline.ownSems0_none]
    exact (hout1 (VB m) (adm1 m) c).trans (by
      iintro ⟨Hpf, Hr⟩
      isplitl [Hpf]; · iexact Hpf
      isplitr; · iempintro
      iexact Hr)
  hexit c := by
    have hjoin := Pipeline.unscopedBufs_of_arrays (p := 1) (pcfgs (F := F)) (adm m) (Ix := Unit) (Name := ℕ) (U := UR sig nD τ) (Lvl := ℕ)
      (launch1 (F := F)).win (launch1 (F := F)).arr_whole c (pdats m) ((pdats m 1 c).share_full fun _ => rfl)
      (VB m c) (VB' m c) ((pdats m 1 c).arrAt · (cfg1 (adm1 m)).N) (hF1 m c) (hrest1 m c)
    rw [Pipeline.unscopedBufs_held, Pipeline.unscopedRest_split (win := (Pipeline.pin (pcfgs (F := F)) (adm m) 1).spec) (pre := pre1) preFacts1 c (VB m c)] at hjoin
    have hc : c = c₀ := dev_eq c
    subst hc
    iintro ⟨Ha, HO, HY, Hrest, Hp⟩
    imodintro
    isplitl [Ha Hrest HY]
    · iapply hjoin
      isplitl [Ha]; · iexact Ha
      isplitl [HY]; · iexact HY
      iexact Hrest
    isplitl [Hp]; · iexact Hp
    unfold Pipeline.Dat.owesAt Pipeline.owesWithin
    icases HO with ⟨%W, -, HO⟩; iexists W; iexact HO

/-! ## The program as segments, and the launch -/

/-- The eleven segments in order. -/
abbrev segs : List (Pipeline.Seg (pcfgs (F := F)) (adm m) (pdats m) () defs₀ 𝒱₀ L lv) :=
  [ .region (reg0 m),
    .host (hseg hostOps1 hostOps1_sub hostOps1_fresh (W1 m)),
    .host (hseg hostOps1_1 hostOps1_1_sub hostOps1_1_fresh (W2 m)),
    .host (hseg hostOps1_2 hostOps1_2_sub hostOps1_2_fresh (W3 m)),
    .host (hseg hostOps1_3 hostOps1_3_sub hostOps1_3_fresh (W4 m)),
    .host (hseg hostOps1_4 hostOps1_4_sub hostOps1_4_fresh (W5 m)),
    .host (hseg hostOps1_5 hostOps1_5_sub hostOps1_5_fresh (W6 m)),
    .host (hseg hostOps1_6 hostOps1_6_sub hostOps1_6_fresh (W7 m)),
    .host (hseg hostOps1_7 hostOps1_7_sub hostOps1_7_fresh (W8 m)),
    .region (reg1 m),
    .host (hseg hostOps2 hostOps2_sub hostOps2_fresh (W10 m)) ]

set_option backward.isDefEq.respectTransparency.types false in
/-- THE RUN.  From any memory with zero counters every weakly fair execution of the program on the TensorCore terminates,
    nothing faulting, and every final memory holds each unscoped buffer at `W11`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W11 m c b) :=
  Pipeline.θ_run_regions_kit_dev (pcfgs (F := F)) (adm m) (pdats m) () (cellOf_inj (adm m)) emb₁ defs₀ 𝒱₀ L lv m ρ main
    (fun _ => segs m)
    (fun c Q => by
      rewrite [main_chain c, Pipeline.Seg.run_eq_chain,
        show (segs m).map Pipeline.Seg.prog = [
          Prog.lift (.customCall (Pipeline.entry 0) ()),
          StableHlo.seq hostOps1,
          StableHlo.seq hostOps1_1,
          StableHlo.seq hostOps1_2,
          StableHlo.seq hostOps1_3,
          StableHlo.seq hostOps1_4,
          StableHlo.seq hostOps1_5,
          StableHlo.seq hostOps1_6,
          StableHlo.seq hostOps1_7,
          Prog.lift (.customCall (Pipeline.entry 1) ()),
          StableHlo.seq hostOps2 ] from rfl]
      exact .rfl)
    (fun c => by simp only [segs, Pipeline.Seg.pipes_host, Pipeline.Seg.pipes_region, Pipeline.Seg.pipes_nil]; decide)
    (O₀ := 0) (hL := fun _ _ => rfl) (G := fun _ => iprop(emp))
    (u₀ := initOf (Pipeline.cells (Pipeline.pin (pcfgs (F := F)) (adm m)) (cellOf_inj (adm m))) (Pipeline.launchToks (Pipeline.pin (pcfgs (F := F)) (adm m)) (cellOf_inj (adm m))))
    (hu₀ := by
      iintro Hu; imodintro
      isplitl [Hu]
      · iapply (show (ownU (initOf (Pipeline.cells (Pipeline.pin (pcfgs (F := F)) (adm m)) (cellOf_inj (adm m))) (Pipeline.launchToks (Pipeline.pin (pcfgs (F := F)) (adm m)) (cellOf_inj (adm m)))) : sProp 𝕄)
            ⊢ BI.own (emb₁ (initOf (Pipeline.cells (Pipeline.pin (pcfgs (F := F)) (adm m)) (cellOf_inj (adm m))) (Pipeline.launchToks (Pipeline.pin (pcfgs (F := F)) (adm m)) (cellOf_inj (adm m))))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := fun c => ⟨.rfl, .rfl, .rfl, .rfl, .rfl, .rfl, .rfl, .rfl, .rfl, .rfl, .rfl,
      (show iprop(StableHlo.held (c : Thread nD τ) (Pipeline.ucRefs τ sig) (W11 m c) ∗ R c)
          ⊢ iprop(Tₙ m c ∗ ∃ W, owes (c : Thread nD τ) (0 : CellTallies nD τ sig Unit) W) from by
        iintro ⟨Hh, Hp, HO⟩
        isplitl [Hh Hp]
        · isplitl [Hh]; · iexact Hh
          iexact Hp
        iexact HO)⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m c b)
    (hfin := fun c s' => by
      iintro ⟨⟨Hh, -⟩, HSI⟩
      unfold StableHlo.held
      imodintro
      iapply (pointsTo_read_all (Pipeline.ucRefs τ sig) (fun b => (((c : Thread nD τ)).1, b)) (W11 m c) s')
      isplitl [Hh] <;> iassumption)
    (hQ := fun s h => h)

end Cert.Kernel.Hand

end
-- ==== Proof.BEnd.lean ====
/-
  The last boundary contents read back at the buffers the claims speak of: each argument array is what the launch memory
  held (no host operation writes an argument, the first region only reads the coordinates, the second neither), the
  normalised coordinates are what the first region's write-backs left, and the voxel grid is the second region's array
  recast to five axes.
-/
import proofs.«136896_j63960652972185_2_alg».proof.Proof.BRun
import Idealize.ShloMosaic.Lib.StableHlo.Run

set_option maxRecDepth 16384

noncomputable section

namespace Cert.Kernel.Hand

open Cert.Kernel Cert.Kernel.Gen
open Idealize.ShloMosaic Idealize.ShloMosaic.TcCoe Idealize.ShloMosaic.StableHlo
open Idealize.SL Idealize.SL.Sem
open Idealize.ShloMosaic.Pipeline (Dat)

variable {F : FTy → Type} [FloatOps F]
variable (m : (ℓ : Loc nD τ sig) → Buf (Elt F) ℓ)

/-! ## What each host stretch leaves alone -/

theorem W2_of (c : Dev nD) (r : Ref sig .tc) (h : r ∉ hostOps1_W) : W2 m c r = W1 m c r :=
  StableHlo.after_of_writes_sub hostOps1 _ hostOps1_writes h
theorem W3_of (c : Dev nD) (r : Ref sig .tc) (h : r ∉ hostOps1_1_W) : W3 m c r = W2 m c r :=
  StableHlo.after_of_writes_sub hostOps1_1 _ hostOps1_1_writes h
theorem W4_of (c : Dev nD) (r : Ref sig .tc) (h : r ∉ hostOps1_2_W) : W4 m c r = W3 m c r :=
  StableHlo.after_of_writes_sub hostOps1_2 _ hostOps1_2_writes h
theorem W5_of (c : Dev nD) (r : Ref sig .tc) (h : r ∉ hostOps1_3_W) : W5 m c r = W4 m c r :=
  StableHlo.after_of_writes_sub hostOps1_3 _ hostOps1_3_writes h
theorem W6_of (c : Dev nD) (r : Ref sig .tc) (h : r ∉ hostOps1_4_W) : W6 m c r = W5 m c r :=
  StableHlo.after_of_writes_sub hostOps1_4 _ hostOps1_4_writes h
theorem W7_of (c : Dev nD) (r : Ref sig .tc) (h : r ∉ hostOps1_5_W) : W7 m c r = W6 m c r :=
  StableHlo.after_of_writes_sub hostOps1_5 _ hostOps1_5_writes h
theorem W8_of (c : Dev nD) (r : Ref sig .tc) (h : r ∉ hostOps1_6_W) : W8 m c r = W7 m c r :=
  StableHlo.after_of_writes_sub hostOps1_6 _ hostOps1_6_writes h
theorem W9_of (c : Dev nD) (r : Ref sig .tc) (h : r ∉ hostOps1_7_W) : W9 m c r = W8 m c r :=
  StableHlo.after_of_writes_sub hostOps1_7 _ hostOps1_7_writes h
theorem W11_of (c : Dev nD) (r : Ref sig .tc) (h : r ∉ hostOps2_W) : W11 m c r = W10 m c r :=
  StableHlo.after_of_writes_sub hostOps2 _ hostOps2_writes h

/-- A buffer no host stretch between the regions writes holds, when the second region is entered, what the first left. -/
theorem W9_W1 (c : Dev nD) (r : Ref sig .tc) (h1 : r ∉ hostOps1_W) (h2 : r ∉ hostOps1_1_W) (h3 : r ∉ hostOps1_2_W) (h4 : r ∉ hostOps1_3_W)
    (h5 : r ∉ hostOps1_4_W) (h6 : r ∉ hostOps1_5_W) (h7 : r ∉ hostOps1_6_W) (h8 : r ∉ hostOps1_7_W) : W9 m c r = W1 m c r :=
  (W9_of m c r h8).trans <| (W8_of m c r h7).trans <| (W7_of m c r h6).trans <| (W6_of m c r h5).trans <| (W5_of m c r h4).trans <|
    (W4_of m c r h3).trans <| (W3_of m c r h2).trans (W2_of m c r h1)

/-- A buffer that is no array of the second region and that neither the closing reshape nor a stretch between the
    regions writes ends as the first region left it. -/
theorem W11_W1 (c : Dev nD) (r : Ref sig .tc) (h0 : r ∉ hostOps2_W) (ha : ∀ w, Pipeline.arrRef spec1 w ≠ r)
    (h1 : r ∉ hostOps1_W) (h2 : r ∉ hostOps1_1_W) (h3 : r ∉ hostOps1_2_W) (h4 : r ∉ hostOps1_3_W)
    (h5 : r ∉ hostOps1_4_W) (h6 : r ∉ hostOps1_5_W) (h7 : r ∉ hostOps1_6_W) (h8 : r ∉ hostOps1_7_W) : W11 m c r = W1 m c r :=
  (W11_of m c r h0).trans <| (W10_of_ne m c r ha).trans (W9_W1 m c r h1 h2 h3 h4 h5 h6 h7 h8)

/-! ## The arguments, the normalised coordinates -/

theorem W11_main_arg0 (c : Dev nD) : W11 m c main_arg0 = m ((c : Thread nD τ).loc main_arg0) :=
  (W11_W1 m c main_arg0 (by decide) (by decide) (by decide) (by decide) (by decide) (by decide) (by decide) (by decide) (by decide) (by decide)).trans
    ((W1_of_ne m c main_arg0 (by decide)).trans rfl)

theorem W1_main_arg1 (c : Dev nD) : W1 m c main_arg1 = m ((c : Thread nD τ).loc main_arg1) :=
  (W1_arr m c 0).trans (((dat0 (VA m) c).arrAt_in 0 rfl _).trans ((A_eq0 (VA m) c 0).trans rfl))

theorem W11_main_arg1 (c : Dev nD) : W11 m c main_arg1 = m ((c : Thread nD τ).loc main_arg1) :=
  (W11_W1 m c main_arg1 (by decide) (by decide) (by decide) (by decide) (by decide) (by decide) (by decide) (by decide) (by decide) (by decide)).trans
    (W1_main_arg1 m c)

/-- The second result: what the first region's write-backs left in its first output array. -/
theorem W11_main_v0_0 (c : Dev nD) : W11 m c main_v0_0 = (dat0 (VA m) c).arrAt 1 cfg0.N :=
  (W11_W1 m c main_v0_0 (by decide) (by decide) (by decide) (by decide) (by decide) (by decide) (by decide) (by decide) (by decide) (by decide)).trans
    (W1_arr m c 1)

/-- The voxel ids the host stretches start from: the first region's second output array. -/
theorem W1_main_v0_1 (c : Dev nD) : W1 m c main_v0_1 = (dat0 (VA m) c).arrAt 2 cfg0.N := W1_arr m c 2
/-- The features the host stretches gather from: the launch memory's. -/
theorem W1_main_arg0 (c : Dev nD) : W1 m c main_arg0 = m ((c : Thread nD τ).loc main_arg0) :=
  (W1_of_ne m c main_arg0 (by decide)).trans rfl

/-! ## The voxel grid -/

/-- The first result: the second region's output array, recast from [8, 64, 32768] to [8, 64, 32, 32, 32]. -/
theorem W11_main_v15 (c : Dev nD) :
    (W11 m c main_v15 : S8x64x32x32x32.Idx → Elt F .f32)
      = shapeCast S8x64x32x32x32 (W10 m c main_v14 : S8x64x32768.Idx → Elt F .f32) shapeCasts_S8x64x32768_S8x64x32x32x32 := by
  dsimp only [W11, hostOps2]
  after_results
  rfl

/-- That array is what the second region's write-backs left. -/
theorem W10_main_v14 (c : Dev nD) : W10 m c main_v14 = (dat1 (VB m) (adm1 m) c).arrAt 2 (cfg1 (adm1 m)).N := W10_arr m c 2

/-! ## The frame -/

/-- Both argument arrays end as launched. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨(h c _ (mem_uc main_arg0 (by decide))).trans (W11_main_arg0 m c),
     (h c _ (mem_uc main_arg1 (by decide))).trans (W11_main_arg1 m c)⟩) (run_all m ρ)

end Cert.Kernel.Hand

end
-- ==== Proof.KBody0.lean ====
/- The body of pallas_call 0 (the coordinate kernel, grid of 8 points), at any float instance.

   At every grid point the body reads the whole block of window 0 (one batch row of the points' coordinates, a
   1×3×100000 block of the first output's source array) and stores two whole blocks computed from it alone:
   into window 1 the coordinates centred on their mean over the 100000 points, divided by twice the largest
   distance from the mean, shifted by one half, scaled by 32 and clamped to [0, 31] (the payload k0_pay3); into
   window 2 the cell number ((x·32 + y)·32 + z) of the rounded clamped coordinates (the payload k0_pay1 ∘ k0_pay4).
   Neither store depends on what the output buffers held, nor on the grid point otherwise than through the
   input block: each output block is one function of the input block.

   This module states that function per output window (out0_1, out0_2), proves the body's triple over whole
   staging buffers (sound_kernel0), gives the pipeline's proof data at a PARAMETER V — the TensorCore's buffer
   contents when the region is entered — (dat0), and proves the library's body obligation for it
   (body_obligation0). -/
import proofs.«136896_j63960652972185_2_alg».proof.Proof.Gen.KernelIdeal.Launch
import proofs.«136896_j63960652972185_2_alg».proof.Proof.Gen.KernelIdeal.Skeleton
import proofs.«136896_j63960652972185_2_alg».proof.Proof.Gen.KernelIdeal.Points
import Idealize.ShloMosaic.Lib.Pipeline.FrameBody
import Idealize.ShloMosaic.Lib.Ring
import Idealize.ShloMosaic.Lib.Tactic

-- membership of an index in a rectangle of extents 1×3×100000: the elaborator's structural look recurses once
-- per coordinate of the long axis
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
-- the TensorCore's buffer contents when the region is entered: the parameter everything below is stated at
variable (V : (c : Dev nD) → (b : Ref sig .tc) → Buf (Elt F) ((c : Thread nD τ).loc b))

/-! ## The windows' blocks -/

/-- Window w's block at point t, read off its array as the region finds it (V). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input window's current staging buffer holds its block at every point, for ANY proof data whose array is
    V's (hA) and whose body leaves the block in place (hafter): the window is fetched at every point it moves,
    is uncut and never idle, so what the buffer holds before the body is the block fetched there. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each is a whole buffer -/

/-- The whole 1×3×100000 buffer (the input's load and the first output's store). -/
abbrev r0_3 : Rect S1x3x100000 := Rect.unit (s := S1x3x100000) ![0, 0, 0] S1x3x100000.size inb_S1x3x100000_S1x3x100000_0_0_0
/-- The whole 1×1×100000 buffer (the second output's store). -/
abbrev r0_1 : Rect S1x1x100000 := Rect.unit (s := S1x1x100000) ![0, 0, 0] S1x1x100000.size inb_S1x1x100000_S1x1x100000_0_0_0

/-! ## What the body leaves in each output window's buffer -/

/-- Window 1's staging buffer after the body, from the input block x0: its one store, of the normalized,
    scaled and clamped coordinates k0_pay3 of the block read whole. -/
def out0_1 (x0 : Vec F S1x3x100000 .f32) : Vec F S1x3x100000 .f32 :=
  View.canon [⟨r0_3, k0_pay3 (View.ld x0 r0_3)⟩]

/-- Window 2's staging buffer after the body, from the input block x0: its one store, of the cell numbers
    k0_pay1 (k0_pay4 ·) of the block read whole. -/
def out0_2 (x0 : Vec F S1x3x100000 .f32) : Vec F S1x1x100000 .i32 :=
  View.canon [⟨r0_1, k0_pay1 (k0_pay4 (View.ld x0 r0_3))⟩]

/-- The one store into window 1's buffer is of the whole buffer, so it covers it. -/
theorem cover0_1 (p0 : Vec F S1x3x100000 .f32) (y : S1x3x100000.Idx) :
    ∃ pc ∈ ([⟨r0_3, p0⟩] : List (View.Piece (Elt F) S1x3x100000 .f32)), y ∈ pc.1.set :=
  View.cover_of_tiled [⟨r0_3, p0⟩] S1x3x100000.size (by rfl) y

/-- The one store into window 2's buffer is of the whole buffer, so it covers it. -/
theorem cover0_2 (p0 : Vec F S1x1x100000 .i32) (y : S1x1x100000.Idx) :
    ∃ pc ∈ ([⟨r0_1, p0⟩] : List (View.Piece (Elt F) S1x1x100000 .i32)), y ∈ pc.1.set :=
  View.cover_of_tiled [⟨r0_1, p0⟩] S1x1x100000.size (by rfl) y

/-! ## The body's triple -/

/-- The kernel body on whole staging memrefs, the input's at read contents x0 and the outputs' at anything, runs to
    the continuation holding the input's as it was and each output's at out0_W of the input's: the body is two
    whole-buffer loads whose values are dropped, the input's whole-buffer load, and one whole-buffer store per
    output, of a payload of the loaded input. -/
theorem sound_kernel0 (c : Dev nD) (E : Set ℕ) (i : grid0.Coords)
    (arg1 : Memref sig .tc .vmem S1x3x100000 .f32) (harg1 : arg1.IsWhole)
    (arg2 : Memref sig .tc .vmem S1x3x100000 .f32) (harg2 : arg2.IsWhole)
    (arg3 : Memref sig .tc .vmem S1x1x100000 .i32) (harg3 : arg3.IsWhole)
    (x0 : Vec F S1x3x100000 .f32) (K : PUnit → sProp 𝕄) :
    iprop(owns (c : Thread nD τ) arg1 fullShare x0 ∗ (∃ d, owns (c : Thread nD τ) arg2 fullShare d)
        ∗ (∃ d, owns (c : Thread nD τ) arg3 fullShare d)
        ∗ (iprop(owns (c : Thread nD τ) arg1 fullShare x0 ∗ owns (c : Thread nD τ) arg2 fullShare (out0_1 x0)
            ∗ owns (c : Thread nD τ) arg3 fullShare (out0_2 x0)) -∗ K ⟨⟩))
      ⊢ wp frame (wpE (defs₀ (F := F)) Variants.none c none) E (cc0__coords_kernel i arg1 harg1 arg2 harg2 arg3 harg3) K := by
  simp only [cc0__coords_kernel_eq_skeleton]; unfold cc0__coords_kernel_skel
  unfold owns
  iintro ⟨⟨%f0, %hf0, H0⟩, ⟨%d1, %f1, -, H1⟩, ⟨%d2, %f2, -, H2⟩, Hk⟩
  subst hf0
  sl_exec
  sl_step
  iapply Hk
  isplitl [H0]
  · iexists f0; isplitr; · ipureintro; rfl
    iexact H0
  isplitl [H1]
  · iexists _; isplitr
    swap; · iexact H1
    ipureintro
    exact View.read_writes_eq_canon _ _ _ (cover0_1 _)
  iexists _; isplitr
  swap; · iexact H2
  ipureintro
  exact View.read_writes_eq_canon _ _ _ (cover0_2 _)

/-! ## The pipeline's proof data -/

/-- The proof data of pallas_call 0 on core c: the arrays as the region finds them (V); after the body at
    point t the input's buffer at its block and each output's at out0_W of the input block; the invariant the
    scoped rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => out0_1 (iblk0 V c 0 t)
    | ⟨2, _⟩ => out0_2 (iblk0 V c 0 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = out0_1 (iblk0 V c 0 t) := by dsimp only [dat0]
theorem after0_2 (c : Dev nD) (t : Fin cfg0.N) : (dat0 V c).after 2 t = out0_2 (iblk0 V c 0 t) := by dsimp only [dat0]

/-- The input's current staging buffer holds its block at every point. -/
theorem before0_0 (c : Dev nD) (t : Fin cfg0.N) (d) : (dat0 V c).before 0 t d = iblk0 V c 0 t :=
  before0_0_of V (dat0 V c) (A_eq0 V c 0) (after0_0 V c) t d

/-! ## The body obligation, at a generic point -/

/-- What the body is called with at point t: the invariant, the core's debts, and each window's current staging
    buffer at what the pipeline left in it, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns: the same with each buffer at what the body leaves. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the input's memref holds its block (before0_0), so sound_kernel0 applies at that block;
    the invariant and the core's debts pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) _)
  isplitl [H0]; · iexact H0
  isplitl [H1]; · iexists _; iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

end Regions

end Cert.KernelIdeal.Hand

end
-- ==== Proof.KBody1a.lean ====
/- Pallas call 1 (the scatter kernel, grid 8 × 8 × 98 in row-major order), at any float instance: the body's
   three branch conditions, the schedule facts of its output window, and the whole-buffer access lemmas.

   A grid point is (b, ct, nt): batch row b, output column tile ct (4096 voxels), input tile nt (1024 points).
   The body runs three conditionals in sequence. The first holds exactly when nt = 0 and zeroes the two
   accumulators. The second is computed from two words of the prefetched tables — the least and the greatest
   voxel id of input tile (b, nt) — and holds when that range meets the column tile [ct·4096, ct·4096 + 4096);
   it adds the tile's contribution to both accumulators. The third holds exactly when nt = 97 and stores the
   quotient of the accumulators into the output block. The output window's block index is (b, 0, ct): it does not
   move while nt runs, so the pipeline writes the block back only after a point with nt = 97. -/
import proofs.«136896_j63960652972185_2_alg».proof.Proof.Gen.KernelIdeal.Launch
import proofs.«136896_j63960652972185_2_alg».proof.Proof.Gen.KernelIdeal.Skeleton
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The three conditions -/

/-- The first conditional's condition, as the body computes it from the grid point: nt = 0. -/
abbrev first1 (i : grid1.Coords) : Prop :=
  Scalar.cmpi .ne (Scalar.extui (Scalar.cmpi .eq (BitVec.ofNat 32 (i 2).val) 0#32)) 0#32 = 1#1
/-- The third conditional's condition: nt = 97. -/
abbrev last1 (i : grid1.Coords) : Prop := k1_cond3 i = 1#1
/-- The second conditional's condition, as the body computes it from the grid point and the two table words it
    loads (w6 the least, w9 the greatest voxel id of the input tile): w9 ≥ ct·4096 and w6 < ct·4096 + 4096, as
    signed words. -/
abbrev act1 (i : grid1.Coords) (w6 w9 : BitVec 32) : Prop :=
  Scalar.cmpi .ne (Scalar.extui (Scalar.andi (Scalar.cmpi .sge w9 (Scalar.muli (BitVec.ofNat 32 (i 1).val) 4096#32))
    (Scalar.cmpi .slt w6 (Scalar.addi (Scalar.muli (BitVec.ofNat 32 (i 1).val) 4096#32) 4096#32)))) 0#32 = 1#1

/-- The first condition holds exactly at nt = 0 (decided over the 98 values of nt). -/
theorem first1_iff (i : grid1.Coords) : first1 i ↔ (i 2).val = 0 :=
  (by decide +kernel : ∀ x : Fin 98,
    (Scalar.cmpi .ne (Scalar.extui (Scalar.cmpi .eq (BitVec.ofNat 32 x.val) 0#32)) 0#32 = 1#1) ↔ x.val = 0) (i 2)

/-- The third condition holds exactly at nt = 97. -/
theorem last1_iff (i : grid1.Coords) : last1 i ↔ (i 2).val = 97 :=
  (by decide +kernel : ∀ x : Fin 98,
    (Scalar.cmpi .ne (Scalar.extui (Scalar.cmpi .eq (BitVec.ofNat 32 x.val) 97#32)) 0#32 = 1#1) ↔ x.val = 97) (i 2)

/-- No point is both the first and the last of its row of input tiles. -/
theorem not_last_of_first (i : grid1.Coords) (h : first1 i) : ¬last1 i := fun h' => by
  have h0 := (first1_iff i).mp h; have h1 := (last1_iff i).mp h'; omega

/-! ## The grid's points: point t is (t / 784 % 8, t / 98 % 8, t % 98) -/

theorem stride1_0 : grid1.stride 0 = 784 := by decide
theorem stride1_1 : grid1.stride 1 = 98 := by decide
theorem stride1_2 : grid1.stride 2 = 1 := by decide

theorem coords1_0 (t : Fin grid1.N) : (grid1.coords t 0).val = t.val / 784 % 8 := by
  show t.val / grid1.stride 0 % 8 = _; rw [stride1_0]
theorem coords1_1 (t : Fin grid1.N) : (grid1.coords t 1).val = t.val / 98 % 8 := by
  show t.val / grid1.stride 1 % 8 = _; rw [stride1_1]
theorem coords1_2 (t : Fin grid1.N) : (grid1.coords t 2).val = t.val % 98 := by
  show t.val / grid1.stride 2 % 98 = _; rw [stride1_2, Nat.div_one]

/-- The first point of the grid has nt = 0. -/
theorem first1_zero (h : 0 < grid1.N) : first1 (grid1.coords ⟨0, h⟩) :=
  (first1_iff _).mpr ((coords1_2 ⟨0, h⟩).trans (Nat.zero_mod _))

/-! ## The output window's schedule -/

section Sched
variable (a : (pcfg1 (F := F)).Adm)

/-- The pipeline at any admissible tables has the compiled grid's 6272 points. -/
theorem N1 : (cfg1 a).N = 6272 := N_1

/-- The input windows are never idle. -/
theorem liveAt1_0 (i : grid1.Coords) : (cfg1 a).idle 0 i = false := rfl
theorem liveAt1_1 (i : grid1.Coords) : (cfg1 a).idle 1 i = false := rfl
/-- The output window is idle exactly where the third condition fails: the body stores into it only under it. -/
theorem idleAt1_2 (i : grid1.Coords) (h : ¬last1 i) : (cfg1 a).idle 2 i = true := by
  show (!(k1_cond3 i == 1#1)) = true
  rw [Bool.not_eq_true', beq_eq_false_iff_ne]; exact h
theorem liveAt1_2 (i : grid1.Coords) (h : last1 i) : (cfg1 a).idle 2 i = false := by
  show (!(k1_cond3 i == 1#1)) = false
  rw [Bool.not_eq_false', beq_iff_eq]; exact h

/-- Where nt ≠ 97 the pipeline does not write the output block back: the next point exists and has the same
    (b, ct), so the same block index (b, 0, ct). -/
theorem noFlush1_2 (t : Fin (cfg1 a).N) (h : ¬last1 (grid1.coords t)) : ((cfg1 a).win 2).flush t = false := by
  have hN : t.val < 6272 := lt_of_lt_of_eq t.isLt (N1 a)
  have h97 : t.val % 98 ≠ 97 := fun e => h ((last1_iff _).mpr ((coords1_2 t).trans e))
  have hnext : t.val + 1 < grid1.N := by rw [N_1]; omega
  have hix : cc1_transform_2 (grid1.coords ⟨t.val + 1, hnext⟩) = cc1_transform_2 (grid1.coords t) :=
    hreads1_2 _ _ fun ax hax => by
      have h0 : ax = 0 ∨ ax = 1 := by
        revert hax; fin_cases ax <;> simp
      rcases h0 with rfl | rfl
      · apply Fin.ext; rw [coords1_0, coords1_0]; show (t.val + 1) / 784 % 8 = t.val / 784 % 8; omega
      · apply Fin.ext; rw [coords1_1, coords1_1]; show (t.val + 1) / 98 % 8 = t.val / 98 % 8; omega
  unfold Pipeline.Window.flush
  rw [Bool.and_eq_false_imp]; intro _
  rw [Bool.or_eq_false_iff]
  refine ⟨decide_eq_false (by show ¬(t.val + 1 = grid1.N); rw [N_1]; omega), decide_eq_false ?_⟩
  rintro ⟨h', hne⟩
  exact hne hix

end Sched

/-! ## Whole-buffer accesses

Every vector load and store of the body is of the whole buffer, through the rectangle at offset zero of the
buffer's own size. -/

abbrev r8 : Rect S64x4096 := Rect.unit (s := S64x4096) ![0, 0] S64x4096.size inb_S64x4096_S64x4096_0_0
abbrev r9 : Rect S1x4096 := Rect.unit (s := S1x4096) ![0, 0] S1x4096.size inb_S1x4096_S1x4096_0_0
abbrev r5 : Rect S1x64x1024 := Rect.unit (s := S1x64x1024) ![0, 0, 0] S1x64x1024.size inb_S1x64x1024_S1x64x1024_0_0_0
abbrev r6 : Rect S1x1x1024 := Rect.unit (s := S1x1x1024) ![0, 0, 0] S1x1x1024.size inb_S1x1x1024_S1x1x1024_0_0_0
abbrev r7 : Rect S1x64x4096 := Rect.unit (s := S1x64x4096) ![0, 0, 0] S1x64x4096.size inb_S1x64x4096_S1x64x4096_0_0_0
/-- The one-word rectangle of a table at (b, nt). -/
abbrev rw1 (i : grid1.Coords) : Rect S8x98 := Rect.unit (s := S8x98) (k1_off1 i) S1x1.size (k1_off1_inb i)

/-- The word a scalar load of the body reads at (b, nt) from a table held at read contents T. -/
abbrev wordOf (i : grid1.Coords) (arg : Memref sig .tc .smem S8x98 .i32) (harg : arg.IsWhole) (T : Vec F S8x98 .i32) : Elt F .i32 :=
  arg.view.readAt (Elt F) (rw1 i).toLoadRect (harg.unread T) (Shape.Idx.first (numel1_S1x1.symm ▸ Nat.one_pos))

/-- The zero offsets. -/
theorem z2 : (![0, 0] : Fin 2 → Nat) = fun _ => 0 := by funext a; fin_cases a <;> rfl
theorem z3 : (![0, 0, 0] : Fin 3 → Nat) = fun _ => 0 := by funext a; fin_cases a <;> rfl

/-- A list of stores whose last (the head) is of the whole buffer covers it. -/
theorem cover_head {s : Shape} {e : EltTy} {off : Fin s.rank → Nat} (hz : off = fun _ => 0) (inb : ∀ a, off a + s.size a ≤ s.size a)
    (w : s.Idx → Elt F e) (L : List (View.Piece (Elt F) s e)) (y : s.Idx) :
    ∃ p ∈ ((⟨Rect.unit off s.size inb, w⟩ : View.Piece (Elt F) s e) :: L), y ∈ p.1.set := by
  subst hz
  exact ⟨_, List.mem_cons_self, by show y ∈ (Rect.whole s).set; rw [Rect.set_whole]; exact Finset.mem_univ y⟩

/-- Reading back a buffer whose last store was of the whole buffer gives that store's payload. -/
theorem read_put {κ : Kind} {sp : Space} {s : Shape} {e : EltTy} (v : View sig κ sp s e) (f : v.ty.Contents (Elt F))
    {off : Fin s.rank → Nat} (hz : off = fun _ => 0) (inb : ∀ a, off a + s.size a ≤ s.size a)
    (w : s.Idx → Elt F e) (L : List (View.Piece (Elt F) s e)) :
    v.read (Elt F) (v.writes (Elt F) f ((⟨Rect.unit off s.size inb, w⟩ : View.Piece (Elt F) s e) :: L)) = w :=
  (View.read_writes_eq_canon v f _ (cover_head hz inb w L)).trans (View.canon_cons_unit_zero hz inb w L)

/-- A whole-buffer load of a whole memref held at read contents X reads X. -/
theorem get_whole {κ : Kind} {sp : Space} {s : Shape} {e : EltTy} (m : Memref sig κ sp s e) (hm : m.IsWhole)
    {off : Fin s.rank → Nat} (hz : off = fun _ => 0) (inb : ∀ a, off a + s.size a ≤ s.size a) (X : s.Idx → Elt F e) :
    m.view.readAt (Elt F) (Rect.unit off s.size inb).toLoadRect (hm.unread X) = X := by
  rw [View.readAt_eq_ld, hm.read_unread, View.ld_unit_zero hz]

/-- A whole-buffer load after stores the last of which was of the whole buffer reads that store's payload. -/
theorem cov_put {κ : Kind} {sp : Space} {s : Shape} {e : EltTy} (v : View sig κ sp s e)
    {off : Fin s.rank → Nat} (hz : off = fun _ => 0) (inb : ∀ a, off a + s.size a ≤ s.size a)
    (w : s.Idx → Elt F e) (L : List (View.Piece (Elt F) s e)) :
    v.readCov ((⟨Rect.unit off s.size inb, w⟩ : View.Piece (Elt F) s e) :: L) (Rect.unit off s.size inb).toLoadRect = w := by
  rw [View.readCov_eq_canon_ld _ _ _ (cover_head hz inb w L), View.canon_cons_unit_zero hz, View.ld_unit_zero hz]

end Cert.KernelIdeal.Hand

end
-- ==== Proof.KBody1b.lean ====
/- Pallas call 1 (the scatter kernel): the body's triple on each of its six control paths, at any float instance.

   On whole memrefs — the two tables held at any share at read contents T0, T1, the two input blocks at featb and
   idxb, the output block at o, the accumulators at S and C — the body runs to the continuation holding the tables
   and inputs as they were and
     the accumulators zeroed first if nt = 0, then each increased by the tile's contribution if the loaded words
     pass the range test (the payloads k1_pay4, k1_pay5), else kept;
     the output block at the quotient k1_pay6 of the accumulators' final contents if nt = 97, else at o.
   One lemma per path (nt = 0 or not; range test passed or not; nt = 97 or not; the path nt = 0 = 97 has no point).
   Every access is of a whole buffer, so what a store leaves is its payload and what a load reads is the contents. -/
import proofs.«136896_j63960652972185_2_alg».proof.Proof.KBody1a

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
theorem kern_nnn (c : Dev nD) (E : Set ℕ) (i : grid1.Coords)
    (arg3 : Memref sig .tc .smem S8x98 .i32) (harg3 : arg3.IsWhole) (arg4 : Memref sig .tc .smem S8x98 .i32) (harg4 : arg4.IsWhole)
    (arg5 : Memref sig .tc .vmem S1x64x1024 .f32) (harg5 : arg5.IsWhole) (arg6 : Memref sig .tc .vmem S1x1x1024 .i32) (harg6 : arg6.IsWhole)
    (arg7 : Memref sig .tc .vmem S1x64x4096 .f32) (harg7 : arg7.IsWhole) (arg8 : Memref sig .tc .vmem S64x4096 .f32) (harg8 : arg8.IsWhole)
    (arg9 : Memref sig .tc .vmem S1x4096 .f32) (harg9 : arg9.IsWhole)
    (q3 q4 : PosShare TreeShare) (T0 T1 : Vec F S8x98 .i32)
    (featb : Vec F S1x64x1024 .f32) (idxb : Vec F S1x1x1024 .i32) (o : Vec F S1x64x4096 .f32)
    (S : Vec F S64x4096 .f32) (C : Vec F S1x4096 .f32) (K : PUnit → sProp 𝕄)
    (hf : ¬first1 i) (ha : ¬act1 i (wordOf i arg3 harg3 T0) (wordOf i arg4 harg4 T1)) (hl : ¬last1 i) :
    iprop(owns (c : Thread nD τ) arg3 q3 T0 ∗ owns (c : Thread nD τ) arg4 q4 T1
        ∗ owns (c : Thread nD τ) arg5 fullShare featb ∗ owns (c : Thread nD τ) arg6 fullShare idxb
        ∗ owns (c : Thread nD τ) arg7 fullShare o
        ∗ owns (c : Thread nD τ) arg8 fullShare S ∗ owns (c : Thread nD τ) arg9 fullShare C
        ∗ (iprop(owns (c : Thread nD τ) arg3 q3 T0 ∗ owns (c : Thread nD τ) arg4 q4 T1
            ∗ owns (c : Thread nD τ) arg5 fullShare featb ∗ owns (c : Thread nD τ) arg6 fullShare idxb
            ∗ owns (c : Thread nD τ) arg7 fullShare (o)
            ∗ owns (c : Thread nD τ) arg8 fullShare (S)
            ∗ owns (c : Thread nD τ) arg9 fullShare (C)) -∗ K ⟨⟩))
      ⊢ wp frame (wpE (defs₀ (F := F)) Variants.none c none) E (cc1__scatter_kernel i arg3 harg3 arg4 harg4 arg5 harg5 arg6 harg6 arg7 harg7 arg8 harg8 arg9 harg9) K := by
  simp only [cc1__scatter_kernel_eq_skeleton]; unfold cc1__scatter_kernel_skel
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
  obtain rfl := harg3.eq_unread hf3; obtain rfl := harg4.eq_unread hf4
  obtain rfl := harg5.eq_unread hf5; obtain rfl := harg6.eq_unread hf6
  obtain rfl := harg7.eq_unread hf7
  obtain rfl := harg8.eq_unread hf8; obtain rfl := harg9.eq_unread hf9
  sl_exec (disch := first | sl_exact hf | sl_exact ha | sl_exact hl)
  sl_step
  iapply Hk
  isplitl [H3]; · iexists _; isplitr; · ipureintro; exact hf3
                  iexact H3
  isplitl [H4]; · iexists _; isplitr; · ipureintro; exact hf4
                  iexact H4
  isplitl [H5]; · iexists _; isplitr; · ipureintro; exact hf5
                  iexact H5
  isplitl [H6]; · iexists _; isplitr; · ipureintro; exact hf6
                  iexact H6
  isplitl [H7]
  · iexists _; isplitr
    swap; · iexact H7
    ipureintro
    exact hf7
  isplitl [H8]
  · iexists _; isplitr
    swap; · iexact H8
    ipureintro
    (try sl_unfold_run_names); simp only [read_put (s := S64x4096) _ _ z2, read_put (s := S1x4096) _ _ z2, read_put (s := S1x64x4096) _ _ z3, get_whole (s := S64x4096) _ _ z2, get_whole (s := S1x4096) _ _ z2, get_whole (s := S1x64x1024) _ _ z3, get_whole (s := S1x1x1024) _ _ z3, get_whole (s := S1x64x4096) _ _ z3, cov_put (s := S64x4096) _ z2, cov_put (s := S1x4096) _ z2, hf7, hf8, hf9]
  · iexists _; isplitr
    swap; · iexact H9
    ipureintro
    (try sl_unfold_run_names); simp only [read_put (s := S64x4096) _ _ z2, read_put (s := S1x4096) _ _ z2, read_put (s := S1x64x4096) _ _ z3, get_whole (s := S64x4096) _ _ z2, get_whole (s := S1x4096) _ _ z2, get_whole (s := S1x64x1024) _ _ z3, get_whole (s := S1x1x1024) _ _ z3, get_whole (s := S1x64x4096) _ _ z3, cov_put (s := S64x4096) _ z2, cov_put (s := S1x4096) _ z2, hf7, hf8, hf9]

set_option maxHeartbeats 1000000 in
theorem kern_nAn (c : Dev nD) (E : Set ℕ) (i : grid1.Coords)
    (arg3 : Memref sig .tc .smem S8x98 .i32) (harg3 : arg3.IsWhole) (arg4 : Memref sig .tc .smem S8x98 .i32) (harg4 : arg4.IsWhole)
    (arg5 : Memref sig .tc .vmem S1x64x1024 .f32) (harg5 : arg5.IsWhole) (arg6 : Memref sig .tc .vmem S1x1x1024 .i32) (harg6 : arg6.IsWhole)
    (arg7 : Memref sig .tc .vmem S1x64x4096 .f32) (harg7 : arg7.IsWhole) (arg8 : Memref sig .tc .vmem S64x4096 .f32) (harg8 : arg8.IsWhole)
    (arg9 : Memref sig .tc .vmem S1x4096 .f32) (harg9 : arg9.IsWhole)
    (q3 q4 : PosShare TreeShare) (T0 T1 : Vec F S8x98 .i32)
    (featb : Vec F S1x64x1024 .f32) (idxb : Vec F S1x1x1024 .i32) (o : Vec F S1x64x4096 .f32)
    (S : Vec F S64x4096 .f32) (C : Vec F S1x4096 .f32) (K : PUnit → sProp 𝕄)
    (hf : ¬first1 i) (ha : act1 i (wordOf i arg3 harg3 T0) (wordOf i arg4 harg4 T1)) (hl : ¬last1 i) :
    iprop(owns (c : Thread nD τ) arg3 q3 T0 ∗ owns (c : Thread nD τ) arg4 q4 T1
        ∗ owns (c : Thread nD τ) arg5 fullShare featb ∗ owns (c : Thread nD τ) arg6 fullShare idxb
        ∗ owns (c : Thread nD τ) arg7 fullShare o
        ∗ owns (c : Thread nD τ) arg8 fullShare S ∗ owns (c : Thread nD τ) arg9 fullShare C
        ∗ (iprop(owns (c : Thread nD τ) arg3 q3 T0 ∗ owns (c : Thread nD τ) arg4 q4 T1
            ∗ owns (c : Thread nD τ) arg5 fullShare featb ∗ owns (c : Thread nD τ) arg6 fullShare idxb
            ∗ owns (c : Thread nD τ) arg7 fullShare (o)
            ∗ owns (c : Thread nD τ) arg8 fullShare (k1_pay4 i idxb featb S)
            ∗ owns (c : Thread nD τ) arg9 fullShare (k1_pay5 i idxb C)) -∗ K ⟨⟩))
      ⊢ wp frame (wpE (defs₀ (F := F)) Variants.none c none) E (cc1__scatter_kernel i arg3 harg3 arg4 harg4 arg5 harg5 arg6 harg6 arg7 harg7 arg8 harg8 arg9 harg9) K := by
  simp only [cc1__scatter_kernel_eq_skeleton]; unfold cc1__scatter_kernel_skel
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
  obtain rfl := harg3.eq_unread hf3; obtain rfl := harg4.eq_unread hf4
  obtain rfl := harg5.eq_unread hf5; obtain rfl := harg6.eq_unread hf6
  obtain rfl := harg7.eq_unread hf7
  obtain rfl := harg8.eq_unread hf8; obtain rfl := harg9.eq_unread hf9
  sl_exec (disch := first | sl_exact hf | sl_exact ha | sl_exact hl)
  sl_step
  iapply Hk
  isplitl [H3]; · iexists _; isplitr; · ipureintro; exact hf3
                  iexact H3
  isplitl [H4]; · iexists _; isplitr; · ipureintro; exact hf4
                  iexact H4
  isplitl [H5]; · iexists _; isplitr; · ipureintro; exact hf5
                  iexact H5
  isplitl [H6]; · iexists _; isplitr; · ipureintro; exact hf6
                  iexact H6
  isplitl [H7]
  · iexists _; isplitr
    swap; · iexact H7
    ipureintro
    exact hf7
  isplitl [H8]
  · iexists _; isplitr
    swap; · iexact H8
    ipureintro
    (try sl_unfold_run_names); simp only [read_put (s := S64x4096) _ _ z2, read_put (s := S1x4096) _ _ z2, read_put (s := S1x64x4096) _ _ z3, get_whole (s := S64x4096) _ _ z2, get_whole (s := S1x4096) _ _ z2, get_whole (s := S1x64x1024) _ _ z3, get_whole (s := S1x1x1024) _ _ z3, get_whole (s := S1x64x4096) _ _ z3, cov_put (s := S64x4096) _ z2, cov_put (s := S1x4096) _ z2, hf7, hf8, hf9]
  · iexists _; isplitr
    swap; · iexact H9
    ipureintro
    (try sl_unfold_run_names); simp only [read_put (s := S64x4096) _ _ z2, read_put (s := S1x4096) _ _ z2, read_put (s := S1x64x4096) _ _ z3, get_whole (s := S64x4096) _ _ z2, get_whole (s := S1x4096) _ _ z2, get_whole (s := S1x64x1024) _ _ z3, get_whole (s := S1x1x1024) _ _ z3, get_whole (s := S1x64x4096) _ _ z3, cov_put (s := S64x4096) _ z2, cov_put (s := S1x4096) _ z2, hf7, hf8, hf9]

set_option maxHeartbeats 1000000 in
theorem kern_Fnn (c : Dev nD) (E : Set ℕ) (i : grid1.Coords)
    (arg3 : Memref sig .tc .smem S8x98 .i32) (harg3 : arg3.IsWhole) (arg4 : Memref sig .tc .smem S8x98 .i32) (harg4 : arg4.IsWhole)
    (arg5 : Memref sig .tc .vmem S1x64x1024 .f32) (harg5 : arg5.IsWhole) (arg6 : Memref sig .tc .vmem S1x1x1024 .i32) (harg6 : arg6.IsWhole)
    (arg7 : Memref sig .tc .vmem S1x64x4096 .f32) (harg7 : arg7.IsWhole) (arg8 : Memref sig .tc .vmem S64x4096 .f32) (harg8 : arg8.IsWhole)
    (arg9 : Memref sig .tc .vmem S1x4096 .f32) (harg9 : arg9.IsWhole)
    (q3 q4 : PosShare TreeShare) (T0 T1 : Vec F S8x98 .i32)
    (featb : Vec F S1x64x1024 .f32) (idxb : Vec F S1x1x1024 .i32) (o : Vec F S1x64x4096 .f32)
    (S : Vec F S64x4096 .f32) (C : Vec F S1x4096 .f32) (K : PUnit → sProp 𝕄)
    (hf : first1 i) (ha : ¬act1 i (wordOf i arg3 harg3 T0) (wordOf i arg4 harg4 T1)) (hl : ¬last1 i) :
    iprop(owns (c : Thread nD τ) arg3 q3 T0 ∗ owns (c : Thread nD τ) arg4 q4 T1
        ∗ owns (c : Thread nD τ) arg5 fullShare featb ∗ owns (c : Thread nD τ) arg6 fullShare idxb
        ∗ owns (c : Thread nD τ) arg7 fullShare o
        ∗ owns (c : Thread nD τ) arg8 fullShare S ∗ owns (c : Thread nD τ) arg9 fullShare C
        ∗ (iprop(owns (c : Thread nD τ) arg3 q3 T0 ∗ owns (c : Thread nD τ) arg4 q4 T1
            ∗ owns (c : Thread nD τ) arg5 fullShare featb ∗ owns (c : Thread nD τ) arg6 fullShare idxb
            ∗ owns (c : Thread nD τ) arg7 fullShare (o)
            ∗ owns (c : Thread nD τ) arg8 fullShare (k1_pay1)
            ∗ owns (c : Thread nD τ) arg9 fullShare (k1_pay2)) -∗ K ⟨⟩))
      ⊢ wp frame (wpE (defs₀ (F := F)) Variants.none c none) E (cc1__scatter_kernel i arg3 harg3 arg4 harg4 arg5 harg5 arg6 harg6 arg7 harg7 arg8 harg8 arg9 harg9) K := by
  simp only [cc1__scatter_kernel_eq_skeleton]; unfold cc1__scatter_kernel_skel
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
  obtain rfl := harg3.eq_unread hf3; obtain rfl := harg4.eq_unread hf4
  obtain rfl := harg5.eq_unread hf5; obtain rfl := harg6.eq_unread hf6
  obtain rfl := harg7.eq_unread hf7
  obtain rfl := harg8.eq_unread hf8; obtain rfl := harg9.eq_unread hf9
  sl_exec (disch := first | sl_exact hf | sl_exact ha | sl_exact hl)
  sl_step
  iapply Hk
  isplitl [H3]; · iexists _; isplitr; · ipureintro; exact hf3
                  iexact H3
  isplitl [H4]; · iexists _; isplitr; · ipureintro; exact hf4
                  iexact H4
  isplitl [H5]; · iexists _; isplitr; · ipureintro; exact hf5
                  iexact H5
  isplitl [H6]; · iexists _; isplitr; · ipureintro; exact hf6
                  iexact H6
  isplitl [H7]
  · iexists _; isplitr
    swap; · iexact H7
    ipureintro
    exact hf7
  isplitl [H8]
  · iexists _; isplitr
    swap; · iexact H8
    ipureintro
    (try sl_unfold_run_names); simp only [read_put (s := S64x4096) _ _ z2, read_put (s := S1x4096) _ _ z2, read_put (s := S1x64x4096) _ _ z3, get_whole (s := S64x4096) _ _ z2, get_whole (s := S1x4096) _ _ z2, get_whole (s := S1x64x1024) _ _ z3, get_whole (s := S1x1x1024) _ _ z3, get_whole (s := S1x64x4096) _ _ z3, cov_put (s := S64x4096) _ z2, cov_put (s := S1x4096) _ z2, hf7, hf8, hf9]
  · iexists _; isplitr
    swap; · iexact H9
    ipureintro
    (try sl_unfold_run_names); simp only [read_put (s := S64x4096) _ _ z2, read_put (s := S1x4096) _ _ z2, read_put (s := S1x64x4096) _ _ z3, get_whole (s := S64x4096) _ _ z2, get_whole (s := S1x4096) _ _ z2, get_whole (s := S1x64x1024) _ _ z3, get_whole (s := S1x1x1024) _ _ z3, get_whole (s := S1x64x4096) _ _ z3, cov_put (s := S64x4096) _ z2, cov_put (s := S1x4096) _ z2, hf7, hf8, hf9]

set_option maxHeartbeats 1000000 in
theorem kern_FAn (c : Dev nD) (E : Set ℕ) (i : grid1.Coords)
    (arg3 : Memref sig .tc .smem S8x98 .i32) (harg3 : arg3.IsWhole) (arg4 : Memref sig .tc .smem S8x98 .i32) (harg4 : arg4.IsWhole)
    (arg5 : Memref sig .tc .vmem S1x64x1024 .f32) (harg5 : arg5.IsWhole) (arg6 : Memref sig .tc .vmem S1x1x1024 .i32) (harg6 : arg6.IsWhole)
    (arg7 : Memref sig .tc .vmem S1x64x4096 .f32) (harg7 : arg7.IsWhole) (arg8 : Memref sig .tc .vmem S64x4096 .f32) (harg8 : arg8.IsWhole)
    (arg9 : Memref sig .tc .vmem S1x4096 .f32) (harg9 : arg9.IsWhole)
    (q3 q4 : PosShare TreeShare) (T0 T1 : Vec F S8x98 .i32)
    (featb : Vec F S1x64x1024 .f32) (idxb : Vec F S1x1x1024 .i32) (o : Vec F S1x64x4096 .f32)
    (S : Vec F S64x4096 .f32) (C : Vec F S1x4096 .f32) (K : PUnit → sProp 𝕄)
    (hf : first1 i) (ha : act1 i (wordOf i arg3 harg3 T0) (wordOf i arg4 harg4 T1)) (hl : ¬last1 i) :
    iprop(owns (c : Thread nD τ) arg3 q3 T0 ∗ owns (c : Thread nD τ) arg4 q4 T1
        ∗ owns (c : Thread nD τ) arg5 fullShare featb ∗ owns (c : Thread nD τ) arg6 fullShare idxb
        ∗ owns (c : Thread nD τ) arg7 fullShare o
        ∗ owns (c : Thread nD τ) arg8 fullShare S ∗ owns (c : Thread nD τ) arg9 fullShare C
        ∗ (iprop(owns (c : Thread nD τ) arg3 q3 T0 ∗ owns (c : Thread nD τ) arg4 q4 T1
            ∗ owns (c : Thread nD τ) arg5 fullShare featb ∗ owns (c : Thread nD τ) arg6 fullShare idxb
            ∗ owns (c : Thread nD τ) arg7 fullShare (o)
            ∗ owns (c : Thread nD τ) arg8 fullShare (k1_pay4 i idxb featb k1_pay1)
            ∗ owns (c : Thread nD τ) arg9 fullShare (k1_pay5 i idxb k1_pay2)) -∗ K ⟨⟩))
      ⊢ wp frame (wpE (defs₀ (F := F)) Variants.none c none) E (cc1__scatter_kernel i arg3 harg3 arg4 harg4 arg5 harg5 arg6 harg6 arg7 harg7 arg8 harg8 arg9 harg9) K := by
  simp only [cc1__scatter_kernel_eq_skeleton]; unfold cc1__scatter_kernel_skel
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
  obtain rfl := harg3.eq_unread hf3; obtain rfl := harg4.eq_unread hf4
  obtain rfl := harg5.eq_unread hf5; obtain rfl := harg6.eq_unread hf6
  obtain rfl := harg7.eq_unread hf7
  obtain rfl := harg8.eq_unread hf8; obtain rfl := harg9.eq_unread hf9
  sl_exec (disch := first | sl_exact hf | sl_exact ha | sl_exact hl)
  sl_step
  iapply Hk
  isplitl [H3]; · iexists _; isplitr; · ipureintro; exact hf3
                  iexact H3
  isplitl [H4]; · iexists _; isplitr; · ipureintro; exact hf4
                  iexact H4
  isplitl [H5]; · iexists _; isplitr; · ipureintro; exact hf5
                  iexact H5
  isplitl [H6]; · iexists _; isplitr; · ipureintro; exact hf6
                  iexact H6
  isplitl [H7]
  · iexists _; isplitr
    swap; · iexact H7
    ipureintro
    exact hf7
  isplitl [H8]
  · iexists _; isplitr
    swap; · iexact H8
    ipureintro
    (try sl_unfold_run_names); simp only [read_put (s := S64x4096) _ _ z2, read_put (s := S1x4096) _ _ z2, read_put (s := S1x64x4096) _ _ z3, get_whole (s := S64x4096) _ _ z2, get_whole (s := S1x4096) _ _ z2, get_whole (s := S1x64x1024) _ _ z3, get_whole (s := S1x1x1024) _ _ z3, get_whole (s := S1x64x4096) _ _ z3, cov_put (s := S64x4096) _ z2, cov_put (s := S1x4096) _ z2, hf7, hf8, hf9]
  · iexists _; isplitr
    swap; · iexact H9
    ipureintro
    (try sl_unfold_run_names); simp only [read_put (s := S64x4096) _ _ z2, read_put (s := S1x4096) _ _ z2, read_put (s := S1x64x4096) _ _ z3, get_whole (s := S64x4096) _ _ z2, get_whole (s := S1x4096) _ _ z2, get_whole (s := S1x64x1024) _ _ z3, get_whole (s := S1x1x1024) _ _ z3, get_whole (s := S1x64x4096) _ _ z3, cov_put (s := S64x4096) _ z2, cov_put (s := S1x4096) _ z2, hf7, hf8, hf9]

set_option maxHeartbeats 1000000 in
theorem kern_nnL (c : Dev nD) (E : Set ℕ) (i : grid1.Coords)
    (arg3 : Memref sig .tc .smem S8x98 .i32) (harg3 : arg3.IsWhole) (arg4 : Memref sig .tc .smem S8x98 .i32) (harg4 : arg4.IsWhole)
    (arg5 : Memref sig .tc .vmem S1x64x1024 .f32) (harg5 : arg5.IsWhole) (arg6 : Memref sig .tc .vmem S1x1x1024 .i32) (harg6 : arg6.IsWhole)
    (arg7 : Memref sig .tc .vmem S1x64x4096 .f32) (harg7 : arg7.IsWhole) (arg8 : Memref sig .tc .vmem S64x4096 .f32) (harg8 : arg8.IsWhole)
    (arg9 : Memref sig .tc .vmem S1x4096 .f32) (harg9 : arg9.IsWhole)
    (q3 q4 : PosShare TreeShare) (T0 T1 : Vec F S8x98 .i32)
    (featb : Vec F S1x64x1024 .f32) (idxb : Vec F S1x1x1024 .i32) (o : Vec F S1x64x4096 .f32)
    (S : Vec F S64x4096 .f32) (C : Vec F S1x4096 .f32) (K : PUnit → sProp 𝕄)
    (hf : ¬first1 i) (ha : ¬act1 i (wordOf i arg3 harg3 T0) (wordOf i arg4 harg4 T1)) (hl : last1 i) :
    iprop(owns (c : Thread nD τ) arg3 q3 T0 ∗ owns (c : Thread nD τ) arg4 q4 T1
        ∗ owns (c : Thread nD τ) arg5 fullShare featb ∗ owns (c : Thread nD τ) arg6 fullShare idxb
        ∗ owns (c : Thread nD τ) arg7 fullShare o
        ∗ owns (c : Thread nD τ) arg8 fullShare S ∗ owns (c : Thread nD τ) arg9 fullShare C
        ∗ (iprop(owns (c : Thread nD τ) arg3 q3 T0 ∗ owns (c : Thread nD τ) arg4 q4 T1
            ∗ owns (c : Thread nD τ) arg5 fullShare featb ∗ owns (c : Thread nD τ) arg6 fullShare idxb
            ∗ owns (c : Thread nD τ) arg7 fullShare (k1_pay6 S C)
            ∗ owns (c : Thread nD τ) arg8 fullShare (S)
            ∗ owns (c : Thread nD τ) arg9 fullShare (C)) -∗ K ⟨⟩))
      ⊢ wp frame (wpE (defs₀ (F := F)) Variants.none c none) E (cc1__scatter_kernel i arg3 harg3 arg4 harg4 arg5 harg5 arg6 harg6 arg7 harg7 arg8 harg8 arg9 harg9) K := by
  simp only [cc1__scatter_kernel_eq_skeleton]; unfold cc1__scatter_kernel_skel
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
  obtain rfl := harg3.eq_unread hf3; obtain rfl := harg4.eq_unread hf4
  obtain rfl := harg5.eq_unread hf5; obtain rfl := harg6.eq_unread hf6
  obtain rfl := harg7.eq_unread hf7
  obtain rfl := harg8.eq_unread hf8; obtain rfl := harg9.eq_unread hf9
  sl_exec (disch := first | sl_exact hf | sl_exact ha | sl_exact hl)
  sl_step
  iapply Hk
  isplitl [H3]; · iexists _; isplitr; · ipureintro; exact hf3
                  iexact H3
  isplitl [H4]; · iexists _; isplitr; · ipureintro; exact hf4
                  iexact H4
  isplitl [H5]; · iexists _; isplitr; · ipureintro; exact hf5
                  iexact H5
  isplitl [H6]; · iexists _; isplitr; · ipureintro; exact hf6
                  iexact H6
  isplitl [H7]
  · iexists _; isplitr
    swap; · iexact H7
    ipureintro
    (try sl_unfold_run_names); simp only [read_put (s := S64x4096) _ _ z2, read_put (s := S1x4096) _ _ z2, read_put (s := S1x64x4096) _ _ z3, get_whole (s := S64x4096) _ _ z2, get_whole (s := S1x4096) _ _ z2, get_whole (s := S1x64x1024) _ _ z3, get_whole (s := S1x1x1024) _ _ z3, get_whole (s := S1x64x4096) _ _ z3, cov_put (s := S64x4096) _ z2, cov_put (s := S1x4096) _ z2, hf7, hf8, hf9]
  isplitl [H8]
  · iexists _; isplitr
    swap; · iexact H8
    ipureintro
    (try sl_unfold_run_names); simp only [read_put (s := S64x4096) _ _ z2, read_put (s := S1x4096) _ _ z2, read_put (s := S1x64x4096) _ _ z3, get_whole (s := S64x4096) _ _ z2, get_whole (s := S1x4096) _ _ z2, get_whole (s := S1x64x1024) _ _ z3, get_whole (s := S1x1x1024) _ _ z3, get_whole (s := S1x64x4096) _ _ z3, cov_put (s := S64x4096) _ z2, cov_put (s := S1x4096) _ z2, hf7, hf8, hf9]
  · iexists _; isplitr
    swap; · iexact H9
    ipureintro
    (try sl_unfold_run_names); simp only [read_put (s := S64x4096) _ _ z2, read_put (s := S1x4096) _ _ z2, read_put (s := S1x64x4096) _ _ z3, get_whole (s := S64x4096) _ _ z2, get_whole (s := S1x4096) _ _ z2, get_whole (s := S1x64x1024) _ _ z3, get_whole (s := S1x1x1024) _ _ z3, get_whole (s := S1x64x4096) _ _ z3, cov_put (s := S64x4096) _ z2, cov_put (s := S1x4096) _ z2, hf7, hf8, hf9]

set_option maxHeartbeats 1000000 in
theorem kern_nAL (c : Dev nD) (E : Set ℕ) (i : grid1.Coords)
    (arg3 : Memref sig .tc .smem S8x98 .i32) (harg3 : arg3.IsWhole) (arg4 : Memref sig .tc .smem S8x98 .i32) (harg4 : arg4.IsWhole)
    (arg5 : Memref sig .tc .vmem S1x64x1024 .f32) (harg5 : arg5.IsWhole) (arg6 : Memref sig .tc .vmem S1x1x1024 .i32) (harg6 : arg6.IsWhole)
    (arg7 : Memref sig .tc .vmem S1x64x4096 .f32) (harg7 : arg7.IsWhole) (arg8 : Memref sig .tc .vmem S64x4096 .f32) (harg8 : arg8.IsWhole)
    (arg9 : Memref sig .tc .vmem S1x4096 .f32) (harg9 : arg9.IsWhole)
    (q3 q4 : PosShare TreeShare) (T0 T1 : Vec F S8x98 .i32)
    (featb : Vec F S1x64x1024 .f32) (idxb : Vec F S1x1x1024 .i32) (o : Vec F S1x64x4096 .f32)
    (S : Vec F S64x4096 .f32) (C : Vec F S1x4096 .f32) (K : PUnit → sProp 𝕄)
    (hf : ¬first1 i) (ha : act1 i (wordOf i arg3 harg3 T0) (wordOf i arg4 harg4 T1)) (hl : last1 i) :
    iprop(owns (c : Thread nD τ) arg3 q3 T0 ∗ owns (c : Thread nD τ) arg4 q4 T1
        ∗ owns (c : Thread nD τ) arg5 fullShare featb ∗ owns (c : Thread nD τ) arg6 fullShare idxb
        ∗ owns (c : Thread nD τ) arg7 fullShare o
        ∗ owns (c : Thread nD τ) arg8 fullShare S ∗ owns (c : Thread nD τ) arg9 fullShare C
        ∗ (iprop(owns (c : Thread nD τ) arg3 q3 T0 ∗ owns (c : Thread nD τ) arg4 q4 T1
            ∗ owns (c : Thread nD τ) arg5 fullShare featb ∗ owns (c : Thread nD τ) arg6 fullShare idxb
            ∗ owns (c : Thread nD τ) arg7 fullShare (k1_pay6 (k1_pay4 i idxb featb S) (k1_pay5 i idxb C))
            ∗ owns (c : Thread nD τ) arg8 fullShare (k1_pay4 i idxb featb S)
            ∗ owns (c : Thread nD τ) arg9 fullShare (k1_pay5 i idxb C)) -∗ K ⟨⟩))
      ⊢ wp frame (wpE (defs₀ (F := F)) Variants.none c none) E (cc1__scatter_kernel i arg3 harg3 arg4 harg4 arg5 harg5 arg6 harg6 arg7 harg7 arg8 harg8 arg9 harg9) K := by
  simp only [cc1__scatter_kernel_eq_skeleton]; unfold cc1__scatter_kernel_skel
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
  obtain rfl := harg3.eq_unread hf3; obtain rfl := harg4.eq_unread hf4
  obtain rfl := harg5.eq_unread hf5; obtain rfl := harg6.eq_unread hf6
  obtain rfl := harg7.eq_unread hf7
  obtain rfl := harg8.eq_unread hf8; obtain rfl := harg9.eq_unread hf9
  sl_exec (disch := first | sl_exact hf | sl_exact ha | sl_exact hl)
  sl_step
  iapply Hk
  isplitl [H3]; · iexists _; isplitr; · ipureintro; exact hf3
                  iexact H3
  isplitl [H4]; · iexists _; isplitr; · ipureintro; exact hf4
                  iexact H4
  isplitl [H5]; · iexists _; isplitr; · ipureintro; exact hf5
                  iexact H5
  isplitl [H6]; · iexists _; isplitr; · ipureintro; exact hf6
                  iexact H6
  isplitl [H7]
  · iexists _; isplitr
    swap; · iexact H7
    ipureintro
    (try sl_unfold_run_names); simp only [read_put (s := S64x4096) _ _ z2, read_put (s := S1x4096) _ _ z2, read_put (s := S1x64x4096) _ _ z3, get_whole (s := S64x4096) _ _ z2, get_whole (s := S1x4096) _ _ z2, get_whole (s := S1x64x1024) _ _ z3, get_whole (s := S1x1x1024) _ _ z3, get_whole (s := S1x64x4096) _ _ z3, cov_put (s := S64x4096) _ z2, cov_put (s := S1x4096) _ z2, hf7, hf8, hf9]
  isplitl [H8]
  · iexists _; isplitr
    swap; · iexact H8
    ipureintro
    (try sl_unfold_run_names); simp only [read_put (s := S64x4096) _ _ z2, read_put (s := S1x4096) _ _ z2, read_put (s := S1x64x4096) _ _ z3, get_whole (s := S64x4096) _ _ z2, get_whole (s := S1x4096) _ _ z2, get_whole (s := S1x64x1024) _ _ z3, get_whole (s := S1x1x1024) _ _ z3, get_whole (s := S1x64x4096) _ _ z3, cov_put (s := S64x4096) _ z2, cov_put (s := S1x4096) _ z2, hf7, hf8, hf9]
  · iexists _; isplitr
    swap; · iexact H9
    ipureintro
    (try sl_unfold_run_names); simp only [read_put (s := S64x4096) _ _ z2, read_put (s := S1x4096) _ _ z2, read_put (s := S1x64x4096) _ _ z3, get_whole (s := S64x4096) _ _ z2, get_whole (s := S1x4096) _ _ z2, get_whole (s := S1x64x1024) _ _ z3, get_whole (s := S1x1x1024) _ _ z3, get_whole (s := S1x64x4096) _ _ z3, cov_put (s := S64x4096) _ z2, cov_put (s := S1x4096) _ z2, hf7, hf8, hf9]

end Cert.KernelIdeal.Hand

end
-- ==== Proof.KStep1.lean ====
/- Pallas call 1 (the scatter kernel): what one grid point does to the two accumulators, and the accumulators'
   trajectory over the grid, at any float instance.

   The kernel carries two scratch accumulators from point to point: a 64×4096 sum S of feature columns scattered
   to the voxels of the current column tile, and a 1×4096 count C of the points scattered to each voxel. At point
   (b, ct, nt) it first zeroes both if nt = 0; then, if the voxel-id range [w6, w9] of input tile (b, nt) — two
   words of the prefetched tables — meets the column tile, adds to S the product of the tile's features with the
   one-hot matrix of its voxel ids (k1_pay4) and to C the column sums of that matrix (k1_pay5). step1 is this
   one-point map; scrAfter is its iteration along the grid in running order, each point at its own table words
   and input blocks. -/
import proofs.«136896_j63960652972185_2_alg».proof.Proof.KBody1a

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## One point -/

/-- What ONE point leaves in the two accumulators, from the point, the two table words the body loads there, the
    point's input blocks (features, voxel ids) and what the accumulators held: zeroed first at nt = 0; then each
    increased by the tile's contribution if the range test on the two words passes, else kept. -/
def step1 (i : grid1.Coords) (w6 w9 : BitVec 32) (featb : Vec F S1x64x1024 .f32) (idxb : Vec F S1x1x1024 .i32)
    (S : Vec F S64x4096 .f32) (C : Vec F S1x4096 .f32) : Vec F S64x4096 .f32 × Vec F S1x4096 .f32 :=
  if act1 i w6 w9 then
    (k1_pay4 i idxb featb (if first1 i then k1_pay1 else S), k1_pay5 i idxb (if first1 i then k1_pay2 else C))
  else
    (if first1 i then k1_pay1 else S, if first1 i then k1_pay2 else C)

section Cases
variable (i : grid1.Coords) (w6 w9 : BitVec 32) (featb : Vec F S1x64x1024 .f32) (idxb : Vec F S1x1x1024 .i32)
  (S : Vec F S64x4096 .f32) (C : Vec F S1x4096 .f32)

/-- The four cases of step1. -/
theorem step1_nn (hf : ¬first1 i) (ha : ¬act1 i w6 w9) : step1 i w6 w9 featb idxb S C = (S, C) := by
  unfold step1; rw [if_neg ha, if_neg hf, if_neg hf]
theorem step1_nA (hf : ¬first1 i) (ha : act1 i w6 w9) :
    step1 i w6 w9 featb idxb S C = (k1_pay4 i idxb featb S, k1_pay5 i idxb C) := by
  unfold step1; rw [if_pos ha, if_neg hf, if_neg hf]
theorem step1_Fn (hf : first1 i) (ha : ¬act1 i w6 w9) : step1 i w6 w9 featb idxb S C = (k1_pay1, k1_pay2) := by
  unfold step1; rw [if_neg ha, if_pos hf, if_pos hf]
theorem step1_FA (hf : first1 i) (ha : act1 i w6 w9) :
    step1 i w6 w9 featb idxb S C = (k1_pay4 i idxb featb k1_pay1, k1_pay5 i idxb k1_pay2) := by
  unfold step1; rw [if_pos ha, if_pos hf, if_pos hf]

/-- At nt = 0 the step does not depend on what the accumulators held. -/
theorem step1_first (hf : first1 i) (S' : Vec F S64x4096 .f32) (C' : Vec F S1x4096 .f32) :
    step1 i w6 w9 featb idxb S C = step1 i w6 w9 featb idxb S' C' := by
  unfold step1; simp only [if_pos hf]

end Cases

/-! ## The table words, the blocks, the trajectory -/

section Regions
-- the TensorCore's buffer contents when the region is entered, and the admissible contents of the two tables
variable (V : (c : Dev nD) → (b : Ref sig .tc) → Buf (Elt F) ((c : Thread nD τ).loc b)) (a : (pcfg1 (F := F)).Adm)

/-- The word of table 0 (least voxel id per input tile) the body loads at point i: its element at (b, nt), the one
    index of the one-word rectangle the load reads through. -/
def tw0 (i : grid1.Coords) : Elt F .i32 := a.1.at 0 (rw1 i) numel1_S1x1
/-- The word of table 1 (greatest voxel id per input tile) the body loads at point i. -/
def tw1 (i : grid1.Coords) : Elt F .i32 := a.1.at 1 (rw1 i) numel1_S1x1

/-- Window w's block at point t, read off its array as the region finds it (V). -/
def iblk1 (c : Dev nD) (w : Fin (cfg1 a).W) (t : Fin (cfg1 a).N) :
    (((cfg1 a).win w).xblock ((cfg1 a).grid.coords t)).Idx → Elt F ((cfg1 a).win w).elt :=
  (((cfg1 a).win w).blk t).view.read (Elt F) (V c (Pipeline.arrRef spec1 w))

/-- THE TRAJECTORY: what the two accumulators hold after the body at position n of the running order — the step
    of point n, at its table words and input blocks, over what point n - 1 left (at the first point over zeros:
    there nt = 0 and the step ignores it). -/
def scrAfter (c : Dev nD) : (n : ℕ) → n < (cfg1 a).N → Vec F S64x4096 .f32 × Vec F S1x4096 .f32
  | 0, h => step1 (grid1.coords ⟨0, h⟩) (tw0 a (grid1.coords ⟨0, h⟩)) (tw1 a (grid1.coords ⟨0, h⟩))
      (iblk1 V a c 0 ⟨0, h⟩) (iblk1 V a c 1 ⟨0, h⟩) k1_pay1 k1_pay2
  | n + 1, h => step1 (grid1.coords ⟨n + 1, h⟩) (tw0 a (grid1.coords ⟨n + 1, h⟩)) (tw1 a (grid1.coords ⟨n + 1, h⟩))
      (iblk1 V a c 0 ⟨n + 1, h⟩) (iblk1 V a c 1 ⟨n + 1, h⟩)
      (scrAfter c n (Nat.lt_of_succ_lt h)).1 (scrAfter c n (Nat.lt_of_succ_lt h)).2

theorem scrAfter_zero (c : Dev nD) (h : 0 < (cfg1 a).N) :
    scrAfter V a c 0 h = step1 (grid1.coords ⟨0, h⟩) (tw0 a (grid1.coords ⟨0, h⟩)) (tw1 a (grid1.coords ⟨0, h⟩))
      (iblk1 V a c 0 ⟨0, h⟩) (iblk1 V a c 1 ⟨0, h⟩) k1_pay1 k1_pay2 := rfl

theorem scrAfter_succ (c : Dev nD) (n : ℕ) (h : n + 1 < (cfg1 a).N) :
    scrAfter V a c (n + 1) h = step1 (grid1.coords ⟨n + 1, h⟩) (tw0 a (grid1.coords ⟨n + 1, h⟩)) (tw1 a (grid1.coords ⟨n + 1, h⟩))
      (iblk1 V a c 0 ⟨n + 1, h⟩) (iblk1 V a c 1 ⟨n + 1, h⟩)
      (scrAfter V a c n (Nat.lt_of_succ_lt h)).1 (scrAfter V a c n (Nat.lt_of_succ_lt h)).2 := rfl

end Regions

end Cert.KernelIdeal.Hand

end
-- ==== Proof.KBody1c.lean ====
/- Pallas call 1 (the scatter kernel): the body's triple at any grid point, at any float instance.

   The six path lemmas joined by cases on the three conditions: on whole memrefs — the tables held at read contents
   T0, T1, the input blocks at featb, idxb, the output block at o, the accumulators at S, C — the body leaves the
   accumulators at step1 of the point, the two loaded words, the input blocks and (S, C), and the output block at
   the quotient k1_pay6 of those if nt = 97, else as it was. -/
import proofs.«136896_j63960652972185_2_alg».proof.Proof.KBody1b
import proofs.«136896_j63960652972185_2_alg».proof.Proof.KStep1

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem sound_kernel1 (c : Dev nD) (E : Set ℕ) (i : grid1.Coords)
    (arg3 : Memref sig .tc .smem S8x98 .i32) (harg3 : arg3.IsWhole) (arg4 : Memref sig .tc .smem S8x98 .i32) (harg4 : arg4.IsWhole)
    (arg5 : Memref sig .tc .vmem S1x64x1024 .f32) (harg5 : arg5.IsWhole) (arg6 : Memref sig .tc .vmem S1x1x1024 .i32) (harg6 : arg6.IsWhole)
    (arg7 : Memref sig .tc .vmem S1x64x4096 .f32) (harg7 : arg7.IsWhole) (arg8 : Memref sig .tc .vmem S64x4096 .f32) (harg8 : arg8.IsWhole)
    (arg9 : Memref sig .tc .vmem S1x4096 .f32) (harg9 : arg9.IsWhole)
    (q3 q4 : PosShare TreeShare) (T0 T1 : Vec F S8x98 .i32)
    (featb : Vec F S1x64x1024 .f32) (idxb : Vec F S1x1x1024 .i32) (o : Vec F S1x64x4096 .f32)
    (S : Vec F S64x4096 .f32) (C : Vec F S1x4096 .f32) (K : PUnit → sProp 𝕄) :
    iprop(owns (c : Thread nD τ) arg3 q3 T0 ∗ owns (c : Thread nD τ) arg4 q4 T1
        ∗ owns (c : Thread nD τ) arg5 fullShare featb ∗ owns (c : Thread nD τ) arg6 fullShare idxb
        ∗ owns (c : Thread nD τ) arg7 fullShare o
        ∗ owns (c : Thread nD τ) arg8 fullShare S ∗ owns (c : Thread nD τ) arg9 fullShare C
        ∗ (iprop(owns (c : Thread nD τ) arg3 q3 T0 ∗ owns (c : Thread nD τ) arg4 q4 T1
            ∗ owns (c : Thread nD τ) arg5 fullShare featb ∗ owns (c : Thread nD τ) arg6 fullShare idxb
            ∗ owns (c : Thread nD τ) arg7 fullShare (if last1 i then k1_pay6 (step1 i (wordOf i arg3 harg3 T0) (wordOf i arg4 harg4 T1) featb idxb S C).1 (step1 i (wordOf i arg3 harg3 T0) (wordOf i arg4 harg4 T1) featb idxb S C).2 else o)
            ∗ owns (c : Thread nD τ) arg8 fullShare (step1 i (wordOf i arg3 harg3 T0) (wordOf i arg4 harg4 T1) featb idxb S C).1
            ∗ owns (c : Thread nD τ) arg9 fullShare (step1 i (wordOf i arg3 harg3 T0) (wordOf i arg4 harg4 T1) featb idxb S C).2) -∗ K ⟨⟩))
      ⊢ wp frame (wpE (defs₀ (F := F)) Variants.none c none) E (cc1__scatter_kernel i arg3 harg3 arg4 harg4 arg5 harg5 arg6 harg6 arg7 harg7 arg8 harg8 arg9 harg9) K := by
  by_cases hf : first1 i
  · have hl : ¬last1 i := not_last_of_first i hf
    by_cases ha : act1 i (wordOf i arg3 harg3 T0) (wordOf i arg4 harg4 T1)
    · rw [step1_FA i _ _ featb idxb S C hf ha, if_neg hl]
      exact kern_FAn c E i arg3 harg3 arg4 harg4 arg5 harg5 arg6 harg6 arg7 harg7 arg8 harg8 arg9 harg9 q3 q4 T0 T1 featb idxb o S C K hf ha hl
    · rw [step1_Fn i _ _ featb idxb S C hf ha, if_neg hl]
      exact kern_Fnn c E i arg3 harg3 arg4 harg4 arg5 harg5 arg6 harg6 arg7 harg7 arg8 harg8 arg9 harg9 q3 q4 T0 T1 featb idxb o S C K hf ha hl
  · by_cases ha : act1 i (wordOf i arg3 harg3 T0) (wordOf i arg4 harg4 T1)
    · by_cases hl : last1 i
      · rw [step1_nA i _ _ featb idxb S C hf ha, if_pos hl]
        exact kern_nAL c E i arg3 harg3 arg4 harg4 arg5 harg5 arg6 harg6 arg7 harg7 arg8 harg8 arg9 harg9 q3 q4 T0 T1 featb idxb o S C K hf ha hl
      · rw [step1_nA i _ _ featb idxb S C hf ha, if_neg hl]
        exact kern_nAn c E i arg3 harg3 arg4 harg4 arg5 harg5 arg6 harg6 arg7 harg7 arg8 harg8 arg9 harg9 q3 q4 T0 T1 featb idxb o S C K hf ha hl
    · by_cases hl : last1 i
      · rw [step1_nn i _ _ featb idxb S C hf ha, if_pos hl]
        exact kern_nnL c E i arg3 harg3 arg4 harg4 arg5 harg5 arg6 harg6 arg7 harg7 arg8 harg8 arg9 harg9 q3 q4 T0 T1 featb idxb o S C K hf ha hl
      · rw [step1_nn i _ _ featb idxb S C hf ha, if_neg hl]
        exact kern_nnn c E i arg3 harg3 arg4 harg4 arg5 harg5 arg6 harg6 arg7 harg7 arg8 harg8 arg9 harg9 q3 q4 T0 T1 featb idxb o S C K hf ha hl

end Cert.KernelIdeal.Hand

end
-- ==== Proof.KBody1d.lean ====
/- Pallas call 1 (the scatter kernel): the pipeline's proof data and the body obligation, at any float instance.

   Stated at two parameters: V, the TensorCore's buffer contents when the region is entered, and a, admissible
   contents of the two prefetched tables. The proof data says: each input window's buffer holds its block of the
   array V gives; the output window's buffer after a point holds the quotient (k1_pay6) of the two accumulators
   as the trajectory scrAfter has them after that point (consulted only at the points nt = 97, where the body
   stores it; elsewhere the window is idle and its buffer is handed back as found); the invariant carried from
   point to point holds the two tables at contents a, the six staging buffers of pallas call 0 at anything, and
   the two accumulators — at anything before the first point, at scrAfter's pair after each point. -/
import proofs.«136896_j63960652972185_2_alg».proof.Proof.KBody1c

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
-- the TensorCore's buffer contents when the region is entered, and the admissible contents of the two tables
variable (V : (c : Dev nD) → (b : Ref sig .tc) → Buf (Elt F) ((c : Thread nD τ).loc b)) (a : (pcfg1 (F := F)).Adm)

/-! ## The memrefs the body is called with -/

/-- The two tables, whole scalar-memory buffers. -/
abbrev tb0 : Memref sig .tc .smem S8x98 .i32 := Memref.whole main_v12
abbrev tb1 : Memref sig .tc .smem S8x98 .i32 := Memref.whole main_v13
/-- Each window's current staging memref at point t, and its wholeness. -/
abbrev st1_0 (t : Fin (cfg1 a).N) : Memref sig .tc .vmem S1x64x1024 .f32 := spec1_0.stage ((cfg1 a).slots t 0)
abbrev hs1_0 (t : Fin (cfg1 a).N) : (st1_0 a t).IsWhole := hstage1_0 (((cfg1 a).slots t 0).cast nbuf1_0)
abbrev st1_1 (t : Fin (cfg1 a).N) : Memref sig .tc .vmem S1x1x1024 .i32 := spec1_1.stage ((cfg1 a).slots t 1)
abbrev hs1_1 (t : Fin (cfg1 a).N) : (st1_1 a t).IsWhole := hstage1_1 (((cfg1 a).slots t 1).cast nbuf1_1)
abbrev st1_2 (t : Fin (cfg1 a).N) : Memref sig .tc .vmem S1x64x4096 .f32 := spec1_2.stage ((cfg1 a).slots t 2)
abbrev hs1_2 (t : Fin (cfg1 a).N) : (st1_2 a t).IsWhole := hstage1_2 (((cfg1 a).slots t 2).cast nbuf1_2)
/-- The two accumulators, whole scoped buffers of the kernel's own. -/
abbrev scM0 : Memref sig .tc .vmem S64x4096 .f32 := Memref.whole cc1_scratch0
abbrev scM1 : Memref sig .tc .vmem S1x4096 .f32 := Memref.whole cc1_scratch1

/-- The kernel body at point t, on what the pipeline calls it with. -/
abbrev bodyAt1 (t : Fin (cfg1 a).N) : Prog (TpuEff nD τ sig (Elt F) Λ₀ .tc) PUnit :=
  cc1__scatter_kernel (grid1.coords t) tb0 (Memref.isWhole_whole _) tb1 (Memref.isWhole_whole _)
    (st1_0 a t) (hs1_0 a t) (st1_1 a t) (hs1_1 a t) (st1_2 a t) (hs1_2 a t)
    scM0 (Memref.isWhole_whole _) scM1 (Memref.isWhole_whole _)

/-! ## The table words -/

/-- A scalar load through the one-word rectangle at (b, nt) of a whole table held at read contents T reads T's
    element at the rectangle's one index. -/
theorem wordOf_eq (i : grid1.Coords) (arg : Memref sig .tc .smem S8x98 .i32) (harg : arg.IsWhole) (T : Vec F S8x98 .i32) :
    wordOf i arg harg T = T ((rw1 i).emb (Shape.Idx.first (numel1_S1x1.symm ▸ Nat.one_pos))) := by
  unfold wordOf; rw [View.readAt_apply, harg.read_unread]; rfl

/-- The words the body loads from the tables held at contents a are tw0, tw1. -/
theorem word0_eq (i : grid1.Coords) : wordOf i tb0 (Memref.isWhole_whole _) (a.1 0) = tw0 a i := wordOf_eq i _ _ _
theorem word1_eq (i : grid1.Coords) : wordOf i tb1 (Memref.isWhole_whole _) (a.1 1) = tw1 a i := wordOf_eq i _ _ _

/-! ## The trajectory at a point -/

/-- At the first point the trajectory is the step over ANY pair (there nt = 0). -/
theorem scrAfter_at_zero (c : Dev nD) (t : Fin (cfg1 a).N) (hz : t.val = 0) (S : Vec F S64x4096 .f32) (C : Vec F S1x4096 .f32) :
    scrAfter V a c t.val t.isLt = step1 (grid1.coords t) (tw0 a (grid1.coords t)) (tw1 a (grid1.coords t))
      (iblk1 V a c 0 t) (iblk1 V a c 1 t) S C := by
  obtain ⟨n, hn⟩ := t
  cases n with
  | zero => exact step1_first _ _ _ _ _ _ _ (first1_zero hn) S C
  | succ n => exact absurd hz (Nat.succ_ne_zero n)

/-- At any later point it is the step over what the point before left. -/
theorem scrAfter_at_pos (c : Dev nD) (t : Fin (cfg1 a).N) (hz : t.val ≠ 0) :
    scrAfter V a c t.val t.isLt = step1 (grid1.coords t) (tw0 a (grid1.coords t)) (tw1 a (grid1.coords t))
      (iblk1 V a c 0 t) (iblk1 V a c 1 t)
      (scrAfter V a c (t.val - 1) (Nat.lt_of_le_of_lt (Nat.sub_le _ _) t.isLt)).1
      (scrAfter V a c (t.val - 1) (Nat.lt_of_le_of_lt (Nat.sub_le _ _) t.isLt)).2 := by
  obtain ⟨n, hn⟩ := t
  cases n with
  | zero => exact absurd rfl hz
  | succ n => rfl

/-! ## The invariant -/

/-- The core's scoped buffers that are no staging buffer of pallas call 1 — the six staging buffers of pallas
    call 0, each whole at some contents — with the two accumulators as P and Q. -/
def restWith (c : Dev nD) (P Q : sProp 𝕄) : sProp 𝕄 :=
  iprop((∃ f : Buf (Elt F) ((c : Thread nD τ).loc cc0_stg0_0), ((c : Thread nD τ).loc cc0_stg0_0) ↦{fullShare} f)
      ∗ (∃ f : Buf (Elt F) ((c : Thread nD τ).loc cc0_stg0_1), ((c : Thread nD τ).loc cc0_stg0_1) ↦{fullShare} f)
      ∗ (∃ f : Buf (Elt F) ((c : Thread nD τ).loc cc0_stg1_0), ((c : Thread nD τ).loc cc0_stg1_0) ↦{fullShare} f)
      ∗ (∃ f : Buf (Elt F) ((c : Thread nD τ).loc cc0_stg1_1), ((c : Thread nD τ).loc cc0_stg1_1) ↦{fullShare} f)
      ∗ (∃ f : Buf (Elt F) ((c : Thread nD τ).loc cc0_stg2_0), ((c : Thread nD τ).loc cc0_stg2_0) ↦{fullShare} f)
      ∗ (∃ f : Buf (Elt F) ((c : Thread nD τ).loc cc0_stg2_1), ((c : Thread nD τ).loc cc0_stg2_1) ↦{fullShare} f)
      ∗ P ∗ Q)

/-- The scoped rest the launch hands the region: the accumulators at anything. -/
theorem scopedRest1_with (c : Dev nD) :
    (Pipeline.scopedRest spec1 c : sProp 𝕄)
      = restWith c (iprop(∃ d, owns (c : Thread nD τ) scM0 fullShare d)) (iprop(∃ d, owns (c : Thread nD τ) scM1 fullShare d)) := by
  rw [scopedRest1_eq]; unfold restWith; simp only [scM0, scM1, owns_whole]; try rfl

/-- The two tables held, one by one, as whole memrefs at their contents. -/
theorem prefHeld1_eq (c : Dev nD) (q : PosShare TreeShare) (pf : pre1.Contents (Elt F)) :
    (Pipeline.prefHeld pre1 c (fun _ => q) pf : sProp 𝕄)
      = iprop(owns (c : Thread nD τ) tb0 q (pf 0) ∗ owns (c : Thread nD τ) tb1 q (pf 1)) := by
  unfold Pipeline.prefHeld
  rw [bigSep_univ_eq_bigSepL [(0 : Fin 2), (1 : Fin 2)] (by decide) (by decide)]
  exact congrArg₂ (fun x y : sProp 𝕄 => iprop(x ∗ y)) (owns_whole (c : Thread nD τ) main_v12 q (pf 0)).symm
    (owns_whole (c : Thread nD τ) main_v13 q (pf 1)).symm

/-- The invariant before position n: the tables held at contents a; before the first point the scoped rest as the
    launch hands it, afterwards with the two accumulators at what point n - 1 left in them. -/
def Phi1 (c : Dev nD) : (n : ℕ) → n ≤ (cfg1 a).N → sProp 𝕄
  | 0, _ => iprop(Pipeline.prefHeld pre1 c (fun _ => fullShare) a.1 ∗ Pipeline.scopedRest spec1 c)
  | n + 1, hn => iprop(Pipeline.prefHeld pre1 c (fun _ => fullShare) a.1
      ∗ restWith c (owns (c : Thread nD τ) scM0 fullShare (scrAfter V a c n hn).1) (owns (c : Thread nD τ) scM1 fullShare (scrAfter V a c n hn).2))

theorem Phi1_zero (c : Dev nD) (n : ℕ) (h : n ≤ (cfg1 a).N) (hz : n = 0) :
    Phi1 V a c n h = iprop(Pipeline.prefHeld pre1 c (fun _ => fullShare) a.1 ∗ Pipeline.scopedRest spec1 c) := by
  subst hz; rfl

theorem Phi1_succ (c : Dev nD) (n : ℕ) (hn : n < (cfg1 a).N) :
    Phi1 V a c (n + 1) hn = iprop(Pipeline.prefHeld pre1 c (fun _ => fullShare) a.1
      ∗ restWith c (owns (c : Thread nD τ) scM0 fullShare (scrAfter V a c n hn).1) (owns (c : Thread nD τ) scM1 fullShare (scrAfter V a c n hn).2)) := rfl

theorem Phi1_pos (c : Dev nD) (n : ℕ) (h : n ≤ (cfg1 a).N) (hz : n ≠ 0) :
    Phi1 V a c n h = iprop(Pipeline.prefHeld pre1 c (fun _ => fullShare) a.1
      ∗ restWith c (owns (c : Thread nD τ) scM0 fullShare (scrAfter V a c (n - 1) (by omega)).1)
          (owns (c : Thread nD τ) scM1 fullShare (scrAfter V a c (n - 1) (by omega)).2)) := by
  cases n with
  | zero => exact absurd rfl hz
  | succ n => rfl

/-! ## The pipeline's proof data -/

/-- The proof data of pallas call 1 on core c at tables a: the arrays as the region finds them (V); after the body at
    point t each input's buffer at its block, the output's at the quotient of the trajectory's pair there; the
    invariant Phi1; nothing owed; full shares. -/
def dat1 (c : Dev nD) : Dat τ (Elt F) Unit ℕ (UR sig nD τ) ℕ (cfg1 a) c where
  A w := V c (Pipeline.arrRef spec1 w)
  after w t := match w with
    | ⟨0, _⟩ => iblk1 V a c 0 t
    | ⟨1, _⟩ => iblk1 V a c 1 t
    | ⟨2, _⟩ => k1_pay6 (scrAfter V a c t.val t.isLt).1 (scrAfter V a c t.val t.isLt).2
  Φ t := Phi1 V a c t.val (Nat.le_of_lt_succ t.isLt)
  q _ := fullShare
  owed _ := 0

theorem A_eq1 (c : Dev nD) (w : Fin (cfg1 a).W) : (dat1 V a c).A w = V c (Pipeline.arrRef spec1 w) := by
  dsimp only [dat1]

theorem after1_0 (c : Dev nD) (t : Fin (cfg1 a).N) : (dat1 V a c).after (0 : Fin 3) t = iblk1 V a c 0 t := by dsimp only [dat1]; try rfl
theorem after1_1 (c : Dev nD) (t : Fin (cfg1 a).N) : (dat1 V a c).after (1 : Fin 3) t = iblk1 V a c 1 t := by dsimp only [dat1]; try rfl
theorem after1_2 (c : Dev nD) (t : Fin (cfg1 a).N) :
    (dat1 V a c).after (2 : Fin 3) t = k1_pay6 (scrAfter V a c t.val t.isLt).1 (scrAfter V a c t.val t.isLt).2 := by dsimp only [dat1]; try rfl

theorem Phi1_castSucc (c : Dev nD) (t : Fin (cfg1 a).N) :
    (dat1 V a c).Φ t.castSucc = Phi1 V a c t.val (Nat.le_of_lt t.isLt) := by
  dsimp only [dat1]; simp only [Fin.coe_castSucc]

/-- Each input window's current staging buffer holds its block at every point, fetched there or not: unfetched,
    the block index has not moved since the point before. -/
theorem before1_0 (c : Dev nD) (t : Fin (cfg1 a).N) (d) : (dat1 V a c).before (0 : Fin 3) t d = iblk1 V a c 0 t :=
  ((dat1 V a c).before_in_eq_fetched (0 : Fin 3) rfl (fun _ => rfl) (fun _ _ _ => rfl)
      (fun t => by rw [after1_0]; unfold Dat.blockOf iblk1; rw [A_eq1]; try rfl) t d).trans
    (by unfold Dat.fetched Dat.blockOf iblk1; rw [A_eq1]; try rfl)
theorem before1_1 (c : Dev nD) (t : Fin (cfg1 a).N) (d) : (dat1 V a c).before (1 : Fin 3) t d = iblk1 V a c 1 t :=
  ((dat1 V a c).before_in_eq_fetched (1 : Fin 3) rfl (fun _ => rfl) (fun _ _ _ => rfl)
      (fun t => by rw [after1_1]; unfold Dat.blockOf iblk1; rw [A_eq1]; try rfl) t d).trans
    (by unfold Dat.fetched Dat.blockOf iblk1; rw [A_eq1]; try rfl)

end Regions

section Regions
variable (V : (c : Dev nD) → (b : Ref sig .tc) → Buf (Elt F) ((c : Thread nD τ).loc b)) (a : (pcfg1 (F := F)).Adm)

/-! ## The body obligation, at a generic point -/

/-- The invariant before point t, opened: the tables held, the six other scoped buffers at anything, and the two
    accumulators at SOME pair (S, C) over which the step of point t gives the trajectory's pair at t — at the first
    point any pair they happen to hold (there nt = 0), later the pair the point before left. -/
theorem Phi1_open (c : Dev nD) (t : Fin (cfg1 a).N) :
    Phi1 V a c t.val (Nat.le_of_lt t.isLt) ⊢ (iprop(∃ S C,
        ⌜scrAfter V a c t.val t.isLt = step1 (grid1.coords t) (tw0 a (grid1.coords t)) (tw1 a (grid1.coords t))
            (iblk1 V a c 0 t) (iblk1 V a c 1 t) S C⌝
        ∗ Pipeline.prefHeld pre1 c (fun _ => fullShare) a.1
        ∗ restWith c (owns (c : Thread nD τ) scM0 fullShare S) (owns (c : Thread nD τ) scM1 fullShare C)) : sProp 𝕄) := by
  by_cases hz : t.val = 0
  · rw [Phi1_zero V a c _ _ hz, scopedRest1_with]
    unfold restWith
    iintro ⟨Hp, A1, A2, A3, A4, A5, A6, ⟨%S, HS⟩, ⟨%C, HC⟩⟩
    iexists S, C
    isplitr; · ipureintro; exact scrAfter_at_zero V a c t hz S C
    isplitl [Hp]; · iexact Hp
    isplitl [A1]; · iexact A1
    isplitl [A2]; · iexact A2
    isplitl [A3]; · iexact A3
    isplitl [A4]; · iexact A4
    isplitl [A5]; · iexact A5
    isplitl [A6]; · iexact A6
    isplitl [HS]; · iexact HS
    iexact HC
  · rw [Phi1_pos V a c _ _ hz]
    iintro ⟨Hp, HR⟩
    iexists _, _
    isplitr; · ipureintro; exact scrAfter_at_pos V a c t hz
    isplitl [Hp]; · iexact Hp
    iexact HR

/-- What the body is called with at point t: the invariant, the core's debts, and each window's current staging
    buffer at what the pipeline left in it, -/
def bodyPre1 (c : Dev nD) (t : Fin (cfg1 a).N) : sProp 𝕄 :=
  iprop((dat1 V a c).Φ t.castSucc ∗ (dat1 V a c).owesAt () t.castSucc
    ∗ (∃ d, owns (c : Thread nD τ) (st1_0 a t) fullShare ((dat1 V a c).before (0 : Fin 3) t d))
    ∗ (∃ d, owns (c : Thread nD τ) (st1_1 a t) fullShare ((dat1 V a c).before (1 : Fin 3) t d))
    ∗ (∃ d, owns (c : Thread nD τ) (st1_2 a t) fullShare ((dat1 V a c).before (2 : Fin 3) t d)))

/-- and what it returns: the invariant at the next point, the debts, and each buffer at what the body leaves —
    the output's, where the window is idle, as it was found. -/
def bodyPost1 (c : Dev nD) (t : Fin (cfg1 a).N) : sProp 𝕄 :=
  iprop((dat1 V a c).Φ t.succ ∗ (dat1 V a c).owesAt () t.succ
    ∗ (dat1 V a c).leavesExact (0 : Fin 3) t
    ∗ (dat1 V a c).leavesExact (1 : Fin 3) t
    ∗ (dat1 V a c).leavesExact (2 : Fin 3) t)

set_option maxHeartbeats 1600000 in
/-- The body at any point: the inputs' memrefs hold their blocks, the invariant hands the body the tables at contents
    a and the accumulators at a pair over which the point's step is the trajectory's pair there, so the body's
    triple applies at the words tw0, tw1 of the tables; it leaves the accumulators at the trajectory's pair, which
    the invariant takes back, and the output buffer at the quotient of that pair where nt = 97, untouched
    elsewhere, where the window is idle and not written back. -/
theorem sound_body1 (c : Dev nD) (t : Fin (cfg1 a).N) :
    bodyPre1 V a c t ⊢ wp frame (wpE (defs₀ (F := F)) Variants.none c none) Set.univ (bodyAt1 a t) (fun _ => bodyPost1 V a c t) := by
  unfold bodyPre1 bodyPost1 bodyAt1
  simp only [before1_0, before1_1]
  rw [show (dat1 V a c).owesAt () t.succ = (dat1 V a c).owesAt () t.castSucc from rfl]
  rw [show (dat1 V a c).Φ t.succ = Phi1 V a c (t.val + 1) t.isLt from rfl, Phi1_succ, Phi1_castSucc]
  rw [show (dat1 V a c).leavesExact (0 : Fin 3) t = owns (c : Thread nD τ) (st1_0 a t) fullShare ((dat1 V a c).after (0 : Fin 3) t) from by
    unfold Dat.leavesExact; rw [liveAt1_0 a], after1_0]
  rw [show (dat1 V a c).leavesExact (1 : Fin 3) t = owns (c : Thread nD τ) (st1_1 a t) fullShare ((dat1 V a c).after (1 : Fin 3) t) from by
    unfold Dat.leavesExact; rw [liveAt1_1 a], after1_1]
  refine (Idealize.SL.BI.Laws.sep_mono_left (Phi1_open V a c t)).trans ?_
  rw [prefHeld1_eq]
  unfold restWith
  by_cases hl : last1 (grid1.coords t)
  · rw [show (dat1 V a c).leavesExact (2 : Fin 3) t = owns (c : Thread nD τ) (st1_2 a t) fullShare ((dat1 V a c).after (2 : Fin 3) t) from by
      have hi : (cfg1 a).idle (2 : Fin 3) ((cfg1 a).grid.coords t) = false := liveAt1_2 a _ hl
      unfold Dat.leavesExact
      first
        | (rw [hi])
        | (split
           · next h => exact absurd (h.symm.trans hi) (by decide)
           · rfl), after1_2]
    iintro ⟨⟨%S, %C, %hS, ⟨H3, H4⟩, A1, A2, A3, A4, A5, A6, HS, HC⟩, Ho, ⟨%d0, H0⟩, ⟨%d1, H1⟩, ⟨%d2, H2⟩⟩
    iapply (sound_kernel1 c Set.univ (grid1.coords t) tb0 (Memref.isWhole_whole _) tb1 (Memref.isWhole_whole _)
      (st1_0 a t) (hs1_0 a t) (st1_1 a t) (hs1_1 a t) (st1_2 a t) (hs1_2 a t) scM0 (Memref.isWhole_whole _) scM1 (Memref.isWhole_whole _)
      fullShare fullShare (a.1 0) (a.1 1) (iblk1 V a c 0 t) (iblk1 V a c 1 t) _ S C _)
    rw [word0_eq a, word1_eq a, ← hS, if_pos hl]
    isplitl [H3]; · iexact H3
    isplitl [H4]; · iexact H4
    isplitl [H0]; · iexact H0
    isplitl [H1]; · iexact H1
    isplitl [H2]; · iexact H2
    isplitl [HS]; · iexact HS
    isplitl [HC]; · iexact HC
    iintro ⟨H3, H4, H0, H1, H2, HS, HC⟩
    isplitl [H3 H4 A1 A2 A3 A4 A5 A6 HS HC]
    · isplitl [H3 H4]
      · isplitl [H3]; · iexact H3
        iexact H4
      isplitl [A1]; · iexact A1
      isplitl [A2]; · iexact A2
      isplitl [A3]; · iexact A3
      isplitl [A4]; · iexact A4
      isplitl [A5]; · iexact A5
      isplitl [A6]; · iexact A6
      isplitl [HS]; · iexact HS
      iexact HC
    isplitl [Ho]; · iexact Ho
    isplitl [H0]; · iexact H0
    isplitl [H1]; · iexact H1
    iexact H2
  · rw [Dat.leavesExact_idle (dat1 V a c) (2 : Fin 3) t (idleAt1_2 a _ hl) (noFlush1_2 a t hl)]
    iintro ⟨⟨%S, %C, %hS, ⟨H3, H4⟩, A1, A2, A3, A4, A5, A6, HS, HC⟩, Ho, ⟨%d0, H0⟩, ⟨%d1, H1⟩, ⟨%d2, H2⟩⟩
    iapply (sound_kernel1 c Set.univ (grid1.coords t) tb0 (Memref.isWhole_whole _) tb1 (Memref.isWhole_whole _)
      (st1_0 a t) (hs1_0 a t) (st1_1 a t) (hs1_1 a t) (st1_2 a t) (hs1_2 a t) scM0 (Memref.isWhole_whole _) scM1 (Memref.isWhole_whole _)
      fullShare fullShare (a.1 0) (a.1 1) (iblk1 V a c 0 t) (iblk1 V a c 1 t) _ S C _)
    rw [word0_eq a, word1_eq a, ← hS, if_neg hl]
    isplitl [H3]; · iexact H3
    isplitl [H4]; · iexact H4
    isplitl [H0]; · iexact H0
    isplitl [H1]; · iexact H1
    isplitl [H2]; · iexact H2
    isplitl [HS]; · iexact HS
    isplitl [HC]; · iexact HC
    iintro ⟨H3, H4, H0, H1, H2, HS, HC⟩
    isplitl [H3 H4 A1 A2 A3 A4 A5 A6 HS HC]
    · isplitl [H3 H4]
      · isplitl [H3]; · iexact H3
        iexact H4
      isplitl [A1]; · iexact A1
      isplitl [A2]; · iexact A2
      isplitl [A3]; · iexact A3
      isplitl [A4]; · iexact A4
      isplitl [A5]; · iexact A5
      isplitl [A6]; · iexact A6
      isplitl [HS]; · iexact HS
      iexact HC
    isplitl [Ho]; · iexact Ho
    isplitl [H0]; · iexact H0
    isplitl [H1]; · iexact H1
    iexists _; iexact H2

/-- The library's body obligation, at every point. -/
theorem body_obligation1 (c : Dev nD) : BodyObligation (dat1 (F := F) V a c) (defs₀ (F := F)) Variants.none () Set.univ := fun t => by
  rw [bigSep_W1, bigSep_W1]
  exact sound_body1 V a c t

/-! ## Entering and leaving the region -/

/-- What the launch hands the region — the tables held and the scoped rest — is the invariant before the first point. -/
theorem hin1 (c : Dev nD) :
    (iprop(emp ∗ Pipeline.prefHeld pre1 c (fun _ => fullShare) a.1 ∗ Pipeline.scopedRest (cfg1 a).spec c) : sProp 𝕄) ⊢ (dat1 V a c).Φ 0 := by
  rw [show (dat1 V a c).Φ 0 = Phi1 V a c 0 (Nat.zero_le _) from rfl, Phi1_zero V a c 0 _ rfl]
  iintro ⟨-, Hp, Hr⟩
  isplitl [Hp]; · iexact Hp
  iexact Hr

/-- After any point the invariant gives the same back: the accumulators' named contents are forgotten. -/
theorem Phi1_out (c : Dev nD) (t : Fin ((cfg1 a).N + 1)) (ht : t.val ≠ 0) :
    (dat1 V a c).Φ t ⊢ (iprop(Pipeline.prefHeld pre1 c (fun _ => fullShare) a.1 ∗ Pipeline.scopedRest (cfg1 a).spec c) : sProp 𝕄) := by
  rw [show (dat1 V a c).Φ t = Phi1 V a c t.val (Nat.le_of_lt_succ t.isLt) from rfl, Phi1_pos V a c _ _ ht]
  rw [show (Pipeline.scopedRest (cfg1 a).spec c : sProp 𝕄) = Pipeline.scopedRest spec1 c from rfl, scopedRest1_with]
  unfold restWith
  iintro ⟨Hp, A1, A2, A3, A4, A5, A6, HS, HC⟩
  isplitl [Hp]; · iexact Hp
  isplitl [A1]; · iexact A1
  isplitl [A2]; · iexact A2
  isplitl [A3]; · iexact A3
  isplitl [A4]; · iexact A4
  isplitl [A5]; · iexact A5
  isplitl [A6]; · iexact A6
  isplitl [HS]; · iexists _; iexact HS
  iexists _; iexact HC

/-- The same after the last point. -/
theorem hout1 (c : Dev nD) :
    (dat1 V a c).Φ (Fin.last (cfg1 a).N) ⊢ (iprop(Pipeline.prefHeld pre1 c (fun _ => fullShare) a.1 ∗ Pipeline.scopedRest (cfg1 a).spec c) : sProp 𝕄) :=
  Phi1_out V a c _ (by rw [Fin.val_last, N1 a]; omega)

end Regions

end Cert.KernelIdeal.Hand

end
-- ==== Proof.KRun.lean ====
/-
  The run of the whole program: the first kernel region, eight stretches of host operations, the second kernel region
  and the closing reshape, as one list of segments.  Between two segments the TensorCore's unscoped buffers are held at
  named contents `WJ`: the launch memory, then — segment by segment — a region's arrays at what its write-backs leave
  and every other buffer as it was, or a host stretch's operations applied.  The second region's two scalar tables are
  the per-tile minimum and maximum the host computed just before it: their contents there pin its pipeline.  Every weakly
  fair execution terminates, nothing faulting, and every final memory holds each unscoped buffer at the last contents `W11`.
-/
import proofs.«136896_j63960652972185_2_alg».proof.Proof.KBody0
import proofs.«136896_j63960652972185_2_alg».proof.Proof.KBody1d
import proofs.«136896_j63960652972185_2_alg».proof.Proof.Gen.KernelIdeal.Regions
import Idealize.ShloMosaic.Lib.Pipeline.RegionsLoop
import Idealize.ShloMosaic.Lib.Pipeline.FrameSuffix

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each segment boundary -/

/-- At launch. -/
abbrev W0 : Dev nD → Valuation τ sig (Elt F) := fun c b => m (c, b)
/-- The same read at the TensorCore's references: what the first region is entered from. -/
abbrev VA : (c : Dev nD) → (b : Ref sig .tc) → Buf (Elt F) ((c : Thread nD τ).loc b) := fun c b => W0 m c b
/-- After the first region: its arrays at what its write-backs leave, every other buffer as it was. -/
def W1 (c : Dev nD) : Valuation τ sig (Elt F) :=
  Pipeline.withArrays spec0 c (W0 m c) fun w => (dat0 (VA m) c).arrAt w cfg0.N
theorem W1_arr (c : Dev nD) (w : Fin cfg0.W) :
    W1 m c (Proc.devRef .tc (Pipeline.arrRef spec0 w)) = (dat0 (VA m) c).arrAt w cfg0.N := by
  unfold W1; exact Pipeline.withArrays_arr spec0 (launch0 (F := F)).win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
abbrev VA' : (c : Dev nD) → (b : Ref sig .tc) → Buf (Elt F) ((c : Thread nD τ).loc b) := fun c b => W1 m c b
theorem hF0 (c : Dev nD) (w : Fin cfg0.W) : (dat0 (VA m) c).arrAt w cfg0.N = VA' m c (Pipeline.arrRef spec0 w) :=
  (W1_arr m c w).symm
theorem hrest0 (c : Dev nD) : ∀ b, b ∉ Finset.univ.image (Pipeline.arrRef spec0) → VA' m c b = VA m c b :=
  fun b hb => W1_of_ne m c b fun w e => hb (Finset.mem_image.mpr ⟨w, Finset.mem_univ _, e⟩)

/-- After each of the eight host stretches between the regions. -/
abbrev W2 : Dev nD → Valuation τ sig (Elt F) := fun c => StableHlo.after hostOps1 (W1 m c)
abbrev W3 : Dev nD → Valuation τ sig (Elt F) := fun c => StableHlo.after hostOps1_1 (W2 m c)
abbrev W4 : Dev nD → Valuation τ sig (Elt F) := fun c => StableHlo.after hostOps1_2 (W3 m c)
abbrev W5 : Dev nD → Valuation τ sig (Elt F) := fun c => StableHlo.after hostOps1_3 (W4 m c)
abbrev W6 : Dev nD → Valuation τ sig (Elt F) := fun c => StableHlo.after hostOps1_4 (W5 m c)
abbrev W7 : Dev nD → Valuation τ sig (Elt F) := fun c => StableHlo.after hostOps1_5 (W6 m c)
abbrev W8 : Dev nD → Valuation τ sig (Elt F) := fun c => StableHlo.after hostOps1_6 (W7 m c)
abbrev W9 : Dev nD → Valuation τ sig (Elt F) := fun c => StableHlo.after hostOps1_7 (W8 m c)
/-- The same read at the TensorCore's references: what the second region is entered from. -/
abbrev VB : (c : Dev nD) → (b : Ref sig .tc) → Buf (Elt F) ((c : Thread nD τ).loc b) := fun c b => W9 m c b

/-- The one device. -/
abbrev c₀ : Dev nD := ⟨0, Nat.one_pos⟩
theorem dev_eq (c : Dev nD) : c = c₀ := Subsingleton.elim _ _

/-- The second region's tables hold, when it is entered, the two arrays the host has just computed. -/
def tbl : pre1.Contents (Elt F) := fun k => VB m c₀ (pre1.ref k)
/-- They are admissible: the region's side condition on tables is empty, no index map reading one. -/
def adm1 : (pcfg1 (F := F)).Adm := ⟨tbl m, trivial⟩
/-- Every pipeline's tables. -/
def adm : (p : Fin 2) → (pcfgs (F := F) p).Adm
  | ⟨0, _⟩ => cfg0.toPCfg_adm
  | ⟨1, _⟩ => adm1 m

/-- After the second region. -/
def W10 (c : Dev nD) : Valuation τ sig (Elt F) :=
  Pipeline.withArrays spec1 c (W9 m c) fun w => (dat1 (VB m) (adm1 m) c).arrAt w (cfg1 (adm1 m)).N
theorem W10_arr (c : Dev nD) (w : Fin (cfg1 (adm1 m)).W) :
    W10 m c (Proc.devRef .tc (Pipeline.arrRef spec1 w)) = (dat1 (VB m) (adm1 m) c).arrAt w (cfg1 (adm1 m)).N := by
  unfold W10; exact Pipeline.withArrays_arr spec1 (launch1 (F := F)).win.arr_inj c _ _ w
theorem W10_of_ne (c : Dev nD) (b : Ref sig .tc) (hb : ∀ w, Pipeline.arrRef spec1 w ≠ b) :
    W10 m c (Proc.devRef .tc b) = W9 m c (Proc.devRef .tc b) := by
  unfold W10; exact Pipeline.withArrays_of_ne spec1 c _ _ b hb
abbrev VB' : (c : Dev nD) → (b : Ref sig .tc) → Buf (Elt F) ((c : Thread nD τ).loc b) := fun c b => W10 m c b
theorem hF1 (c : Dev nD) (w : Fin (cfg1 (adm1 m)).W) :
    (dat1 (VB m) (adm1 m) c).arrAt w (cfg1 (adm1 m)).N = VB' m c (Pipeline.arrRef spec1 w) :=
  (W10_arr m c w).symm
theorem hrest1 (c : Dev nD) : ∀ b, b ∉ Finset.univ.image (Pipeline.arrRef spec1) → VB' m c b = VB m c b :=
  fun b hb => W10_of_ne m c b fun w e => hb (Finset.mem_image.mpr ⟨w, Finset.mem_univ _, e⟩)
/-- After the closing reshape. -/
abbrev W11 : Dev nD → Valuation τ sig (Elt F) := fun c => StableHlo.after hostOps2 (W10 m c)

/-! ## The proof data family and the thread state -/

/-- Every pipeline's proof data, each at its region's entry contents. -/
def pdats : (p : Fin 2) → (c : Dev nD) → Dat τ (Elt F) Unit ℕ (UR sig nD τ) ℕ (Pipeline.pin (pcfgs (F := F)) (adm m) p) c
  | ⟨0, _⟩ => fun c => dat0 (VA m) c
  | ⟨1, _⟩ => fun c => dat1 (VB m) (adm1 m) c
abbrev 𝒱₀ : Variants := Variants.none
abbrev L : GSem nD τ sig → Finset Unit := fun _ => ∅
abbrev lv : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)
/-- A host stretch as a segment. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W11 m c) ∗ ∃ r, prngReg c r)

/-! ## The regions as segments -/

set_option backward.isDefEq.respectTransparency.types false in
/-- The first region: entered from every unscoped buffer at `W0`, left at `W1`. -/
def reg0 : Pipeline.RegionSeg (pcfgs (F := F)) (adm m) (pdats m) () defs₀ 𝒱₀ L lv 0 where
  win := (launch0 (F := F)).win.to₀
  block_pos := (launch0 (F := F)).block_pos
  stage_whole := (launch0 (F := F)).stage_whole
  K := PEmpty
  osem k := k.elim
  ho := Pipeline.OwnSemFacts.none _
  hbody c := (body_obligation0 (VA m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (VA m c)
  hentry c := by
    rw [Pipeline.ownSems0_none]
    have hsplit := Pipeline.arrays_of_unscopedBufs (p := 0) (pcfgs (F := F)) (adm m) (pdats m) (launch0 (F := F)).win (launch0 (F := F)).arr_whole c
      ((pdats m 0 c).share_full fun _ => rfl) (VA m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) (adm m) (Ix := Unit) (Name := ℕ) (U := UR sig nD τ) (Lvl := ℕ)
      (launch0 (F := F)).win (launch0 (F := F)).arr_whole c (pdats m) ((pdats m 0 c).share_full fun _ => rfl)
      (VA m c) (VA' m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second region: entered from every unscoped buffer at `W9`, left at `W10`.  Its two tables go to the kernel's
    invariant whole and come back unchanged; the generator register passes by. -/
def reg1 : Pipeline.RegionSeg (pcfgs (F := F)) (adm m) (pdats m) () defs₀ 𝒱₀ L lv 1 where
  win := (launch1 (F := F)).win.to₀
  block_pos := (launch1 (F := F)).block_pos
  stage_whole := (launch1 (F := F)).stage_whole
  K := PEmpty
  osem k := k.elim
  ho := Pipeline.OwnSemFacts.none _
  hbody c := (body_obligation1 (VB m) (adm1 m) c).loose
  hwaits := Pipeline.hwaits_of_owed_zero _ _ _ _ L lv 1 fun _ _ => rfl
  pre c := iprop(StableHlo.held (c : Thread nD τ) (Pipeline.ucRefs τ sig) (W9 m c) ∗ R c)
  post c := iprop(StableHlo.held (c : Thread nD τ) (Pipeline.ucRefs τ sig) (W10 m c) ∗ R c)
  X c := iprop(emp)
  Y c := Pipeline.prefHeld (Ix := Unit) (Name := ℕ) (U := UR sig nD τ) (Lvl := ℕ) pre1 c (fun _ => fullShare) (adm1 m).1
  Z c := iprop(Pipeline.unscopedRestP (Ix := Unit) (Name := ℕ) (U := UR sig nD τ) (Lvl := ℕ) pre1 (Pipeline.pin (pcfgs (F := F)) (adm m) 1).spec c (VB m c) ∗ ∃ r, prngReg c r)
  hentry c := by
    rw [Pipeline.ownSems0_none]
    have hsplit := Pipeline.arrays_of_unscopedBufs (p := 1) (pcfgs (F := F)) (adm m) (pdats m) (launch1 (F := F)).win (launch1 (F := F)).arr_whole c
      ((pdats m 1 c).share_full fun _ => rfl) (VB m c) fun _ => rfl
    rw [Pipeline.unscopedBufs_held, Pipeline.unscopedRest_split (win := (Pipeline.pin (pcfgs (F := F)) (adm m) 1).spec) (pre := pre1) preFacts1 c (VB m c)] at hsplit
    have hc : c = c₀ := dev_eq c
    subst hc
    iintro ⟨⟨Hub, Hp, HO⟩, -, -⟩
    ihave H := hsplit $$ Hub
    icases H with ⟨Ha, Hpf, Hrest⟩
    imodintro
    isplitl [Ha]; · iexact Ha
    isplitl [Hpf]; · iexact Hpf
    isplitl [HO]
    · unfold Pipeline.Dat.owesAt Pipeline.owesWithin
      icases HO with ⟨%W, HO⟩; iexists W; isplitr; · ipureintro; exact fun _ _ => Or.inl trivial
      iexact HO
    isplitr; · iempintro
    isplitl [Hrest]; · iexact Hrest
    iexact Hp
  hin c := hin1 (VB m) (adm1 m) c
  hout c := by
    rw [Pipeline.ownSems0_none]
    exact (hout1 (VB m) (adm1 m) c).trans (by
      iintro ⟨Hpf, Hr⟩
      isplitl [Hpf]; · iexact Hpf
      isplitr; · iempintro
      iexact Hr)
  hexit c := by
    have hjoin := Pipeline.unscopedBufs_of_arrays (p := 1) (pcfgs (F := F)) (adm m) (Ix := Unit) (Name := ℕ) (U := UR sig nD τ) (Lvl := ℕ)
      (launch1 (F := F)).win (launch1 (F := F)).arr_whole c (pdats m) ((pdats m 1 c).share_full fun _ => rfl)
      (VB m c) (VB' m c) ((pdats m 1 c).arrAt · (cfg1 (adm1 m)).N) (hF1 m c) (hrest1 m c)
    rw [Pipeline.unscopedBufs_held, Pipeline.unscopedRest_split (win := (Pipeline.pin (pcfgs (F := F)) (adm m) 1).spec) (pre := pre1) preFacts1 c (VB m c)] at hjoin
    have hc : c = c₀ := dev_eq c
    subst hc
    iintro ⟨Ha, HO, HY, Hrest, Hp⟩
    imodintro
    isplitl [Ha Hrest HY]
    · iapply hjoin
      isplitl [Ha]; · iexact Ha
      isplitl [HY]; · iexact HY
      iexact Hrest
    isplitl [Hp]; · iexact Hp
    unfold Pipeline.Dat.owesAt Pipeline.owesWithin
    icases HO with ⟨%W, -, HO⟩; iexists W; iexact HO

/-! ## The program as segments, and the launch -/

/-- The eleven segments in order. -/
abbrev segs : List (Pipeline.Seg (pcfgs (F := F)) (adm m) (pdats m) () defs₀ 𝒱₀ L lv) :=
  [ .region (reg0 m),
    .host (hseg hostOps1 hostOps1_sub hostOps1_fresh (W1 m)),
    .host (hseg hostOps1_1 hostOps1_1_sub hostOps1_1_fresh (W2 m)),
    .host (hseg hostOps1_2 hostOps1_2_sub hostOps1_2_fresh (W3 m)),
    .host (hseg hostOps1_3 hostOps1_3_sub hostOps1_3_fresh (W4 m)),
    .host (hseg hostOps1_4 hostOps1_4_sub hostOps1_4_fresh (W5 m)),
    .host (hseg hostOps1_5 hostOps1_5_sub hostOps1_5_fresh (W6 m)),
    .host (hseg hostOps1_6 hostOps1_6_sub hostOps1_6_fresh (W7 m)),
    .host (hseg hostOps1_7 hostOps1_7_sub hostOps1_7_fresh (W8 m)),
    .region (reg1 m),
    .host (hseg hostOps2 hostOps2_sub hostOps2_fresh (W10 m)) ]

set_option backward.isDefEq.respectTransparency.types false in
/-- THE RUN.  From any memory with zero counters every weakly fair execution of the program on the TensorCore terminates,
    nothing faulting, and every final memory holds each unscoped buffer at `W11`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W11 m c b) :=
  Pipeline.θ_run_regions_kit_dev (pcfgs (F := F)) (adm m) (pdats m) () (cellOf_inj (adm m)) emb₁ defs₀ 𝒱₀ L lv m ρ main
    (fun _ => segs m)
    (fun c Q => by
      rewrite [main_chain c, Pipeline.Seg.run_eq_chain,
        show (segs m).map Pipeline.Seg.prog = [
          Prog.lift (.customCall (Pipeline.entry 0) ()),
          StableHlo.seq hostOps1,
          StableHlo.seq hostOps1_1,
          StableHlo.seq hostOps1_2,
          StableHlo.seq hostOps1_3,
          StableHlo.seq hostOps1_4,
          StableHlo.seq hostOps1_5,
          StableHlo.seq hostOps1_6,
          StableHlo.seq hostOps1_7,
          Prog.lift (.customCall (Pipeline.entry 1) ()),
          StableHlo.seq hostOps2 ] from rfl]
      exact .rfl)
    (fun c => by simp only [segs, Pipeline.Seg.pipes_host, Pipeline.Seg.pipes_region, Pipeline.Seg.pipes_nil]; decide)
    (O₀ := 0) (hL := fun _ _ => rfl) (G := fun _ => iprop(emp))
    (u₀ := initOf (Pipeline.cells (Pipeline.pin (pcfgs (F := F)) (adm m)) (cellOf_inj (adm m))) (Pipeline.launchToks (Pipeline.pin (pcfgs (F := F)) (adm m)) (cellOf_inj (adm m))))
    (hu₀ := by
      iintro Hu; imodintro
      isplitl [Hu]
      · iapply (show (ownU (initOf (Pipeline.cells (Pipeline.pin (pcfgs (F := F)) (adm m)) (cellOf_inj (adm m))) (Pipeline.launchToks (Pipeline.pin (pcfgs (F := F)) (adm m)) (cellOf_inj (adm m)))) : sProp 𝕄)
            ⊢ BI.own (emb₁ (initOf (Pipeline.cells (Pipeline.pin (pcfgs (F := F)) (adm m)) (cellOf_inj (adm m))) (Pipeline.launchToks (Pipeline.pin (pcfgs (F := F)) (adm m)) (cellOf_inj (adm m))))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := fun c => ⟨.rfl, .rfl, .rfl, .rfl, .rfl, .rfl, .rfl, .rfl, .rfl, .rfl, .rfl,
      (show iprop(StableHlo.held (c : Thread nD τ) (Pipeline.ucRefs τ sig) (W11 m c) ∗ R c)
          ⊢ iprop(Tₙ m c ∗ ∃ W, owes (c : Thread nD τ) (0 : CellTallies nD τ sig Unit) W) from by
        iintro ⟨Hh, Hp, HO⟩
        isplitl [Hh Hp]
        · isplitl [Hh]; · iexact Hh
          iexact Hp
        iexact HO)⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m c b)
    (hfin := fun c s' => by
      iintro ⟨⟨Hh, -⟩, HSI⟩
      unfold StableHlo.held
      imodintro
      iapply (pointsTo_read_all (Pipeline.ucRefs τ sig) (fun b => (((c : Thread nD τ)).1, b)) (W11 m c) s')
      isplitl [Hh] <;> iassumption)
    (hQ := fun s h => h)

end Cert.KernelIdeal.Hand

end
-- ==== Proof.KEnd.lean ====
/-
  The last boundary contents read back at the buffers the claims speak of: each argument array is what the launch memory
  held (no host operation writes an argument, the first region only reads the coordinates, the second neither), the
  normalised coordinates are what the first region's write-backs left, and the voxel grid is the second region's array
  recast to five axes.
-/
import proofs.«136896_j63960652972185_2_alg».proof.Proof.KRun
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.StableHlo
open Idealize.SL Idealize.SL.Sem
open Idealize.ShloMosaic.Pipeline (Dat)

variable {F : FTy → Type} [FloatOps F]
variable (m : (ℓ : Loc nD τ sig) → Buf (Elt F) ℓ)

/-! ## What each host stretch leaves alone -/

theorem W2_of (c : Dev nD) (r : Ref sig .tc) (h : r ∉ hostOps1_W) : W2 m c r = W1 m c r :=
  StableHlo.after_of_writes_sub hostOps1 _ hostOps1_writes h
theorem W3_of (c : Dev nD) (r : Ref sig .tc) (h : r ∉ hostOps1_1_W) : W3 m c r = W2 m c r :=
  StableHlo.after_of_writes_sub hostOps1_1 _ hostOps1_1_writes h
theorem W4_of (c : Dev nD) (r : Ref sig .tc) (h : r ∉ hostOps1_2_W) : W4 m c r = W3 m c r :=
  StableHlo.after_of_writes_sub hostOps1_2 _ hostOps1_2_writes h
theorem W5_of (c : Dev nD) (r : Ref sig .tc) (h : r ∉ hostOps1_3_W) : W5 m c r = W4 m c r :=
  StableHlo.after_of_writes_sub hostOps1_3 _ hostOps1_3_writes h
theorem W6_of (c : Dev nD) (r : Ref sig .tc) (h : r ∉ hostOps1_4_W) : W6 m c r = W5 m c r :=
  StableHlo.after_of_writes_sub hostOps1_4 _ hostOps1_4_writes h
theorem W7_of (c : Dev nD) (r : Ref sig .tc) (h : r ∉ hostOps1_5_W) : W7 m c r = W6 m c r :=
  StableHlo.after_of_writes_sub hostOps1_5 _ hostOps1_5_writes h
theorem W8_of (c : Dev nD) (r : Ref sig .tc) (h : r ∉ hostOps1_6_W) : W8 m c r = W7 m c r :=
  StableHlo.after_of_writes_sub hostOps1_6 _ hostOps1_6_writes h
theorem W9_of (c : Dev nD) (r : Ref sig .tc) (h : r ∉ hostOps1_7_W) : W9 m c r = W8 m c r :=
  StableHlo.after_of_writes_sub hostOps1_7 _ hostOps1_7_writes h
theorem W11_of (c : Dev nD) (r : Ref sig .tc) (h : r ∉ hostOps2_W) : W11 m c r = W10 m c r :=
  StableHlo.after_of_writes_sub hostOps2 _ hostOps2_writes h

/-- A buffer no host stretch between the regions writes holds, when the second region is entered, what the first left. -/
theorem W9_W1 (c : Dev nD) (r : Ref sig .tc) (h1 : r ∉ hostOps1_W) (h2 : r ∉ hostOps1_1_W) (h3 : r ∉ hostOps1_2_W) (h4 : r ∉ hostOps1_3_W)
    (h5 : r ∉ hostOps1_4_W) (h6 : r ∉ hostOps1_5_W) (h7 : r ∉ hostOps1_6_W) (h8 : r ∉ hostOps1_7_W) : W9 m c r = W1 m c r :=
  (W9_of m c r h8).trans <| (W8_of m c r h7).trans <| (W7_of m c r h6).trans <| (W6_of m c r h5).trans <| (W5_of m c r h4).trans <|
    (W4_of m c r h3).trans <| (W3_of m c r h2).trans (W2_of m c r h1)

/-- A buffer that is no array of the second region and that neither the closing reshape nor a stretch between the
    regions writes ends as the first region left it. -/
theorem W11_W1 (c : Dev nD) (r : Ref sig .tc) (h0 : r ∉ hostOps2_W) (ha : ∀ w, Pipeline.arrRef spec1 w ≠ r)
    (h1 : r ∉ hostOps1_W) (h2 : r ∉ hostOps1_1_W) (h3 : r ∉ hostOps1_2_W) (h4 : r ∉ hostOps1_3_W)
    (h5 : r ∉ hostOps1_4_W) (h6 : r ∉ hostOps1_5_W) (h7 : r ∉ hostOps1_6_W) (h8 : r ∉ hostOps1_7_W) : W11 m c r = W1 m c r :=
  (W11_of m c r h0).trans <| (W10_of_ne m c r ha).trans (W9_W1 m c r h1 h2 h3 h4 h5 h6 h7 h8)

/-! ## The arguments, the normalised coordinates -/

theorem W11_main_arg0 (c : Dev nD) : W11 m c main_arg0 = m ((c : Thread nD τ).loc main_arg0) :=
  (W11_W1 m c main_arg0 (by decide) (by decide) (by decide) (by decide) (by decide) (by decide) (by decide) (by decide) (by decide) (by decide)).trans
    ((W1_of_ne m c main_arg0 (by decide)).trans rfl)

theorem W1_main_arg1 (c : Dev nD) : W1 m c main_arg1 = m ((c : Thread nD τ).loc main_arg1) :=
  (W1_arr m c 0).trans (((dat0 (VA m) c).arrAt_in 0 rfl _).trans ((A_eq0 (VA m) c 0).trans rfl))

theorem W11_main_arg1 (c : Dev nD) : W11 m c main_arg1 = m ((c : Thread nD τ).loc main_arg1) :=
  (W11_W1 m c main_arg1 (by decide) (by decide) (by decide) (by decide) (by decide) (by decide) (by decide) (by decide) (by decide) (by decide)).trans
    (W1_main_arg1 m c)

/-- The second result: what the first region's write-backs left in its first output array. -/
theorem W11_main_v0_0 (c : Dev nD) : W11 m c main_v0_0 = (dat0 (VA m) c).arrAt 1 cfg0.N :=
  (W11_W1 m c main_v0_0 (by decide) (by decide) (by decide) (by decide) (by decide) (by decide) (by decide) (by decide) (by decide) (by decide)).trans
    (W1_arr m c 1)

/-- The voxel ids the host stretches start from: the first region's second output array. -/
theorem W1_main_v0_1 (c : Dev nD) : W1 m c main_v0_1 = (dat0 (VA m) c).arrAt 2 cfg0.N := W1_arr m c 2
/-- The features the host stretches gather from: the launch memory's. -/
theorem W1_main_arg0 (c : Dev nD) : W1 m c main_arg0 = m ((c : Thread nD τ).loc main_arg0) :=
  (W1_of_ne m c main_arg0 (by decide)).trans rfl

/-! ## The voxel grid -/

/-- The first result: the second region's output array, recast from [8, 64, 32768] to [8, 64, 32, 32, 32]. -/
theorem W11_main_v15 (c : Dev nD) :
    (W11 m c main_v15 : S8x64x32x32x32.Idx → Elt F .f32)
      = shapeCast S8x64x32x32x32 (W10 m c main_v14 : S8x64x32768.Idx → Elt F .f32) shapeCasts_S8x64x32768_S8x64x32x32x32 := by
  dsimp only [W11, hostOps2]
  after_results
  rfl

/-- That array is what the second region's write-backs left. -/
theorem W10_main_v14 (c : Dev nD) : W10 m c main_v14 = (dat1 (VB m) (adm1 m) c).arrAt 2 (cfg1 (adm1 m)).N := W10_arr m c 2

/-! ## The frame -/

/-- Both argument arrays end as launched. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨(h c _ (mem_uc main_arg0 (by decide))).trans (W11_main_arg0 m c),
     (h c _ (mem_uc main_arg1 (by decide))).trans (W11_main_arg1 m c)⟩) (run_all m ρ)

end Cert.KernelIdeal.Hand

end
-- ==== Proof.LibColumn.lean ====
/-
  Column forms of a row-wise reduction's result, read with coordinates, for any extents.

  A reduction over the second axis of an a × b array that keeps its dimensions leaves one number per row, stored as a
  column: an array of extent [a] is cast to [a, 1], and the column [a, 1] is then repeated along the rows to [a, b].
  * `shapeCast_a_a1_apply`: the cast [a] → [a, 1] read at (i, u) is the operand at i, whatever the unit coordinate u.
  * `shapeCast_a1_a_apply`: the cast back [a, 1] → [a] read at i is the operand at (i, 0).
  * `broadcastTo_a1_ab_apply`: the column [a, 1] repeated to [a, b] read at (p, c) is the column's entry of row p.
-/
import Idealize.ShloMosaic.Lib.ValueLayout

namespace Cert.LibColumn

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array cast to `[a]` reads, at `i`, the operand at `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- An `[a, 1]` column repeated to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumn
-- ==== Proof.LibRowCast.lean ====
/-
  A 1 × 1 array repeated along both axes, read with coordinates, for any extents.

  A reduction of a whole a × b array to one number that keeps its dimensions leaves a 1 × 1 array, which is then
  repeated along both axes to [a, b] so that it can meet the array it was reduced from elementwise.
  * broadcastTo_11_ab_apply: the 1 × 1 array repeated to [a, b] read at (p, c) is its one entry, whatever p and c.
-/
import Idealize.ShloMosaic.Lib.ValueLayout

namespace Cert.LibRowCast

open Idealize.ShloMosaic Idealize.ShloMosaic.ValueIdx

variable {α : Type}

/-- A [1, 1] array repeated to [a, b] reads, at (p, c), its one entry. -/
theorem broadcastTo_11_ab_apply {a b : ℕ} (v : (⟨2, ![1, 1]⟩ : Shape).Idx → α) (h : (⟨2, ![1, 1]⟩ : Shape).Broadcasts ⟨2, ![a, b]⟩)
    (p : Fin a) (c : Fin b) : broadcastTo ⟨2, ![a, b]⟩ v h (ix2 p c) = v (ix2 (0 : Fin 1) (0 : Fin 1)) := by
  refine broadcastTo_apply v h (ix2 p c) (ix2 (0 : Fin 1) (0 : Fin 1)) fun ax => ?_
  match ax with
  | ⟨0, _⟩ => rfl
  | ⟨1, _⟩ => rfl

end Cert.LibRowCast
-- ==== Proof.KVal0Spec.lean ====
/-
  The specification of pallas_call 0's two results on ONE batch row, as plain functions of the row.

  A batch row is three coordinate rows of 100000 points: r k n is coordinate k of point n. With
    cen r k n   = r k n − (Σ_n' r k n') / 100000                       the coordinates centred on their mean,
    rad r n     = sqrt (Σ_k (cen r k n)²)                              each point's distance from the mean,
    scale r     = (max_n rad r n, taken from −∞) · 2                   twice the largest distance,
    nc r k n    = min 31 (max 0 ((cen r k n / scale r + 1/2) · 32))    the coordinates scaled into [0, 31],
    cell r k n  = the 32-bit integer nearest to nc r k n (ties to even, then toward zero: exact on an integer),
    flat r n    = (cell r 0 n · 32 + cell r 1 n) · 32 + cell r 2 n     the cell number, in 32-bit integer arithmetic.
  The float constants are kept as the 32-bit words both programs print; sums and the maximum are Finset sums and a
  Finset fold of max, so that neither side's order of evaluation appears.
-/
import Idealize.ShloMosaic.PureOps.Ideal.Laws
import Idealize.ShloMosaic.Lib.ValueIdx

noncomputable section

namespace Cert.KernelIdeal.Val0

open Idealize.ShloMosaic Idealize.ShloMosaic.ValueIdx

/-- One batch row: coordinate k of point n. -/
abbrev Row := Fin 3 → Fin 100000 → EReal

/-- The coordinates centred on their mean over the points. -/
def cen (r : Row) (k : Fin 3) (n : Fin 100000) : EReal :=
  r k n - Ideal.div (∑ n' : Fin 100000, r k n') (Ideal.ofBits .f32 0x47C35000#32)

/-- Each point's distance from the mean. -/
def rad (r : Row) (n : Fin 100000) : EReal :=
  Ideal.sqrt (∑ k : Fin 3, cen r k n * cen r k n)

/-- Twice the largest distance, the maximum taken from −∞. -/
def scale (r : Row) : EReal :=
  (Finset.univ : Finset (Fin 100000)).fold max (Ideal.ofBits .f32 0xFF800000#32) (rad r) * Ideal.ofBits .f32 0x40000000#32

/-- The centred coordinates divided by the scale, shifted by one half, scaled by 32 and clamped to [0, 31]. -/
def nc (r : Row) (k : Fin 3) (n : Fin 100000) : EReal :=
  min (Ideal.ofBits .f32 0x41F80000#32) (max (Ideal.ofBits .f32 0x00000000#32)
    ((Ideal.div (cen r k n) (scale r) + Ideal.ofBits .f32 0x3F000000#32) * Ideal.ofBits .f32 0x42000000#32))

/-- The clamped coordinate rounded to the nearest integer, as a 32-bit integer. -/
def cell (r : Row) (k : Fin 3) (n : Fin 100000) : BitVec 32 :=
  Ideal.fptosi 32 (Ideal.liftRound Ideal.roundHalfEven (nc r k n))

/-- The cell number of point n. -/
def flat (r : Row) (n : Fin 100000) : BitVec 32 :=
  IntOp.addi (IntOp.muli (IntOp.addi (IntOp.muli (cell r 0 n) 32#32) (cell r 1 n)) 32#32) (cell r 2 n)

/-- The word 0x41F80000 is 31: the integer 31 converted is the float constant 31.0. -/
theorem thirtyOne_eq : (((31#32 : BitVec 32).toInt : ℝ) : EReal) = Ideal.ofBits .f32 0x41F80000#32 := by
  simp [Ideal.ofBits, Ideal.ieee, -EReal.coe_mul]; norm_num

/-- The integer 0 converted is the float constant 0.0. -/
theorem zero_eq : (((0#32 : BitVec 32).toInt : ℝ) : EReal) = Ideal.ofBits .f32 0x00000000#32 := by
  simp [Ideal.ofBits, Ideal.ieee]

end Cert.KernelIdeal.Val0

end
-- ==== Proof.KVal0a.lean ====
/-
  The body's payloads at an index, at the ideal values: what pallas_call 0 stores into its two output blocks is, entry by
  entry, the specification's nc and flat of the input block's one batch row.

  The payload of the first store is a chain of vector operations on the loaded 1 × 3 × 100000 block x0: the block with its
  unit axis dropped (kv1), the row means as a 3 × 1 column (kv5), the centred coordinates (kv7), the points' distances
  from the mean as a 1 × 100000 row (kv11), twice their maximum as a 1 × 1 array (kv15), and then pointwise operations
  against the column and the 1 × 1 array repeated to 3 × 100000. Each intermediate is read at coordinates: a lane sum is the
  Finset sum over its axis, the row maximum the Finset fold of max, each cast or repetition reads one entry of its operand.
-/
import proofs.«136896_j63960652972185_2_alg».proof.Proof.Gen.KernelIdeal.Skeleton
import proofs.«136896_j63960652972185_2_alg».proof.Proof.LibColumn
import proofs.«136896_j63960652972185_2_alg».proof.Proof.LibRowCast
import proofs.«136896_j63960652972185_2_alg».proof.Proof.KVal0Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Val0

open Cert.KernelIdeal Cert.KernelIdeal.Gen Idealize.ShloMosaic Idealize.ShloMosaic.ValueIdx

/-- The block's batch row: coordinate k of point n of a 1 × 3 × 100000 block. -/
def rowOf (x0 : Vec Ideal S1x3x100000 .f32) : Row := fun k n => x0 (ix3 (0 : Fin 1) k n)

/-! ## The payload's intermediates, as the body computes them -/

/-- The block with its unit axis dropped. -/
def kv1 (x0 : Vec Ideal S1x3x100000 .f32) : FVec Ideal S3x100000 .f32 :=
  shapeCast S3x100000 x0 shapeCasts_S1x3x100000_S3x100000

/-- The row means, as a 3 × 1 column. -/
def kv5 (x0 : Vec Ideal S1x3x100000 .f32) : FVec Ideal S3x1 .f32 :=
  divf (shapeCast S3x1 (multiReduction .add [1] S3 (kv1 x0) 0x00000000#32 reduces_S3x100000_S3 (.inl rfl) rfl) shapeCasts_S3_S3x1)
    (broadcast S3x1 (Scalar.ofBits .f32 0x47C35000#32))

/-- The centred coordinates. -/
def kv7 (x0 : Vec Ideal S1x3x100000 .f32) : FVec Ideal S3x100000 .f32 :=
  subf (kv1 x0) (broadcastTo S3x100000 (kv5 x0) broadcasts_S3x1_S3x100000)

/-- The points' distances from the mean, as a 1 × 100000 row. -/
def kv11 (x0 : Vec Ideal S1x3x100000 .f32) : FVec Ideal S1x100000 .f32 :=
  sqrt (shapeCast S1x100000 (multiReduction .add [0] S100000 (mulf (kv7 x0) (kv7 x0)) 0x00000000#32 reduces_S3x100000_S100000 (.inl rfl) rfl)
    shapeCasts_S100000_S1x100000)

/-- Twice the largest distance, as a 1 × 1 array. -/
def kv15 (x0 : Vec Ideal S1x3x100000 .f32) : FVec Ideal S1x1 .f32 :=
  mulf (shapeCast S1x1 (multiReduction .maximumf [1] S1 (kv11 x0) 0xFF800000#32 reduces_S1x100000_S1 (.inl rfl) rfl) shapeCasts_S1_S1x1)
    (broadcast S1x1 (Scalar.ofBits .f32 0x40000000#32))

/-- The clamped scaled coordinates are that tree of operations of the loaded block. -/
theorem pay2_eq (x0 : Vec Ideal S1x3x100000 .f32) :
    k0_pay2 (F := Ideal) x0 = minimumf (broadcast S3x100000 (Scalar.ofBits .f32 0x41F80000#32))
      (maximumf (broadcast S3x100000 (Scalar.ofBits .f32 0x00000000#32))
        (mulf (addf (divf (kv7 x0) (broadcastTo S3x100000 (kv15 x0) broadcasts_S1x1_S3x100000))
          (broadcast S3x100000 (Scalar.ofBits .f32 0x3F000000#32))) (broadcast S3x100000 (Scalar.ofBits .f32 0x42000000#32)))) := rfl

/-! ## A reduced index with the dropped coordinate put back -/

/-- Row k of a 3 × 100000 array with lane n put back is (k, n). -/
theorem lift_lane (h : S3x100000.Reduces [1] S3) (k : Fin 3) (n : Fin 100000) : h.lift (ValueIdx.ix1 k) n = ix2 k n := by
  funext c; apply Fin.ext; fin_cases c <;> rfl

/-- Lane n of a 3 × 100000 array with row k put back is (k, n). -/
theorem lift_rowk (h : S3x100000.Reduces [0] S100000) (n : Fin 100000) (k : Fin 3) : h.lift (ValueIdx.ix1 n) k = ix2 k n := by
  funext c; apply Fin.ext; fin_cases c <;> rfl

/-- The one row of a 1 × 100000 array with lane n put back is (0, n). -/
theorem lift_lane1 (h : S1x100000.Reduces [1] S1) (u : Fin 1) (n : Fin 100000) : h.lift (ValueIdx.ix1 u) n = ix2 u n := by
  funext c; apply Fin.ext; fin_cases c <;> rfl

/-! ## The intermediates at coordinates -/

/-- A pointwise square root read at an index. -/
theorem sqrt_apply {s : Shape} {φ : FTy} (a : FVec Ideal s φ) (i : s.Idx) : sqrt a i = Ideal.sqrt (a i) := rfl

theorem kv1_apply (x0 : Vec Ideal S1x3x100000 .f32) (k : Fin 3) (n : Fin 100000) : kv1 x0 (ix2 k n) = rowOf x0 k n := by
  unfold kv1 rowOf
  exact shapeCast_1ab_ab_apply x0 _ k n

/-- The column of means at row k is the row's sum divided by 100000. -/
theorem kv5_apply (x0 : Vec Ideal S1x3x100000 .f32) (k : Fin 3) (u : Fin 1) :
    kv5 x0 (ix2 k u) = Ideal.div (∑ n : Fin 100000, rowOf x0 k n) (Ideal.ofBits .f32 0x47C35000#32) := by
  rw [kv5, divf_apply, broadcast_apply, Cert.LibColumn.shapeCast_a_a1_apply]
  refine congrArg (fun s => Ideal.div s (Ideal.ofBits .f32 0x47C35000#32)) ?_
  refine (Ideal.multiReduction_add_single (kv1 x0) _ reduces_S3x100000_S3 _ _ (ValueIdx.ix1 k)).trans ?_
  exact Finset.sum_congr rfl fun n _ => (congrArg (kv1 x0) (lift_lane reduces_S3x100000_S3 k n)).trans (kv1_apply x0 k n)

theorem kv7_apply (x0 : Vec Ideal S1x3x100000 .f32) (k : Fin 3) (n : Fin 100000) : kv7 x0 (ix2 k n) = cen (rowOf x0) k n := by
  rw [kv7, subf_apply, Cert.LibColumn.broadcastTo_a1_ab_apply, kv1_apply, kv5_apply]
  rfl

/-- The row of distances at lane n. -/
theorem kv11_apply (x0 : Vec Ideal S1x3x100000 .f32) (u : Fin 1) (n : Fin 100000) : kv11 x0 (ix2 u n) = rad (rowOf x0) n := by
  rw [kv11, sqrt_apply, shapeCast_a_1a_apply]
  refine congrArg Ideal.sqrt ?_
  refine (Ideal.multiReduction_add_single (mulf (kv7 x0) (kv7 x0)) _ reduces_S3x100000_S100000 _ _ (ValueIdx.ix1 n)).trans ?_
  exact Finset.sum_congr rfl fun k _ => (congrArg (mulf (kv7 x0) (kv7 x0)) (lift_rowk reduces_S3x100000_S100000 n k)).trans
    (congrArg₂ (fun a b : EReal => a * b) (kv7_apply x0 k n) (kv7_apply x0 k n))

/-- The 1 × 1 array holds the scale. -/
theorem kv15_apply (x0 : Vec Ideal S1x3x100000 .f32) (u u' : Fin 1) : kv15 x0 (ix2 u u') = scale (rowOf x0) := by
  rw [kv15, mulf_apply, broadcast_apply, Cert.LibColumn.shapeCast_a_a1_apply]
  refine congrArg (fun s => s * Ideal.ofBits .f32 0x40000000#32) ?_
  refine (Ideal.multiReduction_maximumf_single (kv11 x0) _ reduces_S1x100000_S1 _ _ (ValueIdx.ix1 u)).trans ?_
  refine congrArg (fun f => Finset.fold max (Ideal.ofBits .f32 0xFF800000#32) f (Finset.univ : Finset (Fin 100000))) ?_
  exact funext fun n : Fin 100000 => (congrArg (kv11 x0) (lift_lane1 reduces_S1x100000_S1 u n)).trans (kv11_apply x0 u n)

/-! ## The two payloads at coordinates -/

/-- The clamped scaled coordinates at (k, n). -/
theorem pay2_apply (x0 : Vec Ideal S1x3x100000 .f32) (k : Fin 3) (n : Fin 100000) :
    k0_pay2 (F := Ideal) x0 (ix2 k n) = nc (rowOf x0) k n := by
  rw [pay2_eq, minimumf_apply, maximumf_apply, mulf_apply, addf_apply, divf_apply, broadcast_apply, broadcast_apply, broadcast_apply,
    broadcast_apply, Cert.LibRowCast.broadcastTo_11_ab_apply, kv7_apply, kv15_apply]
  rfl

/-- What the body stores into the first output block, at (0, k, n). -/
theorem pay3_apply (x0 : Vec Ideal S1x3x100000 .f32) (u : Fin 1) (k : Fin 3) (n : Fin 100000) :
    k0_pay3 (F := Ideal) x0 (ix3 u k n) = nc (rowOf x0) k n := by
  unfold k0_pay3
  exact (shapeCast_ab_1ab_apply _ _ u k n).trans (pay2_apply x0 k n)

end Cert.KernelIdeal.Val0

end
-- ==== Proof.KVal0c.lean ====
/-
  The second payload at an index, at the ideal values: the cell numbers the body stores into its second output block are,
  entry by entry, the specification's flat of the input block's one batch row.

  The clamped scaled coordinates are rounded and converted to 32-bit integers pointwise; the three coordinate rows are
  cut out as 1 × 100000 slices; the cell number is integer arithmetic on the slices; a unit axis is added in front.
-/
import proofs.«136896_j63960652972185_2_alg».proof.Proof.KVal0a

noncomputable section

namespace Cert.KernelIdeal.Val0

open Cert.KernelIdeal Cert.KernelIdeal.Gen Idealize.ShloMosaic Idealize.ShloMosaic.ValueIdx

/-- The rounded clamped coordinates as 32-bit integers, as the body computes them. -/
def kv30 (x0 : Vec Ideal S1x3x100000 .f32) : IVec S3x100000 32 := fptosi 32 (roundeven (k0_pay2 (F := Ideal) x0))

/-- At the ideal values the conversion to an integer is the one function both programs use. -/
private theorem fptosi_ideal {φ : FTy} (w : Nat) (x : Ideal φ) : FloatOps.fptosi (F := Ideal) w x = Ideal.fptosi w x := rfl

/-- The pointwise conversion and rounding read at an index. -/
private theorem fptosi_apply {s : Shape} {φ : FTy} (w : Nat) (x : FVec Ideal s φ) (i : s.Idx) :
    fptosi w x i = FloatOps.fptosi w (x i) := rfl
private theorem roundeven_apply {s : Shape} {φ : FTy} (x : FVec Ideal s φ) (i : s.Idx) :
    roundeven x i = FloatOps.roundeven (x i) := rfl

theorem kv30_apply (x0 : Vec Ideal S1x3x100000 .f32) (k : Fin 3) (n : Fin 100000) : kv30 x0 (ix2 k n) = cell (rowOf x0) k n := by
  rw [kv30, fptosi_apply, roundeven_apply, pay2_apply, Ideal.roundeven_def, fptosi_ideal, cell]

/-- The cell numbers are that integer arithmetic on the three coordinate rows of the rounded coordinates. -/
theorem pay4_eq (x0 : Vec Ideal S1x3x100000 .f32) :
    k0_pay4 (F := Ideal) x0 = addi (muli (addi (muli (extractStridedSlice S1x100000 ![0, 0] (kv30 x0) slices_S3x100000_o0_0_S1x100000)
        (broadcast S1x100000 32#32)) (extractStridedSlice S1x100000 ![1, 0] (kv30 x0) slices_S3x100000_o1_0_S1x100000))
      (broadcast S1x100000 32#32)) (extractStridedSlice S1x100000 ![2, 0] (kv30 x0) slices_S3x100000_o2_0_S1x100000) := rfl

/-- Pointwise integer arithmetic read at an index. -/
private theorem addi_apply {s : Shape} {w : Nat} (x y : IVec s w) (i : s.Idx) : addi x y i = IntOp.addi (x i) (y i) := rfl
private theorem muli_apply {s : Shape} {w : Nat} (x y : IVec s w) (i : s.Idx) : muli x y i = IntOp.muli (x i) (y i) := rfl

/-- The cell number at (0, n). -/
theorem pay4_apply (x0 : Vec Ideal S1x3x100000 .f32) (u : Fin 1) (n : Fin 100000) :
    k0_pay4 (F := Ideal) x0 (ix2 u n) = flat (rowOf x0) n := by
  have hu : u.val = 0 := by omega
  rw [pay4_eq, addi_apply, muli_apply, addi_apply, muli_apply, broadcast_apply,
    slice2_axis0_apply 0 (kv30 x0) _ u n (0 : Fin 3) (by rw [hu]; rfl), slice2_axis0_apply 1 (kv30 x0) _ u n (1 : Fin 3) (by rw [hu]; rfl),
    slice2_axis0_apply 2 (kv30 x0) _ u n (2 : Fin 3) (by rw [hu]; rfl), kv30_apply, kv30_apply, kv30_apply, flat]

/-- What the body stores into the second output block, at (0, 0, n). -/
theorem pay1_pay4_apply (x0 : Vec Ideal S1x3x100000 .f32) (u u' : Fin 1) (n : Fin 100000) :
    k0_pay1 (k0_pay4 (F := Ideal) x0) (ix3 u u' n) = flat (rowOf x0) n := by
  unfold k0_pay1
  exact (shapeCast_ab_1ab_apply _ _ u u' n).trans (pay4_apply x0 u' n)

end Cert.KernelIdeal.Val0

end
-- ==== Proof.KVal0b.lean ====
/-
  The reference's stages at an index, at the ideal values: its clamped scaled coordinates (stage 17) and its cell numbers
  (stage 31) are, entry by entry, the specification's nc and flat of the batch row the entry lies in.

  The reference works on the whole 8 × 3 × 100000 array with host operations: a sum over the points per (batch, coordinate),
  kept as an 8 × 3 × 1 array and repeated along the points; a sum of squares over the three coordinates per (batch, point); a
  square root; a maximum over the points per batch from −∞, kept as 8 × 1 × 1 and repeated; then pointwise operations,
  a clamp whose bounds are the integers 0 and 31 converted, a rounding, a conversion to 32-bit integers, three slices along
  the coordinate axis and integer arithmetic. Read at (b, k, n) every stage mentions row b of the array only, and there
  it is the specification's term: the host's sum from a zero initial value is the plain sum, its maximum the fold of max.
-/
import proofs.«136896_j63960652972185_2_alg».proof.Proof.Gen.ReferenceIdeal.Read
import proofs.«136896_j63960652972185_2_alg».proof.Proof.KVal0Spec
import Idealize.ShloMosaic.Lib.Pipeline.Value
import Idealize.ShloMosaic.Lib.ValueIdx
import Idealize.ShloMosaic.PureOps.Ideal.Laws

noncomputable section

namespace Cert.KernelIdeal.Val0

open Cert.ReferenceIdeal Cert.ReferenceIdeal.Read Idealize.ShloMosaic Idealize.ShloMosaic.ValueIdx

/-- Batch row b of an 8 × 3 × 100000 array. -/
def rowAt (X : (⟨3, ![8, 3, 100000]⟩ : Shape).Idx → EReal) (b : Fin 8) : Row := fun k n => X (ix3 b k n)

variable (X : (⟨S8x3x100000, .f32⟩ : BufTy).Contents (Elt Ideal))

/-- The kept mean of coordinate k of batch b. -/
theorem ref_mean (b : Fin 8) (k : Fin 3) (u : Fin 1) :
    val_main_v3 (F := Ideal) X (ix3 b k u) = Ideal.div (∑ n : Fin 100000, rowAt X b k n) (Ideal.ofBits .f32 0x47C35000#32) := by
  rw [val_main_v3_apply, val_main_v1_apply, val_main_v2_apply, val_main_cst_0_apply, val_main_v0_apply, val_main_cst_apply]
  simp only [Ideal.hostDivf_def, Ideal.ofBits_def, Ideal.ofBits_zero_f32, zero_add]
  refine congrArg (fun s => Ideal.div s (Ideal.ofBits .f32 0x47C35000#32)) (Finset.sum_congr rfl fun n _ => congrArg X ?_)
  funext a; match a with | ⟨0, _⟩ => rfl | ⟨1, _⟩ => rfl | ⟨2, _⟩ => rfl

/-- The centred coordinates. -/
theorem ref_cen (b : Fin 8) (k : Fin 3) (n : Fin 100000) :
    val_main_v5 (F := Ideal) X (ix3 b k n) = cen (rowAt X b) k n := by
  have e : idx_main_v4 (ix3 b k n) = ix3 b k (0 : Fin 1) := by
    funext a; match a with | ⟨0, _⟩ => rfl | ⟨1, _⟩ => rfl | ⟨2, _⟩ => rfl
  rw [val_main_v5_apply, val_main_v4_apply, e, ref_mean]
  rfl

/-- The points' distances from the mean. -/
theorem ref_rad (b : Fin 8) (u : Fin 1) (n : Fin 100000) :
    val_main_v6 (F := Ideal) X (ix3 b u n) = rad (rowAt X b) n := by
  rw [val_main_v6_apply, val_main_call0_v2_apply, val_main_call0_v1_apply, val_main_call0_cst_apply]
  simp only [Ideal.hostUnary_sqrt_def, Ideal.ofBits_def, Ideal.ofBits_zero_f32, zero_add]
  refine congrArg Ideal.sqrt (Finset.sum_congr rfl fun k _ => ?_)
  have e : idx_main_call0_v1 (idx_main_call0_v2 (ix3 b u n)) k = ix3 b k n := by
    funext a; match a with | ⟨0, _⟩ => rfl | ⟨1, _⟩ => rfl | ⟨2, _⟩ => rfl
  rw [val_main_call0_v0_apply, e, ref_cen]
  rfl

/-- Batch b's row of an 8 × 1 × 100000 array with point n put back is (b, 0, n). -/
theorem lift_point (h : S8x1x100000.Reduces [2] S8x1) (b : Fin 8) (u : Fin 1) (n : Fin 100000) : h.lift (ix2 b u) n = ix3 b u n := by
  funext c; apply Fin.ext; fin_cases c <;> rfl

/-- The kept scale of batch b. -/
theorem ref_scale (b : Fin 8) (u u' : Fin 1) :
    val_main_v10 (F := Ideal) X (ix3 b u u') = scale (rowAt X b) := by
  have e : idx_main_v8 (ix3 b u u') = ix2 b (0 : Fin 1) := by
    funext a; match a with | ⟨0, _⟩ => rfl | ⟨1, _⟩ => rfl
  have hred : S8x1x100000.Reduces [2] S8x1 := by decide
  rw [val_main_v10_apply, val_main_v9_apply, val_main_cst_2_apply, val_main_v8_apply, e]
  unfold val_main_v7
  refine congrArg (fun s => s * Ideal.ofBits .f32 0x40000000#32) ?_
  refine (Host.reduce_eq_fold_single (FloatOps.maximumf (F := Ideal) (φ := .f32)) (val_main_v6 (F := Ideal) X : FVec Ideal S8x1x100000 .f32)
    (val_main_cst_1 (F := Ideal) : FVec Ideal S_ .f32) Gen.reducesTo_S8x1x100000_S8x1_d2 hred Gen.h_S_ (ix2 b (0 : Fin 1))).trans ?_
  exact congrArg (fun f => Finset.fold max (Ideal.ofBits .f32 0xFF800000#32) f (Finset.univ : Finset (Fin 100000)))
    (funext fun n : Fin 100000 => (congrArg (val_main_v6 (F := Ideal) X) (lift_point hred b (0 : Fin 1) n)).trans (ref_rad X b (0 : Fin 1) n))

/-- The reference's clamped scaled coordinates (its result). -/
theorem ref_nc (b : Fin 8) (k : Fin 3) (n : Fin 100000) :
    val_main_v17 (F := Ideal) X (ix3 b k n) = nc (rowAt X b) k n := by
  have e : idx_main_v11 (ix3 b k n) = ix3 b (0 : Fin 1) (0 : Fin 1) := by
    funext a; match a with | ⟨0, _⟩ => rfl | ⟨1, _⟩ => rfl | ⟨2, _⟩ => rfl
  rw [val_main_v17_apply, val_main_call1_v4_apply, val_main_call1_v3_apply, val_main_c_5_apply, val_main_call1_v2_apply,
    val_main_call1_v1_apply, val_main_call1_v0_apply, val_main_c_apply, val_main_v16_apply, val_main_v15_apply,
    val_main_cst_4_apply, val_main_v14_apply, val_main_v13_apply, val_main_cst_3_apply, val_main_v12_apply,
    val_main_v11_apply, e, ref_scale, ref_cen]
  unfold nc
  rw [← thirtyOne_eq, ← zero_eq]
  rfl

/-- At the ideal values the conversion to an integer is the one function both programs use. -/
private theorem fptosi_ideal {φ : FTy} (w : Nat) (x : Ideal φ) : FloatOps.fptosi (F := Ideal) w x = Ideal.fptosi w x := rfl

/-- The rounded coordinates as 32-bit integers. -/
theorem ref_cell (b : Fin 8) (k : Fin 3) (n : Fin 100000) :
    val_main_v19 (F := Ideal) X (ix3 b k n) = cell (rowAt X b) k n := by
  rw [val_main_v19_apply, val_main_v18_apply, ref_nc, Ideal.hostUnary_roundeven_def, fptosi_ideal]
  rfl

/-- The reference's cell numbers. -/
theorem ref_flat (b : Fin 8) (n : Fin 100000) :
    val_main_v31 (F := Ideal) X (ix2 b n) = flat (rowAt X b) n := by
  have hb : b.val < 8 := b.isLt
  have hn : n.val < 100000 := n.isLt
  have e0 : idx_main_v20 (idx_main_v21 (ix2 b n)) = ix3 b (0 : Fin 3) n := by
    funext a; apply Fin.ext
    match a with
    | ⟨0, _⟩ => show (b.val * 100000 + n.val) / 100000 = b.val; omega
    | ⟨1, _⟩ => rfl
    | ⟨2, _⟩ => show (b.val * 100000 + n.val) % 100000 = n.val; omega
  have e1 : idx_main_v24 (idx_main_v25 (ix2 b n)) = ix3 b (1 : Fin 3) n := by
    funext a; apply Fin.ext
    match a with
    | ⟨0, _⟩ => show (b.val * 100000 + n.val) / 100000 = b.val; omega
    | ⟨1, _⟩ => rfl
    | ⟨2, _⟩ => show (b.val * 100000 + n.val) % 100000 = n.val; omega
  have e2 : idx_main_v29 (idx_main_v30 (ix2 b n)) = ix3 b (2 : Fin 3) n := by
    funext a; apply Fin.ext
    match a with
    | ⟨0, _⟩ => show (b.val * 100000 + n.val) / 100000 = b.val; omega
    | ⟨1, _⟩ => rfl
    | ⟨2, _⟩ => show (b.val * 100000 + n.val) % 100000 = n.val; omega
  rw [val_main_v31_apply, val_main_v30_apply, val_main_v29_apply, e2, val_main_v28_apply, val_main_v27_apply, val_main_c_7_apply,
    val_main_v26_apply, val_main_v25_apply, val_main_v24_apply, e1, val_main_v23_apply, val_main_v22_apply, val_main_c_6_apply,
    val_main_v21_apply, val_main_v20_apply, e0, ref_cell, ref_cell, ref_cell]
  rfl

end Cert.KernelIdeal.Val0

end
-- ==== Proof.KVal0.lean ====
/-
  What pallas_call 0 leaves in its two output arrays, index by index, against the reference's stages, for an arbitrary
  valuation V of the TensorCore's buffers when the region is entered.

  Every window of the call moves with the grid along the batch axis only: at point t each window's block is batch t of
  its array (the index maps, decided over the 8 points). So the input block at point t is batch row t of the coordinates
  array; what the body stores into each output block is the specification's function of that row (the payloads at an
  index); hence what point t writes back is block t of ONE function of the coordinates array — nc, respectively flat, of
  the batch row an index lies in —, the 8 blocks cover the output array, and the array ends holding that function. The
  reference's stages 17 and 31 are the same function of the same array, entry by entry.
-/
import proofs.«136896_j63960652972185_2_alg».proof.Proof.KBody0
import proofs.«136896_j63960652972185_2_alg».proof.Proof.KVal0c
import proofs.«136896_j63960652972185_2_alg».proof.Proof.KVal0b
import Idealize.ShloMosaic.Lib.Pipeline.Value

noncomputable section

namespace Cert.KernelIdeal.Val0

open Cert.KernelIdeal Cert.KernelIdeal.Gen Cert.KernelIdeal.Hand Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem hz3 : (![0, 0, 0] : Fin 3 → Nat) = fun _ => 0 := funext fun a => by fin_cases a <;> rfl

/-- The printed index maps, decided over the grid: at point t every window's block index is (t, 0, 0). -/
theorem idx_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 3) = t.val ∧ win0_2.index t (1 : Fin 3) = 0 ∧ win0_2.index t (2 : Fin 3) = 0 :=
  (by decide +kernel : ∀ t : Fin grid0.N, _)

/-- A grid point is a batch number. -/
theorem point_lt (t : Fin cfg0.N) : t.val < 8 := by have h := t.isLt; have hN : cfg0.N = 8 := N_0; omega

/-- The coordinates array as the region finds it. -/
abbrev coords (c : Dev nD) : (⟨3, ![8, 3, 100000]⟩ : Shape).Idx → EReal := V c main_arg1

/-! ## The input block at a point is a batch row of the coordinates array -/

/-- The input window's block at point t, at x, is the coordinates array at (t, x 1, x 2). -/
theorem iblk_apply (c : Dev nD) (t : Fin cfg0.N) (x : S1x3x100000.Idx) (i : S8x3x100000.Idx)
    (h0 : (i 0).val = t.val) (h1 : (i 1).val = (x 1).val) (h2 : (i 2).val = (x 2).val) :
    (iblk0 V c 0 t : Vec Ideal S1x3x100000 .f32) x = coords V c i := by
  obtain ⟨e0, e1, e2, -⟩ := idx_facts t
  unfold iblk0
  rw [View.read_apply]
  show V c main_arg1 _ = V c main_arg1 _
  refine congrArg (V c main_arg1) ?_
  funext a
  apply Fin.ext
  match a with
  | ⟨0, _⟩ => show win0_0.index t (0 : Fin 3) * 1 + 1 * (x 0).val = (i 0).val; have hx : (x 0).val < 1 := (x 0).isLt; omega
  | ⟨1, _⟩ => show win0_0.index t (1 : Fin 3) * 3 + 1 * (x 1).val = (i 1).val; omega
  | ⟨2, _⟩ => show win0_0.index t (2 : Fin 3) * 100000 + 1 * (x 2).val = (i 2).val; omega

/-- So its batch row is row t of the array. -/
theorem rowOf_iblk (c : Dev nD) (t : Fin cfg0.N) :
    rowOf (iblk0 V c 0 t) = rowAt (coords V c) (⟨t.val, point_lt t⟩ : Fin 8) :=
  funext fun k => funext fun n => iblk_apply V c t (ix3 (0 : Fin 1) k n) (ix3 (⟨t.val, point_lt t⟩ : Fin 8) k n) rfl rfl rfl

/-! ## Output window 1: the clamped scaled coordinates -/

/-- What the first output array ends holding: nc of the batch row an index lies in. -/
def G1 (X : (⟨3, ![8, 3, 100000]⟩ : Shape).Idx → EReal) : (⟨3, ![8, 3, 100000]⟩ : Shape).Idx → EReal :=
  fun i => nc (rowAt X (i 0)) (i 1) (i 2)

/-- What point t writes back to the first output array is block t of G1 of the coordinates array. -/
theorem flushed1_eq (c : Dev nD) (t : Fin cfg0.N) :
    (dat0 V c).flushed 1 t = ((cfg0.win 1).blk t).view.read (Elt Ideal) (G1 (coords V c)) := by
  obtain ⟨-, -, -, e0, e1, e2, -⟩ := idx_facts t
  show (cfg0.win 1).cut (grid0.coords t) ((dat0 V c).after 1 t) = _
  rw [after0_1]
  unfold out0_1
  rw [View.canon_unit_zero hz3]
  simp only [View.ld_unit_zero (S := S1x3x100000) hz3]
  funext j
  show k0_pay3 (iblk0 V c 0 t) j = G1 (coords V c) (((cfg0.win 1).blk t).view.emb j)
  have hj : (j : S1x3x100000.Idx) = ix3 (j 0) (j 1) (j 2) := eq_ix3 j
  have hb : ((cfg0.win 1).blk t).view.emb j (0 : Fin 3) = (⟨t.val, point_lt t⟩ : Fin 8) :=
    Fin.ext (by show win0_1.index t (0 : Fin 3) * 1 + 1 * (j 0).val = t.val; have hx : (j 0).val < 1 := (j 0).isLt; omega)
  have hk : ((cfg0.win 1).blk t).view.emb j (1 : Fin 3) = (j 1 : Fin 3) :=
    Fin.ext (by show win0_1.index t (1 : Fin 3) * 3 + 1 * (j 1).val = (j 1).val; omega)
  have hn : ((cfg0.win 1).blk t).view.emb j (2 : Fin 3) = (j 2 : Fin 100000) :=
    Fin.ext (by show win0_1.index t (2 : Fin 3) * 100000 + 1 * (j 2).val = (j 2).val; omega)
  unfold G1
  rw [hb, hk, hn, ← rowOf_iblk, hj]
  exact pay3_apply (iblk0 V c 0 t) (j 0) (j 1) (j 2)

/-- An index of the first output array is in point t's block iff each coordinate is in the block's range on its axis. -/
theorem mem_blk1 (t : Fin cfg0.N) (i : S8x3x100000.Idx) :
    i ∈ ((cfg0.win 1).blk t).view.set ↔ ∀ a : Fin 3, win0_1.index t a * S1x3x100000.size a ≤ (i a).val ∧ (i a).val < win0_1.index t a * S1x3x100000.size a + S1x3x100000.size a := by
  show i ∈ ((View.whole main_v0_0).slice (win0_1.rect t)).set ↔ _
  rw [View.set_slice_whole, Rect.mem_set_unit]
  exact Iff.rfl

/-- Every index of the first output array is in the block of the point that is its batch. -/
theorem cover1 (i : S8x3x100000.Idx) : ∃ t : Fin cfg0.N, (cfg0.win 1).flush t = true ∧ i ∈ ((cfg0.win 1).blk t).view.set := by
  have hi0 : (i 0).val < 8 := (i 0).isLt
  have hi1 : (i 1).val < 3 := (i 1).isLt
  have hi2 : (i 2).val < 100000 := (i 2).isLt
  have hN : cfg0.N = 8 := N_0
  have ht : (i 0).val < cfg0.N := by omega
  refine ⟨⟨(i 0).val, ht⟩, flush0_1 _, ?_⟩
  obtain ⟨-, -, -, e0, e1, e2, -⟩ := idx_facts ⟨(i 0).val, ht⟩
  have e0 : win0_1.index ⟨(i 0).val, ht⟩ (0 : Fin 3) = (i 0).val := e0
  rw [mem_blk1]
  intro a
  match a with
  | ⟨0, _⟩ => show win0_1.index _ (0 : Fin 3) * 1 ≤ (i 0).val ∧ (i 0).val < win0_1.index _ (0 : Fin 3) * 1 + 1; rw [e0]; omega
  | ⟨1, _⟩ => show win0_1.index _ (1 : Fin 3) * 3 ≤ (i 1).val ∧ (i 1).val < win0_1.index _ (1 : Fin 3) * 3 + 3; rw [e1]; omega
  | ⟨2, _⟩ => show win0_1.index _ (2 : Fin 3) * 100000 ≤ (i 2).val ∧ (i 2).val < win0_1.index _ (2 : Fin 3) * 100000 + 100000; rw [e2]; omega

/-- The first output array after the run is G1 of the coordinates array. -/
theorem final1 (c : Dev nD) : (dat0 V c).arrAt 1 cfg0.N = G1 (coords V c) :=
  (dat0 V c).arrAt_eq_of_cover 1 (G1 (coords V c)) (fun t _ => flushed1_eq V c t) cover1

/-- THE FIRST RESULT: the clamped scaled coordinates array is the reference's stage 17 of the same coordinates array, entry
    by entry. -/
theorem norm_arr (c : Dev nD) (b : Fin 8) (k : Fin 3) (n : Fin 100000) :
    (dat0 (F := Ideal) V c).arrAt 1 cfg0.N (ix3 b k n) = Cert.ReferenceIdeal.Read.val_main_v17 (F := Ideal) (V c main_arg1) (ix3 b k n) := by
  rw [final1]
  exact (ref_nc (V c main_arg1) b k n).symm

/-! ## Output window 2: the cell numbers -/

/-- What the second output array ends holding: flat of the batch row an index lies in. -/
def G2 (X : (⟨3, ![8, 3, 100000]⟩ : Shape).Idx → EReal) : (⟨3, ![8, 1, 100000]⟩ : Shape).Idx → BitVec 32 :=
  fun i => flat (rowAt X (i 0)) (i 2)

/-- What point t writes back to the second output array is block t of G2 of the coordinates array. -/
theorem flushed2_eq (c : Dev nD) (t : Fin cfg0.N) :
    (dat0 V c).flushed 2 t = ((cfg0.win 2).blk t).view.read (Elt Ideal) (G2 (coords V c)) := by
  obtain ⟨-, -, -, -, -, -, e0, e1, e2⟩ := idx_facts t
  show (cfg0.win 2).cut (grid0.coords t) ((dat0 V c).after 2 t) = _
  rw [after0_2]
  unfold out0_2
  rw [View.canon_unit_zero hz3]
  simp only [View.ld_unit_zero (S := S1x3x100000) hz3]
  funext j
  show k0_pay1 (k0_pay4 (iblk0 V c 0 t)) j = G2 (coords V c) (((cfg0.win 2).blk t).view.emb j)
  have hj : (j : S1x1x100000.Idx) = ix3 (j 0) (j 1) (j 2) := eq_ix3 j
  have hb : ((cfg0.win 2).blk t).view.emb j (0 : Fin 3) = (⟨t.val, point_lt t⟩ : Fin 8) :=
    Fin.ext (by show win0_2.index t (0 : Fin 3) * 1 + 1 * (j 0).val = t.val; have hx : (j 0).val < 1 := (j 0).isLt; omega)
  have hn : ((cfg0.win 2).blk t).view.emb j (2 : Fin 3) = (j 2 : Fin 100000) :=
    Fin.ext (by show win0_2.index t (2 : Fin 3) * 100000 + 1 * (j 2).val = (j 2).val; omega)
  unfold G2
  rw [hb, hn, ← rowOf_iblk, hj]
  exact pay1_pay4_apply (iblk0 V c 0 t) (j 0) (j 1) (j 2)

/-- An index of the second output array is in point t's block iff each coordinate is in the block's range on its axis. -/
theorem mem_blk2 (t : Fin cfg0.N) (i : S8x1x100000.Idx) :
    i ∈ ((cfg0.win 2).blk t).view.set ↔ ∀ a : Fin 3, win0_2.index t a * S1x1x100000.size a ≤ (i a).val ∧ (i a).val < win0_2.index t a * S1x1x100000.size a + S1x1x100000.size a := by
  show i ∈ ((View.whole main_v0_1).slice (win0_2.rect t)).set ↔ _
  rw [View.set_slice_whole, Rect.mem_set_unit]
  exact Iff.rfl

/-- Every index of the second output array is in the block of the point that is its batch. -/
theorem cover2 (i : S8x1x100000.Idx) : ∃ t : Fin cfg0.N, (cfg0.win 2).flush t = true ∧ i ∈ ((cfg0.win 2).blk t).view.set := by
  have hi0 : (i 0).val < 8 := (i 0).isLt
  have hi1 : (i 1).val < 1 := (i 1).isLt
  have hi2 : (i 2).val < 100000 := (i 2).isLt
  have hN : cfg0.N = 8 := N_0
  have ht : (i 0).val < cfg0.N := by omega
  refine ⟨⟨(i 0).val, ht⟩, flush0_2 _, ?_⟩
  obtain ⟨-, -, -, -, -, -, e0, e1, e2⟩ := idx_facts ⟨(i 0).val, ht⟩
  have e0 : win0_2.index ⟨(i 0).val, ht⟩ (0 : Fin 3) = (i 0).val := e0
  rw [mem_blk2]
  intro a
  match a with
  | ⟨0, _⟩ => show win0_2.index _ (0 : Fin 3) * 1 ≤ (i 0).val ∧ (i 0).val < win0_2.index _ (0 : Fin 3) * 1 + 1; rw [e0]; omega
  | ⟨1, _⟩ => show win0_2.index _ (1 : Fin 3) * 1 ≤ (i 1).val ∧ (i 1).val < win0_2.index _ (1 : Fin 3) * 1 + 1; rw [e1]; omega
  | ⟨2, _⟩ => show win0_2.index _ (2 : Fin 3) * 100000 ≤ (i 2).val ∧ (i 2).val < win0_2.index _ (2 : Fin 3) * 100000 + 100000; rw [e2]; omega

/-- The second output array after the run is G2 of the coordinates array. -/
theorem final2 (c : Dev nD) : (dat0 V c).arrAt 2 cfg0.N = G2 (coords V c) :=
  (dat0 V c).arrAt_eq_of_cover 2 (G2 (coords V c)) (fun t _ => flushed2_eq V c t) cover2

/-- THE SECOND RESULT: the cell numbers array is the reference's stage 31 of the same coordinates array, entry by entry
    (the array keeps a unit axis the reference's stage does not have). -/
theorem flat_arr (c : Dev nD) (b : Fin 8) (n : Fin 100000) :
    (dat0 (F := Ideal) V c).arrAt 2 cfg0.N (ix3 b (0 : Fin 1) n) = Cert.ReferenceIdeal.Read.val_main_v31 (F := Ideal) (V c main_arg1) (ix2 b n) := by
  rw [final2]
  exact (ref_flat (V c main_arg1) b n).symm

end Cert.KernelIdeal.Val0

end
-- ==== Proof.LibTileSum.lean ====
import Mathlib.Algebra.BigOperators.Group.Finset.Basic
import Mathlib.Algebra.BigOperators.Fin
import Mathlib.Data.Fintype.BigOperators
import Mathlib.Data.EReal.Basic

/-!
# Tiled, masked, skip-on-empty sums agree with the plain masked sum

Let `M` be an additive commutative monoid.  A list of `N` points, each carrying a key
`key n : K` and a value `x n : M`, is reordered by a bijection `ord` of `Fin N`, padded up to
`T * L` entries whose keys differ from a fixed class `v`, and cut into `T` tiles of `L` entries.
An accumulator runs over the tiles; at tile `t` it adds the sum of the values of the entries of
that tile whose key is `v`, unless a test `act t` fails, in which case the tile is skipped; the
test is only allowed to fail on a tile none of whose entries has key `v`.

This file proves that the final accumulator equals `∑ n : Fin N, if key n = v then x n else 0`.

* `acc_eq_add_sum`, `acc_eq_sum`: a conditionally updated accumulator is a sum of guarded terms.
* `sum_skip`: guards that only fail on zero terms can be dropped.
* `sum_tiles`, `sum_tiles_fin`: a double sum over tiles and offsets is a single sum over
  `t * L + l`.
* `sum_perm_pad`: a masked sum is unchanged by reordering the points and by padding with entries
  outside the class.
* `mul_ite_one_zero`, `sum_mul_ite_one_zero` (any type with `0`, `1` and `a * 0 = 0`), and
  `ereal_mul_ite_one_zero`, `ereal_sum_mul_ite_one_zero`: multiplying by a `0/1` mask is the same as
  guarding, for every extended real, the two infinite ones included.
* `tiled_acc_eq_masked_sum`: the assembly of the above.
-/

namespace LibTileSum

open Finset

section Monoid

variable {M : Type*} [AddCommMonoid M]

/-- An accumulator that starts at `a0` and, at step `t < T`, adds `ch t` when `act t` holds and
is left alone otherwise, ends at `a0` plus the sum of the guarded terms. -/
theorem acc_eq_add_sum (act : ℕ → Prop) [DecidablePred act] (ch acc : ℕ → M) (a0 : M) (T : ℕ)
    (h0 : acc 0 = a0)
    (hs : ∀ t, t < T → acc (t + 1) = if act t then acc t + ch t else acc t) :
    acc T = a0 + ∑ t ∈ range T, if act t then ch t else 0 := by
  induction T with
  | zero => simp [h0]
  | succ T ih =>
    have ih' := ih fun t ht => hs t (Nat.lt_succ_of_lt ht)
    rw [hs T (Nat.lt_succ_self T), sum_range_succ, ← add_assoc, ← ih']
    split_ifs
    · rfl
    · rw [add_zero]

/-- The case `a0 = 0` of `acc_eq_add_sum`. -/
theorem acc_eq_sum (act : ℕ → Prop) [DecidablePred act] (ch acc : ℕ → M) (T : ℕ)
    (h0 : acc 0 = 0)
    (hs : ∀ t, t < T → acc (t + 1) = if act t then acc t + ch t else acc t) :
    acc T = ∑ t ∈ range T, if act t then ch t else 0 := by
  rw [acc_eq_add_sum act ch acc 0 T h0 hs, zero_add]

/-- If the guard only fails where the term is zero, the guard can be dropped. -/
theorem sum_skip (act : ℕ → Prop) [DecidablePred act] (ch : ℕ → M) (T : ℕ)
    (h : ∀ t, t < T → ¬ act t → ch t = 0) :
    ∑ t ∈ range T, (if act t then ch t else 0) = ∑ t ∈ range T, ch t := by
  refine sum_congr rfl fun t ht => ?_
  split_ifs with ha
  · rfl
  · exact (h t (mem_range.mp ht) ha).symm

/-- Summing tile by tile, `L` entries per tile, is summing over all `T * L` entries. -/
theorem sum_tiles (g : ℕ → M) (T L : ℕ) :
    ∑ t ∈ range T, ∑ l ∈ range L, g (t * L + l) = ∑ j ∈ range (T * L), g j := by
  induction T with
  | zero => simp
  | succ T ih => rw [sum_range_succ, ih, Nat.succ_mul, sum_range_add]

/-- `sum_tiles` with the index sets written as `Fin` types. -/
theorem sum_tiles_fin (g : ℕ → M) (T L : ℕ) :
    ∑ t : Fin T, ∑ l : Fin L, g (t.val * L + l.val) = ∑ j : Fin (T * L), g j.val := by
  rw [Fin.sum_univ_eq_sum_range g (T * L), ← sum_tiles g T L,
    ← Fin.sum_univ_eq_sum_range (fun t => ∑ l ∈ range L, g (t * L + l)) T]
  exact sum_congr rfl fun t _ => Fin.sum_univ_eq_sum_range (fun l => g (t.val * L + l)) L

/-- The masked sum over a reordered and padded list equals the masked sum over the original
points: entries `j < N` of the list are the points `ord j` for a bijection `ord`, and the entries
`N ≤ j < P` have keys outside the class `v`. -/
theorem sum_perm_pad {K : Type*} [DecidableEq K] {N P : ℕ} (hNP : N ≤ P) (v : K)
    (key : Fin N → K) (x : Fin N → M) (ord : Fin N → Fin N) (hord : Function.Bijective ord)
    (keyP : ℕ → K) (xP : ℕ → M)
    (hperm : ∀ j (h : j < N), keyP j = key (ord ⟨j, h⟩) ∧ xP j = x (ord ⟨j, h⟩))
    (hpad : ∀ j, N ≤ j → j < P → keyP j ≠ v) :
    ∑ j ∈ range P, (if keyP j = v then xP j else 0) =
      ∑ n : Fin N, if key n = v then x n else 0 := by
  have hsub : range N ⊆ range P := range_subset_range.mpr hNP
  rw [← sum_subset hsub fun j hjP hjN => by
      have hj : N ≤ j := Nat.le_of_not_lt fun h => hjN (mem_range.mpr h)
      exact if_neg (hpad j hj (mem_range.mp hjP)),
    ← Fin.sum_univ_eq_sum_range (fun j => if keyP j = v then xP j else 0) N,
    ← hord.sum_comp fun n => if key n = v then x n else 0]
  refine sum_congr rfl fun j _ => ?_
  obtain ⟨hk, hx⟩ := hperm j.val j.isLt
  rw [hk, hx]

end Monoid

section Mask

/-- Multiplying by a `0/1` mask is guarding by the mask's condition. -/
theorem mul_ite_one_zero {R : Type*} [MulZeroOneClass R] (a : R) (p : Prop) [Decidable p] :
    a * (if p then (1 : R) else 0) = if p then a else 0 := by
  split_ifs
  · exact mul_one a
  · exact mul_zero a

/-- Finite-sum form of `mul_ite_one_zero`. -/
theorem sum_mul_ite_one_zero {R : Type*} [NonAssocSemiring R] {ι : Type*} (s : Finset ι)
    (a : ι → R) (p : ι → Prop) [DecidablePred p] :
    ∑ l ∈ s, a l * (if p l then (1 : R) else 0) = ∑ l ∈ s, if p l then a l else 0 :=
  sum_congr rfl fun l _ => mul_ite_one_zero (a l) (p l)

/-- For every extended real `a`, also `⊤` and `⊥`, the product of `a` with a `0/1` mask is `a`
guarded by the mask's condition; this uses `a * 0 = 0` for all extended reals. -/
theorem ereal_mul_ite_one_zero (a : EReal) (p : Prop) [Decidable p] :
    a * (if p then (1 : EReal) else 0) = if p then a else 0 :=
  mul_ite_one_zero a p

/-- Finite-sum form of `ereal_mul_ite_one_zero`. -/
theorem ereal_sum_mul_ite_one_zero {ι : Type*} (s : Finset ι) (a : ι → EReal) (p : ι → Prop)
    [DecidablePred p] :
    ∑ l ∈ s, a l * (if p l then (1 : EReal) else 0) = ∑ l ∈ s, if p l then a l else 0 :=
  sum_congr rfl fun l _ => ereal_mul_ite_one_zero (a l) (p l)

end Mask

section Assembly

variable {M : Type*} [AddCommMonoid M]

/-- The tiled accumulator computes the masked sum over the original points.

The list `(keyP, xP)` has `T * L` entries: the first `N` are the points reordered by the bijection
`ord`, the others have keys different from `v`.  The accumulator starts at `0`; at tile `t < T`
it adds `ch t`, the masked sum over the `L` entries of that tile, when `act t` holds, and is left
alone otherwise; `act t` may fail only when no entry of tile `t` has key `v`. -/
theorem tiled_acc_eq_masked_sum {K : Type*} [DecidableEq K] {N T L : ℕ} (hN : N ≤ T * L) (v : K)
    (key : Fin N → K) (x : Fin N → M) (ord : Fin N → Fin N) (hord : Function.Bijective ord)
    (keyP : ℕ → K) (xP : ℕ → M)
    (hperm : ∀ j (h : j < N), keyP j = key (ord ⟨j, h⟩) ∧ xP j = x (ord ⟨j, h⟩))
    (hpad : ∀ j, N ≤ j → j < T * L → keyP j ≠ v)
    (act : ℕ → Prop) [DecidablePred act] (ch acc : ℕ → M)
    (hch : ∀ t, t < T →
      ch t = ∑ l ∈ range L, if keyP (t * L + l) = v then xP (t * L + l) else 0)
    (hskip : ∀ t, t < T → ¬ act t → ∀ l, l < L → keyP (t * L + l) ≠ v)
    (h0 : acc 0 = 0)
    (hs : ∀ t, t < T → acc (t + 1) = if act t then acc t + ch t else acc t) :
    acc T = ∑ n : Fin N, if key n = v then x n else 0 := by
  have hzero : ∀ t, t < T → ¬ act t → ch t = 0 := fun t ht ha => by
    rw [hch t ht]
    exact sum_eq_zero fun l hl => if_neg (hskip t ht ha l (mem_range.mp hl))
  rw [acc_eq_sum act ch acc T h0 hs, sum_skip act ch T hzero,
    sum_congr rfl fun t ht => hch t (mem_range.mp ht),
    sum_tiles (fun j => if keyP j = v then xP j else 0) T L]
  exact sum_perm_pad hN v key x ord hord keyP xP hperm hpad

end Assembly

end LibTileSum
-- ==== Proof.LibMatmulNT.lean ====
import Idealize.ShloMosaic.Lib.ValueIdx
import Idealize.ShloMosaic.PureOps.Ideal.Laws

/-!
# A matrix product contracted on the second axis of both operands, read at an entry

Let `A` be an `m × k` matrix and `B` an `n × k` matrix of extended reals.  The product whose
dimension numbers contract axis 1 of `A` with axis 1 of `B`, keep axis 0 of `A` as the result's
axis 0 and axis 0 of `B` as the result's axis 1, and have no batch axis, is the `m × n` matrix
`A · Bᵀ`.  Accumulated into the zero matrix and read at the entry `(a, b)` it is

  `∑ c : Fin k, A (a, c) * B (b, c)`.

* `lhsIdx_nt`, `rhsIdx_nt`: the operand entries the product reads at result entry `(a, b)` and
  contraction position `c` are `(a, c)` and `(b, c)`.
* `matmul_nt_zero_apply`: the sum above.
-/

noncomputable section

namespace LibMatmulNT

open Idealize.ShloMosaic Idealize.ShloMosaic.ValueIdx
open scoped BigOperators

variable {m n k : Nat}

/-- The dimension numbers of `A · Bᵀ`: both operands contracted on axis 1, both free on axis 0. -/
abbrev dimsNT (w : DotDims.WF ⟨2, ![m, k]⟩ ⟨2, ![n, k]⟩ ⟨2, ![m, n]⟩ [1] [1] [0] [0] [] []) :
    DotDims ⟨2, ![m, k]⟩ ⟨2, ![n, k]⟩ ⟨2, ![m, n]⟩ :=
  ⟨[1], [1], [0], [0], [], [], w⟩

/-- At result entry `(a, b)` and contraction position `c` the left operand is read at `(a, c)`. -/
theorem lhsIdx_nt (w : DotDims.WF ⟨2, ![m, k]⟩ ⟨2, ![n, k]⟩ ⟨2, ![m, n]⟩ [1] [1] [0] [0] [] [])
    (a : Fin m) (b : Fin n) (c : Fin k) :
    (dimsNT w).lhsIdx (ix2 a b) ((contrEquiv1 (dimsNT w) k rfl rfl).symm c) = ix2 a c := by
  have hc := contrEquiv1_symm_val (dimsNT w) k rfl rfl c
  funext ax; apply Fin.ext
  match ax with
  | ⟨0, _⟩ => simp [DotDims.lhsIdx]; rfl
  | ⟨1, _⟩ => simp [DotDims.lhsIdx]; exact hc

/-- At result entry `(a, b)` and contraction position `c` the right operand is read at `(b, c)`. -/
theorem rhsIdx_nt (w : DotDims.WF ⟨2, ![m, k]⟩ ⟨2, ![n, k]⟩ ⟨2, ![m, n]⟩ [1] [1] [0] [0] [] [])
    (a : Fin m) (b : Fin n) (c : Fin k) :
    (dimsNT w).rhsIdx (ix2 a b) ((contrEquiv1 (dimsNT w) k rfl rfl).symm c) = ix2 b c := by
  have hc := contrEquiv1_symm_val (dimsNT w) k rfl rfl c
  funext ax; apply Fin.ext
  match ax with
  | ⟨0, _⟩ => simp [DotDims.rhsIdx]; rfl
  | ⟨1, _⟩ => simp [DotDims.rhsIdx]; exact hc

/-- `A · Bᵀ` accumulated into the zero matrix, at entry `(a, b)`: the sum over the contracted
coordinate of the products of the entries of row `a` of `A` and row `b` of `B`. -/
theorem matmul_nt_zero_apply {φ₁ φ₂ : FTy}
    (w : DotDims.WF ⟨2, ![m, k]⟩ ⟨2, ![n, k]⟩ ⟨2, ![m, n]⟩ [1] [1] [0] [0] [] [])
    (prec : Option ContractPrecision) (A : FVec Ideal ⟨2, ![m, k]⟩ φ₁) (B : FVec Ideal ⟨2, ![n, k]⟩ φ₂)
    (a : Fin m) (b : Fin n) :
    matmul (dimsNT w) prec A B (constant (F := Ideal) ⟨2, ![m, n]⟩ .f32 0x00000000#32) (ix2 a b)
      = ∑ c : Fin k, A (ix2 a c) * B (ix2 b c) := by
  show FloatOps.matmul (dimsNT w) prec A B _ (ix2 a b) = _
  rw [Ideal.matmul_constant_zero_apply, ← Equiv.sum_comp (contrEquiv1 (dimsNT w) k rfl rfl).symm]
  refine Finset.sum_congr rfl fun c _ => ?_
  rw [lhsIdx_nt, rhsIdx_nt]

end LibMatmulNT

end
-- ==== Proof.LibMaskWord.lean ====
import Idealize.ShloMosaic.Lib.ValueIdx
import Idealize.ShloMosaic.PureOps.Ideal.Laws

/-!
# Words of a 0/1 mask and of a class number, at the extended reals

* `ofBits_one_f32`, `ofBits_one_bf16`: the binary32 word `0x3F800000` and the bfloat16 word `0x3F80`
  denote the number `1`.
* `sitofp_mask_eq`: the one-bit result of comparing two 32-bit words for equality, widened to 32 bits by
  zero extension and converted as a signed integer, is `1` where the words are equal and `0` elsewhere.
* `ofNat_mul_add`: on 32-bit words, `a · c + b` computed on the words of `a`, `c`, `b` is the word of
  the natural number `a · c + b` (both sides are taken modulo `2 ^ 32`).
* `cmpi_apply`, `addi_apply`: an integer comparison and an integer sum of two arrays, read at an index.
-/

noncomputable section

namespace LibMaskWord

open Idealize.ShloMosaic

/-- The binary32 word `0x3F800000` denotes `1`. -/
theorem ofBits_one_f32 : Ideal.ofBits .f32 0x3F800000#32 = 1 := by
  simp [Ideal.ofBits, Ideal.ieee, -EReal.coe_mul]; norm_num

/-- The bfloat16 word `0x3F80` denotes `1`. -/
theorem ofBits_one_bf16 : Ideal.ofBits .bf16 0x3F80#16 = 1 := by
  simp [Ideal.ofBits, Ideal.ieee, -EReal.coe_mul]; norm_num

/-- The equality bit of two words, zero-extended to 32 bits and converted as a signed integer, is the
indicator of their equality. -/
theorem sitofp_mask_eq (x y : BitVec 32) :
    FloatOps.sitofp (F := Ideal) .f32 ((IntOp.cmpi .eq x y).setWidth 32) = if x = y then (1 : EReal) else 0 := by
  show ((((IntOp.cmpi .eq x y).setWidth 32).toInt : ℝ) : EReal) = _
  by_cases h : x = y
  · subst h
    simp [IntOp.cmpi]
  · have hb : (x == y) = false := by simpa using h
    simp [IntOp.cmpi, hb, h]

/-- Word arithmetic follows the arithmetic of natural numbers modulo `2 ^ 32`. -/
theorem ofNat_mul_add (a c b : Nat) :
    BitVec.ofNat 32 a * BitVec.ofNat 32 c + BitVec.ofNat 32 b = BitVec.ofNat 32 (a * c + b) := by
  rw [BitVec.ofNat_add, BitVec.ofNat_mul]

/-- An integer comparison of two arrays, read at an index, compares the two entries. -/
theorem cmpi_apply {s : Shape} {w : Nat} (p : CmpIPredicate) (x y : IVec s w) (i : s.Idx) :
    cmpi p x y i = IntOp.cmpi p (x i) (y i) := rfl

/-- An integer sum of two arrays, read at an index, adds the two entries. -/
theorem addi_apply {s : Shape} {w : Nat} (x y : IVec s w) (i : s.Idx) : addi x y i = x i + y i := rfl

end LibMaskWord

end
-- ==== Proof.KPay1.lean ====
/-
  The values the scatter kernel's body stores, read at one entry, at the extended reals.

  At the extended reals a float is an extended real, a change of float format is the identity, and a matrix
  product accumulated into the zero matrix is a finite sum.  The body of the scatter kernel at grid point
  i = (b, ct, nt) handles the 4096 classes ct·4096 … ct·4096 + 4095 and a tile of 1024 points; it keeps a
  64 × 4096 matrix S of sums (one row per channel, one column per class) and a 1 × 4096 row C of counts.
  With idxb the tile's class numbers (a 1 × 1 × 1024 array of 32-bit words) and featb its features
  (1 × 64 × 1024), the values the body stores are, entry by entry:

  * at the first tile, S and C are set to zero (pay1_apply, pay2_apply);
  * the 4096 × 1024 mask has 1 at (v, l) where point l has class  cls i v  and 0 elsewhere (pay3_apply),
    where cls i v is the 32-bit word of ct·4096 + v (cls_eq; its value as a natural number is that number,
    cls_toNat);
  * S (ch, v) grows by the sum over the tile's points l of featb (ch, l) times the mask at (v, l)
    (pay4_apply), which is the sum of featb (ch, l) over the points of class cls i v (pay4_masked);
  * C (v) grows by the number of the tile's points of class cls i v (pay5_apply, pay5_masked);
  * at the last tile the average S (ch, v) / max (C (v), 1) is written out (pay6_apply).
-/
import proofs.«136896_j63960652972185_2_alg».proof.Proof.Gen.KernelIdeal.Skeleton
import proofs.«136896_j63960652972185_2_alg».proof.Proof.LibColumn
import proofs.«136896_j63960652972185_2_alg».proof.Proof.LibTileSum
import proofs.«136896_j63960652972185_2_alg».proof.Proof.LibMatmulNT
import proofs.«136896_j63960652972185_2_alg».proof.Proof.LibMaskWord
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Pay1

open Cert.KernelIdeal Cert.KernelIdeal.Gen
open Idealize.ShloMosaic Idealize.ShloMosaic.ValueIdx
open scoped BigOperators

/-! ## The two accumulators set to zero -/

/-- The matrix of sums is set to zero: every entry is 0. -/
theorem pay1_apply (ch : Fin 64) (v : Fin 4096) : k1_pay1 (F := Ideal) (ix2 ch v) = 0 := by
  unfold k1_pay1
  rw [shapeCast_self, broadcast_apply]
  exact Ideal.ofBits_zero_f32

/-- The row of counts is set to zero: every entry is 0. -/
theorem pay2_apply (v : Fin 4096) : k1_pay2 (F := Ideal) (ix2 (0 : Fin 1) v) = 0 := by
  unfold k1_pay2
  rw [shapeCast_self, broadcast_apply]
  exact Ideal.ofBits_zero_f32

/-! ## The average written out -/

/-- The value written out at channel ch and class v: the sum S (ch, v) divided by the count C (v), the
count replaced by 1 where it is smaller. -/
theorem pay6_apply (S : Vec Ideal S64x4096 .f32) (C : Vec Ideal S1x4096 .f32) (ch : Fin 64) (v : Fin 4096) :
    k1_pay6 (F := Ideal) S C (ix3 (0 : Fin 1) ch v) = Ideal.div (S (ix2 ch v)) (max (C (ix2 (0 : Fin 1) v)) 1) := by
  unfold k1_pay6
  rw [shapeCast_ab_1ab_apply, divf_apply, broadcastTo_1b_ab_apply, maximumf_apply, broadcast_apply]
  show Ideal.div (S (ix2 ch v)) (max (C (ix2 (0 : Fin 1) v)) (Ideal.ofBits .f32 0x3F800000#32)) = _
  rw [LibMaskWord.ofBits_one_f32]

/-! ## The class word and the mask -/

/-- The 32-bit word of class v of the block of classes the grid point handles, as the body computes it: the
word of the block number ct times 4096, plus the word of v. -/
def cls (i : grid1.Coords) (v : Fin 4096) : BitVec 32 :=
  Scalar.muli (BitVec.ofNat 32 (i 1).val) 4096#32 + BitVec.ofNat 32 v.val

/-- The class word is the word of the natural number ct·4096 + v. -/
theorem cls_eq (i : grid1.Coords) (v : Fin 4096) : cls i v = BitVec.ofNat 32 ((i 1).val * 4096 + v.val) := by
  unfold cls
  show BitVec.ofNat 32 (i 1).val * BitVec.ofNat 32 4096 + BitVec.ofNat 32 v.val = _
  exact LibMaskWord.ofNat_mul_add _ _ _

/-- There is no wrap-around: ct < 8 and v < 4096, so ct·4096 + v < 2 ^ 32 and the class word, read as a
natural number, is ct·4096 + v. -/
theorem cls_toNat (i : grid1.Coords) (v : Fin 4096) : (cls i v).toNat = (i 1).val * 4096 + v.val := by
  have hct : (i 1).val < 8 := (i 1).isLt
  have hv : v.val < 4096 := v.isLt
  rw [cls_eq, BitVec.toNat_ofNat]
  exact Nat.mod_eq_of_lt (by omega)

/-- The mask at class v and point l: 1 where the point's class word is the class word of v, else 0. -/
theorem pay3_apply (i : grid1.Coords) (idxb : Vec Ideal S1x1x1024 .i32) (v : Fin 4096) (l : Fin 1024) :
    k1_pay3 (F := Ideal) i idxb (ix2 v l)
      = if cls i v = idxb (ix3 (0 : Fin 1) (0 : Fin 1) l) then (1 : EReal) else 0 := by
  unfold k1_pay3
  dsimp only
  rw [truncf_apply, sitofp_apply, extui_apply, LibMaskWord.cmpi_apply,
    Cert.LibColumn.broadcastTo_a1_ab_apply, broadcastTo_1b_ab_apply, LibMaskWord.addi_apply, broadcast_apply,
    iota_single_apply, shapeCast_1ab_ab_apply]
  exact LibMaskWord.sitofp_mask_eq _ _

/-! ## The two accumulators' updates -/

/-- The sums' update at channel ch and class v: the old entry plus the sum over the tile's points l of the
feature featb (ch, l) times the mask at (v, l). -/
theorem pay4_apply (i : grid1.Coords) (idxb : Vec Ideal S1x1x1024 .i32) (featb : Vec Ideal S1x64x1024 .f32)
    (S : Vec Ideal S64x4096 .f32) (ch : Fin 64) (v : Fin 4096) :
    k1_pay4 (F := Ideal) i idxb featb S (ix2 ch v)
      = S (ix2 ch v) + ∑ l : Fin 1024, featb (ix3 (0 : Fin 1) ch l)
          * (if cls i v = idxb (ix3 (0 : Fin 1) (0 : Fin 1) l) then (1 : EReal) else 0) := by
  unfold k1_pay4
  rw [shapeCast_self, addf_apply,
    show dot_S64x1024_S4096x1024_S64x4096_1_1_0_0_n_n = LibMatmulNT.dimsNT _ from rfl,
    LibMatmulNT.matmul_nt_zero_apply]
  refine congrArg (S (ix2 ch v) + ·) (Finset.sum_congr rfl fun l _ => ?_)
  rw [truncf_apply, shapeCast_1ab_ab_apply, pay3_apply]

/-- The counts' update at class v: the old entry plus the sum over the tile's points l of 1 times the mask at
(v, l). -/
theorem pay5_apply (i : grid1.Coords) (idxb : Vec Ideal S1x1x1024 .i32) (C : Vec Ideal S1x4096 .f32) (v : Fin 4096) :
    k1_pay5 (F := Ideal) i idxb C (ix2 (0 : Fin 1) v)
      = C (ix2 (0 : Fin 1) v) + ∑ l : Fin 1024, (1 : EReal)
          * (if cls i v = idxb (ix3 (0 : Fin 1) (0 : Fin 1) l) then (1 : EReal) else 0) := by
  unfold k1_pay5
  rw [shapeCast_self, addf_apply,
    show dot_S1x1024_S4096x1024_S1x4096_1_1_0_0_n_n = LibMatmulNT.dimsNT _ from rfl,
    LibMatmulNT.matmul_nt_zero_apply]
  refine congrArg (C (ix2 (0 : Fin 1) v) + ·) (Finset.sum_congr rfl fun l _ => ?_)
  rw [broadcast_apply, pay3_apply]
  show Ideal.ofBits .bf16 0x3F80#16 * _ = _
  rw [LibMaskWord.ofBits_one_bf16]

/-! ## The updates as masked sums -/

/-- The sums' update adds the features of the tile's points of class v. -/
theorem pay4_masked (i : grid1.Coords) (idxb : Vec Ideal S1x1x1024 .i32) (featb : Vec Ideal S1x64x1024 .f32)
    (S : Vec Ideal S64x4096 .f32) (ch : Fin 64) (v : Fin 4096) :
    k1_pay4 (F := Ideal) i idxb featb S (ix2 ch v)
      = S (ix2 ch v) + ∑ l : Fin 1024,
          if cls i v = idxb (ix3 (0 : Fin 1) (0 : Fin 1) l) then featb (ix3 (0 : Fin 1) ch l) else 0 := by
  rw [pay4_apply, LibTileSum.ereal_sum_mul_ite_one_zero]

/-- The counts' update adds the number of the tile's points of class v. -/
theorem pay5_masked (i : grid1.Coords) (idxb : Vec Ideal S1x1x1024 .i32) (C : Vec Ideal S1x4096 .f32) (v : Fin 4096) :
    k1_pay5 (F := Ideal) i idxb C (ix2 (0 : Fin 1) v)
      = C (ix2 (0 : Fin 1) v) + ∑ l : Fin 1024,
          if cls i v = idxb (ix3 (0 : Fin 1) (0 : Fin 1) l) then (1 : EReal) else 0 := by
  rw [pay5_apply, LibTileSum.ereal_sum_mul_ite_one_zero]

end Cert.KernelIdeal.Pay1

end
-- ==== Proof.KVal1a.lean ====
/-
  The second kernel region, two ingredients of the closed form of its output, both free of the pipeline.

  A grid point is `(b, ct, nt)`.  The body adds input tile `nt`'s contribution to the accumulators of column
  tile `ct` only when a test on two table words holds: the greatest key of the tile is at least
  `ct · 4096` and the least is below `ct · 4096 + 4096`, as signed 32-bit integers.

  First part: that test, read as two inequalities between integers; and, when it fails, no key lying between
  the two table words is a class word `ct · 4096 + v'` of the column tile, so the skipped contribution is zero.

  Second part: a state updated tile by tile, by adding the tile's masked sum when the tile's test holds, ends
  at the masked sum over all the tiles' entries, provided a failing test means no entry of the tile is in the
  class.
-/
import proofs.«136896_j63960652972185_2_alg».proof.Proof.KBody1a
import proofs.«136896_j63960652972185_2_alg».proof.Proof.LibTileSum

noncomputable section

namespace Cert.KernelIdeal.Val1

open scoped BigOperators
open Cert.KernelIdeal Cert.KernelIdeal.Gen Cert.KernelIdeal.Hand Idealize.ShloMosaic

/-! ## The tile test as inequalities -/

/-- The body's way of testing a conjunction of two comparisons: both bits set. -/
theorem cond_and_iff (p q : Bool) :
    Scalar.cmpi .ne (Scalar.extui (Scalar.andi (BitVec.ofBool p) (BitVec.ofBool q))) 0#32 = 1#1
      ↔ p = true ∧ q = true := by
  cases p <;> cases q <;> decide

/-- A natural number below `2 ^ 31`, as a 32-bit word, reads signed as itself. -/
theorem toInt_ofNat_small (m : ℕ) (h : m < 2147483648) : (BitVec.ofNat 32 m).toInt = (m : Int) := by
  have hn : (BitVec.ofNat 32 m).toNat = m := by
    rw [BitVec.toNat_ofNat]
    omega
  rw [BitVec.toInt_eq_toNat_cond, hn, if_pos (by omega)]

/-- The first key of column tile `ct`, computed in 32-bit arithmetic, is `ct · 4096`. -/
theorem tile_lo_eq (ct : ℕ) (hct : ct < 8) :
    Scalar.muli (BitVec.ofNat 32 ct) 4096#32 = BitVec.ofNat 32 (ct * 4096) := by
  show BitVec.ofNat 32 ct * 4096#32 = BitVec.ofNat 32 (ct * 4096)
  apply BitVec.eq_of_toNat_eq
  have hk : (4096#32 : BitVec 32).toNat = 4096 := rfl
  rw [BitVec.toNat_mul, hk, BitVec.toNat_ofNat, BitVec.toNat_ofNat]
  omega

/-- One past the last key of column tile `ct`, computed in 32-bit arithmetic, is `ct · 4096 + 4096`. -/
theorem tile_hi_eq (ct : ℕ) (hct : ct < 8) :
    Scalar.addi (Scalar.muli (BitVec.ofNat 32 ct) 4096#32) 4096#32 = BitVec.ofNat 32 (ct * 4096 + 4096) := by
  rw [tile_lo_eq ct hct]
  show BitVec.ofNat 32 (ct * 4096) + 4096#32 = BitVec.ofNat 32 (ct * 4096 + 4096)
  apply BitVec.eq_of_toNat_eq
  have hk : (4096#32 : BitVec 32).toNat = 4096 := rfl
  rw [BitVec.toNat_add, hk, BitVec.toNat_ofNat, BitVec.toNat_ofNat]
  omega

/-- THE TILE TEST: it holds exactly when the greatest key `w9` of the input tile is at least
    `ct · 4096` and the least key `w6` is below `ct · 4096 + 4096`, read signed. -/
theorem act1_iff (i : grid1.Coords) (w6 w9 : BitVec 32) :
    act1 i w6 w9 ↔ (((i 1).val * 4096 : ℕ) : Int) ≤ w9.toInt
      ∧ w6.toInt < (((i 1).val * 4096 + 4096 : ℕ) : Int) := by
  have hct : (i 1).val < 8 := (i 1).isLt
  show Scalar.cmpi .ne (Scalar.extui (Scalar.andi
      (BitVec.ofBool ((Scalar.muli (BitVec.ofNat 32 (i 1).val) 4096#32).sle w9))
      (BitVec.ofBool (w6.slt (Scalar.addi (Scalar.muli (BitVec.ofNat 32 (i 1).val) 4096#32) 4096#32)))))
      0#32 = 1#1 ↔ _
  rw [cond_and_iff, tile_hi_eq _ hct, tile_lo_eq _ hct, BitVec.sle_iff_toInt_le, BitVec.slt_iff_toInt_lt,
    toInt_ofNat_small _ (by omega), toInt_ofNat_small _ (by omega)]

/-- THE SKIP IS HARMLESS: when the tile test fails, a key between the two table words is not the class word
    `ct · 4096 + v'` of any entry `v'` of the column tile. -/
theorem key_ne_cls_of_not_act (i : grid1.Coords) (w6 w9 key : BitVec 32) (v' : Fin 4096)
    (hlo : w6.toInt ≤ key.toInt) (hhi : key.toInt ≤ w9.toInt) (hna : ¬ act1 i w6 w9) :
    key ≠ BitVec.ofNat 32 ((i 1).val * 4096 + v'.val) := by
  intro hk
  apply hna
  rw [act1_iff]
  have hct : (i 1).val < 8 := (i 1).isLt
  have hv := v'.isLt
  have hkey : key.toInt = (((i 1).val * 4096 + v'.val : ℕ) : Int) := by
    rw [hk]
    exact toInt_ofNat_small _ (by omega)
  omega

/-- The same, with the class word on the left as the body's mask has it. -/
theorem cls_ne_key_of_not_act (i : grid1.Coords) (w6 w9 key : BitVec 32) (v' : Fin 4096)
    (hlo : w6.toInt ≤ key.toInt) (hhi : key.toInt ≤ w9.toInt) (hna : ¬ act1 i w6 w9) :
    BitVec.ofNat 32 ((i 1).val * 4096 + v'.val) ≠ key :=
  (key_ne_cls_of_not_act i w6 w9 key v' hlo hhi hna).symm

/-! ## A state updated tile by tile -/

section Tiles

variable {M : Type*} [AddCommMonoid M]

/-- Entry `l` of tile `t`, among `T` tiles of `L` entries. -/
def tileIdx {T L : ℕ} (t : Fin T) (l : Fin L) : Fin (T * L) :=
  ⟨t.val * L + l.val, by
    have h1 : t.val * L + l.val < t.val * L + L := Nat.add_lt_add_left l.isLt _
    have h2 : t.val * L + L = (t.val + 1) * L := (Nat.succ_mul t.val L).symm
    have h3 : (t.val + 1) * L ≤ T * L := Nat.mul_le_mul_right L t.isLt
    omega⟩

/-- A sum over all the entries is the double sum over tile and entry of the tile. -/
theorem sum_fin_tiles (T L : ℕ) (f : Fin (T * L) → M) :
    ∑ j : Fin (T * L), f j = ∑ t : Fin T, ∑ l : Fin L, f (tileIdx t l) := by
  have h := LibTileSum.sum_tiles_fin (fun j => if hj : j < T * L then f ⟨j, hj⟩ else 0) T L
  have h1 : ∑ j : Fin (T * L), (fun j => if hj : j < T * L then f ⟨j, hj⟩ else 0) j.val
      = ∑ j : Fin (T * L), f j :=
    Finset.sum_congr rfl fun e _ => dif_pos e.isLt
  rw [← h1, ← h]
  refine Finset.sum_congr rfl fun t _ => Finset.sum_congr rfl fun l _ => ?_
  exact dif_pos (tileIdx t l).isLt

variable {K : Type*} [DecidableEq K]

/-- ACCUMULATOR FORM.  `acc` starts at `0`; at tile `t < T` it adds `ch t`, the sum of the values of
    the tile's entries whose key is the class `v`, when `act t` holds, and is left alone otherwise;
    `act t` may fail only when no entry of tile `t` has key `v`.  Then `acc T` is the sum of the values
    of all the entries whose key is `v`. -/
theorem tiled_acc_closed (T L : ℕ) (v : K) (keyP : Fin (T * L) → K) (xP : Fin (T * L) → M)
    (act : ℕ → Prop) [DecidablePred act] (ch acc : ℕ → M)
    (hch : ∀ t : Fin T, ch t.val = ∑ l : Fin L, if v = keyP (tileIdx t l) then xP (tileIdx t l) else 0)
    (hskip : ∀ t : Fin T, ¬ act t.val → ∀ l : Fin L, v ≠ keyP (tileIdx t l))
    (h0 : acc 0 = 0)
    (hs : ∀ t, t < T → acc (t + 1) = if act t then acc t + ch t else acc t) :
    acc T = ∑ j : Fin (T * L), if keyP j = v then xP j else 0 := by
  have hzero : ∀ t, t < T → ¬ act t → ch t = 0 := fun t ht ha => by
    rw [hch ⟨t, ht⟩]
    exact Finset.sum_eq_zero fun l _ => if_neg (hskip ⟨t, ht⟩ ha l)
  rw [LibTileSum.acc_eq_sum act ch acc T h0 hs, LibTileSum.sum_skip act ch T hzero,
    ← Fin.sum_univ_eq_sum_range ch T, sum_fin_tiles T L]
  refine Finset.sum_congr rfl fun t _ => ?_
  rw [hch t]
  refine Finset.sum_congr rfl fun l _ => ?_
  by_cases h : v = keyP (tileIdx t l)
  · rw [if_pos h, if_pos h.symm]
  · rw [if_neg h, if_neg fun h' => h h'.symm]

/-- STATE FORM.  `s k` is the state after tile `k`: tile `0` starts from `0`, tile `k + 1` from
    `s k`.  Then the state after the last tile is the sum of the values of all the entries whose key is `v`. -/
theorem traj_closed (T L : ℕ) (v : K) (keyP : Fin ((T + 1) * L) → K) (xP : Fin ((T + 1) * L) → M)
    (act : ℕ → Prop) [DecidablePred act] (ch s : ℕ → M)
    (hch : ∀ t : Fin (T + 1),
      ch t.val = ∑ l : Fin L, if v = keyP (tileIdx t l) then xP (tileIdx t l) else 0)
    (hskip : ∀ t : Fin (T + 1), ¬ act t.val → ∀ l : Fin L, v ≠ keyP (tileIdx t l))
    (hs0 : s 0 = if act 0 then 0 + ch 0 else 0)
    (hss : ∀ k, k + 1 < T + 1 → s (k + 1) = if act (k + 1) then s k + ch (k + 1) else s k) :
    s T = ∑ j : Fin ((T + 1) * L), if keyP j = v then xP j else 0 := by
  have h := tiled_acc_closed (T + 1) L v keyP xP act ch
    (fun k => match k with | 0 => 0 | k + 1 => s k) hch hskip rfl (fun t ht => by
      match t with
      | 0 => exact hs0
      | k + 1 => exact hss k ht)
  exact h

end Tiles

end Cert.KernelIdeal.Val1

end
-- ==== Proof.KVal1b.lean ====
/-
  The second kernel region: one entry of each accumulator along a row of input tiles, read off the arrays the
  region finds.

  A grid point is `(b, ct, nt)`.  The feature block of the point is rows `(b, ·, nt · 1024 + l)` of the
  feature array and its key block is `(b, 0, nt · 1024 + l)` of the key array.  Entry `(ch, v')` of the sums
  is set to zero at `nt = 0` and grows, at each point whose tile test holds, by the sum of feature `ch` over
  the tile's points whose key is the class word `ct · 4096 + v'`; the counts likewise by their number.
-/
import proofs.«136896_j63960652972185_2_alg».proof.Proof.KStep1
import proofs.«136896_j63960652972185_2_alg».proof.Proof.KPay1
import proofs.«136896_j63960652972185_2_alg».proof.Proof.KVal1a

set_option maxRecDepth 16384

noncomputable section

namespace Cert.KernelIdeal.Val1

open scoped BigOperators
open Cert.KernelIdeal Cert.KernelIdeal.Gen Cert.KernelIdeal.Hand Cert.KernelIdeal.Pay1
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))
  (a : (pcfg1 (F := Ideal)).Adm) (c : Dev nD)

/-! ## The index maps -/

section Maps
variable (i : grid1.Coords)

/-- Windows 0 and 1 are indexed by `(b, 0, nt)`, window 2 by `(b, 0, ct)`. -/
theorem xf0_0 : cc1_transform_0 i 0 = (i 0).val := by
  have h : (i 0).val < 8 := (i 0).isLt
  show (BitVec.ofNat 32 (i 0).val).toNat = (i 0).val
  rw [BitVec.toNat_ofNat]; omega
theorem xf0_1 : cc1_transform_0 i 1 = 0 := rfl
theorem xf0_2 : cc1_transform_0 i 2 = (i 2).val := by
  have h : (i 2).val < 98 := (i 2).isLt
  show (BitVec.ofNat 32 (i 2).val).toNat = (i 2).val
  rw [BitVec.toNat_ofNat]; omega
theorem xf1_0 : cc1_transform_1 i 0 = (i 0).val := by
  have h : (i 0).val < 8 := (i 0).isLt
  show (BitVec.ofNat 32 (i 0).val).toNat = (i 0).val
  rw [BitVec.toNat_ofNat]; omega
theorem xf1_1 : cc1_transform_1 i 1 = 0 := rfl
theorem xf1_2 : cc1_transform_1 i 2 = (i 2).val := by
  have h : (i 2).val < 98 := (i 2).isLt
  show (BitVec.ofNat 32 (i 2).val).toNat = (i 2).val
  rw [BitVec.toNat_ofNat]; omega
theorem xf2_0 : cc1_transform_2 i 0 = (i 0).val := by
  have h : (i 0).val < 8 := (i 0).isLt
  show (BitVec.ofNat 32 (i 0).val).toNat = (i 0).val
  rw [BitVec.toNat_ofNat]; omega
theorem xf2_1 : cc1_transform_2 i 1 = 0 := rfl
theorem xf2_2 : cc1_transform_2 i 2 = (i 1).val := by
  have h : (i 1).val < 8 := (i 1).isLt
  show (BitVec.ofNat 32 (i 1).val).toNat = (i 1).val
  rw [BitVec.toNat_ofNat]; omega

end Maps

/-! ## The input arrays and their blocks -/

/-- The key of padded point `j` of batch `b`, as the region finds it. -/
def keyP (b : Fin 8) (j : Fin 100352) : BitVec 32 := V c main_v10 (ix3 b (0 : Fin 1) j)

/-- Feature `ch` of padded point `j` of batch `b`, as the region finds it. -/
def featP (b : Fin 8) (ch : Fin 64) (j : Fin 100352) : EReal := V c main_v9 (ix3 b ch j)

/-- Entry `l` of the key block of a point with batch `b` and input tile `k` is the key of padded point
    `k · 1024 + l` of batch `b`. -/
theorem idxb_at (t : Fin (cfg1 a).N) (l : Fin 1024) (b : Fin 8) (k : Fin 98)
    (hb : (grid1.coords t 0).val = b.val) (hk : (grid1.coords t 2).val = k.val) :
    iblk1 (F := Ideal) V a c 1 t (ix3 (0 : Fin 1) (0 : Fin 1) l) = keyP V c b (tileIdx k l) := by
  show V c main_v10 ((((cfg1 a).win 1).blk t).view.emb (ix3 (0 : Fin 1) (0 : Fin 1) l))
    = V c main_v10 (ix3 b (0 : Fin 1) (tileIdx k l))
  refine congrArg (V c main_v10) ?_
  funext ax
  apply Fin.ext
  match ax with
  | ⟨0, _⟩ =>
    show cc1_transform_1 (grid1.coords t) (0 : Fin 3) * 1 + 1 * 0 = b.val
    rw [xf1_0]; omega
  | ⟨1, _⟩ =>
    show cc1_transform_1 (grid1.coords t) (1 : Fin 3) * 1 + 1 * 0 = 0
    rw [xf1_1]
  | ⟨2, _⟩ =>
    show cc1_transform_1 (grid1.coords t) (2 : Fin 3) * 1024 + 1 * l.val = k.val * 1024 + l.val
    rw [xf1_2]; omega

/-- Entry `(ch, l)` of the feature block of such a point is feature `ch` of that padded point. -/
theorem featb_at (t : Fin (cfg1 a).N) (ch : Fin 64) (l : Fin 1024) (b : Fin 8) (k : Fin 98)
    (hb : (grid1.coords t 0).val = b.val) (hk : (grid1.coords t 2).val = k.val) :
    iblk1 (F := Ideal) V a c 0 t (ix3 (0 : Fin 1) ch l) = featP V c b ch (tileIdx k l) := by
  show V c main_v9 ((((cfg1 a).win 0).blk t).view.emb (ix3 (0 : Fin 1) ch l))
    = V c main_v9 (ix3 b ch (tileIdx k l))
  refine congrArg (V c main_v9) ?_
  funext ax
  apply Fin.ext
  match ax with
  | ⟨0, _⟩ =>
    show cc1_transform_0 (grid1.coords t) (0 : Fin 3) * 1 + 1 * 0 = b.val
    rw [xf0_0]; omega
  | ⟨1, _⟩ =>
    show cc1_transform_0 (grid1.coords t) (1 : Fin 3) * 64 + 1 * ch.val = ch.val
    rw [xf0_1]; omega
  | ⟨2, _⟩ =>
    show cc1_transform_0 (grid1.coords t) (2 : Fin 3) * 1024 + 1 * l.val = k.val * 1024 + l.val
    rw [xf0_2]; omega

/-! ## One entry of each accumulator, point by point -/

/-- The accumulators after a point with `nt = 0` do not depend on the point before. -/
theorem scrAfter_of_first (n : ℕ) (h : n < (cfg1 a).N) (hf : first1 (grid1.coords ⟨n, h⟩)) :
    scrAfter (F := Ideal) V a c n h
      = step1 (grid1.coords ⟨n, h⟩) (tw0 a (grid1.coords ⟨n, h⟩)) (tw1 a (grid1.coords ⟨n, h⟩))
          (iblk1 V a c 0 ⟨n, h⟩) (iblk1 V a c 1 ⟨n, h⟩) (k1_pay1 (F := Ideal)) (k1_pay2 (F := Ideal)) := by
  match n, h, hf with
  | 0, h, _ => rfl
  | n + 1, h, hf =>
    exact step1_first (F := Ideal) _ _ _ (iblk1 V a c 0 ⟨n + 1, h⟩) (iblk1 V a c 1 ⟨n + 1, h⟩)
      (scrAfter (F := Ideal) V a c n (Nat.lt_of_succ_lt h)).1
      (scrAfter (F := Ideal) V a c n (Nat.lt_of_succ_lt h)).2 hf (k1_pay1 (F := Ideal)) (k1_pay2 (F := Ideal))

section Entry
variable (ch : Fin 64) (v' : Fin 4096)

/-- The feature block of point `n`. -/
abbrev featbAt (n : ℕ) (h : n < (cfg1 a).N) : Vec Ideal S1x64x1024 .f32 := iblk1 (F := Ideal) V a c 0 ⟨n, h⟩

/-- The key block of point `n`. -/
abbrev idxbAt (n : ℕ) (h : n < (cfg1 a).N) : Vec Ideal S1x1x1024 .i32 := iblk1 (F := Ideal) V a c 1 ⟨n, h⟩

/-- The tile's contribution to entry `(ch, v')` of the sums at point `n`. -/
abbrev chunkS (n : ℕ) (h : n < (cfg1 a).N) : EReal :=
  ∑ l : Fin 1024,
    if cls (grid1.coords ⟨n, h⟩) v' = idxbAt V a c n h (ix3 (0 : Fin 1) (0 : Fin 1) l)
    then featbAt V a c n h (ix3 (0 : Fin 1) ch l) else 0

/-- The tile's contribution to entry `v'` of the counts at point `n`. -/
abbrev chunkC (n : ℕ) (h : n < (cfg1 a).N) : EReal :=
  ∑ l : Fin 1024,
    if cls (grid1.coords ⟨n, h⟩) v' = idxbAt V a c n h (ix3 (0 : Fin 1) (0 : Fin 1) l)
    then (1 : EReal) else 0

/-- The point's tile test, at its own table words. -/
abbrev actAt (n : ℕ) (h : n < (cfg1 a).N) : Prop :=
  act1 (grid1.coords ⟨n, h⟩) (tw0 a (grid1.coords ⟨n, h⟩)) (tw1 a (grid1.coords ⟨n, h⟩))

theorem scrS_first (n : ℕ) (h : n < (cfg1 a).N) (hf : first1 (grid1.coords ⟨n, h⟩)) :
    (scrAfter (F := Ideal) V a c n h).1 (ix2 ch v')
      = if actAt a n h then 0 + chunkS V a c ch v' n h else 0 := by
  have e0 := scrAfter_of_first V a c n h hf
  by_cases ha : actAt a n h
  · rw [if_pos ha]
    have e := step1_FA (F := Ideal) _ _ _ (iblk1 V a c 0 ⟨n, h⟩) (iblk1 V a c 1 ⟨n, h⟩)
      (k1_pay1 (F := Ideal)) (k1_pay2 (F := Ideal)) hf ha
    refine (congrArg (fun p => p.1 (ix2 ch v')) (e0.trans e)).trans ?_
    show k1_pay4 (F := Ideal) _ (idxbAt V a c n h) (featbAt V a c n h) (k1_pay1 (F := Ideal)) (ix2 ch v') = _
    rw [pay4_masked, pay1_apply]
  · rw [if_neg ha]
    have e := step1_Fn (F := Ideal) _ _ _ (iblk1 V a c 0 ⟨n, h⟩) (iblk1 V a c 1 ⟨n, h⟩)
      (k1_pay1 (F := Ideal)) (k1_pay2 (F := Ideal)) hf ha
    exact (congrArg (fun p => p.1 (ix2 ch v')) (e0.trans e)).trans (pay1_apply ch v')

theorem scrC_first (n : ℕ) (h : n < (cfg1 a).N) (hf : first1 (grid1.coords ⟨n, h⟩)) :
    (scrAfter (F := Ideal) V a c n h).2 (ix2 (0 : Fin 1) v')
      = if actAt a n h then 0 + chunkC V a c v' n h else 0 := by
  have e0 := scrAfter_of_first V a c n h hf
  by_cases ha : actAt a n h
  · rw [if_pos ha]
    have e := step1_FA (F := Ideal) _ _ _ (iblk1 V a c 0 ⟨n, h⟩) (iblk1 V a c 1 ⟨n, h⟩)
      (k1_pay1 (F := Ideal)) (k1_pay2 (F := Ideal)) hf ha
    refine (congrArg (fun p => p.2 (ix2 (0 : Fin 1) v')) (e0.trans e)).trans ?_
    show k1_pay5 (F := Ideal) _ (idxbAt V a c n h) (k1_pay2 (F := Ideal)) (ix2 (0 : Fin 1) v') = _
    rw [pay5_masked, pay2_apply]
  · rw [if_neg ha]
    have e := step1_Fn (F := Ideal) _ _ _ (iblk1 V a c 0 ⟨n, h⟩) (iblk1 V a c 1 ⟨n, h⟩)
      (k1_pay1 (F := Ideal)) (k1_pay2 (F := Ideal)) hf ha
    exact (congrArg (fun p => p.2 (ix2 (0 : Fin 1) v')) (e0.trans e)).trans (pay2_apply v')

theorem scrS_succ (n : ℕ) (h : n + 1 < (cfg1 a).N) (hf : ¬ first1 (grid1.coords ⟨n + 1, h⟩)) :
    (scrAfter (F := Ideal) V a c (n + 1) h).1 (ix2 ch v')
      = if actAt a (n + 1) h
        then (scrAfter (F := Ideal) V a c n (Nat.lt_of_succ_lt h)).1 (ix2 ch v') + chunkS V a c ch v' (n + 1) h
        else (scrAfter (F := Ideal) V a c n (Nat.lt_of_succ_lt h)).1 (ix2 ch v') := by
  by_cases ha : actAt a (n + 1) h
  · rw [if_pos ha]
    have e := step1_nA (F := Ideal) _ _ _ (iblk1 V a c 0 ⟨n + 1, h⟩) (iblk1 V a c 1 ⟨n + 1, h⟩)
      (scrAfter (F := Ideal) V a c n (Nat.lt_of_succ_lt h)).1
      (scrAfter (F := Ideal) V a c n (Nat.lt_of_succ_lt h)).2 hf ha
    exact (congrArg (fun p => p.1 (ix2 ch v')) e).trans
      (pay4_masked _ (idxbAt V a c (n + 1) h) (featbAt V a c (n + 1) h) _ ch v')
  · rw [if_neg ha]
    have e := step1_nn (F := Ideal) _ _ _ (iblk1 V a c 0 ⟨n + 1, h⟩) (iblk1 V a c 1 ⟨n + 1, h⟩)
      (scrAfter (F := Ideal) V a c n (Nat.lt_of_succ_lt h)).1
      (scrAfter (F := Ideal) V a c n (Nat.lt_of_succ_lt h)).2 hf ha
    exact congrArg (fun p => p.1 (ix2 ch v')) e

theorem scrC_succ (n : ℕ) (h : n + 1 < (cfg1 a).N) (hf : ¬ first1 (grid1.coords ⟨n + 1, h⟩)) :
    (scrAfter (F := Ideal) V a c (n + 1) h).2 (ix2 (0 : Fin 1) v')
      = if actAt a (n + 1) h
        then (scrAfter (F := Ideal) V a c n (Nat.lt_of_succ_lt h)).2 (ix2 (0 : Fin 1) v') + chunkC V a c v' (n + 1) h
        else (scrAfter (F := Ideal) V a c n (Nat.lt_of_succ_lt h)).2 (ix2 (0 : Fin 1) v') := by
  by_cases ha : actAt a (n + 1) h
  · rw [if_pos ha]
    have e := step1_nA (F := Ideal) _ _ _ (iblk1 V a c 0 ⟨n + 1, h⟩) (iblk1 V a c 1 ⟨n + 1, h⟩)
      (scrAfter (F := Ideal) V a c n (Nat.lt_of_succ_lt h)).1
      (scrAfter (F := Ideal) V a c n (Nat.lt_of_succ_lt h)).2 hf ha
    exact (congrArg (fun p => p.2 (ix2 (0 : Fin 1) v')) e).trans
      (pay5_masked _ (idxbAt V a c (n + 1) h) _ v')
  · rw [if_neg ha]
    have e := step1_nn (F := Ideal) _ _ _ (iblk1 V a c 0 ⟨n + 1, h⟩) (iblk1 V a c 1 ⟨n + 1, h⟩)
      (scrAfter (F := Ideal) V a c n (Nat.lt_of_succ_lt h)).1
      (scrAfter (F := Ideal) V a c n (Nat.lt_of_succ_lt h)).2 hf ha
    exact congrArg (fun p => p.2 (ix2 (0 : Fin 1) v')) e

end Entry

/-! ## A state updated tile by tile, indexed by the tiles -/

section TrajFin
variable {M : Type*} [AddCommMonoid M] {K : Type*} [DecidableEq K]

/-- `traj_closed` with the tiles' tests, contributions and states indexed by the tiles themselves. -/
theorem traj_closed_fin (T L : ℕ) (v : K) (keyQ : Fin ((T + 1) * L) → K) (xQ : Fin ((T + 1) * L) → M)
    (act : Fin (T + 1) → Prop) [DecidablePred act] (ch s : Fin (T + 1) → M)
    (hch : ∀ t : Fin (T + 1),
      ch t = ∑ l : Fin L, if v = keyQ (tileIdx t l) then xQ (tileIdx t l) else 0)
    (hskip : ∀ t : Fin (T + 1), ¬ act t → ∀ l : Fin L, v ≠ keyQ (tileIdx t l))
    (hs0 : s ⟨0, Nat.succ_pos T⟩
      = if act ⟨0, Nat.succ_pos T⟩ then 0 + ch ⟨0, Nat.succ_pos T⟩ else 0)
    (hss : ∀ (k : ℕ) (h : k + 1 < T + 1),
      s ⟨k + 1, h⟩ = if act ⟨k + 1, h⟩ then s ⟨k, Nat.lt_of_succ_lt h⟩ + ch ⟨k + 1, h⟩
        else s ⟨k, Nat.lt_of_succ_lt h⟩) :
    s ⟨T, Nat.lt_succ_self T⟩ = ∑ j : Fin ((T + 1) * L), if keyQ j = v then xQ j else 0 := by
  classical
  have hact : ∀ (k : ℕ) (h : k < T + 1), (∃ h' : k < T + 1, act ⟨k, h'⟩) ↔ act ⟨k, h⟩ :=
    fun k h => ⟨fun ⟨_, ha⟩ => ha, fun ha => ⟨h, ha⟩⟩
  have h := traj_closed T L v keyQ xQ (fun k => ∃ h' : k < T + 1, act ⟨k, h'⟩)
    (fun k => if h' : k < T + 1 then ch ⟨k, h'⟩ else 0) (fun k => if h' : k < T + 1 then s ⟨k, h'⟩ else 0)
    (fun t => by
      show (if h' : t.val < T + 1 then ch ⟨t.val, h'⟩ else 0) = _
      rw [dif_pos t.isLt]
      exact hch t)
    (fun t hna => hskip t fun ha => hna ((hact t.val t.isLt).2 ha))
    (by
      show (if h' : 0 < T + 1 then s ⟨0, h'⟩ else 0)
        = if (∃ h' : 0 < T + 1, act ⟨0, h'⟩) then 0 + (if h' : 0 < T + 1 then ch ⟨0, h'⟩ else 0) else 0
      rw [dif_pos (Nat.succ_pos T), dif_pos (Nat.succ_pos T), hs0]
      by_cases ha : act ⟨0, Nat.succ_pos T⟩
      · rw [if_pos ha, if_pos ((hact 0 _).2 ha)]
      · rw [if_neg ha, if_neg fun h' => ha ((hact 0 _).1 h')])
    (fun k hk => by
      show (if h' : k + 1 < T + 1 then s ⟨k + 1, h'⟩ else 0)
        = if (∃ h' : k + 1 < T + 1, act ⟨k + 1, h'⟩)
          then (if h' : k < T + 1 then s ⟨k, h'⟩ else 0) + (if h' : k + 1 < T + 1 then ch ⟨k + 1, h'⟩ else 0)
          else (if h' : k < T + 1 then s ⟨k, h'⟩ else 0)
      rw [dif_pos hk, dif_pos (Nat.lt_of_succ_lt hk), dif_pos hk, hss k hk]
      by_cases ha : act ⟨k + 1, hk⟩
      · rw [if_pos ha, if_pos ((hact _ hk).2 ha)]
      · rw [if_neg ha, if_neg fun h' => ha ((hact _ hk).1 h')])
  have hT : (if h' : T < T + 1 then s ⟨T, h'⟩ else 0) = s ⟨T, Nat.lt_succ_self T⟩ :=
    dif_pos (Nat.lt_succ_self T)
  rw [← hT]
  exact h

end TrajFin

/-! ## A row of input tiles -/

section Row
variable (b ct : Fin 8)

/-- Point `(b, ct, k)` in running order. -/
def pt (k : Fin 98) : Fin (cfg1 a).N :=
  ⟨(b.val * 8 + ct.val) * 98 + k.val, by
    have := b.isLt; have := ct.isLt; have := k.isLt
    rw [N1 a]; omega⟩

theorem pt_c0 (k : Fin 98) : (grid1.coords (pt a b ct k) 0).val = b.val := by
  have := b.isLt; have := ct.isLt; have := k.isLt
  rw [coords1_0]
  show ((b.val * 8 + ct.val) * 98 + k.val) / 784 % 8 = b.val
  omega
theorem pt_c1 (k : Fin 98) : (grid1.coords (pt a b ct k) 1).val = ct.val := by
  have := b.isLt; have := ct.isLt; have := k.isLt
  rw [coords1_1]
  show ((b.val * 8 + ct.val) * 98 + k.val) / 98 % 8 = ct.val
  omega
theorem pt_c2 (k : Fin 98) : (grid1.coords (pt a b ct k) 2).val = k.val := by
  have := b.isLt; have := ct.isLt; have := k.isLt
  rw [coords1_2]
  show ((b.val * 8 + ct.val) * 98 + k.val) % 98 = k.val
  omega

/-- The class word of entry `v'` at every point of the row is `ct · 4096 + v'`. -/
theorem cls_pt (k : Fin 98) (v' : Fin 4096) :
    cls (grid1.coords (pt a b ct k)) v' = BitVec.ofNat 32 (ct.val * 4096 + v'.val) := by
  rw [cls_eq, pt_c1]

/-- The hypothesis on the tables, at the row's points: the two table words of point `(b, ct, k)` bound the
    keys of input tile `k` of batch `b`. -/
abbrev RowBound : Prop :=
  ∀ (k : Fin 98) (l : Fin 1024),
    (tw0 a (grid1.coords (pt a b ct k))).toInt ≤ (keyP V c b (tileIdx k l)).toInt
    ∧ (keyP V c b (tileIdx k l)).toInt ≤ (tw1 a (grid1.coords (pt a b ct k))).toInt

variable (ch : Fin 64) (v' : Fin 4096)

/-- THE SUMS after the row's last point: entry `(ch, v')` is the sum of feature `ch` over the padded points
    of batch `b` whose key is `ct · 4096 + v'`. -/
theorem row_S (hbound : RowBound V a c b ct) :
    (scrAfter (F := Ideal) V a c (pt a b ct ⟨97, by omega⟩).val (pt a b ct ⟨97, by omega⟩).isLt).1 (ix2 ch v')
      = ∑ j : Fin 100352,
          if keyP V c b j = BitVec.ofNat 32 (ct.val * 4096 + v'.val) then featP V c b ch j else 0 := by
  refine traj_closed_fin 97 1024 (BitVec.ofNat 32 (ct.val * 4096 + v'.val)) (keyP V c b) (featP V c b ch)
    (fun k => actAt a (pt a b ct k).val (pt a b ct k).isLt)
    (fun k => chunkS V a c ch v' (pt a b ct k).val (pt a b ct k).isLt)
    (fun k => (scrAfter (F := Ideal) V a c (pt a b ct k).val (pt a b ct k).isLt).1 (ix2 ch v'))
    ?_ ?_ ?_ ?_
  · intro t
    show (∑ l : Fin 1024,
      if cls (grid1.coords (pt a b ct t)) v'
          = idxbAt V a c (pt a b ct t).val (pt a b ct t).isLt (ix3 (0 : Fin 1) (0 : Fin 1) l)
      then featbAt V a c (pt a b ct t).val (pt a b ct t).isLt (ix3 (0 : Fin 1) ch l) else 0) = _
    refine Finset.sum_congr rfl fun l _ => ?_
    have e1 : idxbAt V a c (pt a b ct t).val (pt a b ct t).isLt (ix3 (0 : Fin 1) (0 : Fin 1) l)
        = keyP V c b (tileIdx t l) :=
      idxb_at V a c (pt a b ct t) l b t (pt_c0 a b ct t) (pt_c2 a b ct t)
    have e2 : featbAt V a c (pt a b ct t).val (pt a b ct t).isLt (ix3 (0 : Fin 1) ch l)
        = featP V c b ch (tileIdx t l) :=
      featb_at V a c (pt a b ct t) ch l b t (pt_c0 a b ct t) (pt_c2 a b ct t)
    rw [cls_pt, e1, e2]
  · intro t hna l
    have h := cls_ne_key_of_not_act (grid1.coords (pt a b ct t)) _ _ (keyP V c b (tileIdx t l)) v'
      (hbound t l).1 (hbound t l).2 hna
    rw [pt_c1] at h
    exact h
  · exact scrS_first V a c ch v' _ _ ((first1_iff _).mpr (pt_c2 a b ct ⟨0, by omega⟩))
  · intro k hk
    have hnf : ¬ first1 (grid1.coords (pt a b ct ⟨k + 1, hk⟩)) := fun hf => by
      have h0 := (first1_iff _).mp hf
      rw [pt_c2] at h0
      exact Nat.succ_ne_zero k h0
    exact scrS_succ V a c ch v' (pt a b ct ⟨k, Nat.lt_of_succ_lt hk⟩).val (pt a b ct ⟨k + 1, hk⟩).isLt hnf

/-- THE COUNTS after the row's last point: entry `v'` is the number of padded points of batch `b` whose
    key is `ct · 4096 + v'`. -/
theorem row_C (hbound : RowBound V a c b ct) :
    (scrAfter (F := Ideal) V a c (pt a b ct ⟨97, by omega⟩).val (pt a b ct ⟨97, by omega⟩).isLt).2
        (ix2 (0 : Fin 1) v')
      = ∑ j : Fin 100352,
          if keyP V c b j = BitVec.ofNat 32 (ct.val * 4096 + v'.val) then (1 : EReal) else 0 := by
  refine traj_closed_fin 97 1024 (BitVec.ofNat 32 (ct.val * 4096 + v'.val)) (keyP V c b) (fun _ => (1 : EReal))
    (fun k => actAt a (pt a b ct k).val (pt a b ct k).isLt)
    (fun k => chunkC V a c v' (pt a b ct k).val (pt a b ct k).isLt)
    (fun k => (scrAfter (F := Ideal) V a c (pt a b ct k).val (pt a b ct k).isLt).2 (ix2 (0 : Fin 1) v'))
    ?_ ?_ ?_ ?_
  · intro t
    show (∑ l : Fin 1024,
      if cls (grid1.coords (pt a b ct t)) v'
          = idxbAt V a c (pt a b ct t).val (pt a b ct t).isLt (ix3 (0 : Fin 1) (0 : Fin 1) l)
      then (1 : EReal) else 0) = _
    refine Finset.sum_congr rfl fun l _ => ?_
    have e1 : idxbAt V a c (pt a b ct t).val (pt a b ct t).isLt (ix3 (0 : Fin 1) (0 : Fin 1) l)
        = keyP V c b (tileIdx t l) :=
      idxb_at V a c (pt a b ct t) l b t (pt_c0 a b ct t) (pt_c2 a b ct t)
    rw [cls_pt, e1]
  · intro t hna l
    have h := cls_ne_key_of_not_act (grid1.coords (pt a b ct t)) _ _ (keyP V c b (tileIdx t l)) v'
      (hbound t l).1 (hbound t l).2 hna
    rw [pt_c1] at h
    exact h
  · exact scrC_first V a c v' _ _ ((first1_iff _).mpr (pt_c2 a b ct ⟨0, by omega⟩))
  · intro k hk
    have hnf : ¬ first1 (grid1.coords (pt a b ct ⟨k + 1, hk⟩)) := fun hf => by
      have h0 := (first1_iff _).mp hf
      rw [pt_c2] at h0
      exact Nat.succ_ne_zero k h0
    exact scrC_succ V a c v' (pt a b ct ⟨k, Nat.lt_of_succ_lt hk⟩).val (pt a b ct ⟨k + 1, hk⟩).isLt hnf

/-- WHAT THE ROW'S LAST POINT STORES at entry `(ch, v')` of the output block: the quotient of those sums by
    the larger of those counts and one. -/
theorem row_out (hbound : RowBound V a c b ct) :
    k1_pay6 (F := Ideal)
        (scrAfter (F := Ideal) V a c (pt a b ct ⟨97, by omega⟩).val (pt a b ct ⟨97, by omega⟩).isLt).1
        (scrAfter (F := Ideal) V a c (pt a b ct ⟨97, by omega⟩).val (pt a b ct ⟨97, by omega⟩).isLt).2
        (ix3 (0 : Fin 1) ch v')
      = Ideal.div
          (∑ j : Fin 100352,
            if keyP V c b j = BitVec.ofNat 32 (ct.val * 4096 + v'.val) then featP V c b ch j else 0)
          (max (∑ j : Fin 100352,
            if keyP V c b j = BitVec.ofNat 32 (ct.val * 4096 + v'.val) then (1 : EReal) else 0) 1) := by
  rw [pay6_apply, row_S V a c b ct ch v' hbound, row_C V a c b ct v' hbound]

end Row

end Cert.KernelIdeal.Val1

end
-- ==== Proof.KVal1c.lean ====
/-
  The second kernel region: the closed form of what it leaves in its output array.

  The output block of point `(b, ct, nt)` is block `(b, 0, ct)` of the output array, `1 × 64 × 4096`
  entries; it is written back exactly after the points with `nt = 97`, one per `(b, ct)`, and those 64 blocks
  are pairwise disjoint.  So entry `(b, ch, ct · 4096 + v')` of the array after the run is entry `(0, ch, v')`
  of what point `(b, ct, 97)` stored: the sum of feature `ch` over the padded points of batch `b` whose key
  is `ct · 4096 + v'`, divided by the larger of their number and one — provided each input tile's two table
  words bound the tile's keys.
-/
import proofs.«136896_j63960652972185_2_alg».proof.Proof.KStep1
import proofs.«136896_j63960652972185_2_alg».proof.Proof.KPay1
import proofs.«136896_j63960652972185_2_alg».proof.Proof.KVal1a
import proofs.«136896_j63960652972185_2_alg».proof.Proof.KVal1b
import proofs.«136896_j63960652972185_2_alg».proof.Proof.KBody1d

set_option maxRecDepth 16384

noncomputable section

namespace Cert.KernelIdeal.Val1

open scoped BigOperators
open Cert.KernelIdeal Cert.KernelIdeal.Gen Cert.KernelIdeal.Hand Cert.KernelIdeal.Pay1
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))
  (a : (pcfg1 (F := Ideal)).Adm) (c : Dev nD)

/-! ## The table words -/

/-- The least and the greatest key of input tile `k` of batch `b`, as the tables give them. -/
abbrev cmin (b : Fin 8) (k : Fin 98) : BitVec 32 := a.1 0 (ix2 b k)
abbrev cmax (b : Fin 8) (k : Fin 98) : BitVec 32 := a.1 1 (ix2 b k)

/-- The one-word rectangle of a point with batch `b` and input tile `k` is at `(b, k)`. -/
theorem rw1_emb (i : grid1.Coords) (b : Fin 8) (k : Fin 98) (hb : (i 0).val = b.val) (hk : (i 2).val = k.val)
    (y : S1x1.Idx) : (rw1 i).emb y = ix2 b k := by
  have h0 : (i 0).val < 8 := (i 0).isLt
  have h2 : (i 2).val < 98 := (i 2).isLt
  have hy0 : (y 0).val < 1 := (y 0).isLt
  have hy1 : (y 1).val < 1 := (y 1).isLt
  funext ax
  apply Fin.ext
  match ax with
  | ⟨0, _⟩ =>
    show (BitVec.ofNat 32 (i 0).val).toNat + 1 * (y 0).val = b.val
    rw [BitVec.toNat_ofNat]; omega
  | ⟨1, _⟩ =>
    show (BitVec.ofNat 32 (i 2).val).toNat + 1 * (y 1).val = k.val
    rw [BitVec.toNat_ofNat]; omega

/-- The two table words the body loads at such a point are the tables' entries at `(b, k)`. -/
theorem tw0_at (i : grid1.Coords) (b : Fin 8) (k : Fin 98) (hb : (i 0).val = b.val) (hk : (i 2).val = k.val) :
    tw0 (F := Ideal) a i = cmin a b k :=
  ((word0_eq (F := Ideal) a i).symm.trans (wordOf_eq i _ _ _)).trans (congrArg (a.1 0) (rw1_emb i b k hb hk _))
theorem tw1_at (i : grid1.Coords) (b : Fin 8) (k : Fin 98) (hb : (i 0).val = b.val) (hk : (i 2).val = k.val) :
    tw1 (F := Ideal) a i = cmax a b k :=
  ((word1_eq (F := Ideal) a i).symm.trans (wordOf_eq i _ _ _)).trans (congrArg (a.1 1) (rw1_emb i b k hb hk _))

/-! ## The output window's write-backs -/

/-- After a point with `nt = 97` the output block is written back: the point is the last of the grid or the
    next point has another `(b, ct)`. -/
theorem flush1_2_of_last (t : Fin (cfg1 a).N) (hl : last1 (grid1.coords t)) : ((cfg1 a).win 2).flush t = true := by
  have hN : t.val < 6272 := lt_of_lt_of_eq t.isLt (N1 a)
  have h97 : t.val % 98 = 97 := (coords1_2 t).symm.trans ((last1_iff _).mp hl)
  rw [Pipeline.Window.flush_eq_flushOf]
  unfold Pipeline.Window.flushOf
  show (true && (decide (t.val + 1 = grid1.N)
    || decide (∃ h : t.val + 1 < grid1.N,
        cc1_transform_2 (grid1.coords ⟨t.val + 1, h⟩) ≠ cc1_transform_2 (grid1.coords t)))) = true
  rw [Bool.true_and, Bool.or_eq_true, decide_eq_true_eq, decide_eq_true_eq]
  by_cases hlast : t.val + 1 = grid1.N
  · exact Or.inl hlast
  · have hnext : t.val + 1 < grid1.N := by
      rw [N_1] at hlast ⊢; omega
    refine Or.inr ⟨hnext, fun heq => ?_⟩
    have h0 := congrFun heq 0
    have h2 := congrFun heq 2
    rw [xf2_0, xf2_0, coords1_0, coords1_0] at h0
    rw [xf2_2, xf2_2, coords1_1, coords1_1] at h2
    have h0' : (t.val + 1) / 784 % 8 = t.val / 784 % 8 := h0
    have h2' : (t.val + 1) / 98 % 8 = t.val / 98 % 8 := h2
    omega

/-- So the points that write the output block back are exactly those with `nt = 97`. -/
theorem last_of_flush1_2 (t : Fin (cfg1 a).N) (hf : ((cfg1 a).win 2).flush t = true) : last1 (grid1.coords t) := by
  by_contra hl
  rw [noFlush1_2 a t hl] at hf
  exact Bool.false_ne_true hf

/-- Entry `y` of the output block of point `t`, as an index of the output array. -/
abbrev emb2 (t : Fin (cfg1 a).N) (y : S1x64x4096.Idx) : (⟨3, ![8, 64, 32768]⟩ : Shape).Idx :=
  (((cfg1 a).win 2).blk t).view.emb y

/-- Its coordinates: `(b + y₀, y₁, ct · 4096 + y₂)`. -/
theorem emb2_val (t : Fin (cfg1 a).N) (y : S1x64x4096.Idx) :
    (emb2 a t y (0 : Fin 3)).val = (grid1.coords t 0).val + (y 0).val
    ∧ (emb2 a t y (1 : Fin 3)).val = (y 1).val
    ∧ (emb2 a t y (2 : Fin 3)).val = (grid1.coords t 1).val * 4096 + (y 2).val := by
  refine ⟨?_, ?_, ?_⟩
  · show cc1_transform_2 (grid1.coords t) (0 : Fin 3) * 1 + 1 * (y 0).val = _
    rw [xf2_0]; omega
  · show cc1_transform_2 (grid1.coords t) (1 : Fin 3) * 64 + 1 * (y 1).val = _
    rw [xf2_1]; omega
  · show cc1_transform_2 (grid1.coords t) (2 : Fin 3) * 4096 + 1 * (y 2).val = _
    rw [xf2_2]; omega

/-- Two points with `nt = 97` whose output blocks share an entry of the array are the same point: the entry
    gives `b` and `ct`. -/
theorem point_of_emb2 (t t' : Fin (cfg1 a).N) (hl : last1 (grid1.coords t)) (hl' : last1 (grid1.coords t'))
    (y y' : S1x64x4096.Idx) (hyy : emb2 a t y = emb2 a t' y') : t = t' := by
  obtain ⟨e0, -, e2⟩ := emb2_val a t y
  obtain ⟨e0', -, e2'⟩ := emb2_val a t' y'
  have g0 : (emb2 a t y (0 : Fin 3)).val = (emb2 a t' y' (0 : Fin 3)).val :=
    congrArg (fun j : (⟨3, ![8, 64, 32768]⟩ : Shape).Idx => (j (0 : Fin 3)).val) hyy
  have g2 : (emb2 a t y (2 : Fin 3)).val = (emb2 a t' y' (2 : Fin 3)).val :=
    congrArg (fun j : (⟨3, ![8, 64, 32768]⟩ : Shape).Idx => (j (2 : Fin 3)).val) hyy
  rw [e0, e0'] at g0
  rw [e2, e2'] at g2
  have hy0 : (y 0).val < 1 := (y 0).isLt
  have hy0' : (y' 0).val < 1 := (y' 0).isLt
  have hy2 : (y 2).val < 4096 := (y 2).isLt
  have hy2' : (y' 2).val < 4096 := (y' 2).isLt
  rw [coords1_0, coords1_0] at g0
  rw [coords1_1, coords1_1] at g2
  have h97 : t.val % 98 = 97 := (coords1_2 t).symm.trans ((last1_iff _).mp hl)
  have h97' : t'.val % 98 = 97 := (coords1_2 t').symm.trans ((last1_iff _).mp hl')
  have hN : t.val < 6272 := lt_of_lt_of_eq t.isLt (N1 a)
  have hN' : t'.val < 6272 := lt_of_lt_of_eq t'.isLt (N1 a)
  exact Fin.ext (by omega)

/-- Two different points with `nt = 97` have disjoint output blocks. -/
theorem blk2_disjoint (t t' : Fin (cfg1 a).N) (hl : last1 (grid1.coords t)) (hl' : last1 (grid1.coords t'))
    (hne : t ≠ t') :
    Disjoint (((cfg1 a).win 2).blk t).view.set (((cfg1 a).win 2).blk t').view.set := by
  rw [Finset.disjoint_left]
  intro i hi hi'
  obtain ⟨y, -, hy⟩ := Finset.mem_map.mp hi
  obtain ⟨y', -, hy'⟩ := Finset.mem_map.mp hi'
  exact hne (point_of_emb2 a t t' hl hl' y y' (hy.trans hy'.symm))

/-! ## The closed form -/

/-- The tables bound the keys: the two table words of input tile `k` of batch `b` are a lower and an upper
    bound of the tile's keys, read signed. -/
abbrev TblBound : Prop :=
  ∀ (b : Fin 8) (k : Fin 98) (l : Fin 1024),
    (cmin a b k).toInt ≤ (keyP V c b (tileIdx k l)).toInt
    ∧ (keyP V c b (tileIdx k l)).toInt ≤ (cmax a b k).toInt

/-- Then they bound them at every point of every row. -/
theorem rowBound_of_tbl (htbl : TblBound V a c) (b ct : Fin 8) : RowBound V a c b ct := by
  intro k l
  have h0 := tw0_at a (grid1.coords (pt a b ct k)) b k (pt_c0 a b ct k) (pt_c2 a b ct k)
  have h1 := tw1_at a (grid1.coords (pt a b ct k)) b k (pt_c0 a b ct k) (pt_c2 a b ct k)
  rw [h0, h1]
  exact htbl b k l

/-- The array after the run, at an entry of the output block of a point with `nt = 97`, holds what that point
    stored there: the quotient of the accumulators after that point. -/
theorem arr_at_last (t : Fin (cfg1 a).N) (hl : last1 (grid1.coords t)) (y : S1x64x4096.Idx) :
    (dat1 (F := Ideal) V a c).arrAt 2 (cfg1 a).N (emb2 a t y)
      = k1_pay6 (F := Ideal) (scrAfter (F := Ideal) V a c t.val t.isLt).1
          (scrAfter (F := Ideal) V a c t.val t.isLt).2 y :=
  Pipeline.Dat.arrAt_emb_eq_flushed (dat1 (F := Ideal) V a c) 2
    (fun t t' h h' hne => blk2_disjoint a t t' (last_of_flush1_2 a t h) (last_of_flush1_2 a t' h') hne)
    t (flush1_2_of_last a t hl) y

/-- THE OUTPUT ARRAY AFTER THE RUN, entry by entry: at `(b, ch, v)` the sum of feature `ch` over the padded
    points of batch `b` whose key is `v`, divided by the larger of their number and one. -/
theorem grid_arr (htbl : TblBound V a c) (b : Fin 8) (ch : Fin 64) (v : Fin 32768) :
    (dat1 (F := Ideal) V a c).arrAt 2 (cfg1 a).N (ix3 b ch v)
      = Ideal.div
          (∑ j : Fin 100352, if keyP V c b j = BitVec.ofNat 32 v.val then featP V c b ch j else 0)
          (max (∑ j : Fin 100352, if keyP V c b j = BitVec.ofNat 32 v.val then (1 : EReal) else 0) 1) := by
  have hv := v.isLt
  obtain ⟨ct, hct⟩ : ∃ ct : Fin 8, ct.val = v.val / 4096 := ⟨⟨v.val / 4096, by omega⟩, rfl⟩
  obtain ⟨v', hv'⟩ : ∃ v' : Fin 4096, v'.val = v.val % 4096 := ⟨⟨v.val % 4096, by omega⟩, rfl⟩
  have hsum : ct.val * 4096 + v'.val = v.val := by omega
  have hl : last1 (grid1.coords (pt a b ct ⟨97, by omega⟩)) :=
    (last1_iff _).mpr (pt_c2 a b ct ⟨97, by omega⟩)
  have hemb : emb2 a (pt a b ct ⟨97, by omega⟩) (ix3 (0 : Fin 1) ch v') = ix3 b ch v := by
    obtain ⟨e0, e1, e2⟩ := emb2_val a (pt a b ct ⟨97, by omega⟩) (ix3 (0 : Fin 1) ch v')
    funext ax
    apply Fin.ext
    match ax with
    | ⟨0, _⟩ =>
      refine e0.trans ?_
      rw [pt_c0]
      show b.val + 0 = b.val
      omega
    | ⟨1, _⟩ => exact e1
    | ⟨2, _⟩ =>
      refine e2.trans ?_
      rw [pt_c1]
      show ct.val * 4096 + v'.val = v.val
      exact hsum
  have hrow := row_out V a c b ct ch v' (rowBound_of_tbl V a c htbl b ct)
  rw [hsum] at hrow
  rw [← hemb]
  exact (arr_at_last V a c (pt a b ct ⟨97, by omega⟩) hl (ix3 (0 : Fin 1) ch v')).trans hrow

end Cert.KernelIdeal.Val1

end
-- ==== Proof.KHostDefs.lean ====
/-
  The contents of the TensorCore's unscoped buffers after each of the eight stretches of host operations that run
  between the two kernel regions, as functions of an arbitrary valuation `U` of the buffers before the first stretch;
  and the two arrays of `U` every later statement is written over, read with coordinates: the flat voxel index of each
  point (`flat`) and the point features (`feat`).
-/
import proofs.«136896_j63960652972185_2_alg».proof.Proof.Gen.KernelIdeal.Regions
import Idealize.ShloMosaic.Lib.ValueIdx

noncomputable section

namespace Cert.KernelIdeal.Host

open Cert.KernelIdeal Cert.KernelIdeal.Gen
open Idealize.ShloMosaic Idealize.ShloMosaic.TcCoe Idealize.ShloMosaic.ValueIdx

variable (U : Valuation τ sig (Elt Ideal))

/-- After the reshape of the flat indices to `[8, 100000]`. -/
abbrev H2 : Valuation τ sig (Elt Ideal) := StableHlo.after hostOps1 U
/-- After the argsort of each row. -/
abbrev H3 : Valuation τ sig (Elt Ideal) := StableHlo.after hostOps1_1 (H2 U)
/-- After the sorted keys are gathered. -/
abbrev H4 : Valuation τ sig (Elt Ideal) := StableHlo.after hostOps1_2 (H3 U)
/-- After the order is padded with zeros. -/
abbrev H5 : Valuation τ sig (Elt Ideal) := StableHlo.after hostOps1_3 (H4 U)
/-- After the sorted keys are padded with the sentinel. -/
abbrev H6 : Valuation τ sig (Elt Ideal) := StableHlo.after hostOps1_4 (H5 U)
/-- After the padded order is repeated over the channels. -/
abbrev H7 : Valuation τ sig (Elt Ideal) := StableHlo.after hostOps1_5 (H6 U)
/-- After the features are gathered in sorted order. -/
abbrev H8 : Valuation τ sig (Elt Ideal) := StableHlo.after hostOps1_6 (H7 U)
/-- After the per-tile minimum and maximum keys are computed. -/
abbrev H9 : Valuation τ sig (Elt Ideal) := StableHlo.after hostOps1_7 (H8 U)

/-- The flat voxel index of point `n` of batch `b`, as the first region left it. -/
def flat (b : Fin 8) (n : Fin 100000) : BitVec 32 := U main_v0_1 (ix3 b (0 : Fin 1) n)
/-- Channel `ch` of the features of point `n` of batch `b`. -/
def feat (b : Fin 8) (ch : Fin 64) (n : Fin 100000) : EReal := U main_arg0 (ix3 b ch n)

end Cert.KernelIdeal.Host

end
-- ==== Proof.LibArgsort.lean ====
/-
  An argsort along the last axis of a rank-2 array, read with coordinates, for any extents and any comparator.

  The argsort along the last axis of an `[R, N]` array sorts, row by row, the pairs (key, position) — the keys `x` beside an
  iota along axis 1 — by a comparator on pairs, stably, and returns the second components.  In row `b` the sort reads
  both operands through ONE self-map `perm cmp x b` of the positions `0 … N − 1`: result position `j` holds the pair that
  stood at position `perm cmp x b j`.
  * `perm_bijective`: that map is a permutation of the positions (a stable sort rearranges, it neither drops nor repeats).
  * `sort2_iota_snd`: the sorted iota at `(b, j)` is the word of the number `perm cmp x b j`.
  * `sort2_iota_fst`: the sorted keys at `(b, j)` are the key at `(b, perm cmp x b j)`.
  * `sort2_snd_apply`: the same for any second operand `y` in place of the iota.
-/
import Idealize.ShloMosaic.Lib.SortFacts
import Idealize.ShloMosaic.Lib.ValueIdx

namespace Cert.LibArgsort

open Idealize.ShloMosaic Idealize.ShloMosaic.ValueIdx

variable {α β : Type} {R N : ℕ}

/-- Along axis 1 of a rank-2 index only the second coordinate moves. -/
theorem along_one (h : 1 < 2) (b : Fin R) (j k : Fin N) :
    Shape.Idx.along (s := ⟨2, ![R, N]⟩) (ix2 b j) ⟨1, h⟩ k = ix2 b k := by
  funext a
  match a with
  | ⟨0, _⟩ => rfl
  | ⟨1, _⟩ => rfl

/-- The positions' self-map of row `b` under a stable sort of the pairs `(x, y)` along axis 1 by `cmp`: result position
    `j` holds the pair that stood at position `permOf cmp x y b j`. -/
def permOf (cmp : α × β → α × β → BitVec 1) (x : (⟨2, ![R, N]⟩ : Shape).Idx → α) (y : (⟨2, ![R, N]⟩ : Shape).Idx → β)
    (b : Fin R) : Fin N → Fin N :=
  sortedFrom fun k k' => cmp (x (ix2 b k), y (ix2 b k)) (x (ix2 b k'), y (ix2 b k')) == 1#1

/-- It is a permutation of the positions. -/
theorem permOf_bijective (cmp : α × β → α × β → BitVec 1) (x : (⟨2, ![R, N]⟩ : Shape).Idx → α)
    (y : (⟨2, ![R, N]⟩ : Shape).Idx → β) (b : Fin R) : Function.Bijective (permOf cmp x y b) :=
  ⟨sortedFrom_injective _, sortedFrom_surjective _⟩

/-- The first sorted operand at `(b, j)` is the first operand at `(b, permOf … b j)`. -/
theorem sort2_fst_apply (cmp : α × β → α × β → BitVec 1) (x : (⟨2, ![R, N]⟩ : Shape).Idx → α)
    (y : (⟨2, ![R, N]⟩ : Shape).Idx → β) (b : Fin R) (j : Fin N) :
    (Host.sort2 ⟨2, ![R, N]⟩ 1 cmp x y).1 (ix2 b j) = x (ix2 b (permOf cmp x y b j)) := by
  unfold Host.sort2
  rw [dif_pos (Nat.one_lt_two : 1 < (⟨2, ![R, N]⟩ : Shape).rank)]
  have e : ∀ k : Fin N, Shape.Idx.along (s := ⟨2, ![R, N]⟩) (ix2 b j) ⟨1, Nat.one_lt_two⟩ k = ix2 b k := along_one _ b j
  show x (Shape.Idx.along (s := ⟨2, ![R, N]⟩) (ix2 b j) ⟨1, Nat.one_lt_two⟩
    (sortedFrom (n := N) (fun k k' => cmp (x (Shape.Idx.along (s := ⟨2, ![R, N]⟩) (ix2 b j) ⟨1, Nat.one_lt_two⟩ k), y (Shape.Idx.along (s := ⟨2, ![R, N]⟩) (ix2 b j) ⟨1, Nat.one_lt_two⟩ k))
      (x (Shape.Idx.along (s := ⟨2, ![R, N]⟩) (ix2 b j) ⟨1, Nat.one_lt_two⟩ k'), y (Shape.Idx.along (s := ⟨2, ![R, N]⟩) (ix2 b j) ⟨1, Nat.one_lt_two⟩ k')) == 1#1) j)) = _
  simp only [e]
  rfl

/-- The second sorted operand at `(b, j)` is the second operand at `(b, permOf … b j)`. -/
theorem sort2_snd_apply (cmp : α × β → α × β → BitVec 1) (x : (⟨2, ![R, N]⟩ : Shape).Idx → α)
    (y : (⟨2, ![R, N]⟩ : Shape).Idx → β) (b : Fin R) (j : Fin N) :
    (Host.sort2 ⟨2, ![R, N]⟩ 1 cmp x y).2 (ix2 b j) = y (ix2 b (permOf cmp x y b j)) := by
  unfold Host.sort2
  rw [dif_pos (Nat.one_lt_two : 1 < (⟨2, ![R, N]⟩ : Shape).rank)]
  have e : ∀ k : Fin N, Shape.Idx.along (s := ⟨2, ![R, N]⟩) (ix2 b j) ⟨1, Nat.one_lt_two⟩ k = ix2 b k := along_one _ b j
  show y (Shape.Idx.along (s := ⟨2, ![R, N]⟩) (ix2 b j) ⟨1, Nat.one_lt_two⟩
    (sortedFrom (n := N) (fun k k' => cmp (x (Shape.Idx.along (s := ⟨2, ![R, N]⟩) (ix2 b j) ⟨1, Nat.one_lt_two⟩ k), y (Shape.Idx.along (s := ⟨2, ![R, N]⟩) (ix2 b j) ⟨1, Nat.one_lt_two⟩ k))
      (x (Shape.Idx.along (s := ⟨2, ![R, N]⟩) (ix2 b j) ⟨1, Nat.one_lt_two⟩ k'), y (Shape.Idx.along (s := ⟨2, ![R, N]⟩) (ix2 b j) ⟨1, Nat.one_lt_two⟩ k')) == 1#1) j)) = _
  simp only [e]
  rfl

variable {w : ℕ}

/-- The argsort's self-map of row `b`: the keys `x` sorted beside the iota along axis 1. -/
def perm (cmp : α × BitVec w → α × BitVec w → BitVec 1) (x : (⟨2, ![R, N]⟩ : Shape).Idx → α) (b : Fin R) : Fin N → Fin N :=
  permOf cmp x (iotaInDim ⟨2, ![R, N]⟩ w 1) b

/-- It is a permutation of the positions. -/
theorem perm_bijective (cmp : α × BitVec w → α × BitVec w → BitVec 1) (x : (⟨2, ![R, N]⟩ : Shape).Idx → α) (b : Fin R) :
    Function.Bijective (perm cmp x b) :=
  permOf_bijective cmp x _ b

/-- The sorted iota at `(b, j)` is the word of the number `perm cmp x b j`: the argsort's value. -/
theorem sort2_iota_snd (cmp : α × BitVec w → α × BitVec w → BitVec 1) (x : (⟨2, ![R, N]⟩ : Shape).Idx → α) (b : Fin R)
    (j : Fin N) :
    (Host.sort2 ⟨2, ![R, N]⟩ 1 cmp x (iotaInDim ⟨2, ![R, N]⟩ w 1)).2 (ix2 b j) = BitVec.ofNat w (perm cmp x b j).val :=
  sort2_snd_apply cmp x _ b j

/-- The sorted keys at `(b, j)` are the key at `(b, perm cmp x b j)`. -/
theorem sort2_iota_fst (cmp : α × BitVec w → α × BitVec w → BitVec 1) (x : (⟨2, ![R, N]⟩ : Shape).Idx → α) (b : Fin R)
    (j : Fin N) :
    (Host.sort2 ⟨2, ![R, N]⟩ 1 cmp x (iotaInDim ⟨2, ![R, N]⟩ w 1)).1 (ix2 b j) = x (ix2 b (perm cmp x b j)) :=
  sort2_fst_apply cmp x _ b j

end Cert.LibArgsort
-- ==== Proof.LibTakeAlong.lean ====
/-
  A take along the last axis (`y[b, j] = x[b, i[b, j]]`) read with coordinates, for any extents.

  It is printed as a `stablehlo.gather` whose leading axes are BATCHING axes: the operand `[R, N]`
  (or `[A, B, N]`), the start indices `[R, M, 1]` (or `[A, B, M, 1]`), the result `[R, M]` (or `[A, B, M]`); the last
  operand axis is collapsed and is the one the start index names.  Result element `(b, j)` is the operand's row `b` at
  the start index `i[b, j, 0]`, read signed and clamped into `[0, N − 1]`:
  * `gather2_apply` (one batching axis), `gather3_apply` (two).
  Around the gather the printed text has, elementwise: negative indices wrapped by the extent, an in-bounds mask
  `0 ≤ i ∧ i ≤ N − 1` reduced by `and` over the trailing unit axis, and a select between the gathered value and a fill.
  For an index word that IS a position below the extent these read:
  * `wrap_of_lt`: the wrapped index is the index;
  * `mask_of_le`: the mask bit is 1;
  * `reduce_andi_eq_one_of_forall`: a reduction by `and` from 1 over ones is 1;
  * `clamp_ofNat`: the clamped start index is the position.
-/
import Idealize.ShloMosaic.Lib.ValueIdx
import Idealize.ShloMosaic.PureOps.Reduce

namespace Cert.LibTakeAlong

open Idealize.ShloMosaic Idealize.ShloMosaic.ValueIdx

variable {α : Type}

/-! ## The gather -/

/-- The dimension numbers of a take-along-the-last-axis gather with ONE leading batching axis: operand `[R, N]`, start
    indices `[R, M, 1]`, result `[R, M]`; their conditions `wf` are decided on a program's literal shapes. -/
abbrev dims2 (R N M : ℕ)
    (wf : GatherDims.WF ⟨2, ![R, N]⟩ ⟨3, ![R, M, 1]⟩ ⟨2, ![R, M]⟩ [] [1] [0] [1] [0] 2 ![1, 1]) :
    GatherDims ⟨2, ![R, N]⟩ ⟨3, ![R, M, 1]⟩ ⟨2, ![R, M]⟩ where
  offsetDims := []
  collapsedSliceDims := [1]
  operandBatchingDims := [0]
  startIndicesBatchingDims := [0]
  startIndexMap := [1]
  indexVectorDim := 2
  sliceSizes := ![1, 1]
  wf := wf

/-- THE GATHER READ AT `(b, j)`: row `b` of the operand at the start index `idx[b, j, 0]`, read signed and clamped into
    `[0, N − 1]`. -/
theorem gather2_apply {R N M w : ℕ} (hN : 0 < N)
    (wf : GatherDims.WF ⟨2, ![R, N]⟩ ⟨3, ![R, M, 1]⟩ ⟨2, ![R, M]⟩ [] [1] [0] [1] [0] 2 ![1, 1])
    (x : (⟨2, ![R, N]⟩ : Shape).Idx → α) (idx : IVec ⟨3, ![R, M, 1]⟩ w) (b : Fin R) (j : Fin M) :
    Host.gather (dims2 R N M wf) x idx (ix2 b j)
      = x (ix2 b ⟨min (idx (ix3 b j (0 : Fin 1))).toInt.toNat (N - 1), by omega⟩) := by
  unfold Host.gather
  refine congrArg x (funext fun a => Fin.ext ?_)
  match a with
  | ⟨0, _⟩ =>
    show (dims2 R N M wf).start (ix2 b j) idx 0 + (dims2 R N M wf).batchCoord (ix2 b j) 0
      + (dims2 R N M wf).offCoord (ix2 b j) 0 = b.val
    rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (List.mem_singleton.mpr rfl)]
    rfl
  | ⟨1, _⟩ =>
    show (dims2 R N M wf).start (ix2 b j) idx 1 + (dims2 R N M wf).batchCoord (ix2 b j) 1
      + (dims2 R N M wf).offCoord (ix2 b j) 1 = min (idx (ix3 b j (0 : Fin 1))).toInt.toNat (N - 1)
    rw [GatherDims.batchCoord_eq_zero _ _ _ (show (1 : Fin 2) ∉ ([0] : List (Fin 2)) by decide),
      GatherDims.offCoord_eq_zero _ _ _ (fun h => ((GatherDims.mem_sKept _ _).mp h).1 (List.mem_singleton.mpr rfl))]
    simp only [Nat.add_zero]
    unfold GatherDims.start
    rw [dif_pos (show (1 : Fin 2) ∈ (dims2 R N M wf).startIndexMap from List.mem_singleton.mpr rfl)]
    have hsi : (dims2 R N M wf).siIdx (ix2 b j) ⟨List.idxOf (1 : Fin 2) (dims2 R N M wf).startIndexMap,
        List.idxOf_lt_length_iff.2 (List.mem_singleton.mpr rfl)⟩ = ix3 b j (0 : Fin 1) := by
      funext c; refine Fin.ext ?_
      match c with
      | ⟨0, _⟩ => rfl
      | ⟨1, _⟩ => rfl
      | ⟨2, _⟩ => rfl
    rw [hsi]
    rfl

/-- The same with TWO leading batching axes: operand `[A, B, N]`, start indices `[A, B, M, 1]`, result `[A, B, M]`. -/
abbrev dims3 (A B N M : ℕ)
    (wf : GatherDims.WF ⟨3, ![A, B, N]⟩ ⟨4, ![A, B, M, 1]⟩ ⟨3, ![A, B, M]⟩ [] [2] [0, 1] [2] [0, 1] 3 ![1, 1, 1]) :
    GatherDims ⟨3, ![A, B, N]⟩ ⟨4, ![A, B, M, 1]⟩ ⟨3, ![A, B, M]⟩ where
  offsetDims := []
  collapsedSliceDims := [2]
  operandBatchingDims := [0, 1]
  startIndicesBatchingDims := [0, 1]
  startIndexMap := [2]
  indexVectorDim := 3
  sliceSizes := ![1, 1, 1]
  wf := wf

/-- THE GATHER READ AT `(a, c, j)`: fiber `(a, c)` of the operand at the start index `idx[a, c, j, 0]`, read signed and
    clamped into `[0, N − 1]`. -/
theorem gather3_apply {A B N M w : ℕ} (hN : 0 < N)
    (wf : GatherDims.WF ⟨3, ![A, B, N]⟩ ⟨4, ![A, B, M, 1]⟩ ⟨3, ![A, B, M]⟩ [] [2] [0, 1] [2] [0, 1] 3 ![1, 1, 1])
    (x : (⟨3, ![A, B, N]⟩ : Shape).Idx → α) (idx : IVec ⟨4, ![A, B, M, 1]⟩ w) (a : Fin A) (c : Fin B) (j : Fin M) :
    Host.gather (dims3 A B N M wf) x idx (ix3 a c j)
      = x (ix3 a c ⟨min (idx (ix4 a c j (0 : Fin 1))).toInt.toNat (N - 1), by omega⟩) := by
  unfold Host.gather
  refine congrArg x (funext fun e => Fin.ext ?_)
  match e with
  | ⟨0, _⟩ =>
    show (dims3 A B N M wf).start (ix3 a c j) idx 0 + (dims3 A B N M wf).batchCoord (ix3 a c j) 0
      + (dims3 A B N M wf).offCoord (ix3 a c j) 0 = a.val
    have hm : (0 : Fin 3) ∈ ([0, 1] : List (Fin 3)) := by decide
    rw [GatherDims.start_batching _ _ _ _ hm,
      GatherDims.offCoord_eq_zero _ _ _ (fun h => ((GatherDims.mem_sKept _ _).mp h).2 hm)]
    simp only [Nat.zero_add, Nat.add_zero]
    unfold GatherDims.batchCoord
    rw [dif_pos hm]
    rfl
  | ⟨1, _⟩ =>
    show (dims3 A B N M wf).start (ix3 a c j) idx 1 + (dims3 A B N M wf).batchCoord (ix3 a c j) 1
      + (dims3 A B N M wf).offCoord (ix3 a c j) 1 = c.val
    have hm : (1 : Fin 3) ∈ ([0, 1] : List (Fin 3)) := by decide
    rw [GatherDims.start_batching _ _ _ _ hm,
      GatherDims.offCoord_eq_zero _ _ _ (fun h => ((GatherDims.mem_sKept _ _).mp h).2 hm)]
    simp only [Nat.zero_add, Nat.add_zero]
    unfold GatherDims.batchCoord
    rw [dif_pos hm]
    rfl
  | ⟨2, _⟩ =>
    show (dims3 A B N M wf).start (ix3 a c j) idx 2 + (dims3 A B N M wf).batchCoord (ix3 a c j) 2
      + (dims3 A B N M wf).offCoord (ix3 a c j) 2 = min (idx (ix4 a c j (0 : Fin 1))).toInt.toNat (N - 1)
    rw [GatherDims.batchCoord_eq_zero _ _ _ (show (2 : Fin 3) ∉ ([0, 1] : List (Fin 3)) by decide),
      GatherDims.offCoord_eq_zero _ _ _ (fun h => ((GatherDims.mem_sKept _ _).mp h).1 (List.mem_singleton.mpr rfl))]
    simp only [Nat.add_zero]
    unfold GatherDims.start
    rw [dif_pos (show (2 : Fin 3) ∈ (dims3 A B N M wf).startIndexMap from List.mem_singleton.mpr rfl)]
    have hsi : (dims3 A B N M wf).siIdx (ix3 a c j) ⟨List.idxOf (2 : Fin 3) (dims3 A B N M wf).startIndexMap,
        List.idxOf_lt_length_iff.2 (List.mem_singleton.mpr rfl)⟩ = ix4 a c j (0 : Fin 1) := by
      funext d; refine Fin.ext ?_
      match d with
      | ⟨0, _⟩ => rfl
      | ⟨1, _⟩ => rfl
      | ⟨2, _⟩ => rfl
      | ⟨3, _⟩ => rfl
    rw [hsi]
    rfl

/-! ## The words around it -/

/-- A position below `2 ^ 31` is a non-negative signed word: wrapping negatives by any amount leaves it. -/
theorem wrap_of_lt (o c : BitVec 32) (h : o.toNat < 2 ^ 31) :
    Scalar.select (IntOp.cmpi .slt o 0#32) (IntOp.addi o c) o = o := by
  have ho : o.toInt = (o.toNat : ℤ) := BitVec.toInt_eq_toNat_of_lt (by omega)
  have h0 : IntOp.cmpi .slt o 0#32 = 0#1 := by
    show BitVec.ofBool (o.slt 0#32) = 0#1
    have hs : o.slt 0#32 = false := by
      simp only [BitVec.slt, decide_eq_false_iff_not, not_lt, BitVec.toInt_zero, ho]
      exact Int.natCast_nonneg _
    rw [hs]; rfl
  rw [h0]; exact select_zero _ _

/-- A position at most `n` (itself below `2 ^ 31`) passes the in-bounds test `0 ≤ o ∧ o ≤ n` on signed words. -/
theorem mask_of_le (o : BitVec 32) (n : ℕ) (hn : n < 2 ^ 31) (h : o.toNat ≤ n) :
    IntOp.andi (IntOp.cmpi .sge o 0#32) (IntOp.cmpi .sle o (BitVec.ofNat 32 n)) = 1#1 := by
  have ho : o.toInt = (o.toNat : ℤ) := BitVec.toInt_eq_toNat_of_lt (by omega)
  have hn1 : (BitVec.ofNat 32 n).toNat = n := by
    simp only [BitVec.toNat_ofNat]; omega
  have hn' : (BitVec.ofNat 32 n).toInt = (n : ℤ) := by
    rw [BitVec.toInt_eq_toNat_of_lt (by rw [hn1]; omega), hn1]
  have h1 : IntOp.cmpi .sge o 0#32 = 1#1 := by
    show BitVec.ofBool ((0#32).sle o) = 1#1
    have hs : (0#32).sle o = true := by
      simp only [BitVec.sle, decide_eq_true_eq, BitVec.toInt_zero, ho]
      exact Int.natCast_nonneg _
    rw [hs]; rfl
  have h2 : IntOp.cmpi .sle o (BitVec.ofNat 32 n) = 1#1 := by
    show BitVec.ofBool (o.sle (BitVec.ofNat 32 n)) = 1#1
    have hs : o.sle (BitVec.ofNat 32 n) = true := by
      simp only [BitVec.sle, decide_eq_true_eq, ho, hn']
      exact_mod_cast h
    rw [hs]; rfl
  rw [h1, h2]; rfl

/-- The start index of a position `k` below the extent, clamped into `[0, N − 1]`, is `k`. -/
theorem clamp_ofNat (k N : ℕ) (hk : k < N) (hN : N ≤ 2 ^ 31) : min (BitVec.ofNat 32 k).toInt.toNat (N - 1) = k := by
  have hk1 : (BitVec.ofNat 32 k).toNat = k := by
    simp only [BitVec.toNat_ofNat]; omega
  rw [BitVec.toInt_eq_toNat_of_lt (by rw [hk1]; omega), hk1]
  omega

/-- A left fold by `and` from 1 over words that are all 1 is 1. -/
theorem foldl_andi_of_forall {ι : Type} (f : ι → BitVec 1) :
    ∀ (l : List ι), (∀ n ∈ l, f n = 1#1) → l.foldl (fun r n => IntOp.andi r (f n)) 1#1 = 1#1
  | [], _ => rfl
  | a :: l, h => by
    rw [List.foldl_cons, h a List.mem_cons_self]
    exact foldl_andi_of_forall f l fun n hn => h n (List.mem_cons_of_mem _ hn)

/-- A `stablehlo.reduce` by `and` from the constant 1 is 1 at `j` when every operand element reducing into `j` is 1. -/
theorem reduce_andi_eq_one_of_forall {s t u : Shape} {axes : List (Fin s.rank)} (x : s.Idx → BitVec 1)
    (init : u.Idx → BitVec 1) (h : s.ReducesTo axes t) (hu : 0 < u.numel) (j : t.Idx)
    (hi : init (Shape.Idx.first hu) = 1#1) (hx : ∀ i, h.drop i = j → x i = 1#1) :
    Host.reduce IntOp.andi x init h hu j = 1#1 := by
  rw [Host.reduce_eq_foldl, hi]
  refine foldl_andi_of_forall x _ fun i hmem => hx i ?_
  have := (List.mem_filter.1 hmem).2
  simpa using this

end Cert.LibTakeAlong
-- ==== Proof.LibRowOps.lean ====
/-
  Row-wise layout operations of a rank-2 array read with coordinates, for any extents: padding behind the rows, two
  arrays laid side by side, a rank-2 array repeated over a new middle axis, and rows cut into tiles.

  * `pad_high2_apply`: `stablehlo.pad` of `[R, N]` to `[R, T]` with nothing in front, nothing between and the padding value
    behind each row reads the operand at `(b, j)` for `j < N`, the padding value for `j ≥ N`.
  * `concat2_axis1_apply`: `[R, N]` and `[R, P]` concatenated along axis 1 read the first at `(b, j)` for `j < N`, the
    second at `(b, j − N)` for `j ≥ N`.
  * `bcast_ab_a1b_apply`: `[R, T]` placed on axes 0 and 2 of `[R, 1, T]` reads `(b, j)` at `(b, u, j)`.
  * `bcast_a1b_acb_apply`: `[R, 1, T]` repeated over the middle axis to `[R, C, T]` reads `(b, 0, j)` at `(b, c, j)`.
  * `reshape_ab_atk_apply`: `[R, T · K]` cast to `[R, T, K]` reads `(b, t · K + l)` at `(b, t, l)`.
  * `reshape_a1b_ab_apply`: `[R, 1, N]` cast to `[R, N]` reads `(b, 0, n)` at `(b, n)`.
  * `reshape_ab_ab1_apply`, `reshape_abc_abc1_apply`: a trailing unit axis added reads the same coordinates.
-/
import Idealize.ShloMosaic.Lib.ValueLayout
import Idealize.ShloMosaic.Lib.Pipeline.Value

namespace Cert.LibRowOps

open Idealize.ShloMosaic Idealize.ShloMosaic.ValueIdx

variable {α : Type}

/-- Padding behind the rows: `(b, j)` of the result is the operand's `(b, j)` where `j` is below the operand's row
    length, the padding value past it. -/
theorem pad_high2_apply {R N P T : ℕ} (x : (⟨2, ![R, N]⟩ : Shape).Idx → α) {u : Shape} (v : u.Idx → α)
    (h : (⟨2, ![R, N]⟩ : Shape).Pads (![0, 0] : Fin 2 → ℕ) ![0, P] ![0, 0] ⟨2, ![R, T]⟩) (hu : 0 < u.numel)
    (b : Fin R) (j : Fin T) :
    pad ⟨2, ![R, T]⟩ ![0, 0] ![0, P] ![0, 0] x v h hu (ix2 b j)
      = if hj : j.val < N then x (ix2 b ⟨j.val, hj⟩) else v (Shape.Idx.first hu) := by
  unfold pad
  split
  · rename_i hin
    have h1 : (j.val - 0) / (0 + 1) < N := (hin ⟨1, Nat.one_lt_two⟩).2.2
    have hj : j.val < N := by simpa using h1
    rw [dif_pos hj]
    refine congrArg x (funext fun a => Fin.ext ?_)
    match a with
    | ⟨0, _⟩ => show (b.val - 0) / (0 + 1) = b.val; simp
    | ⟨1, _⟩ => show (j.val - 0) / (0 + 1) = j.val; simp
  · rename_i hin
    have hj : ¬ j.val < N := fun hj => hin fun a => by
      match a with
      | ⟨0, _⟩ =>
        refine ⟨Nat.zero_le _, ?_, ?_⟩
        · show (b.val - 0) % (0 + 1) = 0; exact Nat.mod_one _
        · show (b.val - 0) / (0 + 1) < R; simpa using b.isLt
      | ⟨1, _⟩ =>
        refine ⟨Nat.zero_le _, ?_, ?_⟩
        · show (j.val - 0) % (0 + 1) = 0; exact Nat.mod_one _
        · show (j.val - 0) / (0 + 1) < N; simpa using hj
    rw [dif_neg hj]

/-- Two arrays side by side: `(b, j)` of the result is the first's `(b, j)` where `j` is below its row length, the
    second's `(b, j − N)` past it. -/
theorem concat2_axis1_apply {R N P T : ℕ} (x₁ : (⟨2, ![R, N]⟩ : Shape).Idx → α) (x₂ : (⟨2, ![R, P]⟩ : Shape).Idx → α)
    (h : Shape.Concatenates [(⟨2, ![R, N]⟩ : Shape), ⟨2, ![R, P]⟩] ⟨2, ![R, T]⟩ (1 : Fin 2)) (hT : T ≤ N + P)
    (b : Fin R) (j : Fin T) :
    concatenate ⟨2, ![R, T]⟩ (1 : Fin 2) [⟨⟨2, ![R, N]⟩, x₁⟩, ⟨⟨2, ![R, P]⟩, x₂⟩] h (ix2 b j)
      = if hj : j.val < N then x₁ (ix2 b ⟨j.val, hj⟩) else x₂ (ix2 b ⟨j.val - N, by omega⟩) := by
  by_cases hj : j.val < N
  · rw [dif_pos hj]
    refine concatenate_pair_apply_left (1 : Fin 2) x₁ x₂ h (ix2 b j) rfl (ix2 b ⟨j.val, hj⟩) fun a => ?_
    match a with
    | ⟨0, _⟩ => rfl
    | ⟨1, _⟩ => rfl
  · rw [dif_neg hj]
    refine concatenate_pair_apply_right (1 : Fin 2) x₁ x₂ h (ix2 b j) rfl rfl (ix2 b ⟨j.val - N, by omega⟩) (fun a ha => ?_) ?_
    · match a with
      | ⟨0, _⟩ => rfl
      | ⟨1, _⟩ => exact absurd rfl ha
    · show j.val - N + N = j.val
      omega

/-- A rank-2 array on axes 0 and 2 of `[R, 1, T]`. -/
theorem bcast_ab_a1b_apply {R T : ℕ} (x : (⟨2, ![R, T]⟩ : Shape).Idx → α)
    (h : (⟨2, ![R, T]⟩ : Shape).BroadcastsInDim ⟨3, ![R, 1, T]⟩ (![0, 2] : Fin 2 → Fin 3)) (b : Fin R) (u : Fin 1) (j : Fin T) :
    broadcastInDim ⟨3, ![R, 1, T]⟩ (![0, 2] : Fin 2 → Fin 3) h x (ix3 b u j) = x (ix2 b j) := by
  refine broadcastInDim_apply _ h x (ix3 b u j) (ix2 b j) fun a => ?_
  match a with
  | ⟨0, _⟩ =>
    show b.val = if R = 1 then 0 else b.val
    split
    · have := b.isLt; omega
    · rfl
  | ⟨1, _⟩ =>
    show j.val = if T = 1 then 0 else j.val
    split
    · have := j.isLt; omega
    · rfl

/-- `[R, 1, T]` repeated over the middle axis. -/
theorem bcast_a1b_acb_apply {R C T : ℕ} (x : (⟨3, ![R, 1, T]⟩ : Shape).Idx → α)
    (h : (⟨3, ![R, 1, T]⟩ : Shape).BroadcastsInDim ⟨3, ![R, C, T]⟩ (![0, 1, 2] : Fin 3 → Fin 3)) (b : Fin R) (c : Fin C)
    (j : Fin T) :
    broadcastInDim ⟨3, ![R, C, T]⟩ (![0, 1, 2] : Fin 3 → Fin 3) h x (ix3 b c j) = x (ix3 b (0 : Fin 1) j) := by
  refine broadcastInDim_apply _ h x (ix3 b c j) (ix3 b (0 : Fin 1) j) fun a => ?_
  match a with
  | ⟨0, _⟩ =>
    show b.val = if R = 1 then 0 else b.val
    split
    · have := b.isLt; omega
    · rfl
  | ⟨1, _⟩ =>
    show 0 = if 1 = 1 then 0 else c.val
    rfl
  | ⟨2, _⟩ =>
    show j.val = if T = 1 then 0 else j.val
    split
    · have := j.isLt; omega
    · rfl

/-- Rows cut into tiles: `[R, M]` cast to `[R, T, K]` (so `M = T · K`) reads `(b, t · K + l)` at `(b, t, l)`. -/
theorem reshape_ab_atk_apply {R M T K : ℕ} (x : (⟨2, ![R, M]⟩ : Shape).Idx → α)
    (h : (⟨2, ![R, M]⟩ : Shape).ShapeCasts ⟨3, ![R, T, K]⟩) (hM : M = T * K) (b : Fin R) (t : Fin T) (l : Fin K)
    (hlt : t.val * K + l.val < M) :
    shapeCast ⟨3, ![R, T, K]⟩ x h (ix3 b t l) = x (ix2 b ⟨t.val * K + l.val, hlt⟩) := by
  refine shapeCast_apply x h _ _ ?_
  rw [Shape.rowMajor_val_two, Shape.rowMajor_val_three]
  show b.val * M + (t.val * K + l.val) = (b.val * T + t.val) * K + l.val
  subst hM
  rw [Nat.add_mul, Nat.mul_assoc, Nat.add_assoc]

/-- A unit middle axis dropped: `[R, 1, N]` cast to `[R, N]` reads `(b, 0, n)` at `(b, n)`. -/
theorem reshape_a1b_ab_apply {R N : ℕ} (x : (⟨3, ![R, 1, N]⟩ : Shape).Idx → α)
    (h : (⟨3, ![R, 1, N]⟩ : Shape).ShapeCasts ⟨2, ![R, N]⟩) (b : Fin R) (n : Fin N) :
    shapeCast ⟨2, ![R, N]⟩ x h (ix2 b n) = x (ix3 b (0 : Fin 1) n) := by
  refine shapeCast_apply x h _ _ ?_
  rw [Shape.rowMajor_val_two, Shape.rowMajor_val_three]
  show (b.val * 1 + 0) * N + n.val = b.val * N + n.val
  rw [Nat.mul_one, Nat.add_zero]

/-- A trailing unit axis added to a rank-2 array. -/
theorem reshape_ab_ab1_apply {R M : ℕ} (x : (⟨2, ![R, M]⟩ : Shape).Idx → α)
    (h : (⟨2, ![R, M]⟩ : Shape).ShapeCasts ⟨3, ![R, M, 1]⟩) (b : Fin R) (j : Fin M) (u : Fin 1) :
    shapeCast ⟨3, ![R, M, 1]⟩ x h (ix3 b j u) = x (ix2 b j) := by
  refine shapeCast_apply x h _ _ ?_
  have hu : u.val = 0 := by omega
  rw [Shape.rowMajor_val_two, Shape.rowMajor_val_three]
  show b.val * M + j.val = (b.val * M + j.val) * 1 + u.val
  rw [hu, Nat.mul_one, Nat.add_zero]

/-- A trailing unit axis added to a rank-3 array. -/
theorem reshape_abc_abc1_apply {A B M : ℕ} (x : (⟨3, ![A, B, M]⟩ : Shape).Idx → α)
    (h : (⟨3, ![A, B, M]⟩ : Shape).ShapeCasts ⟨4, ![A, B, M, 1]⟩) (a : Fin A) (c : Fin B) (j : Fin M) (u : Fin 1) :
    shapeCast ⟨4, ![A, B, M, 1]⟩ x h (ix4 a c j u) = x (ix3 a c j) := by
  refine shapeCast_apply x h _ _ ?_
  have hu : u.val = 0 := by omega
  rw [Shape.rowMajor_val_three, Shape.rowMajor_val_four]
  show (a.val * B + c.val) * M + j.val = ((a.val * B + c.val) * M + j.val) * 1 + u.val
  rw [hu, Nat.mul_one, Nat.add_zero]

end Cert.LibRowOps
-- ==== Proof.LibReduceBound.lean ====
/-
  A minimum- or maximum-reduction on signed words bounds every element it reduces, for any shapes.

  `stablehlo.reduce` by the signed minimum (`IntOp.minsi`) folds the operand's elements that reduce into a result index,
  from the initial value; whatever the order of the fold, the result is at most — as signed integers — every one of those
  elements, and at most the initial value.  Dually for the signed maximum.
  * `toInt_minsi`, `toInt_maxsi`: the two operations on words are `min` and `max` of the signed values.
  * `reduce_minsi_le`: the minimum-reduction at `j` is `≤` the operand at every `i` reducing into `j`.
  * `le_reduce_maxsi`: the maximum-reduction at `j` is `≥` the operand at every `i` reducing into `j`.
  * `drop_last3`: reducing the last axis of `[R, T, K]` sends `(b, t, l)` into `(b, t)`.
-/
import Idealize.ShloMosaic.Lib.ValueIdx
import Idealize.ShloMosaic.PureOps.Reduce

namespace Cert.LibReduceBound

open Idealize.ShloMosaic Idealize.ShloMosaic.ValueIdx

variable {w : ℕ}

/-- The signed minimum of two words has the smaller signed value. -/
theorem toInt_minsi (x y : BitVec w) : (IntOp.minsi x y).toInt = min x.toInt y.toInt := by
  unfold IntOp.minsi
  by_cases h : x.toInt < y.toInt
  · have hs : x.slt y = true := by simp only [BitVec.slt, decide_eq_true_eq]; exact h
    rw [if_pos hs, min_eq_left (le_of_lt h)]
  · have hs : ¬ (x.slt y = true) := by simp only [BitVec.slt, decide_eq_true_eq]; exact h
    rw [if_neg hs, min_eq_right (not_lt.mp h)]

/-- The signed maximum of two words has the larger signed value. -/
theorem toInt_maxsi (x y : BitVec w) : (IntOp.maxsi x y).toInt = max x.toInt y.toInt := by
  unfold IntOp.maxsi
  by_cases h : y.toInt < x.toInt
  · have hs : y.slt x = true := by simp only [BitVec.slt, decide_eq_true_eq]; exact h
    rw [if_pos hs, max_eq_left (le_of_lt h)]
  · have hs : ¬ (y.slt x = true) := by simp only [BitVec.slt, decide_eq_true_eq]; exact h
    rw [if_neg hs, max_eq_right (not_lt.mp h)]

/-- A left fold by the signed minimum is at most its start and at most every element it met. -/
theorem foldl_minsi_le {ι : Type} (f : ι → BitVec w) :
    ∀ (l : List ι) (init : BitVec w),
      (l.foldl (fun r n => IntOp.minsi r (f n)) init).toInt ≤ init.toInt
        ∧ ∀ n ∈ l, (l.foldl (fun r n => IntOp.minsi r (f n)) init).toInt ≤ (f n).toInt
  | [], init => ⟨le_refl _, fun _ hn => nomatch hn⟩
  | a :: l, init => by
    obtain ⟨h1, h2⟩ := foldl_minsi_le f l (IntOp.minsi init (f a))
    rw [toInt_minsi] at h1
    rw [List.foldl_cons]
    refine ⟨le_trans h1 (min_le_left _ _), fun n hn => ?_⟩
    rcases List.mem_cons.1 hn with rfl | hn
    · exact le_trans h1 (min_le_right _ _)
    · exact h2 n hn

/-- A left fold by the signed maximum is at least its start and at least every element it met. -/
theorem le_foldl_maxsi {ι : Type} (f : ι → BitVec w) :
    ∀ (l : List ι) (init : BitVec w),
      init.toInt ≤ (l.foldl (fun r n => IntOp.maxsi r (f n)) init).toInt
        ∧ ∀ n ∈ l, (f n).toInt ≤ (l.foldl (fun r n => IntOp.maxsi r (f n)) init).toInt
  | [], init => ⟨le_refl _, fun _ hn => nomatch hn⟩
  | a :: l, init => by
    obtain ⟨h1, h2⟩ := le_foldl_maxsi f l (IntOp.maxsi init (f a))
    rw [toInt_maxsi] at h1
    rw [List.foldl_cons]
    refine ⟨le_trans (le_max_left _ _) h1, fun n hn => ?_⟩
    rcases List.mem_cons.1 hn with rfl | hn
    · exact le_trans (le_max_right _ _) h1
    · exact h2 n hn

variable {s t u : Shape} {axes : List (Fin s.rank)}

/-- A minimum-reduction at `j` is at most the operand at every index reducing into `j`. -/
theorem reduce_minsi_le (x : s.Idx → BitVec w) (init : u.Idx → BitVec w) (h : s.ReducesTo axes t) (hu : 0 < u.numel)
    (j : t.Idx) (i : s.Idx) (hi : h.drop i = j) :
    (Host.reduce IntOp.minsi x init h hu j).toInt ≤ (x i).toInt := by
  rw [Host.reduce_eq_foldl]
  refine (foldl_minsi_le x _ _).2 i ?_
  rw [List.mem_filter]
  exact ⟨List.mem_map.2 ⟨s.rowMajor i, List.mem_finRange _, Equiv.symm_apply_apply _ _⟩, by simp [hi]⟩

/-- A maximum-reduction at `j` is at least the operand at every index reducing into `j`. -/
theorem le_reduce_maxsi (x : s.Idx → BitVec w) (init : u.Idx → BitVec w) (h : s.ReducesTo axes t) (hu : 0 < u.numel)
    (j : t.Idx) (i : s.Idx) (hi : h.drop i = j) :
    (x i).toInt ≤ (Host.reduce IntOp.maxsi x init h hu j).toInt := by
  rw [Host.reduce_eq_foldl]
  refine (le_foldl_maxsi x _ _).2 i ?_
  rw [List.mem_filter]
  exact ⟨List.mem_map.2 ⟨s.rowMajor i, List.mem_finRange _, Equiv.symm_apply_apply _ _⟩, by simp [hi]⟩

/-- Reducing the last axis of a rank-3 array sends `(b, t, l)` into `(b, t)`. -/
theorem drop_last3 {R T K : ℕ} (h : (⟨3, ![R, T, K]⟩ : Shape).ReducesTo [(2 : Fin 3)] ⟨2, ![R, T]⟩) (b : Fin R) (t : Fin T)
    (l : Fin K) : h.drop (ix3 b t l) = ix2 b t := by
  funext a
  refine Fin.ext ?_
  match a with
  | ⟨0, _⟩ => rfl
  | ⟨1, _⟩ => rfl

/-- Reducing a trailing UNIT axis of a rank-3 array: every index reducing into `(b, j)` is `(b, j, 0)`. -/
theorem eq_of_drop_unit3 {R M : ℕ} (h : (⟨3, ![R, M, 1]⟩ : Shape).ReducesTo [(2 : Fin 3)] ⟨2, ![R, M]⟩) (b : Fin R) (j : Fin M)
    (i : (⟨3, ![R, M, 1]⟩ : Shape).Idx) (hi : h.drop i = ix2 b j) : i = ix3 b j (0 : Fin 1) := by
  funext a
  refine Fin.ext ?_
  match a with
  | ⟨0, _⟩ => exact congrArg Fin.val (congrFun hi ⟨0, Nat.zero_lt_two⟩)
  | ⟨1, _⟩ => exact congrArg Fin.val (congrFun hi ⟨1, Nat.one_lt_two⟩)
  | ⟨2, _⟩ =>
    have h2 : (i ⟨2, by show (2 : ℕ) < 3; omega⟩).val < 1 := (i ⟨2, _⟩).isLt
    show (i ⟨2, _⟩).val = 0
    omega

/-- Reducing the last axis of a rank-4 array sends `(a, c, j, l)` into `(a, c, j)`. -/
theorem drop_last4 {A B M K : ℕ} (h : (⟨4, ![A, B, M, K]⟩ : Shape).ReducesTo [(3 : Fin 4)] ⟨3, ![A, B, M]⟩) (a : Fin A)
    (c : Fin B) (j : Fin M) (l : Fin K) : h.drop (ix4 a c j l) = ix3 a c j := by
  funext e
  refine Fin.ext ?_
  match e with
  | ⟨0, _⟩ => rfl
  | ⟨1, _⟩ => rfl
  | ⟨2, _⟩ => rfl

/-- Reducing a trailing UNIT axis of a rank-4 array: every index reducing into `(a, c, j)` is `(a, c, j, 0)`. -/
theorem eq_of_drop_unit4 {A B M : ℕ} (h : (⟨4, ![A, B, M, 1]⟩ : Shape).ReducesTo [(3 : Fin 4)] ⟨3, ![A, B, M]⟩) (a : Fin A)
    (c : Fin B) (j : Fin M) (i : (⟨4, ![A, B, M, 1]⟩ : Shape).Idx) (hi : h.drop i = ix3 a c j) :
    i = ix4 a c j (0 : Fin 1) := by
  funext e
  refine Fin.ext ?_
  match e with
  | ⟨0, _⟩ => exact congrArg Fin.val (congrFun hi ⟨0, by show (0 : ℕ) < 3; omega⟩)
  | ⟨1, _⟩ => exact congrArg Fin.val (congrFun hi ⟨1, by show (1 : ℕ) < 3; omega⟩)
  | ⟨2, _⟩ => exact congrArg Fin.val (congrFun hi ⟨2, by show (2 : ℕ) < 3; omega⟩)
  | ⟨3, _⟩ =>
    have h3 : (i ⟨3, by show (3 : ℕ) < 4; omega⟩).val < 1 := (i ⟨3, _⟩).isLt
    show (i ⟨3, _⟩).val = 0
    omega

end Cert.LibReduceBound
-- ==== Proof.LibTakeAlongFill.lean ====
/-
  A take along the last axis in its printed form — negative indices wrapped, the batched gather, an in-bounds mask and a
  fill value where the mask fails — read at an index whose index word IS a position of the operand's last axis,
  for any extents: the result there is the operand at that position, and the fill value plays no part.

  The printed text, for an operand `x : [R, N]` and indices `o : [R, M]` (one more leading axis for `[A, B, N]`):
    i₅   := reshape (select (o < 0) (o + N) o) to [R, M, 1]
    mask := reduce_and over the unit axis of (i₅ ≥ 0 ∧ i₅ ≤ N − 1), from 1
    y    := select mask (gather x i₅) fill
  * `wrapIdx2_apply`, `wrapIdx3_apply`: `i₅` at `(b, j, 0)` is `o` at `(b, j)` when that word is below `2 ^ 31`.
  * `takeAlong2_apply`, `takeAlong3_apply`: `y` at `(b, j)` is `x` at `(b, k)` when `i₅` at `(b, j, 0)` is the word of
    a position `k < N`.
-/
import proofs.«136896_j63960652972185_2_alg».proof.Proof.LibTakeAlong
import proofs.«136896_j63960652972185_2_alg».proof.Proof.LibRowOps
import proofs.«136896_j63960652972185_2_alg».proof.Proof.LibReduceBound

namespace Cert.LibTakeAlongFill

open Idealize.ShloMosaic Idealize.ShloMosaic.ValueIdx
open Cert.LibTakeAlong Cert.LibRowOps Cert.LibReduceBound

variable {α : Type}

/-- The start indices at `(b, j, 0)`: the index word at `(b, j)`, a non-negative signed word being left as it is.
    `z` is the zero the sign test compares with and `cN` the extent added to a negative index, both arrays of the
    indices' shape of which only the entry at `(b, j)` matters. -/
theorem wrapIdx2_apply {R M : ℕ} (o z cN : IVec ⟨2, ![R, M]⟩ 32)
    (hc : (⟨2, ![R, M]⟩ : Shape).ShapeCasts ⟨3, ![R, M, 1]⟩) (b : Fin R) (j : Fin M) (u : Fin 1)
    (hz : z (ix2 b j) = 0#32) (ho : (o (ix2 b j)).toNat < 2 ^ 31) :
    shapeCast ⟨3, ![R, M, 1]⟩ (select (cmpi .slt o z) (addi o cN) o) hc (ix3 b j u) = o (ix2 b j) := by
  rw [reshape_ab_ab1_apply]
  show Scalar.select (IntOp.cmpi .slt (o (ix2 b j)) (z (ix2 b j))) (IntOp.addi (o (ix2 b j)) (cN (ix2 b j))) (o (ix2 b j)) = _
  rw [hz]
  exact wrap_of_lt _ _ ho

/-- The same with two leading axes. -/
theorem wrapIdx3_apply {A B M : ℕ} (o z cN : IVec ⟨3, ![A, B, M]⟩ 32)
    (hc : (⟨3, ![A, B, M]⟩ : Shape).ShapeCasts ⟨4, ![A, B, M, 1]⟩) (a : Fin A) (c : Fin B) (j : Fin M) (u : Fin 1)
    (hz : z (ix3 a c j) = 0#32) (ho : (o (ix3 a c j)).toNat < 2 ^ 31) :
    shapeCast ⟨4, ![A, B, M, 1]⟩ (select (cmpi .slt o z) (addi o cN) o) hc (ix4 a c j u) = o (ix3 a c j) := by
  rw [reshape_abc_abc1_apply]
  show Scalar.select (IntOp.cmpi .slt (o (ix3 a c j)) (z (ix3 a c j))) (IntOp.addi (o (ix3 a c j)) (cN (ix3 a c j)))
    (o (ix3 a c j)) = _
  rw [hz]
  exact wrap_of_lt _ _ ho

/-- THE FILLED TAKE READ AT `(b, j)`: where the start index at `(b, j, 0)` is the word of a position `k` below the
    extent `N` (and `N ≤ 2 ^ 31`, so that the word is non-negative), the mask is 1 and the result is the operand at
    `(b, k)`.  `lo` and `hi` are the two bounds the mask compares with (`0` and `N − 1` at `(b, j, 0)`), `one` the
    reduction's initial value. -/
theorem takeAlong2_apply {R N M : ℕ} (hN : 0 < N) (hN' : N ≤ 2 ^ 31)
    (wf : GatherDims.WF ⟨2, ![R, N]⟩ ⟨3, ![R, M, 1]⟩ ⟨2, ![R, M]⟩ [] [1] [0] [1] [0] 2 ![1, 1])
    (x : (⟨2, ![R, N]⟩ : Shape).Idx → α) (i5 lo hi : IVec ⟨3, ![R, M, 1]⟩ 32) {u : Shape} (one : u.Idx → BitVec 1)
    (fill : (⟨2, ![R, M]⟩ : Shape).Idx → α)
    (hr : (⟨3, ![R, M, 1]⟩ : Shape).ReducesTo [(2 : Fin 3)] ⟨2, ![R, M]⟩) (hu : 0 < u.numel)
    (b : Fin R) (j : Fin M) (k : Fin N)
    (hi5 : i5 (ix3 b j (0 : Fin 1)) = BitVec.ofNat 32 k.val) (hlo : lo (ix3 b j (0 : Fin 1)) = 0#32)
    (hhi : hi (ix3 b j (0 : Fin 1)) = BitVec.ofNat 32 (N - 1)) (hone : one (Shape.Idx.first hu) = 1#1) :
    select (Host.reduce IntOp.andi (andi (cmpi .sge i5 lo) (cmpi .sle i5 hi)) one hr hu)
        (Host.gather (dims2 R N M wf) x i5) fill (ix2 b j)
      = x (ix2 b k) := by
  have hk1 : (BitVec.ofNat 32 k.val).toNat = k.val := by
    have := k.isLt; simp only [BitVec.toNat_ofNat]; omega
  have hmask : Host.reduce IntOp.andi (andi (cmpi .sge i5 lo) (cmpi .sle i5 hi)) one hr hu (ix2 b j) = 1#1 := by
    refine reduce_andi_eq_one_of_forall _ _ hr hu _ hone fun i hdrop => ?_
    rw [eq_of_drop_unit3 hr b j i hdrop]
    show IntOp.andi (IntOp.cmpi .sge (i5 (ix3 b j (0 : Fin 1))) (lo (ix3 b j (0 : Fin 1))))
      (IntOp.cmpi .sle (i5 (ix3 b j (0 : Fin 1))) (hi (ix3 b j (0 : Fin 1)))) = 1#1
    rw [hi5, hlo, hhi]
    exact mask_of_le _ _ (by omega) (by rw [hk1]; have := k.isLt; omega)
  show Scalar.select (Host.reduce IntOp.andi (andi (cmpi .sge i5 lo) (cmpi .sle i5 hi)) one hr hu (ix2 b j))
    (Host.gather (dims2 R N M wf) x i5 (ix2 b j)) (fill (ix2 b j)) = _
  rw [hmask, select_one, gather2_apply hN]
  refine congrArg x (congrArg (ix2 b) (Fin.ext ?_))
  show min (i5 (ix3 b j (0 : Fin 1))).toInt.toNat (N - 1) = k.val
  rw [hi5]
  exact clamp_ofNat k.val N k.isLt hN'

/-- The same with two leading axes. -/
theorem takeAlong3_apply {A B N M : ℕ} (hN : 0 < N) (hN' : N ≤ 2 ^ 31)
    (wf : GatherDims.WF ⟨3, ![A, B, N]⟩ ⟨4, ![A, B, M, 1]⟩ ⟨3, ![A, B, M]⟩ [] [2] [0, 1] [2] [0, 1] 3 ![1, 1, 1])
    (x : (⟨3, ![A, B, N]⟩ : Shape).Idx → α) (i5 lo hi : IVec ⟨4, ![A, B, M, 1]⟩ 32) {u : Shape} (one : u.Idx → BitVec 1)
    (fill : (⟨3, ![A, B, M]⟩ : Shape).Idx → α)
    (hr : (⟨4, ![A, B, M, 1]⟩ : Shape).ReducesTo [(3 : Fin 4)] ⟨3, ![A, B, M]⟩) (hu : 0 < u.numel)
    (a : Fin A) (c : Fin B) (j : Fin M) (k : Fin N)
    (hi5 : i5 (ix4 a c j (0 : Fin 1)) = BitVec.ofNat 32 k.val) (hlo : lo (ix4 a c j (0 : Fin 1)) = 0#32)
    (hhi : hi (ix4 a c j (0 : Fin 1)) = BitVec.ofNat 32 (N - 1)) (hone : one (Shape.Idx.first hu) = 1#1) :
    select (Host.reduce IntOp.andi (andi (cmpi .sge i5 lo) (cmpi .sle i5 hi)) one hr hu)
        (Host.gather (dims3 A B N M wf) x i5) fill (ix3 a c j)
      = x (ix3 a c k) := by
  have hk1 : (BitVec.ofNat 32 k.val).toNat = k.val := by
    have := k.isLt; simp only [BitVec.toNat_ofNat]; omega
  have hmask : Host.reduce IntOp.andi (andi (cmpi .sge i5 lo) (cmpi .sle i5 hi)) one hr hu (ix3 a c j) = 1#1 := by
    refine reduce_andi_eq_one_of_forall _ _ hr hu _ hone fun i hdrop => ?_
    rw [eq_of_drop_unit4 hr a c j i hdrop]
    show IntOp.andi (IntOp.cmpi .sge (i5 (ix4 a c j (0 : Fin 1))) (lo (ix4 a c j (0 : Fin 1))))
      (IntOp.cmpi .sle (i5 (ix4 a c j (0 : Fin 1))) (hi (ix4 a c j (0 : Fin 1)))) = 1#1
    rw [hi5, hlo, hhi]
    exact mask_of_le _ _ (by omega) (by rw [hk1]; have := k.isLt; omega)
  show Scalar.select (Host.reduce IntOp.andi (andi (cmpi .sge i5 lo) (cmpi .sle i5 hi)) one hr hu (ix3 a c j))
    (Host.gather (dims3 A B N M wf) x i5 (ix3 a c j)) (fill (ix3 a c j)) = _
  rw [hmask, select_one, gather3_apply hN]
  refine congrArg x (congrArg (ix3 a c) (Fin.ext ?_))
  show min (i5 (ix4 a c j (0 : Fin 1))).toInt.toNat (N - 1) = k.val
  rw [hi5]
  exact clamp_ofNat k.val N k.isLt hN'

end Cert.LibTakeAlongFill
-- ==== Proof.KHostTake2.lean ====
/-
  The third stretch of host operations: the voxel numbers taken along the points at the sorting order.

  The stretch is the printed form of a take along the last axis: the index words, negative ones wrapped, are given a
  unit last axis; a mask says which of them are positions of the row; the keys are gathered at them; and where the
  mask fails a fill value is written instead.  Where the index word at `(b, j)` is the word of a position `k` of the
  row, the result there is the key at `(b, k)`.

  The 22 operations are read in four runs — the 8 up to the start indices, the 7 up to the two comparisons with the
  bounds, the 3 up to the mask, the last 4 — each over an arbitrary valuation, and the readings are then chained.
-/
import proofs.«136896_j63960652972185_2_alg».proof.Proof.KHostDefs
import proofs.«136896_j63960652972185_2_alg».proof.Proof.LibTakeAlongFill
import Idealize.ShloMosaic.Lib.StableHlo.Run

set_option maxRecDepth 16384

noncomputable section

namespace Cert.KernelIdeal.Host.Take2

open Cert.KernelIdeal Cert.KernelIdeal.Gen
open Idealize.ShloMosaic Idealize.ShloMosaic.TcCoe Idealize.ShloMosaic.ValueIdx

/-! ## The stretch in four runs -/

/-- The first 8 operations: the index words wrapped and given a unit last axis. -/
abbrev opsA : List (HloOp τ sig (Elt Ideal)) :=
  [ StableHlo.TRef.nullary (.of main_call1_c : StableHlo.TRef sig ⟨S_, .i32⟩) (constantI S_ 32 0#32),
    StableHlo.TRef.unary (.of main_call1_c : StableHlo.TRef sig ⟨S_, .i32⟩) (.of main_call1_v0 : StableHlo.TRef sig ⟨S8x100000, .i32⟩) (broadcastInDim S8x100000 ![] bcast_S_S8x100000),
    StableHlo.TRef.binary (.of main_v2 : StableHlo.TRef sig ⟨S8x100000, .i32⟩) (.of main_call1_v0 : StableHlo.TRef sig ⟨S8x100000, .i32⟩) (.of main_call1_v1 : StableHlo.TRef sig ⟨S8x100000, .i1⟩) (cmpi .slt),
    StableHlo.TRef.nullary (.of main_call1_c_0 : StableHlo.TRef sig ⟨S_, .i32⟩) (constantI S_ 32 100000#32),
    StableHlo.TRef.unary (.of main_call1_c_0 : StableHlo.TRef sig ⟨S_, .i32⟩) (.of main_call1_v2 : StableHlo.TRef sig ⟨S8x100000, .i32⟩) (broadcastInDim S8x100000 ![] bcast_S_S8x100000),
    StableHlo.TRef.binary (.of main_v2 : StableHlo.TRef sig ⟨S8x100000, .i32⟩) (.of main_call1_v2 : StableHlo.TRef sig ⟨S8x100000, .i32⟩) (.of main_call1_v3 : StableHlo.TRef sig ⟨S8x100000, .i32⟩) addi,
    StableHlo.TRef.ternary (.of main_call1_v1 : StableHlo.TRef sig ⟨S8x100000, .i1⟩) (.of main_call1_v3 : StableHlo.TRef sig ⟨S8x100000, .i32⟩) (.of main_v2 : StableHlo.TRef sig ⟨S8x100000, .i32⟩) (.of main_call1_v4 : StableHlo.TRef sig ⟨S8x100000, .i32⟩) select,
    StableHlo.TRef.reshape (.of main_call1_v4 : StableHlo.TRef sig ⟨S8x100000, .i32⟩) (.of main_call1_v5 : StableHlo.TRef sig ⟨S8x100000x1, .i32⟩) rfl shapeCasts_S8x100000_S8x100000x1 ]

/-- The next 7 operations: the two comparisons of the start indices with the bounds. -/
abbrev opsB1 : List (HloOp τ sig (Elt Ideal)) :=
  [ StableHlo.TRef.nullary (.of main_call1_c_1 : StableHlo.TRef sig ⟨S1, .i32⟩) (constantI S1 32 99999#32),
    StableHlo.TRef.nullary (.of main_call1_c_2 : StableHlo.TRef sig ⟨S_, .i32⟩) (constantI S_ 32 0#32),
    StableHlo.TRef.unary (.of main_call1_c_2 : StableHlo.TRef sig ⟨S_, .i32⟩) (.of main_call1_v6 : StableHlo.TRef sig ⟨S8x100000x1, .i32⟩) (broadcastInDim S8x100000x1 ![] bcast_S_S8x100000x1),
    StableHlo.TRef.binary (.of main_call1_v5 : StableHlo.TRef sig ⟨S8x100000x1, .i32⟩) (.of main_call1_v6 : StableHlo.TRef sig ⟨S8x100000x1, .i32⟩) (.of main_call1_v7 : StableHlo.TRef sig ⟨S8x100000x1, .i1⟩) (cmpi .sge),
    StableHlo.TRef.unary (.of main_call1_c_1 : StableHlo.TRef sig ⟨S1, .i32⟩) (.of main_call1_v8 : StableHlo.TRef sig ⟨S1x1x1, .i32⟩) (broadcastInDim S1x1x1 ![2] bcast_S1_S1x1x1_2),
    StableHlo.TRef.unary (.of main_call1_v8 : StableHlo.TRef sig ⟨S1x1x1, .i32⟩) (.of main_call1_v9 : StableHlo.TRef sig ⟨S8x100000x1, .i32⟩) (broadcastInDim S8x100000x1 ![0, 1, 2] bcast_S1x1x1_S8x100000x1_0_1_2),
    StableHlo.TRef.binary (.of main_call1_v5 : StableHlo.TRef sig ⟨S8x100000x1, .i32⟩) (.of main_call1_v9 : StableHlo.TRef sig ⟨S8x100000x1, .i32⟩) (.of main_call1_v10 : StableHlo.TRef sig ⟨S8x100000x1, .i1⟩) (cmpi .sle) ]

/-- The next 3 operations: the in-bounds mask from the two comparisons. -/
abbrev opsB2 : List (HloOp τ sig (Elt Ideal)) :=
  [ StableHlo.TRef.binary (.of main_call1_v7 : StableHlo.TRef sig ⟨S8x100000x1, .i1⟩) (.of main_call1_v10 : StableHlo.TRef sig ⟨S8x100000x1, .i1⟩) (.of main_call1_v11 : StableHlo.TRef sig ⟨S8x100000x1, .i1⟩) andi,
    StableHlo.TRef.nullary (.of main_call1_c_3 : StableHlo.TRef sig ⟨S_, .i1⟩) (constantI S_ 1 1#1),
    StableHlo.TRef.binary (.of main_call1_v11 : StableHlo.TRef sig ⟨S8x100000x1, .i1⟩) (.of main_call1_c_3 : StableHlo.TRef sig ⟨S_, .i1⟩) (.of main_call1_v12 : StableHlo.TRef sig ⟨S8x100000, .i1⟩) (fun x v => Host.reduce IntOp.andi x v reducesTo_S8x100000x1_S8x100000_d2 h_S_) ]

/-- The last 4 operations: the gather, the fill value, the choice between them. -/
abbrev opsC : List (HloOp τ sig (Elt Ideal)) :=
  [ StableHlo.TRef.binary (.of main_v1 : StableHlo.TRef sig ⟨S8x100000, .i32⟩) (.of main_call1_v5 : StableHlo.TRef sig ⟨S8x100000x1, .i32⟩) (.of main_call1_v13 : StableHlo.TRef sig ⟨S8x100000, .i32⟩) (fun x i => Host.gather gather_S8x100000_S8x100000x1_S8x100000_n_1_0_0_1_2_11 x i),
    StableHlo.TRef.nullary (.of main_call1_c_4 : StableHlo.TRef sig ⟨S_, .i32⟩) (constantI S_ 32 2147483648#32),
    StableHlo.TRef.unary (.of main_call1_c_4 : StableHlo.TRef sig ⟨S_, .i32⟩) (.of main_call1_v14 : StableHlo.TRef sig ⟨S8x100000, .i32⟩) (broadcastInDim S8x100000 ![] bcast_S_S8x100000),
    StableHlo.TRef.ternary (.of main_call1_v12 : StableHlo.TRef sig ⟨S8x100000, .i1⟩) (.of main_call1_v13 : StableHlo.TRef sig ⟨S8x100000, .i32⟩) (.of main_call1_v14 : StableHlo.TRef sig ⟨S8x100000, .i32⟩) (.of main_v3 : StableHlo.TRef sig ⟨S8x100000, .i32⟩) select ]

/-- The stretch is the four runs in order. -/
theorem ops_split : (hostOps1_2 : List (HloOp τ sig (Elt Ideal))) = opsA ++ (opsB1 ++ (opsB2 ++ opsC)) := rfl

/-- Running a list of operations that is two lists in order is running the first, then the second. -/
theorem after_append (l₁ l₂ : List (HloOp τ sig (Elt Ideal))) (V : Valuation τ sig (Elt Ideal)) :
    StableHlo.after (l₁ ++ l₂) V = StableHlo.after l₂ (StableHlo.after l₁ V) := by
  induction l₁ generalizing V with
  | nil => rfl
  | cons op l ih => exact ih (op.result V)

section Runs
variable (W : Valuation τ sig (Elt Ideal))

/-! ## The first run -/

/-- The start indices after the first run, from the index words before it. -/
theorem runA_v5 :
    (StableHlo.after opsA W main_call1_v5 : S8x100000x1.Idx → BitVec 32)
      = shapeCast S8x100000x1
          (select (cmpi .slt (W main_v2 : S8x100000.Idx → BitVec 32)
              (broadcastInDim S8x100000 ![] bcast_S_S8x100000 (constantI S_ 32 0#32)))
            (addi (W main_v2 : S8x100000.Idx → BitVec 32)
              (broadcastInDim S8x100000 ![] bcast_S_S8x100000 (constantI S_ 32 100000#32)))
            (W main_v2 : S8x100000.Idx → BitVec 32))
          shapeCasts_S8x100000_S8x100000x1 := by
  show StableHlo.after opsA W (Proc.devRef .tc main_call1_v5) = _
  dsimp only [opsA]
  after_results
  rfl

/-- The first run does not write the keys. -/
theorem runA_v1 : StableHlo.after opsA W main_v1 = W main_v1 := by
  show StableHlo.after opsA W (Proc.devRef .tc main_v1) = _
  dsimp only [opsA]
  after_results

/-! ## The second run -/

/-- The two comparisons after the second run, from the start indices before it. -/
theorem runB1_v7 :
    (StableHlo.after opsB1 W main_call1_v7 : S8x100000x1.Idx → BitVec 1)
      = cmpi .sge (W main_call1_v5 : S8x100000x1.Idx → BitVec 32)
          (broadcastInDim S8x100000x1 ![] bcast_S_S8x100000x1 (constantI S_ 32 0#32)) := by
  show StableHlo.after opsB1 W (Proc.devRef .tc main_call1_v7) = _
  dsimp only [opsB1]
  after_results
  rfl
theorem runB1_v10 :
    (StableHlo.after opsB1 W main_call1_v10 : S8x100000x1.Idx → BitVec 1)
      = cmpi .sle (W main_call1_v5 : S8x100000x1.Idx → BitVec 32)
          (broadcastInDim S8x100000x1 ![0, 1, 2] bcast_S1x1x1_S8x100000x1_0_1_2
            (broadcastInDim S1x1x1 ![2] bcast_S1_S1x1x1_2 (constantI S1 32 99999#32))) := by
  show StableHlo.after opsB1 W (Proc.devRef .tc main_call1_v10) = _
  dsimp only [opsB1]
  after_results
  rfl

/-- The second run writes neither the start indices nor the keys. -/
theorem runB1_v5 : StableHlo.after opsB1 W main_call1_v5 = W main_call1_v5 := by
  show StableHlo.after opsB1 W (Proc.devRef .tc main_call1_v5) = _
  dsimp only [opsB1]
  after_results
theorem runB1_v1 : StableHlo.after opsB1 W main_v1 = W main_v1 := by
  show StableHlo.after opsB1 W (Proc.devRef .tc main_v1) = _
  dsimp only [opsB1]
  after_results

/-! ## The third run -/

attribute [local irreducible] Host.reduce Host.gather in
/-- The mask after the third run, from the two comparisons before it.  (The reduction and the gather are kept folded
    while the two sides are compared.) -/
theorem runB2_v12 :
    (StableHlo.after opsB2 W main_call1_v12 : S8x100000.Idx → BitVec 1)
      = Host.reduce IntOp.andi
          (andi (W main_call1_v7 : S8x100000x1.Idx → BitVec 1) (W main_call1_v10 : S8x100000x1.Idx → BitVec 1))
          (constantI S_ 1 1#1) reducesTo_S8x100000x1_S8x100000_d2 h_S_ := by
  show StableHlo.after opsB2 W (Proc.devRef .tc main_call1_v12) = _
  dsimp only [opsB2]
  after_results
  rfl

/-- The third run writes neither the start indices nor the keys. -/
theorem runB2_v5 : StableHlo.after opsB2 W main_call1_v5 = W main_call1_v5 := by
  show StableHlo.after opsB2 W (Proc.devRef .tc main_call1_v5) = _
  dsimp only [opsB2]
  after_results
theorem runB2_v1 : StableHlo.after opsB2 W main_v1 = W main_v1 := by
  show StableHlo.after opsB2 W (Proc.devRef .tc main_v1) = _
  dsimp only [opsB2]
  after_results

/-! ## The fourth run -/

/-- The sorted keys after the fourth run, from the mask, the keys and the start indices before it. -/
theorem runC_v3 :
    (StableHlo.after opsC W main_v3 : S8x100000.Idx → BitVec 32)
      = select (W main_call1_v12 : S8x100000.Idx → BitVec 1)
          (Host.gather gather_S8x100000_S8x100000x1_S8x100000_n_1_0_0_1_2_11
            (W main_v1 : S8x100000.Idx → BitVec 32)
            (W main_call1_v5 : S8x100000x1.Idx → BitVec 32))
          (broadcastInDim S8x100000 ![] bcast_S_S8x100000 (constantI S_ 32 2147483648#32)) := by
  show StableHlo.after opsC W (Proc.devRef .tc main_v3) = _
  dsimp only [opsC]
  after_results
  rfl

end Runs

end Cert.KernelIdeal.Host.Take2

namespace Cert.KernelIdeal.Host

open Cert.KernelIdeal Cert.KernelIdeal.Gen
open Idealize.ShloMosaic Idealize.ShloMosaic.TcCoe Idealize.ShloMosaic.ValueIdx
open Cert.KernelIdeal.Host.Take2

/-! ## The stretch -/

/-- After the third stretch the sorted-keys array holds, at `(b, j)`, the key at `(b, k)` wherever the order array held
    the word of a position `k` of the row. -/
theorem after1_2_v3 (V : Valuation τ sig (Elt Ideal)) (b : Fin 8) (j k : Fin 100000)
    (hk : V main_v2 (ix2 b j) = BitVec.ofNat 32 k.val) :
    StableHlo.after hostOps1_2 V main_v3 (ix2 b j) = V main_v1 (ix2 b k) := by
  have ho : (V main_v2 (ix2 b j)).toNat < 2 ^ 31 := by
    rw [hk]; have := k.isLt; simp only [BitVec.toNat_ofNat]; omega
  rw [ops_split, after_append, after_append, after_append]
  have eA := runA_v5 V
  have eA0 := runA_v1 V
  generalize StableHlo.after opsA V = W1 at eA eA0 ⊢
  have e7 := runB1_v7 W1
  have e10 := runB1_v10 W1
  have e5 := runB1_v5 W1
  have e0 := runB1_v1 W1
  generalize StableHlo.after opsB1 W1 = W2 at e7 e10 e5 e0 ⊢
  have e12 := runB2_v12 W2
  have e5' := runB2_v5 W2
  have e0' := runB2_v1 W2
  generalize StableHlo.after opsB2 W2 = W3 at e12 e5' e0' ⊢
  refine (congrFun (runC_v3 W3) (ix2 b j)).trans ?_
  rw [e12, e7, e10, e5', e5, e0', e0, eA0]
  generalize (W1 main_call1_v5 : S8x100000x1.Idx → BitVec 32) = i5 at eA ⊢
  refine Cert.LibTakeAlongFill.takeAlong2_apply (N := 100000) (by decide) (by decide) _ _ i5 _ _ _ _ _ _ b j k ?_
    rfl rfl rfl
  rw [eA]
  exact (Cert.LibTakeAlongFill.wrapIdx2_apply _ _ _ _ b j (0 : Fin 1) rfl ho).trans hk

end Cert.KernelIdeal.Host

end
-- ==== Proof.KHost1.lean ====
/-
  The first three stretches of host operations between the two kernel regions, read with coordinates over an arbitrary
  valuation `U` of the buffers before them.

  * The flat voxel indices `[8, 1, 100000]` are reshaped to `[8, 100000]`: row `b` holds `flat U b`.
  * Each row is argsorted (a stable sort of the pairs (key, position) by the signed key): the order array holds, at
    `(b, j)`, the word of `ord U b j`, where `ord U b` is a PERMUTATION of the positions `0 … 99999`.
  * The keys are taken along the rows at the order: the sorted keys hold, at `(b, j)`, `flat U b (ord U b j)` — every
    order entry is a position of the row, so the take's fill value plays no part.
-/
import proofs.«136896_j63960652972185_2_alg».proof.Proof.KHostDefs
import proofs.«136896_j63960652972185_2_alg».proof.Proof.LibArgsort
import proofs.«136896_j63960652972185_2_alg».proof.Proof.LibTakeAlongFill
import proofs.«136896_j63960652972185_2_alg».proof.Proof.KHostTake2

noncomputable section

namespace Cert.KernelIdeal.Host

open Cert.KernelIdeal Cert.KernelIdeal.Gen
open Idealize.ShloMosaic Idealize.ShloMosaic.TcCoe Idealize.ShloMosaic.ValueIdx

variable (U : Valuation τ sig (Elt Ideal))

/-! ## The reshape -/

/-- After the first stretch the keys array holds, at `(b, n)`, what the flat indices held at `(b, 0, n)`. -/
theorem after1_v1 (V : Valuation τ sig (Elt Ideal)) (b : Fin 8) (n : Fin 100000) :
    StableHlo.after hostOps1 V main_v1 (ix2 b n) = V main_v0_1 (ix3 b (0 : Fin 1) n) := by
  show StableHlo.after hostOps1 V (Proc.devRef .tc main_v1) (ix2 b n) = _
  dsimp only [hostOps1]
  after_results
  exact Cert.LibRowOps.reshape_a1b_ab_apply _ _ b n

theorem H2_v1 (b : Fin 8) (n : Fin 100000) : H2 U main_v1 (ix2 b n) = flat U b n := after1_v1 U b n

/-! ## The argsort -/

/-- After the second stretch the order array is the second component of the stable sort of (keys, iota) along axis 1. -/
theorem after1_1_v2 (V : Valuation τ sig (Elt Ideal)) :
    (StableHlo.after hostOps1_1 V main_v2 : S8x100000.Idx → BitVec 32)
      = (Host.sort2 S8x100000 1 comparator_i32_i32_d1 (V main_v1) (iotaInDim S8x100000 32 1)).2 := by
  show StableHlo.after hostOps1_1 V (Proc.devRef .tc main_v2) = _
  dsimp only [hostOps1_1]
  after_results
  rfl

/-- The second stretch leaves the keys array as it was. -/
theorem after1_1_v1 (V : Valuation τ sig (Elt Ideal)) : StableHlo.after hostOps1_1 V main_v1 = V main_v1 :=
  StableHlo.after_of_writes_sub hostOps1_1 V hostOps1_1_writes (by decide)

/-- The sorting permutation of row `b`: sorted position `j` holds the key that stood at position `ord U b j`. -/
def ord (b : Fin 8) : Fin 100000 → Fin 100000 :=
  Cert.LibArgsort.perm comparator_i32_i32_d1 (H2 U main_v1 : S8x100000.Idx → BitVec 32) b

/-- It is a permutation of the positions. -/
theorem ord_bijective (b : Fin 8) : Function.Bijective (ord U b) :=
  Cert.LibArgsort.perm_bijective _ _ b

/-- The order array holds, at `(b, j)`, the word of the position `ord U b j`. -/
theorem H3_v2 (b : Fin 8) (j : Fin 100000) : H3 U main_v2 (ix2 b j) = BitVec.ofNat 32 (ord U b j).val := by
  unfold ord
  exact (congrFun (after1_1_v2 (H2 U)) (ix2 b j)).trans (Cert.LibArgsort.sort2_iota_snd _ _ b j)

theorem H3_v1 : H3 U main_v1 = H2 U main_v1 := after1_1_v1 (H2 U)

/-! ## The keys in sorted order -/

/-- A transport along an equation of types and back along its converse is the identity. -/
theorem cast_cast_cancel {A B : Sort _} (h : A = B) (h' : B = A) (v : B) : cast h (cast h' v) = v := by
  cases h'; rfl

/-- The third stretch leaves the order array as it was. -/
theorem after1_2_v2 (V : Valuation τ sig (Elt Ideal)) : StableHlo.after hostOps1_2 V main_v2 = V main_v2 :=
  StableHlo.after_of_writes_sub hostOps1_2 V hostOps1_2_writes (by decide)

/-- The sorted keys hold, at `(b, j)`, the key of the point at position `ord U b j`. -/
theorem H4_v3 (b : Fin 8) (j : Fin 100000) : H4 U main_v3 (ix2 b j) = flat U b (ord U b j) := by
  refine (after1_2_v3 (H3 U) b j (ord U b j) (H3_v2 U b j)).trans ?_
  rw [H3_v1]
  exact H2_v1 U b (ord U b j)

theorem H4_v2 : H4 U main_v2 = H3 U main_v2 := after1_2_v2 (H3 U)

end Cert.KernelIdeal.Host

end
-- ==== Proof.KHost2.lean ====
/-
  The fourth and fifth stretches of host operations between the two kernel regions, read with coordinates over an
  arbitrary valuation `U` of the buffers before the first stretch.

  * The order array `[8, 100000]` is extended behind each row by 352 zeros to `[8, 100352]`.
  * The sorted keys `[8, 100000]` are padded behind each row by 352 copies of the sentinel 32768 to `[8, 100352]`:
    at `(b, j')` the padded keys hold `flat U b (ord U b j')` for `j' < 100000` and the sentinel past it.
-/
import proofs.«136896_j63960652972185_2_alg».proof.Proof.KHost1

noncomputable section

namespace Cert.KernelIdeal.Host

open Cert.KernelIdeal Cert.KernelIdeal.Gen
open Idealize.ShloMosaic Idealize.ShloMosaic.TcCoe Idealize.ShloMosaic.ValueIdx

variable (U : Valuation τ sig (Elt Ideal))

/-! ## The padded order -/

/-- After the fourth stretch the padded order holds, at `(b, j')`, the order's entry for `j' < 100000` and zero past
    it. -/
theorem after1_3_v5 (V : Valuation τ sig (Elt Ideal)) (b : Fin 8) (j' : Fin 100352) :
    StableHlo.after hostOps1_3 V main_v5 (ix2 b j')
      = if h : j'.val < 100000 then V main_v2 (ix2 b ⟨j'.val, h⟩) else 0#32 := by
  show StableHlo.after hostOps1_3 V (Proc.devRef .tc main_v5) (ix2 b j') = _
  dsimp only [hostOps1_3]
  after_results
  refine (Cert.LibRowOps.concat2_axis1_apply (N := 100000) (P := 352) _ _ _ (by decide) b j').trans ?_
  split
  · rfl
  · rfl

/-- After the fourth stretch the sentinel constant is 32768. -/
theorem after1_3_c0 (V : Valuation τ sig (Elt Ideal)) :
    (StableHlo.after hostOps1_3 V main_c_0 : S_.Idx → BitVec 32) = constantI S_ 32 32768#32 := by
  show StableHlo.after hostOps1_3 V (Proc.devRef .tc main_c_0) = _
  dsimp only [hostOps1_3]
  after_results

/-- The fourth stretch leaves the sorted keys as they were. -/
theorem after1_3_v3 (V : Valuation τ sig (Elt Ideal)) : StableHlo.after hostOps1_3 V main_v3 = V main_v3 :=
  StableHlo.after_of_writes_sub hostOps1_3 V hostOps1_3_writes (by decide)

theorem H5_v5 (b : Fin 8) (j' : Fin 100352) :
    H5 U main_v5 (ix2 b j')
      = if h : j'.val < 100000 then BitVec.ofNat 32 (ord U b ⟨j'.val, h⟩).val else 0#32 := by
  refine (after1_3_v5 (H4 U) b j').trans ?_
  split
  · rename_i h
    rw [H4_v2]
    exact H3_v2 U b ⟨j'.val, h⟩
  · rfl

/-! ## The padded keys -/

/-- After the fifth stretch the padded keys hold, at `(b, j')`, the sorted keys' entry for `j' < 100000` and the
    sentinel constant past it. -/
theorem after1_4_v6 (V : Valuation τ sig (Elt Ideal)) (b : Fin 8) (j' : Fin 100352) :
    StableHlo.after hostOps1_4 V main_v6 (ix2 b j')
      = if h : j'.val < 100000 then V main_v3 (ix2 b ⟨j'.val, h⟩) else V main_c_0 ix0 := by
  show StableHlo.after hostOps1_4 V (Proc.devRef .tc main_v6) (ix2 b j') = _
  dsimp only [hostOps1_4]
  after_results
  simp only [cast_cast_cancel]
  generalize hx : ((StableHlo.TRef.of main_v3 _ _ _).ofBuf _) = x
  generalize hv : ((StableHlo.TRef.of main_c_0 _ _ _).ofBuf _) = v
  generalize hP : (pad _ _ _ _ _ _ _ _ : S8x100352.Idx → BitVec 32) = Pd
  show Pd (ix2 b j') = _
  rw [← hP]
  refine (Cert.LibRowOps.pad_high2_apply (N := 100000) (P := 352) x _ _ _ b j').trans ?_
  split
  · rw [← hx]; rfl
  · rw [← hv]
    show V main_c_0 (Shape.Idx.first h_S_) = V main_c_0 ix0
    exact congrArg (V main_c_0) (eq_ix0 _)

/-- The fifth stretch leaves the padded order as it was. -/
theorem after1_4_v5 (V : Valuation τ sig (Elt Ideal)) : StableHlo.after hostOps1_4 V main_v5 = V main_v5 :=
  StableHlo.after_of_writes_sub hostOps1_4 V hostOps1_4_writes (by decide)

/-- The value every later statement reads the padded keys by. -/
def key (b : Fin 8) (j' : Fin 100352) : BitVec 32 :=
  if h : j'.val < 100000 then flat U b (ord U b ⟨j'.val, h⟩) else 32768#32

/-- The padded keys hold, at `(b, j')`, the key of the point at position `ord U b j'` for `j' < 100000`, the
    sentinel 32768 past it. -/
theorem H6_v6 (b : Fin 8) (j' : Fin 100352) :
    H6 U main_v6 (ix2 b j')
      = if h : j'.val < 100000 then flat U b (ord U b ⟨j'.val, h⟩) else 32768#32 := by
  refine (after1_4_v6 (H5 U) b j').trans ?_
  split
  · rename_i h
    rw [show H5 U main_v3 = H4 U main_v3 from after1_3_v3 (H4 U)]
    exact H4_v3 U b ⟨j'.val, h⟩
  · exact congrFun (after1_3_c0 (H4 U)) ix0

theorem H6_v6_key (b : Fin 8) (j' : Fin 100352) : H6 U main_v6 (ix2 b j') = key U b j' := H6_v6 U b j'

theorem H6_v5 (b : Fin 8) (j' : Fin 100352) :
    H6 U main_v5 (ix2 b j')
      = if h : j'.val < 100000 then BitVec.ofNat 32 (ord U b ⟨j'.val, h⟩).val else 0#32 := by
  rw [show H6 U main_v5 = H5 U main_v5 from after1_4_v5 (H5 U)]
  exact H5_v5 U b j'

end Cert.KernelIdeal.Host

end
-- ==== Proof.KHostTake3.lean ====
/-
  The seventh stretch of host operations: the features taken along the points at the repeated order.

  The stretch is the printed form of a take along the last axis: the index words, negative ones wrapped, are
  given a unit last axis; a mask says which of them are positions of the row; the features are gathered at
  them; and where the mask fails a fill value is written instead.  Where the index word at `(b, ch, j')` is
  the word of a position `k` of the row, the result there is the feature at `(b, ch, k)`.

  The 22 operations are read in four runs — the 8 up to the start indices, the 7 up to the two comparisons with the
  bounds, the 3 up to the mask, the last 4 —
  each over an arbitrary valuation, and the readings are then chained.
-/
import proofs.«136896_j63960652972185_2_alg».proof.Proof.KHostDefs
import proofs.«136896_j63960652972185_2_alg».proof.Proof.LibTakeAlongFill
import Idealize.ShloMosaic.Lib.StableHlo.Run

set_option maxRecDepth 16384

noncomputable section

namespace Cert.KernelIdeal.Host

open Cert.KernelIdeal Cert.KernelIdeal.Gen
open Idealize.ShloMosaic Idealize.ShloMosaic.TcCoe Idealize.ShloMosaic.ValueIdx

/-! ## The stretch in four runs -/

/-- The first 8 operations: the index words wrapped and given a unit last axis. -/
abbrev opsA : List (HloOp τ sig (Elt Ideal)) :=
  [ StableHlo.TRef.nullary (.of main_call3_c : StableHlo.TRef sig ⟨S_, .i32⟩) (constantI S_ 32 0#32),
    StableHlo.TRef.unary (.of main_call3_c : StableHlo.TRef sig ⟨S_, .i32⟩) (.of main_call3_v0 : StableHlo.TRef sig ⟨S8x64x100352, .i32⟩) (broadcastInDim S8x64x100352 ![] bcast_S_S8x64x100352),
    StableHlo.TRef.binary (.of main_v8 : StableHlo.TRef sig ⟨S8x64x100352, .i32⟩) (.of main_call3_v0 : StableHlo.TRef sig ⟨S8x64x100352, .i32⟩) (.of main_call3_v1 : StableHlo.TRef sig ⟨S8x64x100352, .i1⟩) (cmpi .slt),
    StableHlo.TRef.nullary (.of main_call3_c_0 : StableHlo.TRef sig ⟨S_, .i32⟩) (constantI S_ 32 100000#32),
    StableHlo.TRef.unary (.of main_call3_c_0 : StableHlo.TRef sig ⟨S_, .i32⟩) (.of main_call3_v2 : StableHlo.TRef sig ⟨S8x64x100352, .i32⟩) (broadcastInDim S8x64x100352 ![] bcast_S_S8x64x100352),
    StableHlo.TRef.binary (.of main_v8 : StableHlo.TRef sig ⟨S8x64x100352, .i32⟩) (.of main_call3_v2 : StableHlo.TRef sig ⟨S8x64x100352, .i32⟩) (.of main_call3_v3 : StableHlo.TRef sig ⟨S8x64x100352, .i32⟩) addi,
    StableHlo.TRef.ternary (.of main_call3_v1 : StableHlo.TRef sig ⟨S8x64x100352, .i1⟩) (.of main_call3_v3 : StableHlo.TRef sig ⟨S8x64x100352, .i32⟩) (.of main_v8 : StableHlo.TRef sig ⟨S8x64x100352, .i32⟩) (.of main_call3_v4 : StableHlo.TRef sig ⟨S8x64x100352, .i32⟩) select,
    StableHlo.TRef.reshape (.of main_call3_v4 : StableHlo.TRef sig ⟨S8x64x100352, .i32⟩) (.of main_call3_v5 : StableHlo.TRef sig ⟨S8x64x100352x1, .i32⟩) rfl shapeCasts_S8x64x100352_S8x64x100352x1 ]

/-- The next 7 operations: the two comparisons of the start indices with the bounds. -/
abbrev opsB1 : List (HloOp τ sig (Elt Ideal)) :=
  [ StableHlo.TRef.nullary (.of main_call3_c_1 : StableHlo.TRef sig ⟨S1, .i32⟩) (constantI S1 32 99999#32),
    StableHlo.TRef.nullary (.of main_call3_c_2 : StableHlo.TRef sig ⟨S_, .i32⟩) (constantI S_ 32 0#32),
    StableHlo.TRef.unary (.of main_call3_c_2 : StableHlo.TRef sig ⟨S_, .i32⟩) (.of main_call3_v6 : StableHlo.TRef sig ⟨S8x64x100352x1, .i32⟩) (broadcastInDim S8x64x100352x1 ![] bcast_S_S8x64x100352x1),
    StableHlo.TRef.binary (.of main_call3_v5 : StableHlo.TRef sig ⟨S8x64x100352x1, .i32⟩) (.of main_call3_v6 : StableHlo.TRef sig ⟨S8x64x100352x1, .i32⟩) (.of main_call3_v7 : StableHlo.TRef sig ⟨S8x64x100352x1, .i1⟩) (cmpi .sge),
    StableHlo.TRef.unary (.of main_call3_c_1 : StableHlo.TRef sig ⟨S1, .i32⟩) (.of main_call3_v8 : StableHlo.TRef sig ⟨S1x1x1x1, .i32⟩) (broadcastInDim S1x1x1x1 ![3] bcast_S1_S1x1x1x1_3),
    StableHlo.TRef.unary (.of main_call3_v8 : StableHlo.TRef sig ⟨S1x1x1x1, .i32⟩) (.of main_call3_v9 : StableHlo.TRef sig ⟨S8x64x100352x1, .i32⟩) (broadcastInDim S8x64x100352x1 ![0, 1, 2, 3] bcast_S1x1x1x1_S8x64x100352x1_0_1_2_3),
    StableHlo.TRef.binary (.of main_call3_v5 : StableHlo.TRef sig ⟨S8x64x100352x1, .i32⟩) (.of main_call3_v9 : StableHlo.TRef sig ⟨S8x64x100352x1, .i32⟩) (.of main_call3_v10 : StableHlo.TRef sig ⟨S8x64x100352x1, .i1⟩) (cmpi .sle) ]

/-- The next 3 operations: the in-bounds mask from the two comparisons. -/
abbrev opsB2 : List (HloOp τ sig (Elt Ideal)) :=
  [ StableHlo.TRef.binary (.of main_call3_v7 : StableHlo.TRef sig ⟨S8x64x100352x1, .i1⟩) (.of main_call3_v10 : StableHlo.TRef sig ⟨S8x64x100352x1, .i1⟩) (.of main_call3_v11 : StableHlo.TRef sig ⟨S8x64x100352x1, .i1⟩) andi,
    StableHlo.TRef.nullary (.of main_call3_c_3 : StableHlo.TRef sig ⟨S_, .i1⟩) (constantI S_ 1 1#1),
    StableHlo.TRef.binary (.of main_call3_v11 : StableHlo.TRef sig ⟨S8x64x100352x1, .i1⟩) (.of main_call3_c_3 : StableHlo.TRef sig ⟨S_, .i1⟩) (.of main_call3_v12 : StableHlo.TRef sig ⟨S8x64x100352, .i1⟩) (fun x v => Host.reduce IntOp.andi x v reducesTo_S8x64x100352x1_S8x64x100352_d3 h_S_) ]

/-- The last 4 operations: the gather, the fill value, the choice between them. -/
abbrev opsC : List (HloOp τ sig (Elt Ideal)) :=
  [ StableHlo.TRef.binary (.of main_arg0 : StableHlo.TRef sig ⟨S8x64x100000, .f32⟩) (.of main_call3_v5 : StableHlo.TRef sig ⟨S8x64x100352x1, .i32⟩) (.of main_call3_v13 : StableHlo.TRef sig ⟨S8x64x100352, .f32⟩) (fun x i => Host.gather gather_S8x64x100000_S8x64x100352x1_S8x64x100352_n_2_01_01_2_3_111 x i),
    StableHlo.TRef.nullary (.of main_call3_cst : StableHlo.TRef sig ⟨S_, .f32⟩) (constant (F := Ideal) S_ .f32 0x7FC00000#32),
    StableHlo.TRef.unary (.of main_call3_cst : StableHlo.TRef sig ⟨S_, .f32⟩) (.of main_call3_v14 : StableHlo.TRef sig ⟨S8x64x100352, .f32⟩) (broadcastInDim S8x64x100352 ![] bcast_S_S8x64x100352),
    StableHlo.TRef.ternary (.of main_call3_v12 : StableHlo.TRef sig ⟨S8x64x100352, .i1⟩) (.of main_call3_v13 : StableHlo.TRef sig ⟨S8x64x100352, .f32⟩) (.of main_call3_v14 : StableHlo.TRef sig ⟨S8x64x100352, .f32⟩) (.of main_v9 : StableHlo.TRef sig ⟨S8x64x100352, .f32⟩) select ]

/-- The stretch is the three runs in order. -/
theorem ops_split : (hostOps1_6 : List (HloOp τ sig (Elt Ideal))) = opsA ++ (opsB1 ++ (opsB2 ++ opsC)) := rfl

/-- Running a list of operations that is two lists in order is running the first, then the second. -/
theorem after_append (l₁ l₂ : List (HloOp τ sig (Elt Ideal))) (V : Valuation τ sig (Elt Ideal)) :
    StableHlo.after (l₁ ++ l₂) V = StableHlo.after l₂ (StableHlo.after l₁ V) := by
  induction l₁ generalizing V with
  | nil => rfl
  | cons op l ih => exact ih (op.result V)

section Runs
variable (W : Valuation τ sig (Elt Ideal))

/-! ## The first run -/

/-- The start indices after the first run, from the index words before it. -/
theorem runA_v5 :
    (StableHlo.after opsA W main_call3_v5 : S8x64x100352x1.Idx → BitVec 32)
      = shapeCast S8x64x100352x1
          (select (cmpi .slt (W main_v8 : S8x64x100352.Idx → BitVec 32)
              (broadcastInDim S8x64x100352 ![] bcast_S_S8x64x100352 (constantI S_ 32 0#32)))
            (addi (W main_v8 : S8x64x100352.Idx → BitVec 32)
              (broadcastInDim S8x64x100352 ![] bcast_S_S8x64x100352 (constantI S_ 32 100000#32)))
            (W main_v8 : S8x64x100352.Idx → BitVec 32))
          shapeCasts_S8x64x100352_S8x64x100352x1 := by
  show StableHlo.after opsA W (Proc.devRef .tc main_call3_v5) = _
  dsimp only [opsA]
  after_results
  rfl

/-- The first run does not write the features. -/
theorem runA_arg0 : StableHlo.after opsA W main_arg0 = W main_arg0 := by
  show StableHlo.after opsA W (Proc.devRef .tc main_arg0) = _
  dsimp only [opsA]
  after_results

/-! ## The second run -/

/-- The two comparisons after the second run, from the start indices before it. -/
theorem runB1_v7 :
    (StableHlo.after opsB1 W main_call3_v7 : S8x64x100352x1.Idx → BitVec 1)
      = cmpi .sge (W main_call3_v5 : S8x64x100352x1.Idx → BitVec 32)
          (broadcastInDim S8x64x100352x1 ![] bcast_S_S8x64x100352x1 (constantI S_ 32 0#32)) := by
  show StableHlo.after opsB1 W (Proc.devRef .tc main_call3_v7) = _
  dsimp only [opsB1]
  after_results
  rfl
theorem runB1_v10 :
    (StableHlo.after opsB1 W main_call3_v10 : S8x64x100352x1.Idx → BitVec 1)
      = cmpi .sle (W main_call3_v5 : S8x64x100352x1.Idx → BitVec 32)
          (broadcastInDim S8x64x100352x1 ![0, 1, 2, 3] bcast_S1x1x1x1_S8x64x100352x1_0_1_2_3
            (broadcastInDim S1x1x1x1 ![3] bcast_S1_S1x1x1x1_3 (constantI S1 32 99999#32))) := by
  show StableHlo.after opsB1 W (Proc.devRef .tc main_call3_v10) = _
  dsimp only [opsB1]
  after_results
  rfl

/-- The second run writes neither the start indices nor the features. -/
theorem runB1_v5 : StableHlo.after opsB1 W main_call3_v5 = W main_call3_v5 := by
  show StableHlo.after opsB1 W (Proc.devRef .tc main_call3_v5) = _
  dsimp only [opsB1]
  after_results
theorem runB1_arg0 : StableHlo.after opsB1 W main_arg0 = W main_arg0 := by
  show StableHlo.after opsB1 W (Proc.devRef .tc main_arg0) = _
  dsimp only [opsB1]
  after_results

/-! ## The third run -/

attribute [local irreducible] Host.reduce Host.gather in
/-- The mask after the third run, from the two comparisons before it.  (The reduction and the gather are kept
    folded while the two sides are compared.) -/
theorem runB2_v12 :
    (StableHlo.after opsB2 W main_call3_v12 : S8x64x100352.Idx → BitVec 1)
      = Host.reduce IntOp.andi
          (andi (W main_call3_v7 : S8x64x100352x1.Idx → BitVec 1) (W main_call3_v10 : S8x64x100352x1.Idx → BitVec 1))
          (constantI S_ 1 1#1) reducesTo_S8x64x100352x1_S8x64x100352_d3 h_S_ := by
  show StableHlo.after opsB2 W (Proc.devRef .tc main_call3_v12) = _
  dsimp only [opsB2]
  after_results
  rfl

/-- The third run writes neither the start indices nor the features. -/
theorem runB2_v5 : StableHlo.after opsB2 W main_call3_v5 = W main_call3_v5 := by
  show StableHlo.after opsB2 W (Proc.devRef .tc main_call3_v5) = _
  dsimp only [opsB2]
  after_results
theorem runB2_arg0 : StableHlo.after opsB2 W main_arg0 = W main_arg0 := by
  show StableHlo.after opsB2 W (Proc.devRef .tc main_arg0) = _
  dsimp only [opsB2]
  after_results

/-! ## The fourth run -/

/-- The sorted features after the fourth run, from the mask, the features and the start indices before it. -/
theorem runC_v9 :
    (StableHlo.after opsC W main_v9 : S8x64x100352.Idx → Elt Ideal .f32)
      = select (W main_call3_v12 : S8x64x100352.Idx → BitVec 1)
          (Host.gather gather_S8x64x100000_S8x64x100352x1_S8x64x100352_n_2_01_01_2_3_111
            (W main_arg0 : S8x64x100000.Idx → Elt Ideal .f32)
            (W main_call3_v5 : S8x64x100352x1.Idx → BitVec 32))
          (broadcastInDim S8x64x100352 ![] bcast_S_S8x64x100352 (constant (F := Ideal) S_ .f32 0x7FC00000#32)) := by
  show StableHlo.after opsC W (Proc.devRef .tc main_v9) = _
  dsimp only [opsC]
  after_results
  rfl

end Runs

/-! ## The stretch -/

/-- After the seventh stretch the sorted features hold, at `(b, ch, j')`, the features at `(b, ch, k)` wherever
    the repeated order held the word of a position `k` of the row. -/
theorem after1_6_v9 (V : Valuation τ sig (Elt Ideal)) (b : Fin 8) (ch : Fin 64) (j' : Fin 100352) (k : Fin 100000)
    (hk : V main_v8 (ix3 b ch j') = BitVec.ofNat 32 k.val) :
    StableHlo.after hostOps1_6 V main_v9 (ix3 b ch j') = V main_arg0 (ix3 b ch k) := by
  have ho : (V main_v8 (ix3 b ch j')).toNat < 2 ^ 31 := by
    rw [hk]; have := k.isLt; simp only [BitVec.toNat_ofNat]; omega
  rw [ops_split, after_append, after_append, after_append]
  have eA := runA_v5 V
  have eA0 := runA_arg0 V
  generalize StableHlo.after opsA V = W1 at eA eA0 ⊢
  have e7 := runB1_v7 W1
  have e10 := runB1_v10 W1
  have e5 := runB1_v5 W1
  have e0 := runB1_arg0 W1
  generalize StableHlo.after opsB1 W1 = W2 at e7 e10 e5 e0 ⊢
  have e12 := runB2_v12 W2
  have e5' := runB2_v5 W2
  have e0' := runB2_arg0 W2
  generalize StableHlo.after opsB2 W2 = W3 at e12 e5' e0' ⊢
  refine (congrFun (runC_v9 W3) (ix3 b ch j')).trans ?_
  rw [e12, e7, e10, e5', e5, e0', e0, eA0]
  generalize (W1 main_call3_v5 : S8x64x100352x1.Idx → BitVec 32) = i5 at eA ⊢
  refine Cert.LibTakeAlongFill.takeAlong3_apply (N := 100000) (by decide) (by decide) _ _ i5 _ _ _ _ _ _ b ch j' k ?_
    rfl rfl rfl
  rw [eA]
  exact (Cert.LibTakeAlongFill.wrapIdx3_apply _ _ _ _ b ch j' (0 : Fin 1) rfl ho).trans hk

end Cert.KernelIdeal.Host

end
-- ==== Proof.KHost3.lean ====
/-
  The last three stretches of host operations between the two kernel regions, read with coordinates over an arbitrary
  valuation `U` of the buffers before the first stretch.

  * The padded order `[8, 100352]` is repeated over the 64 channels to `[8, 64, 100352]`.
  * The features `[8, 64, 100000]` are taken along the points at the repeated order: at `(b, ch, j')` the sorted features
    hold channel `ch` of the point at position `ord U b j'` for `j' < 100000`, and of point 0 past it (the padded order
    entries are zero, a position of the row: the take's fill value plays no part).
  * The padded keys `[8, 100352]` are given a unit middle axis: `[8, 1, 100352]`.
-/
import proofs.«136896_j63960652972185_2_alg».proof.Proof.KHost2
import proofs.«136896_j63960652972185_2_alg».proof.Proof.KHostTake3

noncomputable section

namespace Cert.KernelIdeal.Host

open Cert.KernelIdeal Cert.KernelIdeal.Gen
open Idealize.ShloMosaic Idealize.ShloMosaic.TcCoe Idealize.ShloMosaic.ValueIdx

variable (U : Valuation τ sig (Elt Ideal))

/-! ## The order repeated over the channels -/

/-- After the sixth stretch the repeated order holds, at `(b, ch, j')`, the padded order's entry at `(b, j')`. -/
theorem after1_5_v8 (V : Valuation τ sig (Elt Ideal)) (b : Fin 8) (ch : Fin 64) (j' : Fin 100352) :
    StableHlo.after hostOps1_5 V main_v8 (ix3 b ch j') = V main_v5 (ix2 b j') := by
  show StableHlo.after hostOps1_5 V (Proc.devRef .tc main_v8) (ix3 b ch j') = _
  dsimp only [hostOps1_5]
  after_results
  refine (Cert.LibRowOps.bcast_a1b_acb_apply _ _ b ch j').trans ?_
  exact Cert.LibRowOps.bcast_ab_a1b_apply _ _ b (0 : Fin 1) j'

theorem after1_5_v6 (V : Valuation τ sig (Elt Ideal)) : StableHlo.after hostOps1_5 V main_v6 = V main_v6 :=
  StableHlo.after_of_writes_sub hostOps1_5 V hostOps1_5_writes (by decide)

theorem H7_v8 (b : Fin 8) (ch : Fin 64) (j' : Fin 100352) :
    H7 U main_v8 (ix3 b ch j')
      = if h : j'.val < 100000 then BitVec.ofNat 32 (ord U b ⟨j'.val, h⟩).val else 0#32 :=
  (after1_5_v8 (H6 U) b ch j').trans (H6_v5 U b j')

/-- None of the first six stretches writes the features. -/
theorem H7_arg0 : H7 U main_arg0 = U main_arg0 := by
  refine (StableHlo.after_of_writes_sub hostOps1_5 _ hostOps1_5_writes (by decide)).trans ?_
  refine (StableHlo.after_of_writes_sub hostOps1_4 _ hostOps1_4_writes (by decide)).trans ?_
  refine (StableHlo.after_of_writes_sub hostOps1_3 _ hostOps1_3_writes (by decide)).trans ?_
  refine (StableHlo.after_of_writes_sub hostOps1_2 _ hostOps1_2_writes (by decide)).trans ?_
  refine (StableHlo.after_of_writes_sub hostOps1_1 _ hostOps1_1_writes (by decide)).trans ?_
  exact StableHlo.after_of_writes_sub hostOps1 _ hostOps1_writes (by decide)

/-! ## The features in sorted order -/

theorem after1_6_v6 (V : Valuation τ sig (Elt Ideal)) : StableHlo.after hostOps1_6 V main_v6 = V main_v6 :=
  StableHlo.after_of_writes_sub hostOps1_6 V hostOps1_6_writes (by decide)

theorem H8_v9 (b : Fin 8) (ch : Fin 64) (j' : Fin 100352) :
    H8 U main_v9 (ix3 b ch j')
      = if h : j'.val < 100000 then feat U b ch (ord U b ⟨j'.val, h⟩) else feat U b ch ⟨0, by decide⟩ := by
  by_cases h : j'.val < 100000
  · rw [dif_pos h]
    refine (after1_6_v9 (H7 U) b ch j' (ord U b ⟨j'.val, h⟩) ?_).trans ?_
    · rw [H7_v8, dif_pos h]
    · rw [H7_arg0]; rfl
  · rw [dif_neg h]
    refine (after1_6_v9 (H7 U) b ch j' ⟨0, by decide⟩ ?_).trans ?_
    · rw [H7_v8, dif_neg h]
    · rw [H7_arg0]; rfl

/-! ## The last stretch -/

/-- After the eighth stretch the keys' three-axis form holds, at `(b, 0, j')`, the padded keys' entry at `(b, j')`. -/
theorem after1_7_v10 (V : Valuation τ sig (Elt Ideal)) (b : Fin 8) (j' : Fin 100352) :
    StableHlo.after hostOps1_7 V main_v10 (ix3 b (0 : Fin 1) j') = V main_v6 (ix2 b j') := by
  show StableHlo.after hostOps1_7 V (Proc.devRef .tc main_v10) (ix3 b (0 : Fin 1) j') = _
  dsimp only [hostOps1_7]
  after_results
  exact Cert.LibRowOps.bcast_ab_a1b_apply _ _ b (0 : Fin 1) j'

theorem after1_7_v9 (V : Valuation τ sig (Elt Ideal)) : StableHlo.after hostOps1_7 V main_v9 = V main_v9 :=
  StableHlo.after_of_writes_sub hostOps1_7 V hostOps1_7_writes (by decide)

/-- The padded keys are what they were after the fifth stretch. -/
theorem H8_v6 : H8 U main_v6 = H6 U main_v6 :=
  (after1_6_v6 (H7 U)).trans (after1_5_v6 (H6 U))

/-- The keys' three-axis form holds, at `(b, 0, j')`, what the padded keys hold at `(b, j')`. -/
theorem H9_v10 (b : Fin 8) (j' : Fin 100352) :
    H9 U main_v10 (ix3 b (0 : Fin 1) j')
      = if h : j'.val < 100000 then flat U b (ord U b ⟨j'.val, h⟩) else 32768#32 := by
  refine (after1_7_v10 (H8 U) b j').trans ?_
  rw [H8_v6]
  exact H6_v6 U b j'

/-- The sorted features hold, at `(b, ch, j')`, channel `ch` of the point at position `ord U b j'` for
    `j' < 100000`, of point 0 past it. -/
theorem H9_v9 (b : Fin 8) (ch : Fin 64) (j' : Fin 100352) :
    H9 U main_v9 (ix3 b ch j')
      = if h : j'.val < 100000 then feat U b ch (ord U b ⟨j'.val, h⟩) else feat U b ch ⟨0, by decide⟩ := by
  rw [show H9 U main_v9 = H8 U main_v9 from after1_7_v9 (H8 U)]
  exact H8_v9 U b ch j'

end Cert.KernelIdeal.Host

end
-- ==== Proof.KHost5.lean ====
/-
  What the last stretch of host operations between the two kernel regions leaves, read with coordinates, and the
  buffers the eight stretches leave alone.

  Write K for the padded sorted keys, an 8 × 100352 array of 32-bit words written by the fifth stretch and by no
  later one.  The last stretch cuts each row of K into 98 tiles of 1024 keys, and writes the signed minimum and the
  signed maximum of each tile into two 8 × 98 tables; it also writes K once more with a unit middle axis.

  * after2_of … after9_of, after9_of_all: a buffer outside the list of buffers a stretch writes is the same before
    and after it; outside all eight lists, it is after the last stretch what it was before the first.
  * arg0_eq, arg1_eq, v0_0_eq, v0_1_eq: the two arguments and the two outputs of the first region are left alone.
  * v9_eq, v6_eq, v6_eq8, v6_eq98: the gathered features are not written by the last stretch; K is not written after
    the fifth.
  * last_v10 … last_v13: the four arrays the last stretch writes, from any contents before it; v10_array … v13_array:
    the same after the first seven stretches.
  * v10_eq: the copy of K with a unit middle axis reads K.
  * v11_eq: tile t of row b at offset l is K at (b, t·1024 + l).
  * tables_bound: every key of tile t of row b lies, as a signed integer, between the two tables' entries at (b, t).
-/
import proofs.«136896_j63960652972185_2_alg».proof.Proof.KHostDefs
import proofs.«136896_j63960652972185_2_alg».proof.Proof.LibReduceBound
import proofs.«136896_j63960652972185_2_alg».proof.Proof.LibRowOps
import Idealize.ShloMosaic.Lib.StableHlo.Run

noncomputable section

namespace Cert.KernelIdeal.Host

open Cert.KernelIdeal Cert.KernelIdeal.Gen
open Idealize.ShloMosaic Idealize.ShloMosaic.TcCoe Idealize.ShloMosaic.ValueIdx Idealize.ShloMosaic.StableHlo

variable (U : Valuation τ sig (Elt Ideal))

/-! ## What each stretch leaves alone -/

theorem after2_of (r : Ref sig .tc) (h : r ∉ hostOps1_W) : H2 U r = U r :=
  StableHlo.after_of_writes_sub hostOps1 _ hostOps1_writes h
theorem after3_of (r : Ref sig .tc) (h : r ∉ hostOps1_1_W) : H3 U r = H2 U r :=
  StableHlo.after_of_writes_sub hostOps1_1 _ hostOps1_1_writes h
theorem after4_of (r : Ref sig .tc) (h : r ∉ hostOps1_2_W) : H4 U r = H3 U r :=
  StableHlo.after_of_writes_sub hostOps1_2 _ hostOps1_2_writes h
theorem after5_of (r : Ref sig .tc) (h : r ∉ hostOps1_3_W) : H5 U r = H4 U r :=
  StableHlo.after_of_writes_sub hostOps1_3 _ hostOps1_3_writes h
theorem after6_of (r : Ref sig .tc) (h : r ∉ hostOps1_4_W) : H6 U r = H5 U r :=
  StableHlo.after_of_writes_sub hostOps1_4 _ hostOps1_4_writes h
theorem after7_of (r : Ref sig .tc) (h : r ∉ hostOps1_5_W) : H7 U r = H6 U r :=
  StableHlo.after_of_writes_sub hostOps1_5 _ hostOps1_5_writes h
theorem after8_of (r : Ref sig .tc) (h : r ∉ hostOps1_6_W) : H8 U r = H7 U r :=
  StableHlo.after_of_writes_sub hostOps1_6 _ hostOps1_6_writes h
theorem after9_of (r : Ref sig .tc) (h : r ∉ hostOps1_7_W) : H9 U r = H8 U r :=
  StableHlo.after_of_writes_sub hostOps1_7 _ hostOps1_7_writes h

/-- A buffer none of the eight stretches writes holds after the last what it held before the first. -/
theorem after9_of_all (r : Ref sig .tc) (h1 : r ∉ hostOps1_W) (h2 : r ∉ hostOps1_1_W) (h3 : r ∉ hostOps1_2_W)
    (h4 : r ∉ hostOps1_3_W) (h5 : r ∉ hostOps1_4_W) (h6 : r ∉ hostOps1_5_W) (h7 : r ∉ hostOps1_6_W) (h8 : r ∉ hostOps1_7_W) :
    H9 U r = U r :=
  (after9_of U r h8).trans <| (after8_of U r h7).trans <| (after7_of U r h6).trans <| (after6_of U r h5).trans <|
    (after5_of U r h4).trans <| (after4_of U r h3).trans <| (after3_of U r h2).trans (after2_of U r h1)

/-! ## The arguments and the first region's outputs -/

/-- The features are left alone. -/
theorem arg0_eq : H9 U main_arg0 = U main_arg0 :=
  after9_of_all U main_arg0 (by decide) (by decide) (by decide) (by decide) (by decide) (by decide) (by decide) (by decide)
/-- The points' coordinates are left alone. -/
theorem arg1_eq : H9 U main_arg1 = U main_arg1 :=
  after9_of_all U main_arg1 (by decide) (by decide) (by decide) (by decide) (by decide) (by decide) (by decide) (by decide)
/-- The first region's first output is left alone. -/
theorem v0_0_eq : H9 U main_v0_0 = U main_v0_0 :=
  after9_of_all U main_v0_0 (by decide) (by decide) (by decide) (by decide) (by decide) (by decide) (by decide) (by decide)
/-- The first region's second output is left alone. -/
theorem v0_1_eq : H9 U main_v0_1 = U main_v0_1 :=
  after9_of_all U main_v0_1 (by decide) (by decide) (by decide) (by decide) (by decide) (by decide) (by decide) (by decide)

/-! ## The gathered features and the padded sorted keys -/

/-- The last stretch does not write the gathered features. -/
theorem v9_eq : H9 U main_v9 = H8 U main_v9 := after9_of U main_v9 (by decide)
/-- The last stretch does not write the padded sorted keys. -/
theorem v6_eq : H9 U main_v6 = H8 U main_v6 := after9_of U main_v6 (by decide)
/-- Nor do the two stretches before it: the keys are as the fifth stretch wrote them. -/
theorem v6_eq8 : H8 U main_v6 = H6 U main_v6 := (after8_of U main_v6 (by decide)).trans (after7_of U main_v6 (by decide))
theorem v6_eq98 : H9 U main_v6 = H6 U main_v6 := (v6_eq U).trans (v6_eq8 U)

/-! ## The last stretch, from any contents

The last stretch's six operations read the padded sorted keys only; what they leave in the four arrays they write
is stated here from arbitrary contents V before the stretch. -/

section Last
variable (V : Valuation τ sig (Elt Ideal))

/-- The copy of the keys with a unit middle axis, as an array. -/
theorem last_v10 :
    (StableHlo.after hostOps1_7 V main_v10 : S8x1x100352.Idx → BitVec 32)
      = broadcastInDim S8x1x100352 ![0, 2] bcast_S8x100352_S8x1x100352_0_2 (V main_v6 : S8x100352.Idx → BitVec 32) := by
  dsimp only [hostOps1_7]
  after_results

/-- The keys cut into tiles, as an array. -/
theorem last_v11 :
    (StableHlo.after hostOps1_7 V main_v11 : S8x98x1024.Idx → BitVec 32)
      = shapeCast S8x98x1024 (V main_v6 : S8x100352.Idx → BitVec 32) shapeCasts_S8x100352_S8x98x1024 := by
  dsimp only [hostOps1_7]
  after_results
  rfl

/-- The table of the tiles' minima, as an array. -/
theorem last_v12 :
    (StableHlo.after hostOps1_7 V main_v12 : S8x98.Idx → BitVec 32)
      = Host.reduce IntOp.minsi (shapeCast S8x98x1024 (V main_v6 : S8x100352.Idx → BitVec 32) shapeCasts_S8x100352_S8x98x1024)
          (constantI S_ 32 2147483647#32) reducesTo_S8x98x1024_S8x98_d2 h_S_ := by
  dsimp only [hostOps1_7]
  after_results
  rfl

/-- The table of the tiles' maxima, as an array. -/
theorem last_v13 :
    (StableHlo.after hostOps1_7 V main_v13 : S8x98.Idx → BitVec 32)
      = Host.reduce IntOp.maxsi (shapeCast S8x98x1024 (V main_v6 : S8x100352.Idx → BitVec 32) shapeCasts_S8x100352_S8x98x1024)
          (constantI S_ 32 2147483648#32) reducesTo_S8x98x1024_S8x98_d2 h_S_ := by
  dsimp only [hostOps1_7]
  after_results
  rfl

end Last

/-! ## The last stretch's results -/

/-- The copy of the keys with a unit middle axis, as an array. -/
theorem v10_array :
    (H9 U main_v10 : S8x1x100352.Idx → BitVec 32)
      = broadcastInDim S8x1x100352 ![0, 2] bcast_S8x100352_S8x1x100352_0_2 (H8 U main_v6 : S8x100352.Idx → BitVec 32) :=
  last_v10 (H8 U)

/-- The copy of the keys with a unit middle axis reads the keys. -/
theorem v10_eq (b : Fin 8) (j : Fin 100352) : H9 U main_v10 (ix3 b (0 : Fin 1) j) = H8 U main_v6 (ix2 b j) := by
  rw [v10_array, Cert.LibRowOps.bcast_ab_a1b_apply]

/-- The keys cut into tiles, as an array. -/
theorem v11_array :
    (H9 U main_v11 : S8x98x1024.Idx → BitVec 32)
      = shapeCast S8x98x1024 (H8 U main_v6 : S8x100352.Idx → BitVec 32) shapeCasts_S8x100352_S8x98x1024 :=
  last_v11 (H8 U)

/-- Tile t of row b at offset l is the key at position t·1024 + l of row b. -/
theorem v11_eq (b : Fin 8) (t : Fin 98) (l : Fin 1024) :
    H9 U main_v11 (ix3 b t l) = H8 U main_v6 (ix2 b ⟨t.val * 1024 + l.val, by omega⟩) := by
  rw [v11_array]
  exact Cert.LibRowOps.reshape_ab_atk_apply _ _ (by norm_num) b t l (by omega)

/-- The table of the tiles' minima, as an array. -/
theorem v12_array :
    (H9 U main_v12 : S8x98.Idx → BitVec 32)
      = Host.reduce IntOp.minsi (shapeCast S8x98x1024 (H8 U main_v6 : S8x100352.Idx → BitVec 32) shapeCasts_S8x100352_S8x98x1024)
          (constantI S_ 32 2147483647#32) reducesTo_S8x98x1024_S8x98_d2 h_S_ :=
  last_v12 (H8 U)

/-- The table of the tiles' maxima, as an array. -/
theorem v13_array :
    (H9 U main_v13 : S8x98.Idx → BitVec 32)
      = Host.reduce IntOp.maxsi (shapeCast S8x98x1024 (H8 U main_v6 : S8x100352.Idx → BitVec 32) shapeCasts_S8x100352_S8x98x1024)
          (constantI S_ 32 2147483648#32) reducesTo_S8x98x1024_S8x98_d2 h_S_ :=
  last_v13 (H8 U)

/-- Every key of tile t of row b lies, as a signed integer, between the minimum and the maximum recorded for the tile. -/
theorem tables_bound (b : Fin 8) (t : Fin 98) (l : Fin 1024) :
    (H9 U main_v12 (ix2 b t)).toInt ≤ (H8 U main_v6 (ix2 b ⟨t.val * 1024 + l.val, by omega⟩)).toInt
      ∧ (H8 U main_v6 (ix2 b ⟨t.val * 1024 + l.val, by omega⟩)).toInt ≤ (H9 U main_v13 (ix2 b t)).toInt := by
  have hk : shapeCast S8x98x1024 (H8 U main_v6 : S8x100352.Idx → BitVec 32) shapeCasts_S8x100352_S8x98x1024 (ix3 b t l)
      = H8 U main_v6 (ix2 b ⟨t.val * 1024 + l.val, by omega⟩) :=
    Cert.LibRowOps.reshape_ab_atk_apply _ _ (by norm_num) b t l (by omega)
  rw [v12_array, v13_array, ← hk]
  exact ⟨Cert.LibReduceBound.reduce_minsi_le _ _ _ _ _ _ (Cert.LibReduceBound.drop_last3 _ b t l),
    Cert.LibReduceBound.le_reduce_maxsi _ _ _ _ _ _ (Cert.LibReduceBound.drop_last3 _ b t l)⟩

end Cert.KernelIdeal.Host

end
-- ==== Proof.LibScatterRows.lean ====
/-
  Rows added into a table, for extents N, C, E: an operand `[N, C]`, a column of integer row numbers `[E, 1]`
  and updates `[E, C]`, scattered with update window axis 1, inserted window axis 0, the row number going to
  operand axis 0, index vector axis 1.  Update entry `(e, c)` lands at operand entry `(row e, c)`, `row e` the
  row number `idx[e, 0]` read signed, when `0 ≤ row e < N`, and is dropped otherwise.  So the accumulating
  scatter's entry `(i, c)` is the operand's entry plus the sum, over the `e` whose row number is `i`, of the
  updates' entries `(e, c)`.
-/
import Idealize.ShloMosaic.Lib.ValueIdx
import Idealize.ShloMosaic.PureOps.Ideal

noncomputable section

namespace Cert.LibScatterRows

open scoped BigOperators
open Idealize.ShloMosaic Idealize.ShloMosaic.ValueIdx

/-- Those dimension numbers; their conditions `wf` are decided on a program's literal shapes. -/
abbrev rowScatter (N C E : Nat)
    (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

section
variable {N C E w : Nat} (wf : ScatterDims.WF ⟨2, ![N, C]⟩ ⟨2, ![E, 1]⟩ ⟨2, ![E, C]⟩ [1] [0] [0] 1)
  (idx : IVec ⟨2, ![E, 1]⟩ w) (e : Fin E) (c : Fin C)

/-- On operand axis 0 the window starts at the row number of `e`, read signed. -/
theorem start_zero :
    (rowScatter N C E wf).start (ix2 e c) idx 0 = (idx (ix2 e (0 : Fin 1))).toInt := by
  unfold ScatterDims.start
  rw [dif_pos (show (0 : Fin 2) ∈ (rowScatter N C E wf).scatterDimsToOperandDims from List.mem_singleton.mpr rfl)]
  have hsi : (rowScatter N C E wf).siIdx (ix2 e c)
      ⟨List.idxOf (0 : Fin 2) (rowScatter N C E wf).scatterDimsToOperandDims,
        List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- On operand axis 1, which the map does not name, the window starts at 0. -/
theorem start_one : (rowScatter N C E wf).start (ix2 e c) idx 1 = 0 := by
  unfold ScatterDims.start
  rw [dif_neg (show (1 : Fin 2) ∉ ([0] : List (Fin 2)) from by decide)]

/-- Operand axis 0 is inserted: its window coordinate is 0. -/
theorem window_zero : (rowScatter N C E wf).window (ix2 e c) 0 = 0 := by
  unfold ScatterDims.window
  rw [dif_neg (show (0 : Fin 2) ∉ (rowScatter N C E wf).sKept from by
    show (0 : Fin 2) ∉ (List.finRange 2).filter (· ∉ ([0] : List (Fin 2)))
    decide)]

/-- Operand axis 1 takes the updates' axis 1: its window coordinate is `c`. -/
theorem window_one : (rowScatter N C E wf).window (ix2 e c) 1 = c.val := by
  unfold ScatterDims.window
  rw [dif_pos (show (1 : Fin 2) ∈ (rowScatter N C E wf).sKept from by
    show (1 : Fin 2) ∈ (List.finRange 2).filter (· ∉ ([0] : List (Fin 2)))
    decide)]
  rfl

/-- WHERE UPDATE ENTRY `(e, c)` LANDS: at row `idx[e, 0]` (read signed), column `c`, when that row is in
    `[0, N)`; nowhere otherwise. -/
theorem resultIdx_rows :
    (rowScatter N C E wf).resultIdx? (ix2 e c) idx
      = if h : 0 ≤ (idx (ix2 e (0 : Fin 1))).toInt ∧ (idx (ix2 e (0 : Fin 1))).toInt < (N : Int) then
          some (ix2 (⟨(idx (ix2 e (0 : Fin 1))).toInt.toNat, by omega⟩ : Fin N) c)
        else none := by
  unfold ScatterDims.resultIdx?
  by_cases h : 0 ≤ (idx (ix2 e (0 : Fin 1))).toInt ∧ (idx (ix2 e (0 : Fin 1))).toInt < (N : Int)
  · have hall : ∀ a : Fin 2,
        0 ≤ (rowScatter N C E wf).start (ix2 e c) idx a + ((rowScatter N C E wf).window (ix2 e c) a : Int)
        ∧ (rowScatter N C E wf).start (ix2 e c) idx a + ((rowScatter N C E wf).window (ix2 e c) a : Int)
          < (((⟨2, ![N, C]⟩ : Shape).size a : Nat) : Int) := by
      intro a
      match a with
      | ⟨0, _⟩ =>
        show 0 ≤ (rowScatter N C E wf).start (ix2 e c) idx 0 + ((rowScatter N C E wf).window (ix2 e c) 0 : Int)
          ∧ (rowScatter N C E wf).start (ix2 e c) idx 0 + ((rowScatter N C E wf).window (ix2 e c) 0 : Int) < (N : Int)
        rw [start_zero, window_zero]
        omega
      | ⟨1, _⟩ =>
        show 0 ≤ (rowScatter N C E wf).start (ix2 e c) idx 1 + ((rowScatter N C E wf).window (ix2 e c) 1 : Int)
          ∧ (rowScatter N C E wf).start (ix2 e c) idx 1 + ((rowScatter N C E wf).window (ix2 e c) 1 : Int) < (C : Int)
        rw [start_one, window_one]
        have := c.isLt
        omega
    rw [dif_pos hall, dif_pos h]
    congr 1
    funext a
    refine Fin.ext ?_
    match a with
    | ⟨0, _⟩ =>
      show ((rowScatter N C E wf).start (ix2 e c) idx 0 + ((rowScatter N C E wf).window (ix2 e c) 0 : Int)).toNat
        = (idx (ix2 e (0 : Fin 1))).toInt.toNat
      rw [start_zero, window_zero]
      simp
    | ⟨1, _⟩ =>
      show ((rowScatter N C E wf).start (ix2 e c) idx 1 + ((rowScatter N C E wf).window (ix2 e c) 1 : Int)).toNat
        = c.val
      rw [start_one, window_one]
      simp
  · have hnot : ¬ ∀ a : Fin 2,
        0 ≤ (rowScatter N C E wf).start (ix2 e c) idx a + ((rowScatter N C E wf).window (ix2 e c) a : Int)
        ∧ (rowScatter N C E wf).start (ix2 e c) idx a + ((rowScatter N C E wf).window (ix2 e c) a : Int)
          < (((⟨2, ![N, C]⟩ : Shape).size a : Nat) : Int) := by
      intro hall
      have h0 : 0 ≤ (rowScatter N C E wf).start (ix2 e c) idx 0 + ((rowScatter N C E wf).window (ix2 e c) 0 : Int)
          ∧ (rowScatter N C E wf).start (ix2 e c) idx 0 + ((rowScatter N C E wf).window (ix2 e c) 0 : Int) < (N : Int) :=
        hall 0
      rw [start_zero, window_zero] at h0
      exact h ⟨by omega, by omega⟩
    rw [dif_neg hnot, dif_neg h]

/-- Update entry `(e, c')` lands at operand entry `(i, c)` exactly when the row number of `e` is `i` and
    `c' = c`. -/
theorem resultIdx_rows_eq_some_iff (i : Fin N) (c' : Fin C) :
    (rowScatter N C E wf).resultIdx? (ix2 e c') idx = some (ix2 i c)
      ↔ (idx (ix2 e (0 : Fin 1))).toInt = (i.val : Int) ∧ c' = c := by
  rw [resultIdx_rows]
  constructor
  · intro h
    by_cases hr : 0 ≤ (idx (ix2 e (0 : Fin 1))).toInt ∧ (idx (ix2 e (0 : Fin 1))).toInt < (N : Int)
    · rw [dif_pos hr] at h
      have h' := Option.some.inj h
      have h0 := congrFun h' 0
      have h1 : c' = c := congrFun h' 1
      have h0' : (idx (ix2 e (0 : Fin 1))).toInt.toNat = i.val := congrArg Fin.val h0
      exact ⟨by omega, h1⟩
    · rw [dif_neg hr] at h
      exact absurd h (by simp)
  · rintro ⟨hr, rfl⟩
    have hi := i.isLt
    have hb : 0 ≤ (idx (ix2 e (0 : Fin 1))).toInt ∧ (idx (ix2 e (0 : Fin 1))).toInt < (N : Int) :=
      ⟨by omega, by omega⟩
    rw [dif_pos hb]
    have hx : (⟨(idx (ix2 e (0 : Fin 1))).toInt.toNat, by omega⟩ : Fin N) = i := Fin.ext (by
      show (idx (ix2 e (0 : Fin 1))).toInt.toNat = i.val
      omega)
    exact congrArg (fun t => some (ix2 t c')) hx

end

/-- THE ACCUMULATING SCATTER READ AT `(i, c)`: the operand's entry plus the updates' entries `(e, c)` over the
    `e` whose row number, read signed, is `i`. -/
theorem scatterAdd_rows_apply {N C E w : Nat} {φ : FTy}
    (wf : ScatterDims.WF ⟨2, ![N, C]⟩ ⟨2, ![E, 1]⟩ ⟨2, ![E, C]⟩ [1] [0] [0] 1)
    (x : (⟨2, ![N, C]⟩ : Shape).Idx → EReal) (idx : IVec ⟨2, ![E, 1]⟩ w)
    (upd : (⟨2, ![E, C]⟩ : Shape).Idx → EReal) (i : Fin N) (c : Fin C) :
    Host.scatterAdd (F := Ideal) (φ := φ) (rowScatter N C E wf) x idx upd (ix2 i c)
      = x (ix2 i c) + ∑ e : Fin E, if (idx (ix2 e (0 : Fin 1))).toInt = (i.val : Int) then upd (ix2 e c) else 0 := by
  show Ideal.hostScatterAdd (rowScatter N C E wf) x idx upd (ix2 i c) = _
  unfold Ideal.hostScatterAdd
  congr 1
  rw [Finset.sum_filter, sum_idx2]
  refine Finset.sum_congr rfl fun e _ => ?_
  by_cases hr : (idx (ix2 e (0 : Fin 1))).toInt = (i.val : Int)
  · rw [if_pos hr]
    have hterm : ∀ c' : Fin C,
        (if (rowScatter N C E wf).resultIdx? (ix2 e c') idx = some (ix2 i c) then upd (ix2 e c') else 0)
          = if c' = c then upd (ix2 e c') else 0 := by
      intro c'
      by_cases hc : c' = c
      · rw [if_pos hc, if_pos ((resultIdx_rows_eq_some_iff wf idx e c i c').2 ⟨hr, hc⟩)]
      · rw [if_neg hc, if_neg (fun h => hc ((resultIdx_rows_eq_some_iff wf idx e c i c').1 h).2)]
    rw [Finset.sum_congr rfl (fun c' _ => hterm c'), Finset.sum_ite_eq' Finset.univ c, if_pos (Finset.mem_univ c)]
  · rw [if_neg hr]
    exact Finset.sum_eq_zero fun c' _ =>
      if_neg (fun h => hr ((resultIdx_rows_eq_some_iff wf idx e c i c').1 h).1)

end Cert.LibScatterRows

end
-- ==== Proof.LibScatterVec.lean ====
/-
  Entries added into a vector, for extents N, E: an operand `[N]`, a column of integer positions `[E, 1]`
  and updates `[E]`, scattered with no update window axis, inserted window axis 0, the position going to
  operand axis 0, index vector axis 1.  Update entry `e` lands at operand entry `pos e`, `pos e` the
  position `idx[e, 0]` read signed, when `0 ≤ pos e < N`, and is dropped otherwise.  So the accumulating
  scatter's entry `i` is the operand's entry plus the sum, over the `e` whose position is `i`, of the
  updates' entries `e`.
-/
import Idealize.ShloMosaic.Lib.ValueIdx
import Idealize.ShloMosaic.PureOps.Ideal

noncomputable section

namespace Cert.LibScatterVec

open scoped BigOperators
open Idealize.ShloMosaic Idealize.ShloMosaic.ValueIdx

/-- A rank-1 index set is its one coordinate range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- Those dimension numbers; their conditions `wf` are decided on a program's literal shapes. -/
abbrev vecScatter (N E : Nat)
    (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

section
variable {N E w : Nat} (wf : ScatterDims.WF ⟨1, ![N]⟩ ⟨2, ![E, 1]⟩ ⟨1, ![E]⟩ [] [0] [0] 1)
  (idx : IVec ⟨2, ![E, 1]⟩ w) (e : Fin E)

/-- On operand axis 0 the window starts at the position of `e`, read signed. -/
theorem start_zero :
    (vecScatter N E wf).start (ix1 e) idx 0 = (idx (ix2 e (0 : Fin 1))).toInt := by
  unfold ScatterDims.start
  rw [dif_pos (show (0 : Fin 1) ∈ (vecScatter N E wf).scatterDimsToOperandDims from List.mem_singleton.mpr rfl)]
  have hsi : (vecScatter N E wf).siIdx (ix1 e)
      ⟨List.idxOf (0 : Fin 1) (vecScatter N E wf).scatterDimsToOperandDims,
        List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- Operand axis 0 is inserted: its window coordinate is 0. -/
theorem window_zero : (vecScatter N E wf).window (ix1 e) 0 = 0 := by
  unfold ScatterDims.window
  rw [dif_neg (show (0 : Fin 1) ∉ (vecScatter N E wf).sKept from by
    show (0 : Fin 1) ∉ (List.finRange 1).filter (· ∉ ([0] : List (Fin 1)))
    decide)]

/-- WHERE UPDATE ENTRY `e` LANDS: at position `idx[e, 0]` (read signed), when that position is in
    `[0, N)`; nowhere otherwise. -/
theorem resultIdx_vec :
    (vecScatter N E wf).resultIdx? (ix1 e) idx
      = if h : 0 ≤ (idx (ix2 e (0 : Fin 1))).toInt ∧ (idx (ix2 e (0 : Fin 1))).toInt < (N : Int) then
          some (ix1 (⟨(idx (ix2 e (0 : Fin 1))).toInt.toNat, by omega⟩ : Fin N))
        else none := by
  unfold ScatterDims.resultIdx?
  by_cases h : 0 ≤ (idx (ix2 e (0 : Fin 1))).toInt ∧ (idx (ix2 e (0 : Fin 1))).toInt < (N : Int)
  · have hall : ∀ a : Fin 1,
        0 ≤ (vecScatter N E wf).start (ix1 e) idx a + ((vecScatter N E wf).window (ix1 e) a : Int)
        ∧ (vecScatter N E wf).start (ix1 e) idx a + ((vecScatter N E wf).window (ix1 e) a : Int)
          < (((⟨1, ![N]⟩ : Shape).size a : Nat) : Int) := by
      intro a
      match a with
      | ⟨0, _⟩ =>
        show 0 ≤ (vecScatter N E wf).start (ix1 e) idx 0 + ((vecScatter N E wf).window (ix1 e) 0 : Int)
          ∧ (vecScatter N E wf).start (ix1 e) idx 0 + ((vecScatter N E wf).window (ix1 e) 0 : Int) < (N : Int)
        rw [start_zero, window_zero]
        omega
    rw [dif_pos hall, dif_pos h]
    congr 1
    funext a
    refine Fin.ext ?_
    match a with
    | ⟨0, _⟩ =>
      show ((vecScatter N E wf).start (ix1 e) idx 0 + ((vecScatter N E wf).window (ix1 e) 0 : Int)).toNat
        = (idx (ix2 e (0 : Fin 1))).toInt.toNat
      rw [start_zero, window_zero]
      simp
  · have hnot : ¬ ∀ a : Fin 1,
        0 ≤ (vecScatter N E wf).start (ix1 e) idx a + ((vecScatter N E wf).window (ix1 e) a : Int)
        ∧ (vecScatter N E wf).start (ix1 e) idx a + ((vecScatter N E wf).window (ix1 e) a : Int)
          < (((⟨1, ![N]⟩ : Shape).size a : Nat) : Int) := by
      intro hall
      have h0 : 0 ≤ (vecScatter N E wf).start (ix1 e) idx 0 + ((vecScatter N E wf).window (ix1 e) 0 : Int)
          ∧ (vecScatter N E wf).start (ix1 e) idx 0 + ((vecScatter N E wf).window (ix1 e) 0 : Int) < (N : Int) :=
        hall 0
      rw [start_zero, window_zero] at h0
      exact h ⟨by omega, by omega⟩
    rw [dif_neg hnot, dif_neg h]

/-- Update entry `e` lands at operand entry `i` exactly when the position of `e` is `i`. -/
theorem resultIdx_vec_eq_some_iff (i : Fin N) :
    (vecScatter N E wf).resultIdx? (ix1 e) idx = some (ix1 i)
      ↔ (idx (ix2 e (0 : Fin 1))).toInt = (i.val : Int) := by
  rw [resultIdx_vec]
  constructor
  · intro h
    by_cases hr : 0 ≤ (idx (ix2 e (0 : Fin 1))).toInt ∧ (idx (ix2 e (0 : Fin 1))).toInt < (N : Int)
    · rw [dif_pos hr] at h
      have h' := Option.some.inj h
      have h0 := congrFun h' 0
      have h0' : (idx (ix2 e (0 : Fin 1))).toInt.toNat = i.val := congrArg Fin.val h0
      omega
    · rw [dif_neg hr] at h
      exact absurd h (by simp)
  · intro hr
    have hi := i.isLt
    have hb : 0 ≤ (idx (ix2 e (0 : Fin 1))).toInt ∧ (idx (ix2 e (0 : Fin 1))).toInt < (N : Int) :=
      ⟨by omega, by omega⟩
    rw [dif_pos hb]
    have hx : (⟨(idx (ix2 e (0 : Fin 1))).toInt.toNat, by omega⟩ : Fin N) = i := Fin.ext (by
      show (idx (ix2 e (0 : Fin 1))).toInt.toNat = i.val
      omega)
    exact congrArg (fun t => some (ix1 t)) hx

end

/-- THE ACCUMULATING SCATTER READ AT `i`: the operand's entry plus the updates' entries `e` over the
    `e` whose position, read signed, is `i`. -/
theorem scatterAdd_vec_apply {N E w : Nat} {φ : FTy}
    (wf : ScatterDims.WF ⟨1, ![N]⟩ ⟨2, ![E, 1]⟩ ⟨1, ![E]⟩ [] [0] [0] 1)
    (x : (⟨1, ![N]⟩ : Shape).Idx → EReal) (idx : IVec ⟨2, ![E, 1]⟩ w)
    (upd : (⟨1, ![E]⟩ : Shape).Idx → EReal) (i : Fin N) :
    Host.scatterAdd (F := Ideal) (φ := φ) (vecScatter N E wf) x idx upd (ix1 i)
      = x (ix1 i) + ∑ e : Fin E, if (idx (ix2 e (0 : Fin 1))).toInt = (i.val : Int) then upd (ix1 e) else 0 := by
  show Ideal.hostScatterAdd (vecScatter N E wf) x idx upd (ix1 i) = _
  unfold Ideal.hostScatterAdd
  congr 1
  rw [Finset.sum_filter, sum_idx1]
  refine Finset.sum_congr rfl fun e _ => ?_
  by_cases hr : (idx (ix2 e (0 : Fin 1))).toInt = (i.val : Int)
  · rw [if_pos hr, if_pos ((resultIdx_vec_eq_some_iff wf idx e i).2 hr)]
  · rw [if_neg hr, if_neg (fun h => hr ((resultIdx_vec_eq_some_iff wf idx e i).1 h))]

end Cert.LibScatterVec

end
-- ==== Proof.RefGrid.lean ====
/-
  The reference program's first result, read at an index, in closed form.

  The reference gives every point `(b, n)` an integer cell number `fl b n` in a `32 × 32 × 32` grid, adds
  `b · 32768` to get a row of a table with `8 · 32768` rows, adds the point's 64 features into that row and
  one into that row's count, and divides each row's sums by the larger of its count and one.  The result at
  `(b, ch, x, y, z)` is therefore the sum of feature `ch` over the points of batch `b` whose cell is
  `(x · 32 + y) · 32 + z`, divided by the larger of the number of such points and one.
-/
import proofs.«136896_j63960652972185_2_alg».proof.Proof.Gen.ReferenceIdeal.Read
import proofs.«136896_j63960652972185_2_alg».proof.Proof.LibScatterRows
import proofs.«136896_j63960652972185_2_alg».proof.Proof.LibScatterVec
import proofs.«136896_j63960652972185_2_alg».proof.Proof.LibTileSum
import Idealize.ShloMosaic.Lib.ValueIdx
import Idealize.ShloMosaic.Lib.Pipeline.Value
import Idealize.ShloMosaic.PureOps.Ideal.Laws

noncomputable section

namespace Cert.RefGrid

open scoped BigOperators
open Cert.ReferenceIdeal Cert.ReferenceIdeal.Gen Cert.ReferenceIdeal.Read Idealize.ShloMosaic
  Idealize.ShloMosaic.TcCoe Idealize.SL.Sem Idealize.ShloMosaic.StableHlo Idealize.ShloMosaic.ValueIdx

/-- The features: batch, channel, point. -/
abbrev Feat : Type := (⟨S8x64x100000, .f32⟩ : BufTy).Contents (Elt Ideal)
/-- The coordinates: batch, axis, point. -/
abbrev Coord : Type := (⟨S8x3x100000, .f32⟩ : BufTy).Contents (Elt Ideal)

/-! ## The literals -/

/-- The f32 word `0x3F800000` is the extended real `1`. -/
theorem ofBits_one_f32 : Ideal.ofBits .f32 0x3F800000#32 = 1 := by
  simp [Ideal.ofBits, Ideal.ieee, -EReal.coe_mul]; norm_num

/-! ## The flattened point list -/

/-- The table row of entry `e` of the flattened point list, as a 32-bit word. -/
def rowword (x1 : Coord) (e : Fin 800000) : BitVec 32 := val_main_v38 (F := Ideal) x1 (ix1 e)

/-- Feature `ch` of entry `e` of the flattened point list. -/
def featrow (x0 : Feat) (e : Fin 800000) (ch : Fin 64) : EReal := val_main_v40 (F := Ideal) x0 (ix2 e ch)

/-- The column of row numbers the sums are scattered by is the flattened row words. -/
theorem v42_at (x1 : Coord) (e : Fin 800000) :
    val_main_v42 (F := Ideal) x1 (ix2 e (0 : Fin 1)) = rowword x1 e := by
  rw [val_main_v42_apply]
  exact congrArg (val_main_v38 (F := Ideal) x1) (funext fun a => match a with | ⟨0, _⟩ => rfl)

/-- The column of row numbers the counts are scattered by is the same. -/
theorem v46_at (x1 : Coord) (e : Fin 800000) :
    val_main_v46 (F := Ideal) x1 (ix2 e (0 : Fin 1)) = rowword x1 e := by
  rw [val_main_v46_apply]
  exact congrArg (val_main_v38 (F := Ideal) x1) (funext fun a => match a with | ⟨0, _⟩ => rfl)

/-! ## The two tables -/

/-- The sums: entry `(i, c)` is the sum of feature `c` over the entries whose row is `i`. -/
theorem sums_apply (x0 : Feat) (x1 : Coord) (i : Fin 262144) (c : Fin 64) :
    val_main_v43 (F := Ideal) x0 x1 (ix2 i c)
      = ∑ e : Fin 800000, if (rowword x1 e).toInt = (i.val : Int) then featrow x0 e c else 0 := by
  have h := Cert.LibScatterRows.scatterAdd_rows_apply (φ := .f32)
    scatter_S262144x64_S800000x1_S800000x64_1_0_0_1_wf
    (val_main_v41 (F := Ideal)) (val_main_v42 (F := Ideal) x1) (val_main_v40 (F := Ideal) x0) i c
  unfold val_main_v43
  refine h.trans ?_
  rw [val_main_v41_apply, val_main_cst_9_apply, Ideal.ofBits_def, Ideal.ofBits_zero_f32, zero_add]
  refine Finset.sum_congr rfl fun e _ => ?_
  rw [v42_at]
  rfl

/-- The counts: entry `i` is the number of entries whose row is `i`. -/
theorem cnts_apply (x1 : Coord) (i : Fin 262144) :
    val_main_v47 (F := Ideal) x1 (ix1 i)
      = ∑ e : Fin 800000, if (rowword x1 e).toInt = (i.val : Int) then (1 : EReal) else 0 := by
  have h := Cert.LibScatterVec.scatterAdd_vec_apply (φ := .f32)
    scatter_S262144_S800000x1_S800000_n_0_0_1_wf
    (val_main_v45 (F := Ideal)) (val_main_v46 (F := Ideal) x1) (val_main_v44 (F := Ideal)) i
  unfold val_main_v47
  refine h.trans ?_
  rw [val_main_v45_apply, val_main_cst_11_apply, Ideal.ofBits_def, Ideal.ofBits_zero_f32, zero_add]
  refine Finset.sum_congr rfl fun e _ => ?_
  rw [v46_at, val_main_v44_apply, val_main_cst_10_apply, Ideal.ofBits_def, ofBits_one_f32]

/-! ## The result's index, back through the transpose and the reshape -/

/-- Row `b · 32768 + (x · 32 + y) · 32 + z` of the two tables. -/
abbrev row (b : Fin 8) (x y z : Fin 32) : Fin 262144 :=
  ⟨b.val * 32768 + ((x.val * 32 + y.val) * 32 + z.val), by
    have := b.isLt; have := x.isLt; have := y.isLt; have := z.isLt; omega⟩

/-- The transpose reads `(b, ch, x, y, z)` at `(b, x, y, z, ch)`. -/
theorem idx54 (b : Fin 8) (ch : Fin 64) (x y z : Fin 32) :
    idx_main_v54 (ix5 b ch x y z) = ix5 b x y z ch := by
  funext a
  match a with
  | ⟨0, _⟩ => rfl
  | ⟨1, _⟩ => rfl
  | ⟨2, _⟩ => rfl
  | ⟨3, _⟩ => rfl
  | ⟨4, _⟩ => rfl

/-- The reshape reads `(b, x, y, z, ch)` at row `row b x y z`, column `ch`. -/
theorem idx53 (b : Fin 8) (ch : Fin 64) (x y z : Fin 32) :
    idx_main_v53 (ix5 b x y z ch) = ix2 (row b x y z) ch := by
  have := b.isLt; have := x.isLt; have := y.isLt; have := z.isLt; have := ch.isLt
  funext a
  refine Fin.ext ?_
  match a with
  | ⟨0, _⟩ =>
    show ((((b.val * 32 + x.val) * 32 + y.val) * 32 + z.val) * 64 + ch.val) / 64
      = b.val * 32768 + ((x.val * 32 + y.val) * 32 + z.val)
    omega
  | ⟨1, _⟩ =>
    show ((((b.val * 32 + x.val) * 32 + y.val) * 32 + z.val) * 64 + ch.val) % 64 = ch.val
    omega

/-- The divisor's two broadcasts read entry `(i, c)` at entry `i` of the counts. -/
theorem idx5051 (i : Fin 262144) (c : Fin 64) : idx_main_v50 (idx_main_v51 (ix2 i c)) = ix1 i := by
  funext a
  match a with
  | ⟨0, _⟩ => rfl

/-! ## (A) The result at an index -/

/-- The result at `(b, ch, x, y, z)`: the sum of feature `ch` over the entries whose row is
    `b · 32768 + (x · 32 + y) · 32 + z`, divided by the larger of their number and one. -/
theorem grid_apply (x0 : Feat) (x1 : Coord) (b : Fin 8) (ch : Fin 64) (x y z : Fin 32) :
    val_main_v54 (F := Ideal) x0 x1 (ix5 b ch x y z)
      = Ideal.div
          (∑ e : Fin 800000,
            if (rowword x1 e).toInt = ((b.val * 32768 + ((x.val * 32 + y.val) * 32 + z.val) : ℕ) : Int)
            then featrow x0 e ch else 0)
          (max (∑ e : Fin 800000,
            if (rowword x1 e).toInt = ((b.val * 32768 + ((x.val * 32 + y.val) * 32 + z.val) : ℕ) : Int)
            then (1 : EReal) else 0) 1) := by
  rw [val_main_v54_apply, idx54, val_main_v53_apply, idx53, val_main_v52_apply, Ideal.hostDivf_def,
    sums_apply, val_main_v51_apply, val_main_v50_apply, idx5051, val_main_v49_apply, Ideal.maximumf_def,
    cnts_apply, val_main_v48_apply, val_main_cst_12_apply, Ideal.ofBits_def, ofBits_one_f32]

/-! ## (B) The sum over entries as the double sum over batch and point -/

/-- Entry `b' · 100000 + n` of the flattened point list. -/
abbrev flat (b' : Fin 8) (n : Fin 100000) : Fin 800000 :=
  ⟨b'.val * 100000 + n.val, by have := b'.isLt; have := n.isLt; omega⟩

/-- A sum over the flattened list is the double sum over batch and point. -/
theorem sum_flat {M : Type*} [AddCommMonoid M] (f : Fin 800000 → M) :
    ∑ e : Fin 800000, f e = ∑ b' : Fin 8, ∑ n : Fin 100000, f (flat b' n) := by
  have h := LibTileSum.sum_tiles_fin (fun j => if hj : j < 800000 then f ⟨j, hj⟩ else 0) 8 100000
  have h1 : ∑ j : Fin (8 * 100000), (fun j => if hj : j < 800000 then f ⟨j, hj⟩ else 0) j.val
      = ∑ e : Fin 800000, f e :=
    Finset.sum_congr rfl fun e _ => dif_pos e.isLt
  rw [← h1, ← h]
  refine Finset.sum_congr rfl fun b' _ => Finset.sum_congr rfl fun n _ => ?_
  exact dif_pos (flat b' n).isLt

/-- The cell number of point `(b, n)`, as a 32-bit word. -/
def fl (x1 : Coord) (b : Fin 8) (n : Fin 100000) : BitVec 32 := val_main_v31 (F := Ideal) x1 (ix2 b n)

/-- The row word of entry `b' · 100000 + n` is the cell number of point `(b', n)` plus `b' · 32768`, in
    32-bit arithmetic. -/
theorem rowword_flat (x1 : Coord) (b' : Fin 8) (n : Fin 100000) :
    rowword x1 (flat b' n) = fl x1 b' n + BitVec.ofNat 32 b'.val * 32768#32 := by
  unfold rowword fl
  have hi : idx_main_v38 (ix1 (flat b' n)) = ix2 b' n := by
    have := b'.isLt; have := n.isLt
    funext a
    refine Fin.ext ?_
    match a with
    | ⟨0, _⟩ =>
      show (b'.val * 100000 + n.val) / 100000 = b'.val
      omega
    | ⟨1, _⟩ =>
      show (b'.val * 100000 + n.val) % 100000 = n.val
      omega
  rw [val_main_v38_apply, hi, val_main_v37_apply, val_main_v36_apply, val_main_v35_apply,
    val_main_v33_apply, val_main_v32_apply, val_main_v34_apply, val_main_c_8_apply]
  rfl

/-- Feature `ch` of entry `b' · 100000 + n` is feature `ch` of point `(b', n)`. -/
theorem featrow_flat (x0 : Feat) (b' : Fin 8) (n : Fin 100000) (ch : Fin 64) :
    featrow x0 (flat b' n) ch = x0 (ix3 b' ch n) := by
  unfold featrow
  have hi : idx_main_v39 (idx_main_v40 (ix2 (flat b' n) ch)) = ix3 b' ch n := by
    have := b'.isLt; have := n.isLt; have := ch.isLt
    funext a
    refine Fin.ext ?_
    match a with
    | ⟨0, _⟩ =>
      show ((b'.val * 100000 + n.val) * 64 + ch.val) / 6400000 = b'.val
      omega
    | ⟨1, _⟩ =>
      show ((b'.val * 100000 + n.val) * 64 + ch.val) % 64 = ch.val
      omega
    | ⟨2, _⟩ =>
      show ((b'.val * 100000 + n.val) * 64 + ch.val) / 64 % 100000 = n.val
      omega
  rw [val_main_v40_apply, val_main_v39_apply, hi]

/-- The result at `(b, ch, x, y, z)` with the entries named by batch and point. -/
theorem grid_apply_points (x0 : Feat) (x1 : Coord) (b : Fin 8) (ch : Fin 64) (x y z : Fin 32) :
    val_main_v54 (F := Ideal) x0 x1 (ix5 b ch x y z)
      = Ideal.div
          (∑ b' : Fin 8, ∑ n : Fin 100000,
            if (fl x1 b' n + BitVec.ofNat 32 b'.val * 32768#32).toInt
                = ((b.val * 32768 + ((x.val * 32 + y.val) * 32 + z.val) : ℕ) : Int)
            then x0 (ix3 b' ch n) else 0)
          (max (∑ b' : Fin 8, ∑ n : Fin 100000,
            if (fl x1 b' n + BitVec.ofNat 32 b'.val * 32768#32).toInt
                = ((b.val * 32768 + ((x.val * 32 + y.val) * 32 + z.val) : ℕ) : Int)
            then (1 : EReal) else 0) 1) := by
  rw [grid_apply, sum_flat, sum_flat]
  simp only [rowword_flat, featrow_flat]

/-! ## (C) Only the batch of the result contributes -/

/-- A cell number `w` in `[0, 32768)` plus `b' · 32768` does not wrap in 32-bit arithmetic, so it is
    `b · 32768 + c` with `c < 32768` exactly when `b' = b` and `w` is `c`. -/
theorem rowword_eq_iff (w : BitVec 32) (hw : 0 ≤ w.toInt ∧ w.toInt < 32768) (b' b : Fin 8) (c : ℕ)
    (hc : c < 32768) :
    (w + BitVec.ofNat 32 b'.val * 32768#32).toInt = ((b.val * 32768 + c : ℕ) : Int)
      ↔ b' = b ∧ w = BitVec.ofNat 32 c := by
  have hb' := b'.isLt
  have hb := b.isLt
  have hwlt := w.isLt
  have hcond := BitVec.toInt_eq_toNat_cond w
  have hwn : w.toNat < 32768 := by
    split_ifs at hcond <;> omega
  have hk : (32768#32 : BitVec 32).toNat = 32768 := rfl
  have hm : (BitVec.ofNat 32 b'.val * 32768#32).toNat = b'.val * 32768 := by
    rw [BitVec.toNat_mul, hk, BitVec.toNat_ofNat]
    omega
  have hs : (w + BitVec.ofNat 32 b'.val * 32768#32).toNat = w.toNat + b'.val * 32768 := by
    rw [BitVec.toNat_add, hm]
    omega
  have hsi : (w + BitVec.ofNat 32 b'.val * 32768#32).toInt = ((w.toNat + b'.val * 32768 : ℕ) : Int) := by
    rw [BitVec.toInt_eq_toNat_cond, hs, if_pos (by omega)]
  have hcn : (BitVec.ofNat 32 c).toNat = c := by
    rw [BitVec.toNat_ofNat]
    omega
  rw [hsi]
  constructor
  · intro h
    have h' : w.toNat + b'.val * 32768 = b.val * 32768 + c := by exact_mod_cast h
    exact ⟨Fin.ext (by omega), BitVec.eq_of_toNat_eq (by rw [hcn]; omega)⟩
  · rintro ⟨hbb, hwc⟩
    have hwc' : w.toNat = c := by rw [hwc, hcn]
    rw [hbb, hwc']
    congr 1
    omega

/-- With every cell number in `[0, 32768)`, the double sum over batch and point guarded by "the row is
    `b · 32768 + c`" is the sum over the points of batch `b` guarded by "the cell is `c`". -/
theorem sum_batch_cell (x1 : Coord)
    (hrange : ∀ b n, 0 ≤ (fl x1 b n).toInt ∧ (fl x1 b n).toInt < 32768)
    (b : Fin 8) (c : ℕ) (hc : c < 32768) (g : Fin 8 → Fin 100000 → EReal) :
    (∑ b' : Fin 8, ∑ n : Fin 100000,
        if (fl x1 b' n + BitVec.ofNat 32 b'.val * 32768#32).toInt = ((b.val * 32768 + c : ℕ) : Int)
        then g b' n else 0)
      = ∑ n : Fin 100000, if fl x1 b n = BitVec.ofNat 32 c then g b n else 0 := by
  rw [Finset.sum_eq_single b]
  · refine Finset.sum_congr rfl fun n _ => ?_
    by_cases h : fl x1 b n = BitVec.ofNat 32 c
    · rw [if_pos h, if_pos ((rowword_eq_iff _ (hrange b n) b b c hc).2 ⟨rfl, h⟩)]
    · rw [if_neg h, if_neg fun h' => h ((rowword_eq_iff _ (hrange b n) b b c hc).1 h').2]
  · intro b' _ hne
    exact Finset.sum_eq_zero fun n _ =>
      if_neg fun h' => hne ((rowword_eq_iff _ (hrange b' n) b' b c hc).1 h').1
  · intro h
    exact absurd (Finset.mem_univ b) h

/-- The result at `(b, ch, x, y, z)`, every cell number being in `[0, 32768)`: the sum of feature
    `ch` over the points of batch `b` in cell `(x · 32 + y) · 32 + z`, divided by the larger of their
    number and one. -/
theorem grid_apply_cell (x0 : Feat) (x1 : Coord)
    (hrange : ∀ b n, 0 ≤ (fl x1 b n).toInt ∧ (fl x1 b n).toInt < 32768)
    (b : Fin 8) (ch : Fin 64) (x y z : Fin 32) :
    val_main_v54 (F := Ideal) x0 x1 (ix5 b ch x y z)
      = Ideal.div
          (∑ n : Fin 100000,
            if fl x1 b n = BitVec.ofNat 32 ((x.val * 32 + y.val) * 32 + z.val) then x0 (ix3 b ch n) else 0)
          (max (∑ n : Fin 100000,
            if fl x1 b n = BitVec.ofNat 32 ((x.val * 32 + y.val) * 32 + z.val) then (1 : EReal) else 0) 1) := by
  have hc : (x.val * 32 + y.val) * 32 + z.val < 32768 := by
    have := x.isLt; have := y.isLt; have := z.isLt; omega
  rw [grid_apply_points]
  refine congrArg₂ Ideal.div ?_ (congrArg (max · 1) ?_)
  · exact sum_batch_cell x1 hrange b _ hc fun b' n => x0 (ix3 b' ch n)
  · exact sum_batch_cell x1 hrange b _ hc fun _ _ => 1

/-! ## (D) Every cell number is in `[0, 32768)`

Each of a point's three grid coordinates is the clipped coordinate `min 31 (max 0 t)` rounded to nearest,
ties to even, and converted to a signed 32-bit integer.  Whatever `t` is, the infinities included, the
clipped value is a real in `[0, 31]`; it rounds to an integer in `[0, 31]`, which the conversion keeps.
The cell number `(a · 32 + b) · 32 + c` of three such words is then at most `32767` and the 32-bit
arithmetic does not wrap. -/

/-- Rounding a real in `[0, 31]` to nearest, ties to even, gives an integer in `[0, 31]`. -/
theorem roundHalfEven_mem (r : ℝ) (h0 : 0 ≤ r) (h31 : r ≤ 31) :
    0 ≤ Ideal.roundHalfEven r ∧ Ideal.roundHalfEven r ≤ 31 := by
  have hf0 : 0 ≤ ⌊r⌋ := Int.floor_nonneg.mpr h0
  have hfr : (⌊r⌋ : ℝ) ≤ r := Int.floor_le r
  have hf31 : ⌊r⌋ ≤ 31 := by
    have h : (⌊r⌋ : ℝ) ≤ 31 := le_trans hfr h31
    exact_mod_cast h
  simp only [Ideal.roundHalfEven]
  split_ifs with h1 h2 h3
  · exact ⟨hf0, hf31⟩
  · have h : (⌊r⌋ : ℝ) < 31 := by linarith
    have h' : ⌊r⌋ < 31 := by exact_mod_cast h
    exact ⟨by omega, by omega⟩
  · exact ⟨hf0, hf31⟩
  · have h1' := not_lt.mp h1
    have h : (⌊r⌋ : ℝ) < 31 := by linarith
    have h' : ⌊r⌋ < 31 := by exact_mod_cast h
    exact ⟨by omega, by omega⟩

/-- Converting an integer in `[0, 31]`, as a real, to a signed 32-bit integer neither truncates nor clamps. -/
theorem toIntClamped_intCast (k : ℤ) (h0 : 0 ≤ k) (h31 : k ≤ 31) :
    Ideal.toIntClamped (-(2 ^ (32 - 1) : ℕ)) ((2 ^ (32 - 1) : ℕ) - 1) (((k : ℝ)) : EReal) = k := by
  show max (-((2 ^ (32 - 1) : ℕ) : ℤ)) (min (((2 ^ (32 - 1) : ℕ) : ℤ) - 1)
    (if (0 : ℝ) ≤ (k : ℝ) then ⌊(k : ℝ)⌋ else ⌈(k : ℝ)⌉)) = k
  rw [Int.floor_intCast, Int.ceil_intCast, ite_self]
  have h2 : ((2 ^ (32 - 1) : ℕ) : ℤ) = 2147483648 := by norm_num
  rw [h2]
  omega

/-- A clipped, rounded and converted coordinate is a word `k` with `k ≤ 31`, whatever the coordinate. -/
theorem voxel_word (t : EReal) :
    ∃ k : ℕ, k ≤ 31 ∧
      Ideal.fptosi 32 (Ideal.liftRound Ideal.roundHalfEven
        (min (((31 : ℤ) : ℝ) : EReal) (max (((0 : ℤ) : ℝ) : EReal) t))) = BitVec.ofNat 32 k := by
  have hlo : (((0 : ℤ) : ℝ) : EReal) ≤ min (((31 : ℤ) : ℝ) : EReal) (max (((0 : ℤ) : ℝ) : EReal) t) :=
    le_min (EReal.coe_le_coe_iff.mpr (by norm_num)) (le_max_left _ _)
  have hhi : min (((31 : ℤ) : ℝ) : EReal) (max (((0 : ℤ) : ℝ) : EReal) t) ≤ (((31 : ℤ) : ℝ) : EReal) :=
    min_le_left _ _
  generalize min (((31 : ℤ) : ℝ) : EReal) (max (((0 : ℤ) : ℝ) : EReal) t) = c at hlo hhi ⊢
  induction c with
  | bot => exact absurd hlo (by simp)
  | top => exact absurd hhi (by simp)
  | coe r =>
    have h0 : (0 : ℝ) ≤ r := by
      have h := EReal.coe_le_coe_iff.mp hlo
      simpa using h
    have h31 : r ≤ 31 := by
      have h := EReal.coe_le_coe_iff.mp hhi
      simpa using h
    obtain ⟨hk0, hk31⟩ := roundHalfEven_mem r h0 h31
    obtain ⟨m, hm⟩ := Int.eq_ofNat_of_zero_le hk0
    refine ⟨m, by omega, ?_⟩
    unfold Ideal.fptosi
    rw [Ideal.liftRound_coe, toIntClamped_intCast _ hk0 hk31, hm]
    exact BitVec.ofInt_natCast 32 m

/-- At the ideal values the conversion to a signed 32-bit integer is `Ideal.fptosi`. -/
theorem fptosi_ideal (x : Ideal .f32) : FloatOps.fptosi (F := Ideal) 32 x = Ideal.fptosi 32 x := rfl

/-- At the ideal values the conversion from a signed 32-bit integer is that integer, as a real. -/
theorem sitofp_ideal (w : BitVec 32) :
    FloatOps.sitofp (F := Ideal) .f32 w = (((w.toInt : ℤ) : ℝ) : EReal) := rfl

/-- Every entry of the converted coordinates is such a word. -/
theorem v19_word (x1 : Coord) (j : S8x3x100000.Idx) :
    ∃ k : ℕ, k ≤ 31 ∧ val_main_v19 (F := Ideal) x1 j = BitVec.ofNat 32 k := by
  have h31 : (31#32 : BitVec 32).toInt = 31 := by decide
  have h0 : (0#32 : BitVec 32).toInt = 0 := by decide
  rw [val_main_v19_apply, val_main_v18_apply, val_main_v17_apply, val_main_call1_v2_apply,
    val_main_call1_v4_apply, val_main_call1_v3_apply, val_main_c_5_apply, val_main_call1_v1_apply,
    val_main_call1_v0_apply, val_main_c_apply]
  rw [fptosi_ideal, Ideal.hostUnary_roundeven_def, Ideal.minimumf_def, Ideal.maximumf_def,
    sitofp_ideal, sitofp_ideal, h31, h0]
  exact voxel_word _

/-- Three words at most `31` combine, in 32-bit arithmetic, to a number in `[0, 32768)`. -/
theorem cell_word_range (a b c : BitVec 32) (ka kb kc : ℕ) (ha : ka ≤ 31) (hb : kb ≤ 31) (hc : kc ≤ 31)
    (ea : a = BitVec.ofNat 32 ka) (eb : b = BitVec.ofNat 32 kb) (ec : c = BitVec.ofNat 32 kc) :
    0 ≤ ((a * 32#32 + b) * 32#32 + c).toInt ∧ ((a * 32#32 + b) * 32#32 + c).toInt < 32768 := by
  subst ea eb ec
  have h32 : (32#32 : BitVec 32).toNat = 32 := rfl
  have hn : ((BitVec.ofNat 32 ka * 32#32 + BitVec.ofNat 32 kb) * 32#32 + BitVec.ofNat 32 kc).toNat
      = (ka * 32 + kb) * 32 + kc := by
    rw [BitVec.toNat_add, BitVec.toNat_mul, BitVec.toNat_add, BitVec.toNat_mul, h32,
      BitVec.toNat_ofNat, BitVec.toNat_ofNat, BitVec.toNat_ofNat]
    omega
  rw [BitVec.toInt_eq_toNat_cond, hn, if_pos (by omega)]
  omega

/-- The cell number of every point is in `[0, 32768)`, read as a signed 32-bit integer. -/
theorem flat_range (x1 : Coord) (b : Fin 8) (n : Fin 100000) :
    0 ≤ (val_main_v31 (F := Ideal) x1 (ix2 b n)).toInt
      ∧ (val_main_v31 (F := Ideal) x1 (ix2 b n)).toInt < 32768 := by
  obtain ⟨ka, ha, ea⟩ := v19_word x1 (idx_main_v20 (idx_main_v21 (ix2 b n)))
  obtain ⟨kb, hb, eb⟩ := v19_word x1 (idx_main_v24 (idx_main_v25 (ix2 b n)))
  obtain ⟨kc, hc, ec⟩ := v19_word x1 (idx_main_v29 (idx_main_v30 (ix2 b n)))
  have h : val_main_v31 (F := Ideal) x1 (ix2 b n)
      = (val_main_v19 (F := Ideal) x1 (idx_main_v20 (idx_main_v21 (ix2 b n))) * 32#32
          + val_main_v19 (F := Ideal) x1 (idx_main_v24 (idx_main_v25 (ix2 b n)))) * 32#32
        + val_main_v19 (F := Ideal) x1 (idx_main_v29 (idx_main_v30 (ix2 b n))) := by
    rw [val_main_v31_apply, val_main_v28_apply, val_main_v26_apply, val_main_v23_apply,
      val_main_v21_apply, val_main_v20_apply, val_main_v22_apply, val_main_c_6_apply,
      val_main_v25_apply, val_main_v24_apply, val_main_v27_apply, val_main_c_7_apply,
      val_main_v30_apply, val_main_v29_apply]
    rfl
  rw [h]
  exact cell_word_range _ _ _ ka kb kc ha hb hc ea eb ec

/-- The hypothesis of `grid_apply_cell` holds: the result at an index, with no hypothesis left. -/
theorem grid_apply_cell' (x0 : Feat) (x1 : Coord) (b : Fin 8) (ch : Fin 64) (x y z : Fin 32) :
    val_main_v54 (F := Ideal) x0 x1 (ix5 b ch x y z)
      = Ideal.div
          (∑ n : Fin 100000,
            if fl x1 b n = BitVec.ofNat 32 ((x.val * 32 + y.val) * 32 + z.val) then x0 (ix3 b ch n) else 0)
          (max (∑ n : Fin 100000,
            if fl x1 b n = BitVec.ofNat 32 ((x.val * 32 + y.val) * 32 + z.val) then (1 : EReal) else 0) 1) :=
  grid_apply_cell x0 x1 (fun b n => flat_range x1 b n) b ch x y z

end Cert.RefGrid

end
-- ==== Proof.LibPadSum.lean ====
/-
  Points reordered by a permutation and padded with a sentinel key: the masked sum over the padded list is the masked sum
  over the original points.  For N ≤ P, keys `key : Fin N → K`, values `x : Fin N → M`, a bijection `ord` of `Fin N`, a
  sentinel `s ≠ v` and any pad value `x₀`:
      ∑ j : Fin P, (if keyP j = v then xP j else 0) = ∑ n : Fin N, (if key n = v then x n else 0)
  where `keyP j = key (ord j)`, `xP j = x (ord j)` below N and `keyP j = s`, `xP j = x₀` from N on.
-/
import proofs.«136896_j63960652972185_2_alg».proof.Proof.LibTileSum

namespace LibPadSum

open Finset

variable {M : Type*} [AddCommMonoid M] {K : Type*} [DecidableEq K]

/-- The padded, reordered masked sum over `Fin P` is the plain masked sum over `Fin N`. -/
theorem sum_pad_perm {N P : ℕ} (hNP : N ≤ P) (v s : K) (hs : s ≠ v) (x₀ : M)
    (key : Fin N → K) (x : Fin N → M) (ord : Fin N → Fin N) (hord : Function.Bijective ord) :
    (∑ j : Fin P, if (if h : j.val < N then key (ord ⟨j.val, h⟩) else s) = v
        then (if h : j.val < N then x (ord ⟨j.val, h⟩) else x₀) else 0)
      = ∑ n : Fin N, if key n = v then x n else 0 := by
  have h := LibTileSum.sum_perm_pad (M := M) hNP v key x ord hord
    (fun j => if h : j < N then key (ord ⟨j, h⟩) else s) (fun j => if h : j < N then x (ord ⟨j, h⟩) else x₀)
    (fun j h => by simp only [dif_pos h, and_self]) (fun j hj _ => by simp only [dif_neg (Nat.not_lt.mpr hj)]; exact hs)
  rw [← h]
  exact Fin.sum_univ_eq_sum_range (fun j => if (if h : j < N then key (ord ⟨j, h⟩) else s) = v
    then (if h : j < N then x (ord ⟨j, h⟩) else x₀) else 0) P

end LibPadSum
-- ==== Proof.KFinal.lean ====
/-
  The voxel grid, index by index: what the second region leaves at batch b, channel ch, voxel v is the sum of the sorted,
  padded features over the padded positions whose key is v, over the larger of their number and one; the sorted keys and
  features are the points' voxel numbers and features read through the sorting permutation, the pad key is no voxel; so it
  is the sum over the batch's points of voxel v — which is what the reference's scatter-add leaves in row (b, v).
-/
import proofs.«136896_j63960652972185_2_alg».proof.Proof.KEnd
import proofs.«136896_j63960652972185_2_alg».proof.Proof.KVal0
import proofs.«136896_j63960652972185_2_alg».proof.Proof.KVal1c
import proofs.«136896_j63960652972185_2_alg».proof.Proof.KHost3
import proofs.«136896_j63960652972185_2_alg».proof.Proof.KHost5
import proofs.«136896_j63960652972185_2_alg».proof.Proof.RefGrid
import proofs.«136896_j63960652972185_2_alg».proof.Proof.LibPadSum

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem

variable (m : (ℓ : Loc nD τ sig) → Buf (Elt Ideal) ℓ)

/-- The coordinates and the features as launched. -/
abbrev coordsAt (c : Dev nD) : S8x3x100000.Idx → EReal := m ((c : Thread nD τ).loc main_arg1)
abbrev featAt (c : Dev nD) : S8x64x100000.Idx → EReal := m ((c : Thread nD τ).loc main_arg0)

/-! ## The normalised coordinates -/

/-- The second result is the reference's clipped, scaled coordinates. -/
theorem kernel_norm (c : Dev nD) :
    (W11 m c main_v0_0 : S8x3x100000.Idx → EReal)
      = Cert.ReferenceIdeal.Read.val_main_v17 (F := Ideal) (m ((c : Thread nD τ).loc main_arg1)) := by
  funext i
  obtain ⟨b, k, n, rfl⟩ : ∃ (b : Fin 8) (k : Fin 3) (n : Fin 100000), i = ix3 b k n := ⟨i 0, i 1, i 2, eq_ix3 i⟩
  rw [W11_main_v0_0]
  exact Cert.KernelIdeal.Val0.norm_arr (VA m) c b k n

/-! ## What the host stretches start from -/

/-- The voxel numbers the host sorts are the reference's. -/
theorem flat_eq (c : Dev nD) (b : Fin 8) (n : Fin 100000) :
    Cert.KernelIdeal.Host.flat (W1 m c) b n = Cert.RefGrid.fl (coordsAt m c) b n := by
  unfold Cert.KernelIdeal.Host.flat
  rw [W1_main_v0_1]
  exact Cert.KernelIdeal.Val0.flat_arr (VA m) c b n

/-- The features it gathers are the launch memory's. -/
theorem feat_eq (c : Dev nD) (b : Fin 8) (ch : Fin 64) (n : Fin 100000) :
    Cert.KernelIdeal.Host.feat (W1 m c) b ch n = featAt m c (ix3 b ch n) := by
  unfold Cert.KernelIdeal.Host.feat
  rw [W1_main_arg0]

/-- The tables the second region is pinned to are the two arrays the host has just computed. -/
theorem adm1_tbl : (adm1 m).1 = tbl m := rfl
theorem tbl_zero : (tbl m 0 : S8x98.Idx → BitVec 32) = (Cert.KernelIdeal.Host.H9 (W1 m c₀) main_v12 : S8x98.Idx → BitVec 32) := rfl
theorem tbl_one : (tbl m 1 : S8x98.Idx → BitVec 32) = (Cert.KernelIdeal.Host.H9 (W1 m c₀) main_v13 : S8x98.Idx → BitVec 32) := rfl

/-- A table word of pinned tables whose contents are known. -/
theorem cmin_of {a : (pcfg1 (F := Ideal)).Adm} {T : pre1.Contents (Elt Ideal)} (h : a.1 = T) (b : Fin 8) (k : Fin 98) :
    Cert.KernelIdeal.Val1.cmin a b k = (T 0 : S8x98.Idx → BitVec 32) (ix2 b k) := by
  subst h; rfl
theorem cmax_of {a : (pcfg1 (F := Ideal)).Adm} {T : pre1.Contents (Elt Ideal)} (h : a.1 = T) (b : Fin 8) (k : Fin 98) :
    Cert.KernelIdeal.Val1.cmax a b k = (T 1 : S8x98.Idx → BitVec 32) (ix2 b k) := by
  subst h; rfl

/-- The second region's tables bound the keys of each tile. -/
theorem tbl_bound (c : Dev nD) : Cert.KernelIdeal.Val1.TblBound (VB m) (adm1 m) c := by
  intro b k l
  have hc : c = c₀ := dev_eq c
  subst hc
  have h := Cert.KernelIdeal.Host.tables_bound (W1 m c₀) b k l
  have hk : Cert.KernelIdeal.Val1.keyP (VB m) c₀ b (Cert.KernelIdeal.Val1.tileIdx k l)
      = Cert.KernelIdeal.Host.H8 (W1 m c₀) main_v6 (ix2 b ⟨k.val * 1024 + l.val, by omega⟩) :=
    Cert.KernelIdeal.Host.v10_eq (W1 m c₀) b _
  rw [hk, cmin_of (adm1_tbl m), cmax_of (adm1_tbl m), tbl_zero, tbl_one]
  exact h

/-! ## The voxel grid -/

/-- The first result at (b, ch, x, y, z) is the second region's array at (b, ch, (x·32 + y)·32 + z). -/
theorem v15_at (c : Dev nD) (b : Fin 8) (ch : Fin 64) (x y z : Fin 32) :
    (W11 m c main_v15 : S8x64x32x32x32.Idx → EReal) (ix5 b ch x y z)
      = (W10 m c main_v14 : S8x64x32768.Idx → EReal) (ix3 b ch ⟨(x.val * 32 + y.val) * 32 + z.val, by omega⟩) := by
  rw [W11_main_v15]
  refine shapeCast_apply _ _ _ _ ?_
  show (S8x64x32768.rowMajor (ix3 b ch ⟨(x.val * 32 + y.val) * 32 + z.val, by omega⟩)).val = (S8x64x32x32x32.rowMajor (ix5 b ch x y z)).val
  rw [Shape.rowMajor_val_five, Shape.rowMajor_val_three]
  show (b.val * 64 + ch.val) * 32768 + ((x.val * 32 + y.val) * 32 + z.val)
    = (((b.val * 64 + ch.val) * 32 + x.val) * 32 + y.val) * 32 + z.val
  ring

/-- A masked sum over the sorted, padded positions is the masked sum over the batch's points: the sort is a permutation
    and the pad key is no voxel. -/
theorem padded_sum (c : Dev nD) (b : Fin 8) (v : ℕ) (hv : v < 32768) (g : Fin 100000 → EReal) (g₀ : EReal)
    (G : Fin 100352 → EReal)
    (hG : ∀ j : Fin 100352, G j = if h : j.val < 100000 then g (Cert.KernelIdeal.Host.ord (W1 m c) b ⟨j.val, h⟩) else g₀) :
    (∑ j : Fin 100352, if Cert.KernelIdeal.Val1.keyP (VB m) c b j = BitVec.ofNat 32 v then G j else 0)
      = ∑ n : Fin 100000, if Cert.RefGrid.fl (coordsAt m c) b n = BitVec.ofNat 32 v then g n else 0 := by
  have hs : (32768#32 : BitVec 32) ≠ BitVec.ofNat 32 v := by
    intro h
    have := congrArg BitVec.toNat h
    simp only [BitVec.toNat_ofNat] at this
    omega
  have h := LibPadSum.sum_pad_perm (M := EReal) (N := 100000) (P := 100352) (by norm_num) (BitVec.ofNat 32 v) (32768#32) hs g₀
    (fun n => Cert.KernelIdeal.Host.flat (W1 m c) b n) g (Cert.KernelIdeal.Host.ord (W1 m c) b) (Cert.KernelIdeal.Host.ord_bijective (W1 m c) b)
  rw [show (∑ n : Fin 100000, if Cert.RefGrid.fl (coordsAt m c) b n = BitVec.ofNat 32 v then g n else 0)
      = ∑ n : Fin 100000, if Cert.KernelIdeal.Host.flat (W1 m c) b n = BitVec.ofNat 32 v then g n else 0 from
    Finset.sum_congr rfl fun n _ => by rw [flat_eq]]
  rw [← h]
  refine Finset.sum_congr rfl fun j _ => ?_
  rw [hG j, show Cert.KernelIdeal.Val1.keyP (VB m) c b j = _ from Cert.KernelIdeal.Host.H9_v10 (W1 m c) b j]

/-- THE VOXEL GRID is the reference's. -/
theorem kernel_grid (c : Dev nD) :
    (W11 m c main_v15 : S8x64x32x32x32.Idx → EReal)
      = Cert.ReferenceIdeal.Read.val_main_v54 (F := Ideal) (m ((c : Thread nD τ).loc main_arg0)) (m ((c : Thread nD τ).loc main_arg1)) := by
  funext i
  obtain ⟨b, ch, x, y, z, rfl⟩ : ∃ (b : Fin 8) (ch : Fin 64) (x y z : Fin 32), i = ix5 b ch x y z :=
    ⟨i 0, i 1, i 2, i 3, i 4, eq_ix5 i⟩
  have hv : (x.val * 32 + y.val) * 32 + z.val < 32768 := by omega
  rw [v15_at, W10_main_v14,
    Cert.KernelIdeal.Val1.grid_arr (VB m) (adm1 m) c (tbl_bound m c) b ch ⟨(x.val * 32 + y.val) * 32 + z.val, hv⟩,
    Cert.RefGrid.grid_apply_cell']
  rw [padded_sum m c b _ hv (fun n => featAt m c (ix3 b ch n)) (featAt m c (ix3 b ch ⟨0, by decide⟩))
      (fun j => Cert.KernelIdeal.Val1.featP (VB m) c b ch j)
      (fun j => by
        rw [show Cert.KernelIdeal.Val1.featP (VB m) c b ch j = _ from Cert.KernelIdeal.Host.H9_v9 (W1 m c) b ch j]
        split <;> rw [feat_eq]),
    padded_sum m c b _ hv (fun _ => (1 : EReal)) 1 (fun _ => (1 : EReal)) (fun j => by split <;> rfl)]

end Cert.KernelIdeal.Hand

end
-- ==== Proof.lean ====
/-
  The certificate of the voxelisation kernel against its reference.

  The kernel normalises each batch's coordinates in a first region, sorts the points of each batch by voxel number on the
  host (a permutation), pads them to whole tiles with a voxel number no class has, and accumulates in a second region, tile
  by tile and class window by class window, the sum of the features and the count of the points of each voxel as products
  with a 0/1 mask — skipping a tile whose range of voxel numbers misses the class window —, dividing at the last tile.  The
  reference adds each point's features and a one into its voxel's row directly.  At the ideal values both give, per batch,
  channel and voxel, the sum of the features of the points of that voxel over the larger of their number and one: a sum does
  not depend on the order of its terms, a padded point has no class, and a skipped tile holds no point of the window.

  The three frames: both kernel programs run as one list of segments (two kernel regions among host stretches), every
  argument array ending as launched; the reference is host operations only.  The idealisation rewrote nothing.
-/
import proofs.«136896_j63960652972185_2_alg».proof.Defs
import proofs.«136896_j63960652972185_2_alg».proof.Proof.Gen.Kernel
import proofs.«136896_j63960652972185_2_alg».proof.Proof.Gen.KernelIdeal
import proofs.«136896_j63960652972185_2_alg».proof.Proof.Gen.ReferenceIdeal
import proofs.«136896_j63960652972185_2_alg».proof.Proof.Gen.Pre_finite_inputs
import proofs.«136896_j63960652972185_2_alg».proof.Proof.Gen.ReferenceIdeal.Run
import proofs.«136896_j63960652972185_2_alg».proof.Proof.Gen.ReferenceIdeal.Read
import proofs.«136896_j63960652972185_2_alg».proof.Proof.BEnd
import proofs.«136896_j63960652972185_2_alg».proof.Proof.KFinal

noncomputable section

namespace Cert.Proof

open Idealize.ShloMosaic Idealize.ShloMosaic.TcCoe Idealize.SL.Sem

/-- The word-level kernel program runs, and its arguments end unchanged. -/
theorem frame_p : Cert.frame_Kernel := fun m ρ _ => Cert.Kernel.Hand.frame m ρ

/-- So does its reading at the ideal values. -/
theorem frame_pi : Cert.frame_KernelIdeal := fun m ρ _ => Cert.KernelIdeal.Hand.frame m ρ

/-- The reference is host operations only: its run, the results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- The two programs end with equal results: the voxel grid and the normalised coordinates. -/
theorem algebraic : Cert.algebraic_KernelIdeal_ReferenceIdeal := by
  intro m ρ m' ρ' _ hagree
  refine ⟨fun c => Cert.KernelIdeal.Hand.W11 m c Cert.KernelIdeal.main_v15,
    fun c => Cert.KernelIdeal.Hand.W11 m c Cert.KernelIdeal.main_v0_0, ?_, ?_⟩
  · exact (θ_run Cert.KernelIdeal.defs _ _).mono (fun r h c =>
      ⟨h c _ (Cert.KernelIdeal.Hand.mem_uc Cert.KernelIdeal.main_v15 (by decide)),
       h c _ (Cert.KernelIdeal.Hand.mem_uc Cert.KernelIdeal.main_v0_0 (by decide)),
       (h c _ (Cert.KernelIdeal.Hand.mem_uc Cert.KernelIdeal.main_arg0 (by decide))).trans (Cert.KernelIdeal.Hand.W11_main_arg0 m c),
       (h c _ (Cert.KernelIdeal.Hand.mem_uc Cert.KernelIdeal.main_arg1 (by decide))).trans (Cert.KernelIdeal.Hand.W11_main_arg1 m c)⟩)
      (Cert.KernelIdeal.Hand.run_all m ρ)
  · refine (θ_run Cert.ReferenceIdeal.defs _ _).mono (fun r h c => ⟨(h c).1.trans ?_, (h c).2.1.trans ?_, (h c).2.2⟩)
      (Cert.ReferenceIdeal.Value.run (F := Ideal) m' ρ')
    · rw [Cert.ReferenceIdeal.Read.val_main_v54_eq, (hagree c).1, (hagree c).2]
      exact (Cert.KernelIdeal.Hand.kernel_grid m c).symm
    · rw [(hagree c).2]
      exact (Cert.ReferenceIdeal.Read.val_main_v17_eq (F := Ideal) _).trans (Cert.KernelIdeal.Hand.kernel_norm m c).symm

theorem claim : Cert.Claim := ⟨Cert.Kernel.Gen.facts, Cert.KernelIdeal.Gen.facts, Cert.ReferenceIdeal.Gen.facts, Cert.Pre_finite_inputs.Gen.facts,
  frame_p, frame_pi, frame_ri, trivial, algebraic⟩

end Cert.Proof

end
